-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  IdealRules.truncf_extf.Statement Cert.KernelIdeal.S1024x256 .f32 .bf16
  ∧ IdealRules.truncf_extf.Statement Cert.KernelIdeal.S1024x256 .f32 .bf16

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v21)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v21) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v61) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4096x256 : Shape := ⟨2, ![4096, 256]⟩
abbrev S_ : Shape := ⟨0, ![]⟩

class Facts : Prop where
  bcast_S_S4096x256 : S_.BroadcastsInDim S4096x256 (![] : Fin 0 → Fin S4096x256.rank)
  reducesTo_S4096x256_S_d0_1 : S4096x256.ReducesTo [0, 1] S_
  h_S_ : 0 < S_.numel

variable [Facts]

def fn {F : FTy → Type} [FloatOps F] (main_arg0 : FVec F S4096x256 .f32) (main_arg1 : FVec F S4096x256 .f32) : IVec S_ 1 :=
  let main_v0 : FVec F S4096x256 .f32 := Host.absf main_arg0
  let main_cst : FVec F S_ .f32 := constant S_ .f32 0x7F800000#32
  let main_v1 : FVec F S4096x256 .f32 := broadcastInDim S4096x256 ![] bcast_S_S4096x256 main_cst
  let main_v2 : IVec S4096x256 1 := cmpf .olt main_v0 main_v1
  let main_c : IVec S_ 1 := constantI S_ 1 1#1
  let main_v3 : IVec S_ 1 := (fun x v => Host.reduce IntOp.andi x v reducesTo_S4096x256_S_d0_1 h_S_) main_v2 main_c
  let main_v4 : FVec F S4096x256 .f32 := Host.absf main_arg1
  let main_cst_0 : FVec F S_ .f32 := constant S_ .f32 0x7F800000#32
  let main_v5 : FVec F S4096x256 .f32 := broadcastInDim S4096x256 ![] bcast_S_S4096x256 main_cst_0
  let main_v6 : IVec S4096x256 1 := cmpf .olt main_v4 main_v5
  let main_c_1 : IVec S_ 1 := constantI S_ 1 1#1
  let main_v7 : IVec S_ 1 := (fun x v => Host.reduce IntOp.andi x v reducesTo_S4096x256_S_d0_1 h_S_) main_v6 main_c_1
  let main_v8 : IVec S_ 1 := andi main_v3 main_v7
  main_v8
-- ==== Kernel.lean ====
abbrev S4096x256 : Shape := ⟨2, ![4096, 256]⟩
abbrev S36 : Shape := ⟨1, ![36]⟩
abbrev S_ : Shape := ⟨0, ![]⟩
abbrev S4096 : Shape := ⟨1, ![4096]⟩
abbrev S4096x1 : Shape := ⟨2, ![4096, 1]⟩
abbrev S8192 : Shape := ⟨1, ![8192]⟩
abbrev S8192x256 : Shape := ⟨2, ![8192, 256]⟩
abbrev S8x1024 : Shape := ⟨2, ![8, 1024]⟩
abbrev S1024x256 : Shape := ⟨2, ![1024, 256]⟩
abbrev S1 : Shape := ⟨1, ![1]⟩
abbrev S1024 : Shape := ⟨1, ![1024]⟩
abbrev S1024x1 : Shape := ⟨2, ![1024, 1]⟩
abbrev S1024x1024 : Shape := ⟨2, ![1024, 1024]⟩
abbrev S1x1024 : Shape := ⟨2, ![1, 1024]⟩

abbrev nBuf : Space → Nat
  | .hbm => 38
  | .vmem => 6
  | .smem => 2
  | _ => 0

abbrev bufTy : (tb : Table) → Fin (tcTables nBuf tb) → BufTy
  | .hbm, ⟨0, _⟩ => ⟨S4096x256, .f32⟩
  | .hbm, ⟨1, _⟩ => ⟨S4096x256, .f32⟩
  | .hbm, ⟨2, _⟩ => ⟨S4096x256, .f32⟩
  | .hbm, ⟨3, _⟩ => ⟨S_, .f32⟩
  | .hbm, ⟨4, _⟩ => ⟨S4096, .f32⟩
  | .hbm, ⟨5, _⟩ => ⟨S4096x1, .f32⟩
  | .hbm, ⟨6, _⟩ => ⟨S4096x1, .f32⟩
  | .hbm, ⟨7, _⟩ => ⟨S_, .f32⟩
  | .hbm, ⟨8, _⟩ => ⟨S4096x1, .f32⟩
  | .hbm, ⟨9, _⟩ => ⟨S4096x1, .f32⟩
  | .hbm, ⟨10, _⟩ => ⟨S4096x256, .f32⟩
  | .hbm, ⟨11, _⟩ => ⟨S_, .f32⟩
  | .hbm, ⟨12, _⟩ => ⟨S4096, .f32⟩
  | .hbm, ⟨13, _⟩ => ⟨S4096x1, .f32⟩
  | .hbm, ⟨14, _⟩ => ⟨S4096x1, .f32⟩
  | .hbm, ⟨15, _⟩ => ⟨S_, .f32⟩
  | .hbm, ⟨16, _⟩ => ⟨S4096x1, .f32⟩
  | .hbm, ⟨17, _⟩ => ⟨S4096x1, .f32⟩
  | .hbm, ⟨18, _⟩ => ⟨S4096x256, .f32⟩
  | .hbm, ⟨19, _⟩ => ⟨S4096x256, .f32⟩
  | .hbm, ⟨20, _⟩ => ⟨S4096x256, .f32⟩
  | .hbm, ⟨21, _⟩ => ⟨S4096x256, .f32⟩
  | .hbm, ⟨22, _⟩ => ⟨S4096x256, .f32⟩
  | .hbm, ⟨23, _⟩ => ⟨S_, .f32⟩
  | .hbm, ⟨24, _⟩ => ⟨S4096, .f32⟩
  | .hbm, ⟨25, _⟩ => ⟨S8192, .f32⟩
  | .hbm, ⟨26, _⟩ => ⟨S8192x256, .f32⟩
  | .hbm, ⟨27, _⟩ => ⟨S8x1024, .f32⟩
  | .hbm, ⟨28, _⟩ => ⟨S8192, .f32⟩
  | .hbm, ⟨29, _⟩ => ⟨S_, .f32⟩
  | .hbm, ⟨30, _⟩ => ⟨S8192, .f32⟩
  | .hbm, ⟨31, _⟩ => ⟨S8192, .f32⟩
  | .hbm, ⟨32, _⟩ => ⟨S8192, .f32⟩
  | .hbm, ⟨33, _⟩ => ⟨S8192, .f32⟩
  | .hbm, ⟨34, _⟩ => ⟨S_, .f32⟩
  | .hbm, ⟨35, _⟩ => ⟨S_, .f32⟩
  | .hbm, ⟨36, _⟩ => ⟨S_, .f32⟩
  | .hbm, ⟨37, _⟩ => ⟨S_, .f32⟩
  | .local _ .vmem, ⟨0, _⟩ => ⟨S1024x256, .f32⟩
  | .local _ .vmem, ⟨1, _⟩ => ⟨S1024x256, .f32⟩
  | .local _ .vmem, ⟨2, _⟩ => ⟨S1024x256, .f32⟩
  | .local _ .vmem, ⟨3, _⟩ => ⟨S1024x256, .f32⟩
  | .local _ .vmem, ⟨4, _⟩ => ⟨S8x1024, .f32⟩
  | .local _ .vmem, ⟨5, _⟩ => ⟨S8x1024, .f32⟩
  | .local _ .smem, ⟨0, _⟩ => ⟨S36, .i32⟩
  | .local _ .smem, ⟨1, _⟩ => ⟨S36, .i32⟩
  | _, _ => ⟨S4096x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_call0_v0 : Ref sig .tc := ⟨.hbm, 2, rfl⟩
abbrev main_call0_cst : Ref sig .tc := ⟨.hbm, 3, rfl⟩
abbrev main_call0_v1 : Ref sig .tc := ⟨.hbm, 4, rfl⟩
abbrev main_call0_v2 : Ref sig .tc := ⟨.hbm, 5, rfl⟩
abbrev main_v0 : Ref sig .tc := ⟨.hbm, 6, rfl⟩
abbrev main_cst : Ref sig .tc := ⟨.hbm, 7, rfl⟩
abbrev main_v1 : Ref sig .tc := ⟨.hbm, 8, rfl⟩
abbrev main_v2 : Ref sig .tc := ⟨.hbm, 9, rfl⟩
abbrev main_call1_v0 : Ref sig .tc := ⟨.hbm, 10, rfl⟩
abbrev main_call1_cst : Ref sig .tc := ⟨.hbm, 11, rfl⟩
abbrev main_call1_v1 : Ref sig .tc := ⟨.hbm, 12, rfl⟩
abbrev main_call1_v2 : Ref sig .tc := ⟨.hbm, 13, rfl⟩
abbrev main_v3 : Ref sig .tc := ⟨.hbm, 14, rfl⟩
abbrev main_cst_1 : Ref sig .tc := ⟨.hbm, 15, rfl⟩
abbrev main_v4 : Ref sig .tc := ⟨.hbm, 16, rfl⟩
abbrev main_v5 : Ref sig .tc := ⟨.hbm, 17, rfl⟩
abbrev main_v6 : Ref sig .tc := ⟨.hbm, 18, rfl⟩
abbrev main_v7 : Ref sig .tc := ⟨.hbm, 19, rfl⟩
abbrev main_v8 : Ref sig .tc := ⟨.hbm, 20, rfl⟩
abbrev main_v9 : Ref sig .tc := ⟨.hbm, 21, rfl⟩
abbrev main_v10 : Ref sig .tc := ⟨.hbm, 22, rfl⟩
abbrev main_cst_2 : Ref sig .tc := ⟨.hbm, 23, rfl⟩
abbrev main_v11 : Ref sig .tc := ⟨.hbm, 24, rfl⟩
abbrev main_v12 : Ref sig .tc := ⟨.hbm, 25, rfl⟩
abbrev main_v13 : Ref sig .tc := ⟨.hbm, 26, rfl⟩
abbrev main_v14 : Ref sig .tc := ⟨.hbm, 27, rfl⟩
abbrev main_v15 : Ref sig .tc := ⟨.hbm, 28, rfl⟩
abbrev main_cst_3 : Ref sig .tc := ⟨.hbm, 29, rfl⟩
abbrev main_v16 : Ref sig .tc := ⟨.hbm, 30, rfl⟩
abbrev main_v17 : Ref sig .tc := ⟨.hbm, 31, rfl⟩
abbrev main_v18 : Ref sig .tc := ⟨.hbm, 32, rfl⟩
abbrev main_v19 : Ref sig .tc := ⟨.hbm, 33, rfl⟩
abbrev main_cst_4 : Ref sig .tc := ⟨.hbm, 34, rfl⟩
abbrev main_v20 : Ref sig .tc := ⟨.hbm, 35, rfl⟩
abbrev main_cst_5 : Ref sig .tc := ⟨.hbm, 36, rfl⟩
abbrev main_v21 : Ref sig .tc := ⟨.hbm, 37, rfl⟩
abbrev main_c : Ref sig .tc := ⟨.smem, 0, rfl⟩
abbrev main_c_0 : Ref sig .tc := ⟨.smem, 1, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_scratch0 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4

abbrev nD : Nat := 1
abbrev τ : Topo := Topo.v7x

variable {F : FTy → Type} [FloatOps F]

abbrev grid0 : Pipeline.Grid := ⟨1, ![36], ![false]⟩

abbrev pre0 : Pipeline.Prefetch sig := ⟨2, ![main_c.idx, main_c_0.idx], fun | 0 => main_c.names | 1 => main_c_0.names | ⟨_ + 2, h⟩ => absurd h (Nat.not_lt.2 (Nat.le_add_left _ _)), fun | 0 => rfl | 1 => rfl | ⟨_ + 2, h⟩ => absurd h (Nat.not_lt.2 (Nat.le_add_left _ _))⟩

def k0_off1 (i : grid0.Coords) : Fin 1 → Nat :=
  let arg0 : BitVec 32 := BitVec.ofNat 32 (i 0).val
  let v0 : Index := Scalar.indexCast arg0
  ![v0.toNat]
def k0_off2 (v1 : BitVec 32) : Fin 2 → Nat :=
  let v56 : Index := Scalar.indexCast v1
  let c0_15 : Index := 0#32
  ![v56.toNat, 0]

def k0_chk1 (v1 : BitVec 32) : Prop :=
  (∀ a, (k0_off2 v1) a + S1x1024.size a ≤ S8x1024.size a)
instance k0_chk1.dec : ∀ (v1 : BitVec 32), Decidable (k0_chk1 v1) := fun v1 => decidable_of_iff' _ (Iff.of_eq (k0_chk1.eq_1 v1))
theorem k0_off2_inb : ∀ (v1 : BitVec 32) (k0_hw1 : k0_chk1 v1), ∀ a, (k0_off2 v1) a + S1x1024.size a ≤ S8x1024.size a := fun v1 k0_hw1 => k0_hw1

def k0_off3 (v3 : BitVec 32) : Fin 2 → Nat :=
  let v70 : Index := Scalar.indexCast v3
  let c0_19 : Index := 0#32
  ![v70.toNat, 0]
def k0_cond2 (v1 : BitVec 32) (v3 : BitVec 32) : BitVec 1 :=
  let v64 : BitVec 1 := Scalar.cmpi .ne v1 v3
  let v65 : BitVec 32 := Scalar.extui v64
  let c0_i32_17 : BitVec 32 := 0#32
  let v66 : BitVec 1 := Scalar.cmpi .ne v65 c0_i32_17
  v66

def k0_chk2 (v1 : BitVec 32) (v3 : BitVec 32) : Prop :=
  (∀ (k0_h2 : k0_cond2 v1 v3 = 1#1), ∀ a, (k0_off3 v3) a + S1x1024.size a ≤ S8x1024.size a)
instance k0_chk2.dec : ∀ (v1 : BitVec 32) (v3 : BitVec 32), Decidable (k0_chk2 v1 v3) := fun v1 v3 => decidable_of_iff' _ (Iff.of_eq (k0_chk2.eq_1 v1 v3))
theorem k0_off3_inb : ∀ (v1 : BitVec 32) (v3 : BitVec 32) (k0_hw2 : k0_chk2 v1 v3), ∀ (k0_h2 : k0_cond2 v1 v3 = 1#1), ∀ a, (k0_off3 v3) a + S1x1024.size a ≤ S8x1024.size a := fun v1 v3 k0_hw2 k0_h2 => k0_hw2 k0_h2

def k0_cond3 (i : grid0.Coords) : BitVec 1 :=
  let arg0 : BitVec 32 := BitVec.ofNat 32 (i 0).val
  let c35_i32 : BitVec 32 := 35#32
  let v67 : BitVec 1 := Scalar.cmpi .eq arg0 c35_i32
  let v68 : BitVec 32 := Scalar.extui v67
  let c0_i32_18 : BitVec 32 := 0#32
  let v69 : BitVec 1 := Scalar.cmpi .ne v68 c0_i32_18
  v69

def cc0_transform_0 (k0_off1_inb : ∀ i : grid0.Coords, ∀ a, (k0_off1 i) a + S1.size a ≤ S36.size a) (numel1_S1 : S1.numel = 1) (pf : pre0.Contents (Elt F)) (i : grid0.Coords) : Fin 2 → Nat :=
  let arg0 : BitVec 32 := BitVec.ofNat 32 (i 0).val
  let v0 : Index := Scalar.indexCast arg0
  let v1 : BitVec 32 := pf.at 0 (Rect.unit (s := S36) ![v0.toNat] S1.size (k0_off1_inb i)) numel1_S1
  let c0_i32 : BitVec 32 := 0#32
  let c0_i32_0 : BitVec 32 := 0#32
  ![v1.toNat, c0_i32.toNat]

def cc0_transform_1 (k0_off1_inb : ∀ i : grid0.Coords, ∀ a, (k0_off1 i) a + S1.size a ≤ S36.size a) (numel1_S1 : S1.numel = 1) (pf : pre0.Contents (Elt F)) (i : grid0.Coords) : Fin 2 → Nat :=
  let arg0 : BitVec 32 := BitVec.ofNat 32 (i 0).val
  let v0 : Index := Scalar.indexCast arg0
  let v1 : BitVec 32 := pf.at 1 (Rect.unit (s := S36) ![v0.toNat] S1.size (k0_off1_inb i)) numel1_S1
  let c0_i32 : BitVec 32 := 0#32
  let c0_i32_0 : BitVec 32 := 0#32
  ![v1.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S1024x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1024x256 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S8x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

class Facts₀ : Prop where
  reducesTo_S4096x256_S4096_d1 : S4096x256.ReducesTo [1] S4096
  h_S_ : 0 < S_.numel
  bcast_S4096_S4096x1_0 : S4096.BroadcastsInDim S4096x1 (![0] : Fin 1 → Fin S4096x1.rank)
  bcast_S_S4096x1 : S_.BroadcastsInDim S4096x1 (![] : Fin 0 → Fin S4096x1.rank)
  bcast_S4096x1_S4096x256_0_1 : S4096x1.BroadcastsInDim S4096x256 (![0, 1] : Fin 2 → Fin S4096x256.rank)
  concatenates_S4096_S4096_S8192_d0 : Shape.Concatenates [S4096, S4096] S8192 0
  concatenates_S4096x256_S4096x256_S8192x256_d0 : Shape.Concatenates [S4096x256, S4096x256] S8192x256 0
  numel1_S1 : S1.numel = 1
  inb_S8x1024_S8x1024_0_0 : ∀ a, (![0, 0] : Fin 2 → Nat) a + S8x1024.size a ≤ S8x1024.size a
  h_S8x1024 : 0 < S8x1024.numel
  shapeCasts_S8x1024_S8x1024 : S8x1024.ShapeCasts S8x1024
  inb_S1024x256_S1024x256_0_0 : ∀ a, (![0, 0] : Fin 2 → Nat) a + S1024x256.size a ≤ S1024x256.size a
  h_S1024x256 : 0 < S1024x256.numel
  shapeCasts_S1024x256_S1024x256 : S1024x256.ShapeCasts S1024x256
  reduces_S1024x256_S1024 : S1024x256.Reduces [1] S1024
  shapeCasts_S1024_S1024x1 : S1024.ShapeCasts S1024x1
  broadcasts_S1024x1_S1024x256 : S1024x1.Broadcasts S1024x256
  bitsLt_bf16_f32 : FTy.bits .bf16 < FTy.bits .f32
  iota_S1024x1024_d0_w32 : S1024x1024.Iotas .tc 32 [0]
  iota_S1024x1024_d1_w32 : S1024x1024.Iotas .tc 32 [1]
  reduces_S1024x1024_S1024 : S1024x1024.Reduces [1] S1024
  reduces_S1024x1024_S1024_2 : S1024x1024.Reduces [0] S1024
  h_S1x1024 : 0 < S1x1024.numel
  shapeCasts_S1x1024_S1024 : S1x1024.ShapeCasts S1024
  shapeCasts_S1024_S1x1024 : S1024.ShapeCasts S1x1024
  shapeCasts_S8x1024_S8192 : S8x1024.ShapeCasts S8192
  bcast_S_S8192 : S_.BroadcastsInDim S8192 (![] : Fin 0 → Fin S8192.rank)
  reducesTo_S8192_S_d0 : S8192.ReducesTo [0] S_
  dot_S1024x256_S1024x256_S1024x1024_1_1_0_0_n_n_wf : DotDims.WF S1024x256 S1024x256 S1024x1024 [1] [1] [0] [0] [] []
  hrank0 : 0 < grid0.rank
  k0_off1_inb : ∀ i : grid0.Coords, ∀ a, (k0_off1 i) a + S1.size a ≤ S36.size a
  hstage0_0 : ∀ j, (stage0_0 j).IsWhole
  nbuf0_0 : grid0.bufCount reads0_0 false = 2
  hreads0_0 : ∀ {F : FTy → Type} [FloatOps F] (pf : pre0.Contents (Elt F)) (i i' : grid0.Coords), (∀ a, reads0_0 a = true → i a = i' a) → cc0_transform_0 k0_off1_inb numel1_S1 pf i = cc0_transform_0 k0_off1_inb numel1_S1 pf i'
  hstage0_1 : ∀ j, (stage0_1 j).IsWhole
  nbuf0_1 : grid0.bufCount reads0_1 false = 2
  hreads0_1 : ∀ {F : FTy → Type} [FloatOps F] (pf : pre0.Contents (Elt F)) (i i' : grid0.Coords), (∀ a, reads0_1 a = true → i a = i' a) → cc0_transform_1 k0_off1_inb numel1_S1 pf i = cc0_transform_1 k0_off1_inb numel1_S1 pf i'
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S8x1024.size a ≤ S8x1024.size a
  hwx0_2 : ∀ i : grid0.Coords, EltTy.bits .f32 = 32 ∨ (Rect.block (s := S8x1024) S8x1024.size (cc0_transform_2 i) (hinb0_2 i)).WholeWords (EltTy.packing .f32)

variable [Facts₀]

def dot_S1024x256_S1024x256_S1024x1024_1_1_0_0_n_n : DotDims S1024x256 S1024x256 S1024x1024 where
  lhsContracting := [1]
  rhsContracting := [1]
  lhsNonContracting := [0]
  rhsNonContracting := [0]
  lhsBatch := []
  rhsBatch := []
  wf := dot_S1024x256_S1024x256_S1024x1024_1_1_0_0_n_n_wf

abbrev spec0_0 : Pipeline.WinSpec sig grid0.rank :=
  Pipeline.WinSpec.ofSpec (Memref.whole main_v13) S1024x256.size reads0_0 false false 2 stage0_0 sem0_0 nbuf0_0 hstage0_0

abbrev spec0_1 : Pipeline.WinSpec sig grid0.rank :=
  Pipeline.WinSpec.ofSpec (Memref.whole main_v13) S1024x256.size reads0_1 false false 2 stage0_1 sem0_1 nbuf0_1 hstage0_1

abbrev spec0_2 : Pipeline.WinSpec sig grid0.rank :=
  Pipeline.WinSpec.ofSpec (Memref.whole main_v14) S8x1024.size reads0_2 true true 1 stage0_2 sem0_2 nbuf0_2 hstage0_2

abbrev spec0 : Fin 3 → Pipeline.WinSpec sig grid0.rank := fun | 0 => spec0_0 | 1 => spec0_1 | 2 => spec0_2 | ⟨_ + 3, h⟩ => absurd h (Nat.not_lt.2 (Nat.le_add_left _ _))
theorem hcount0 : ∀ w, grid0.bufCount (spec0 w).reads (spec0 w).sync = (spec0 w).nbuf := fun | 0 => nbuf0_0 | 1 => nbuf0_1 | 2 => nbuf0_2 | ⟨_ + 3, h⟩ => absurd h (Nat.not_lt.2 (Nat.le_add_left _ _))
abbrev ix0 (pf : pre0.Contents (Elt F)) : (w : Fin 3) → grid0.Coords → Fin (spec0 w).shape.rank → Nat := fun | 0 => cc0_transform_0 k0_off1_inb numel1_S1 pf | 1 => cc0_transform_1 k0_off1_inb numel1_S1 pf | 2 => cc0_transform_2 | ⟨_ + 3, h⟩ => absurd h (Nat.not_lt.2 (Nat.le_add_left _ _))
theorem hreads0 : ∀ (pf : pre0.Contents (Elt F)) w (i i' : grid0.Coords), (∀ a, (spec0 w).reads a = true → i a = i' a) → ix0 pf w i = ix0 pf w i' := fun pf => fun | 0 => hreads0_0 pf | 1 => hreads0_1 pf | 2 => hreads0_2 | ⟨_ + 3, h⟩ => absurd h (Nat.not_lt.2 (Nat.le_add_left _ _))
def ok0 (pf : pre0.Contents (Elt F)) : Prop :=
  (∀ i : grid0.Coords, ∃ h : (∀ a, (cc0_transform_0 k0_off1_inb numel1_S1 pf i a + 1) * S1024x256.size a ≤ S8192x256.size a), EltTy.bits .f32 = 32 ∨ (Rect.block (s := S8192x256) S1024x256.size (cc0_transform_0 k0_off1_inb numel1_S1 pf i) h).WholeWords (EltTy.packing .f32)) ∧
  (∀ i : grid0.Coords, ∃ h : (∀ a, (cc0_transform_1 k0_off1_inb numel1_S1 pf i a + 1) * S1024x256.size a ≤ S8192x256.size a), EltTy.bits .f32 = 32 ∨ (Rect.block (s := S8192x256) S1024x256.size (cc0_transform_1 k0_off1_inb numel1_S1 pf i) h).WholeWords (EltTy.packing .f32))
instance (pf : pre0.Contents (Elt F)) : Decidable (ok0 pf) := decidable_of_iff' _ (Iff.of_eq (ok0.eq_1 pf))
theorem hinb0 : ∀ (pf : pre0.Contents (Elt F)), ok0 pf → ∀ w (i : grid0.Coords) a, (ix0 pf w i a + 1) * (spec0 w).size a ≤ (spec0 w).shape.size a :=
  fun pf hok => fun | 0 => fun i a => (hok.1 i).elim fun h _ => h a | 1 => fun i a => (hok.2 i).elim fun h _ => h a | 2 => hinb0_2 | ⟨_ + 3, h⟩ => absurd h (Nat.not_lt.2 (Nat.le_add_left _ _))
theorem hwx0 : ∀ (pf : pre0.Contents (Elt F)) (hok : ok0 pf) w (i : grid0.Coords), (spec0 w).elt.bits = 32 ∨ (Rect.block (spec0 w).size (ix0 pf w i) (hinb0 pf hok w i)).WholeWords (spec0 w).elt.packing :=
  fun pf hok => fun | 0 => fun i => (hok.1 i).elim fun _ h => h | 1 => fun i => (hok.2 i).elim fun _ h => h | 2 => hwx0_2 | ⟨_ + 3, h⟩ => absurd h (Nat.not_lt.2 (Nat.le_add_left _ _))
abbrev idle0 : Fin 3 → grid0.Coords → Bool := fun | 0 => fun _ => false | 1 => fun _ => false | 2 => fun i => !(k0_cond3 i == 1#1) | ⟨_ + 3, h⟩ => absurd h (Nat.not_lt.2 (Nat.le_add_left _ _))

class Facts : Prop extends Facts₀ where
  harr0 : ∀ w, (spec0 w).arr.IsWhole

variable [Facts]
-- ==== ReferenceIdeal.lean ====
abbrev S4096x256 : Shape := ⟨2, ![4096, 256]⟩
abbrev S8192x256 : Shape := ⟨2, ![8192, 256]⟩
abbrev S_ : Shape := ⟨0, ![]⟩
abbrev S8192 : Shape := ⟨1, ![8192]⟩
abbrev S8192x1 : Shape := ⟨2, ![8192, 1]⟩
abbrev S256x8192 : Shape := ⟨2, ![256, 8192]⟩
abbrev S8192x8192 : Shape := ⟨2, ![8192, 8192]⟩
abbrev S4096 : Shape := ⟨1, ![4096]⟩
abbrev S4096x1 : Shape := ⟨2, ![4096, 1]⟩
abbrev S4096x2 : Shape := ⟨2, ![4096, 2]⟩

abbrev nBuf : Space → Nat
  | .hbm => 86
  | .vmem => 0
  | .smem => 0
  | _ => 0

abbrev bufTy : (tb : Table) → Fin (tcTables nBuf tb) → BufTy
  | .hbm, ⟨0, _⟩ => ⟨S4096x256, .f32⟩
  | .hbm, ⟨1, _⟩ => ⟨S4096x256, .f32⟩
  | .hbm, ⟨2, _⟩ => ⟨S8192x256, .f32⟩
  | .hbm, ⟨3, _⟩ => ⟨S8192x256, .f32⟩
  | .hbm, ⟨4, _⟩ => ⟨S_, .f32⟩
  | .hbm, ⟨5, _⟩ => ⟨S8192, .f32⟩
  | .hbm, ⟨6, _⟩ => ⟨S8192x1, .f32⟩
  | .hbm, ⟨7, _⟩ => ⟨S8192x1, .f32⟩
  | .hbm, ⟨8, _⟩ => ⟨S_, .f32⟩
  | .hbm, ⟨9, _⟩ => ⟨S8192x1, .f32⟩
  | .hbm, ⟨10, _⟩ => ⟨S8192x1, .f32⟩
  | .hbm, ⟨11, _⟩ => ⟨S8192x256, .f32⟩
  | .hbm, ⟨12, _⟩ => ⟨S8192x256, .f32⟩
  | .hbm, ⟨13, _⟩ => ⟨S256x8192, .f32⟩
  | .hbm, ⟨14, _⟩ => ⟨S8192x8192, .f32⟩
  | .hbm, ⟨15, _⟩ => ⟨S4096, .i32⟩
  | .hbm, ⟨16, _⟩ => ⟨S_, .i32⟩
  | .hbm, ⟨17, _⟩ => ⟨S4096, .i32⟩
  | .hbm, ⟨18, _⟩ => ⟨S4096, .i32⟩
  | .hbm, ⟨19, _⟩ => ⟨S_, .i32⟩
  | .hbm, ⟨20, _⟩ => ⟨S4096, .i32⟩
  | .hbm, ⟨21, _⟩ => ⟨S4096, .i1⟩
  | .hbm, ⟨22, _⟩ => ⟨S_, .i32⟩
  | .hbm, ⟨23, _⟩ => ⟨S4096, .i32⟩
  | .hbm, ⟨24, _⟩ => ⟨S4096, .i32⟩
  | .hbm, ⟨25, _⟩ => ⟨S4096, .i32⟩
  | .hbm, ⟨26, _⟩ => ⟨S_, .i32⟩
  | .hbm, ⟨27, _⟩ => ⟨S4096, .i32⟩
  | .hbm, ⟨28, _⟩ => ⟨S4096, .i1⟩
  | .hbm, ⟨29, _⟩ => ⟨S_, .i32⟩
  | .hbm, ⟨30, _⟩ => ⟨S4096, .i32⟩
  | .hbm, ⟨31, _⟩ => ⟨S4096, .i32⟩
  | .hbm, ⟨32, _⟩ => ⟨S4096, .i32⟩
  | .hbm, ⟨33, _⟩ => ⟨S4096x1, .i32⟩
  | .hbm, ⟨34, _⟩ => ⟨S4096x1, .i32⟩
  | .hbm, ⟨35, _⟩ => ⟨S4096x2, .i32⟩
  | .hbm, ⟨36, _⟩ => ⟨S4096, .f32⟩
  | .hbm, ⟨37, _⟩ => ⟨S_, .i32⟩
  | .hbm, ⟨38, _⟩ => ⟨S4096, .i32⟩
  | .hbm, ⟨39, _⟩ => ⟨S4096, .i32⟩
  | .hbm, ⟨40, _⟩ => ⟨S_, .i32⟩
  | .hbm, ⟨41, _⟩ => ⟨S4096, .i32⟩
  | .hbm, ⟨42, _⟩ => ⟨S4096, .i1⟩
  | .hbm, ⟨43, _⟩ => ⟨S_, .i32⟩
  | .hbm, ⟨44, _⟩ => ⟨S4096, .i32⟩
  | .hbm, ⟨45, _⟩ => ⟨S4096, .i32⟩
  | .hbm, ⟨46, _⟩ => ⟨S4096, .i32⟩
  | .hbm, ⟨47, _⟩ => ⟨S_, .i32⟩
  | .hbm, ⟨48, _⟩ => ⟨S4096, .i32⟩
  | .hbm, ⟨49, _⟩ => ⟨S4096, .i1⟩
  | .hbm, ⟨50, _⟩ => ⟨S_, .i32⟩
  | .hbm, ⟨51, _⟩ => ⟨S4096, .i32⟩
  | .hbm, ⟨52, _⟩ => ⟨S4096, .i32⟩
  | .hbm, ⟨53, _⟩ => ⟨S4096, .i32⟩
  | .hbm, ⟨54, _⟩ => ⟨S4096x1, .i32⟩
  | .hbm, ⟨55, _⟩ => ⟨S4096x1, .i32⟩
  | .hbm, ⟨56, _⟩ => ⟨S4096x2, .i32⟩
  | .hbm, ⟨57, _⟩ => ⟨S4096, .f32⟩
  | .hbm, ⟨58, _⟩ => ⟨S8192, .f32⟩
  | .hbm, ⟨59, _⟩ => ⟨S_, .f32⟩
  | .hbm, ⟨60, _⟩ => ⟨S8192x8192, .f32⟩
  | .hbm, ⟨61, _⟩ => ⟨S8192x8192, .f32⟩
  | .hbm, ⟨62, _⟩ => ⟨S8192x8192, .f32⟩
  | .hbm, ⟨63, _⟩ => ⟨S8192x8192, .i32⟩
  | .hbm, ⟨64, _⟩ => ⟨S8192x8192, .i32⟩
  | .hbm, ⟨65, _⟩ => ⟨S_, .i32⟩
  | .hbm, ⟨66, _⟩ => ⟨S8192x8192, .i32⟩
  | .hbm, ⟨67, _⟩ => ⟨S8192x8192, .i32⟩
  | .hbm, ⟨68, _⟩ => ⟨S8192x8192, .i1⟩
  | .hbm, ⟨69, _⟩ => ⟨S8192x8192, .f32⟩
  | .hbm, ⟨70, _⟩ => ⟨S_, .f32⟩
  | .hbm, ⟨71, _⟩ => ⟨S8192x8192, .f32⟩
  | .hbm, ⟨72, _⟩ => ⟨S8192x8192, .f32⟩
  | .hbm, ⟨73, _⟩ => ⟨S8192x8192, .f32⟩
  | .hbm, ⟨74, _⟩ => ⟨S_, .f32⟩
  | .hbm, ⟨75, _⟩ => ⟨S8192, .f32⟩
  | .hbm, ⟨76, _⟩ => ⟨S_, .f32⟩
  | .hbm, ⟨77, _⟩ => ⟨S8192, .f32⟩
  | .hbm, ⟨78, _⟩ => ⟨S8192, .f32⟩
  | .hbm, ⟨79, _⟩ => ⟨S8192, .f32⟩
  | .hbm, ⟨80, _⟩ => ⟨S8192, .f32⟩
  | .hbm, ⟨81, _⟩ => ⟨S8192, .f32⟩
  | .hbm, ⟨82, _⟩ => ⟨S_, .f32⟩
  | .hbm, ⟨83, _⟩ => ⟨S_, .f32⟩
  | .hbm, ⟨84, _⟩ => ⟨S_, .f32⟩
  | .hbm, ⟨85, _⟩ => ⟨S_, .f32⟩
  | _, _ => ⟨S4096x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_call0_v0 : Ref sig .tc := ⟨.hbm, 3, rfl⟩
abbrev main_call0_cst : Ref sig .tc := ⟨.hbm, 4, rfl⟩
abbrev main_call0_v1 : Ref sig .tc := ⟨.hbm, 5, rfl⟩
abbrev main_call0_v2 : Ref sig .tc := ⟨.hbm, 6, rfl⟩
abbrev main_v1 : Ref sig .tc := ⟨.hbm, 7, rfl⟩
abbrev main_cst : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_c : Ref sig .tc := ⟨.hbm, 16, rfl⟩
abbrev main_v9 : Ref sig .tc := ⟨.hbm, 17, rfl⟩
abbrev main_v10 : Ref sig .tc := ⟨.hbm, 18, rfl⟩
abbrev main_c_0 : Ref sig .tc := ⟨.hbm, 19, rfl⟩
abbrev main_v11 : Ref sig .tc := ⟨.hbm, 20, rfl⟩
abbrev main_v12 : Ref sig .tc := ⟨.hbm, 21, rfl⟩
abbrev main_c_1 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_c_2 : Ref sig .tc := ⟨.hbm, 26, rfl⟩
abbrev main_v16 : Ref sig .tc := ⟨.hbm, 27, rfl⟩
abbrev main_v17 : Ref sig .tc := ⟨.hbm, 28, rfl⟩
abbrev main_c_3 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev main_c_4 : Ref sig .tc := ⟨.hbm, 37, rfl⟩
abbrev main_v25 : Ref sig .tc := ⟨.hbm, 38, rfl⟩
abbrev main_v26 : Ref sig .tc := ⟨.hbm, 39, rfl⟩
abbrev main_c_5 : Ref sig .tc := ⟨.hbm, 40, rfl⟩
abbrev main_v27 : Ref sig .tc := ⟨.hbm, 41, rfl⟩
abbrev main_v28 : Ref sig .tc := ⟨.hbm, 42, rfl⟩
abbrev main_c_6 : Ref sig .tc := ⟨.hbm, 43, rfl⟩
abbrev main_v29 : Ref sig .tc := ⟨.hbm, 44, rfl⟩
abbrev main_v30 : Ref sig .tc := ⟨.hbm, 45, rfl⟩
abbrev main_v31 : Ref sig .tc := ⟨.hbm, 46, rfl⟩
abbrev main_c_7 : Ref sig .tc := ⟨.hbm, 47, rfl⟩
abbrev main_v32 : Ref sig .tc := ⟨.hbm, 48, rfl⟩
abbrev main_v33 : Ref sig .tc := ⟨.hbm, 49, rfl⟩
abbrev main_c_8 : Ref sig .tc := ⟨.hbm, 50, rfl⟩
abbrev main_v34 : Ref sig .tc := ⟨.hbm, 51, rfl⟩
abbrev main_v35 : Ref sig .tc := ⟨.hbm, 52, rfl⟩
abbrev main_v36 : Ref sig .tc := ⟨.hbm, 53, rfl⟩
abbrev main_v37 : Ref sig .tc := ⟨.hbm, 54, rfl⟩
abbrev main_v38 : Ref sig .tc := ⟨.hbm, 55, rfl⟩
abbrev main_v39 : Ref sig .tc := ⟨.hbm, 56, rfl⟩
abbrev main_v40 : Ref sig .tc := ⟨.hbm, 57, rfl⟩
abbrev main_v41 : Ref sig .tc := ⟨.hbm, 58, rfl⟩
abbrev main_cst_9 : Ref sig .tc := ⟨.hbm, 59, rfl⟩
abbrev main_v42 : Ref sig .tc := ⟨.hbm, 60, rfl⟩
abbrev main_v43 : Ref sig .tc := ⟨.hbm, 61, rfl⟩
abbrev main_v44 : Ref sig .tc := ⟨.hbm, 62, rfl⟩
abbrev main_v45 : Ref sig .tc := ⟨.hbm, 63, rfl⟩
abbrev main_v46 : Ref sig .tc := ⟨.hbm, 64, rfl⟩
abbrev main_c_10 : Ref sig .tc := ⟨.hbm, 65, rfl⟩
abbrev main_v47 : Ref sig .tc := ⟨.hbm, 66, rfl⟩
abbrev main_v48 : Ref sig .tc := ⟨.hbm, 67, rfl⟩
abbrev main_v49 : Ref sig .tc := ⟨.hbm, 68, rfl⟩
abbrev main_v50 : Ref sig .tc := ⟨.hbm, 69, rfl⟩
abbrev main_cst_11 : Ref sig .tc := ⟨.hbm, 70, rfl⟩
abbrev main_v51 : Ref sig .tc := ⟨.hbm, 71, rfl⟩
abbrev main_v52 : Ref sig .tc := ⟨.hbm, 72, rfl⟩
abbrev main_v53 : Ref sig .tc := ⟨.hbm, 73, rfl⟩
abbrev main_cst_12 : Ref sig .tc := ⟨.hbm, 74, rfl⟩
abbrev main_v54 : Ref sig .tc := ⟨.hbm, 75, rfl⟩
abbrev main_cst_13 : Ref sig .tc := ⟨.hbm, 76, rfl⟩
abbrev main_v55 : Ref sig .tc := ⟨.hbm, 77, rfl⟩
abbrev main_v56 : Ref sig .tc := ⟨.hbm, 78, rfl⟩
abbrev main_v57 : Ref sig .tc := ⟨.hbm, 79, rfl⟩
abbrev main_v58 : Ref sig .tc := ⟨.hbm, 80, rfl⟩
abbrev main_v59 : Ref sig .tc := ⟨.hbm, 81, rfl⟩
abbrev main_cst_14 : Ref sig .tc := ⟨.hbm, 82, rfl⟩
abbrev main_v60 : Ref sig .tc := ⟨.hbm, 83, rfl⟩
abbrev main_cst_15 : Ref sig .tc := ⟨.hbm, 84, rfl⟩
abbrev main_v61 : Ref sig .tc := ⟨.hbm, 85, rfl⟩

abbrev nD : Nat := 1
abbrev τ : Topo := Topo.v7x

variable {F : FTy → Type} [FloatOps F]

class Facts₀ : Prop where
  concatenates_S4096x256_S4096x256_S8192x256_d0 : Shape.Concatenates [S4096x256, S4096x256] S8192x256 0
  reducesTo_S8192x256_S8192_d1 : S8192x256.ReducesTo [1] S8192
  h_S_ : 0 < S_.numel
  bcast_S8192_S8192x1_0 : S8192.BroadcastsInDim S8192x1 (![0] : Fin 1 → Fin S8192x1.rank)
  bcast_S_S8192x1 : S_.BroadcastsInDim S8192x1 (![] : Fin 0 → Fin S8192x1.rank)
  bcast_S8192x1_S8192x256_0_1 : S8192x1.BroadcastsInDim S8192x256 (![0, 1] : Fin 2 → Fin S8192x256.rank)
  transposes_S8192x256_S256x8192_1_0 : S8192x256.Transposes [1, 0] S256x8192
  bcast_S_S4096 : S_.BroadcastsInDim S4096 (![] : Fin 0 → Fin S4096.rank)
  bcast_S4096_S4096x1_0 : S4096.BroadcastsInDim S4096x1 (![0] : Fin 1 → Fin S4096x1.rank)
  concatenates_S4096x1_S4096x1_S4096x2_d1 : Shape.Concatenates [S4096x1, S4096x1] S4096x2 1
  concatenates_S4096_S4096_S8192_d0 : Shape.Concatenates [S4096, S4096] S8192 0
  bcast_S_S8192x8192 : S_.BroadcastsInDim S8192x8192 (![] : Fin 0 → Fin S8192x8192.rank)
  reducesTo_S8192x8192_S8192_d1 : S8192x8192.ReducesTo [1] S8192
  bcast_S_S8192 : S_.BroadcastsInDim S8192 (![] : Fin 0 → Fin S8192.rank)
  reducesTo_S8192_S_d0 : S8192.ReducesTo [0] S_
  dot_S8192x256_S256x8192_S8192x8192_1_0_0_1_n_n_wf : DotDims.WF S8192x256 S256x8192 S8192x8192 [1] [0] [0] [1] [] []
  gather_S8192x8192_S4096x2_S4096_n_01_n_n_01_1_11_wf : GatherDims.WF S8192x8192 S4096x2 S4096 [] [0, 1] [] [0, 1] [] 1 ![1, 1]

variable [Facts₀]

def dot_S8192x256_S256x8192_S8192x8192_1_0_0_1_n_n : DotDims S8192x256 S256x8192 S8192x8192 where
  lhsContracting := [1]
  rhsContracting := [0]
  lhsNonContracting := [0]
  rhsNonContracting := [1]
  lhsBatch := []
  rhsBatch := []
  wf := dot_S8192x256_S256x8192_S8192x8192_1_0_0_1_n_n_wf
def gather_S8192x8192_S4096x2_S4096_n_01_n_n_01_1_11 : GatherDims S8192x8192 S4096x2 S4096 where
  offsetDims := []
  collapsedSliceDims := [0, 1]
  operandBatchingDims := []
  startIndicesBatchingDims := []
  startIndexMap := [0, 1]
  indexVectorDim := 1
  sliceSizes := ![1, 1]
  wf := gather_S8192x8192_S4096x2_S4096_n_01_n_n_01_1_11_wf

class Facts : Prop extends Facts₀ where

variable [Facts]
-- ==== Proof.KBodyRuns.lean ====
/-
  The kernel body run on whole staging buffers, once per control path.

  At a grid point the body reads the point's tile pair (p, q) from the two tables, zeroes the
  8 x 1024 accumulator at the first point, loads the two 1024-row blocks, adds the row sums of the
  masked exponential tile to accumulator row p and, off the diagonal (p different from q), its column
  sums to row q, and at the last point stores the logarithm of the accumulator to the output block.
  Four paths occur: the first point, an off-diagonal point, a diagonal point in the middle, and the
  last point.  Each run below says what the accumulator (and at the last point the output block)
  holds afterwards, under the path's decisions as hypotheses on the words read.
-/
import proofs.«104923_j4312147165445_2_alg».proof.Proof.Gen.Kernel.Skeleton
import proofs.«104923_j4312147165445_2_alg».proof.Proof.Gen.Kernel.Launch
import Idealize.ShloMosaic.Lib.Pipeline.Kit
import Idealize.ShloMosaic.Lib.Pipeline.TableIdle
import Idealize.ShloMosaic.Lib.Pipeline.FrameBody
import Idealize.ShloMosaic.Lib.Writes
import Idealize.ShloMosaic.Lib.Ring
import Idealize.ShloMosaic.Lib.Exec
import Idealize.ShloMosaic.Lib.Affine
import Idealize.ShloMosaic.Lib.Tactic

set_option maxRecDepth 16384
set_option Elab.async false

noncomputable section

namespace Cert.Kernel.Hand

open Cert.Kernel Cert.Kernel.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable {F : FTy → Type} [FloatOps F]

local notation "𝕄" => MT nD τ sig Unit (Elt F) ℕ (UR sig nD τ) ℕ

/-- The two tables and the accumulator as whole buffers. -/
abbrev tbM0 : Memref sig .tc .smem S36 .i32 := Memref.whole main_c
abbrev tbM1 : Memref sig .tc .smem S36 .i32 := Memref.whole main_c_0
abbrev scM : Memref sig .tc .vmem S8x1024 .f32 := Memref.whole cc0_scratch0

/-- The word the body reads from the first table at grid point `i`: entry `i` of its contents. -/
abbrev word0 (i : grid0.Coords) (T : S36.Idx → Elt F .i32) : Elt F .i32 :=
  View.readAt (Elt F) (tbM0).view (Rect.unit (s := S36) (k0_off1 i) S1.size (k0_off1_inb i)).toLoadRect T (Shape.Idx.first (numel1_S1.symm ▸ Nat.one_pos))
/-- The same of the second table. -/
abbrev word1 (i : grid0.Coords) (T : S36.Idx → Elt F .i32) : Elt F .i32 :=
  View.readAt (Elt F) (tbM1).view (Rect.unit (s := S36) (k0_off1 i) S1.size (k0_off1_inb i)).toLoadRect T (Shape.Idx.first (numel1_S1.symm ▸ Nat.one_pos))

/-- "This is the first grid point", as the body computes it. -/
abbrev isFirst (i : grid0.Coords) : Prop :=
  (Scalar.cmpi .ne (Scalar.extui (Scalar.cmpi .eq (BitVec.ofNat 32 (i 0).val) 0#32)) 0#32) = 1#1

set_option maxHeartbeats 8000000 in
/-- The first point (tile pair (0,0)): the accumulator is zeroed, whatever it held, then row p is updated. -/
noncomputable def runA (c : Dev nD) (i : grid0.Coords) (arg3 : Memref sig .tc .vmem S1024x256 .f32) (harg3 : arg3.IsWhole) (arg4 : Memref sig .tc .vmem S1024x256 .f32) (harg4 : arg4.IsWhole)
    (arg5 : Memref sig .tc .vmem S8x1024 .f32) (harg5 : arg5.IsWhole)
    (T0 T1 : S36.Idx → Elt F .i32) (x0 x1 : S1024x256.Idx → Elt F .f32)
    (hw1 : k0_chk1 (word0 (F := F) i T0)) (hw2 : k0_chk2 (word0 (F := F) i T0) (word1 (F := F) i T1))
    (k0_h1 : isFirst i) (k0_h2 : ¬ (k0_cond2 (word0 (F := F) i T0) (word1 (F := F) i T1) = 1#1)) (k0_h3 : ¬(k0_cond3 i = 1#1)) :
    { out0 : Buf (Elt F) ((c : Thread nD τ).loc cc0_scratch0) //
      ∀ (y2 : S8x1024.Idx → Elt F .f32) (xa0 : Buf (Elt F) ((c : Thread nD τ).loc cc0_scratch0)) (K : PUnit → sProp 𝕄),
        iprop((arg3.view.loc (c : Thread nD τ) ↦[arg3.view.set]{fullShare} arg3.view.rep x0)
          ∗ (arg4.view.loc (c : Thread nD τ) ↦[arg4.view.set]{fullShare} arg4.view.rep x1)
          ∗ (tbM0.view.loc (c : Thread nD τ) ↦{fullShare.right} T0)
          ∗ (tbM1.view.loc (c : Thread nD τ) ↦{fullShare.right} T1)
          ∗ owns (c : Thread nD τ) arg5 fullShare y2
          ∗ (scM.view.loc (c : Thread nD τ) ↦{fullShare} xa0)
          ∗ (iprop((arg3.view.loc (c : Thread nD τ) ↦[arg3.view.set]{fullShare} arg3.view.rep x0)
          ∗ (arg4.view.loc (c : Thread nD τ) ↦[arg4.view.set]{fullShare} arg4.view.rep x1)
          ∗ (tbM0.view.loc (c : Thread nD τ) ↦{fullShare.right} T0)
          ∗ (tbM1.view.loc (c : Thread nD τ) ↦{fullShare.right} T1)
              ∗ owns (c : Thread nD τ) arg5 fullShare y2
              ∗ (scM.view.loc (c : Thread nD τ) ↦{fullShare} out0)) -∗ K ⟨⟩))
          ⊢ wp frame (wpE (defs₀ (F := F)) Variants.none c none) Set.univ (cc0__logdenom_kernel i tbM0 (Memref.isWhole_whole _) tbM1 (Memref.isWhole_whole _) arg3 harg3 arg4 harg4 arg5 harg5 scM (Memref.isWhole_whole _)) K } :=
  ⟨_, fun (y2 : S8x1024.Idx → Elt F .f32) (xa0 : Buf (Elt F) ((c : Thread nD τ).loc cc0_scratch0)) K => by
    unfold owns
    rw [cc0__logdenom_kernel_eq_skeleton]; unfold cc0__logdenom_kernel_skel
    iintro ⟨H0, H1, HT0, HT1, ⟨%f2, %hf2, HO2⟩, HS0, Hk⟩
    obtain rfl := harg5.eq_unread hf2
    have hS0 : scM.IsWhole := Memref.isWhole_whole _
    have hT0 : tbM0.IsWhole := Memref.isWhole_whole _
    have hT1 : tbM1.IsWhole := Memref.isWhole_whole _
    sl_exec! (disch := first | exact hw1 | exact hw2 | exact k0_h1 | exact k0_h2 | exact k0_h3)
    sl_step
    iapply Hk
    isplitl [H0]; · iexact H0
    isplitl [H1]; · iexact H1
    isplitl [HT0]; · iexact HT0
    isplitl [HT1]; · iexact HT1
    isplitl [HO2]
    · iexists _; isplitr; · ipureintro; exact harg5.read_unread _
      iexact HO2
    iexact HS0⟩

set_option maxHeartbeats 8000000 in
/-- An off-diagonal point after the first and before the last: rows p and q of the accumulator are updated. -/
noncomputable def runB (c : Dev nD) (i : grid0.Coords) (arg3 : Memref sig .tc .vmem S1024x256 .f32) (harg3 : arg3.IsWhole) (arg4 : Memref sig .tc .vmem S1024x256 .f32) (harg4 : arg4.IsWhole)
    (arg5 : Memref sig .tc .vmem S8x1024 .f32) (harg5 : arg5.IsWhole)
    (T0 T1 : S36.Idx → Elt F .i32) (x0 x1 : S1024x256.Idx → Elt F .f32) (xa0 : Buf (Elt F) ((c : Thread nD τ).loc cc0_scratch0))
    (hw1 : k0_chk1 (word0 (F := F) i T0)) (hw2 : k0_chk2 (word0 (F := F) i T0) (word1 (F := F) i T1))
    (k0_h1 : ¬ isFirst i) (k0_h2 : k0_cond2 (word0 (F := F) i T0) (word1 (F := F) i T1) = 1#1) (k0_h3 : ¬(k0_cond3 i = 1#1)) :
    { out0 : Buf (Elt F) ((c : Thread nD τ).loc cc0_scratch0) //
      ∀ (y2 : S8x1024.Idx → Elt F .f32) (K : PUnit → sProp 𝕄),
        iprop((arg3.view.loc (c : Thread nD τ) ↦[arg3.view.set]{fullShare} arg3.view.rep x0)
          ∗ (arg4.view.loc (c : Thread nD τ) ↦[arg4.view.set]{fullShare} arg4.view.rep x1)
          ∗ (tbM0.view.loc (c : Thread nD τ) ↦{fullShare.right} T0)
          ∗ (tbM1.view.loc (c : Thread nD τ) ↦{fullShare.right} T1)
          ∗ owns (c : Thread nD τ) arg5 fullShare y2
          ∗ (scM.view.loc (c : Thread nD τ) ↦{fullShare} xa0)
          ∗ (iprop((arg3.view.loc (c : Thread nD τ) ↦[arg3.view.set]{fullShare} arg3.view.rep x0)
          ∗ (arg4.view.loc (c : Thread nD τ) ↦[arg4.view.set]{fullShare} arg4.view.rep x1)
          ∗ (tbM0.view.loc (c : Thread nD τ) ↦{fullShare.right} T0)
          ∗ (tbM1.view.loc (c : Thread nD τ) ↦{fullShare.right} T1)
              ∗ owns (c : Thread nD τ) arg5 fullShare y2
              ∗ (scM.view.loc (c : Thread nD τ) ↦{fullShare} out0)) -∗ K ⟨⟩))
          ⊢ wp frame (wpE (defs₀ (F := F)) Variants.none c none) Set.univ (cc0__logdenom_kernel i tbM0 (Memref.isWhole_whole _) tbM1 (Memref.isWhole_whole _) arg3 harg3 arg4 harg4 arg5 harg5 scM (Memref.isWhole_whole _)) K } :=
  ⟨_, fun (y2 : S8x1024.Idx → Elt F .f32) K => by
    unfold owns
    rw [cc0__logdenom_kernel_eq_skeleton]; unfold cc0__logdenom_kernel_skel
    iintro ⟨H0, H1, HT0, HT1, ⟨%f2, %hf2, HO2⟩, HS0, Hk⟩
    obtain rfl := harg5.eq_unread hf2
    have hS0 : scM.IsWhole := Memref.isWhole_whole _
    have hT0 : tbM0.IsWhole := Memref.isWhole_whole _
    have hT1 : tbM1.IsWhole := Memref.isWhole_whole _
    sl_exec! (disch := first | exact hw1 | exact hw2 | exact k0_h1 | exact k0_h2 | exact k0_h3)
    sl_step
    iapply Hk
    isplitl [H0]; · iexact H0
    isplitl [H1]; · iexact H1
    isplitl [HT0]; · iexact HT0
    isplitl [HT1]; · iexact HT1
    isplitl [HO2]
    · iexists _; isplitr; · ipureintro; exact harg5.read_unread _
      iexact HO2
    iexact HS0⟩

set_option maxHeartbeats 8000000 in
/-- A diagonal point after the first and before the last: row p of the accumulator is updated. -/
noncomputable def runC (c : Dev nD) (i : grid0.Coords) (arg3 : Memref sig .tc .vmem S1024x256 .f32) (harg3 : arg3.IsWhole) (arg4 : Memref sig .tc .vmem S1024x256 .f32) (harg4 : arg4.IsWhole)
    (arg5 : Memref sig .tc .vmem S8x1024 .f32) (harg5 : arg5.IsWhole)
    (T0 T1 : S36.Idx → Elt F .i32) (x0 x1 : S1024x256.Idx → Elt F .f32) (xa0 : Buf (Elt F) ((c : Thread nD τ).loc cc0_scratch0))
    (hw1 : k0_chk1 (word0 (F := F) i T0)) (hw2 : k0_chk2 (word0 (F := F) i T0) (word1 (F := F) i T1))
    (k0_h1 : ¬ isFirst i) (k0_h2 : ¬ (k0_cond2 (word0 (F := F) i T0) (word1 (F := F) i T1) = 1#1)) (k0_h3 : ¬(k0_cond3 i = 1#1)) :
    { out0 : Buf (Elt F) ((c : Thread nD τ).loc cc0_scratch0) //
      ∀ (y2 : S8x1024.Idx → Elt F .f32) (K : PUnit → sProp 𝕄),
        iprop((arg3.view.loc (c : Thread nD τ) ↦[arg3.view.set]{fullShare} arg3.view.rep x0)
          ∗ (arg4.view.loc (c : Thread nD τ) ↦[arg4.view.set]{fullShare} arg4.view.rep x1)
          ∗ (tbM0.view.loc (c : Thread nD τ) ↦{fullShare.right} T0)
          ∗ (tbM1.view.loc (c : Thread nD τ) ↦{fullShare.right} T1)
          ∗ owns (c : Thread nD τ) arg5 fullShare y2
          ∗ (scM.view.loc (c : Thread nD τ) ↦{fullShare} xa0)
          ∗ (iprop((arg3.view.loc (c : Thread nD τ) ↦[arg3.view.set]{fullShare} arg3.view.rep x0)
          ∗ (arg4.view.loc (c : Thread nD τ) ↦[arg4.view.set]{fullShare} arg4.view.rep x1)
          ∗ (tbM0.view.loc (c : Thread nD τ) ↦{fullShare.right} T0)
          ∗ (tbM1.view.loc (c : Thread nD τ) ↦{fullShare.right} T1)
              ∗ owns (c : Thread nD τ) arg5 fullShare y2
              ∗ (scM.view.loc (c : Thread nD τ) ↦{fullShare} out0)) -∗ K ⟨⟩))
          ⊢ wp frame (wpE (defs₀ (F := F)) Variants.none c none) Set.univ (cc0__logdenom_kernel i tbM0 (Memref.isWhole_whole _) tbM1 (Memref.isWhole_whole _) arg3 harg3 arg4 harg4 arg5 harg5 scM (Memref.isWhole_whole _)) K } :=
  ⟨_, fun (y2 : S8x1024.Idx → Elt F .f32) K => by
    unfold owns
    rw [cc0__logdenom_kernel_eq_skeleton]; unfold cc0__logdenom_kernel_skel
    iintro ⟨H0, H1, HT0, HT1, ⟨%f2, %hf2, HO2⟩, HS0, Hk⟩
    obtain rfl := harg5.eq_unread hf2
    have hS0 : scM.IsWhole := Memref.isWhole_whole _
    have hT0 : tbM0.IsWhole := Memref.isWhole_whole _
    have hT1 : tbM1.IsWhole := Memref.isWhole_whole _
    sl_exec! (disch := first | exact hw1 | exact hw2 | exact k0_h1 | exact k0_h2 | exact k0_h3)
    sl_step
    iapply Hk
    isplitl [H0]; · iexact H0
    isplitl [H1]; · iexact H1
    isplitl [HT0]; · iexact HT0
    isplitl [HT1]; · iexact HT1
    isplitl [HO2]
    · iexists _; isplitr; · ipureintro; exact harg5.read_unread _
      iexact HO2
    iexact HS0⟩

set_option maxHeartbeats 8000000 in
/-- The last point (a diagonal one): row p is updated and the logarithm of the whole accumulator is stored to the output block. -/
noncomputable def runD (c : Dev nD) (i : grid0.Coords) (arg3 : Memref sig .tc .vmem S1024x256 .f32) (harg3 : arg3.IsWhole) (arg4 : Memref sig .tc .vmem S1024x256 .f32) (harg4 : arg4.IsWhole)
    (arg5 : Memref sig .tc .vmem S8x1024 .f32) (harg5 : arg5.IsWhole)
    (T0 T1 : S36.Idx → Elt F .i32) (x0 x1 : S1024x256.Idx → Elt F .f32) (xa0 : Buf (Elt F) ((c : Thread nD τ).loc cc0_scratch0))
    (hw1 : k0_chk1 (word0 (F := F) i T0)) (hw2 : k0_chk2 (word0 (F := F) i T0) (word1 (F := F) i T1))
    (k0_h1 : ¬ isFirst i) (k0_h2 : ¬ (k0_cond2 (word0 (F := F) i T0) (word1 (F := F) i T1) = 1#1)) (k0_h3 : k0_cond3 i = 1#1) :
    Σ' (out0 : List (View.Piece (Elt F) S8x1024 .f32)), { out1 : Buf (Elt F) ((c : Thread nD τ).loc cc0_scratch0) //
      ∀ (K : PUnit → sProp 𝕄),
        iprop((arg3.view.loc (c : Thread nD τ) ↦[arg3.view.set]{fullShare} arg3.view.rep x0)
          ∗ (arg4.view.loc (c : Thread nD τ) ↦[arg4.view.set]{fullShare} arg4.view.rep x1)
          ∗ (tbM0.view.loc (c : Thread nD τ) ↦{fullShare.right} T0)
          ∗ (tbM1.view.loc (c : Thread nD τ) ↦{fullShare.right} T1)
          ∗ (∃ d, owns (c : Thread nD τ) arg5 fullShare d)
          ∗ (scM.view.loc (c : Thread nD τ) ↦{fullShare} xa0)
          ∗ (iprop((arg3.view.loc (c : Thread nD τ) ↦[arg3.view.set]{fullShare} arg3.view.rep x0)
          ∗ (arg4.view.loc (c : Thread nD τ) ↦[arg4.view.set]{fullShare} arg4.view.rep x1)
          ∗ (tbM0.view.loc (c : Thread nD τ) ↦{fullShare.right} T0)
          ∗ (tbM1.view.loc (c : Thread nD τ) ↦{fullShare.right} T1)
              ∗ (∃ f, arg5.view.loc (c : Thread nD τ) ↦[arg5.view.set]{fullShare} arg5.view.writes (Elt F) f out0)
              ∗ (scM.view.loc (c : Thread nD τ) ↦{fullShare} out1)) -∗ K ⟨⟩))
          ⊢ wp frame (wpE (defs₀ (F := F)) Variants.none c none) Set.univ (cc0__logdenom_kernel i tbM0 (Memref.isWhole_whole _) tbM1 (Memref.isWhole_whole _) arg3 harg3 arg4 harg4 arg5 harg5 scM (Memref.isWhole_whole _)) K } :=
  ⟨_, _, fun K => by
    unfold owns
    rw [cc0__logdenom_kernel_eq_skeleton]; unfold cc0__logdenom_kernel_skel
    iintro ⟨H0, H1, HT0, HT1, ⟨%d2, %f2, -, HO2⟩, HS0, Hk⟩
    have hS0 : scM.IsWhole := Memref.isWhole_whole _
    have hT0 : tbM0.IsWhole := Memref.isWhole_whole _
    have hT1 : tbM1.IsWhole := Memref.isWhole_whole _
    sl_exec! (disch := first | exact hw1 | exact hw2 | exact k0_h1 | exact k0_h2 | exact k0_h3)
    sl_step
    iapply Hk
    isplitl [H0]; · iexact H0
    isplitl [H1]; · iexact H1
    isplitl [HT0]; · iexact HT0
    isplitl [HT1]; · iexact HT1
    isplitl [HO2]; · iexists _; iexact HO2
    iexact HS0⟩

end Cert.Kernel.Hand

end
-- ==== Proof.KBodyData.lean ====
/-
  What the accumulator and the output block hold point by point, the proof data of the pipeline,
  and the body obligation at every grid point.

  The pipeline is taken at any admissible contents of the two tables; the facts about a point
  that depend on the tables' values (which of the four paths it takes, that the rows it addresses
  exist) are a hypothesis here and are decided where the tables are known.
-/
import proofs.«104923_j4312147165445_2_alg».proof.Proof.KBodyRuns

set_option maxRecDepth 16384
set_option Elab.async false

noncomputable section

namespace Cert.Kernel.Hand

open Cert.Kernel Cert.Kernel.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable {F : FTy → Type} [FloatOps F]

local notation "𝕄" => MT nD τ sig Unit (Elt F) ℕ (UR sig nD τ) ℕ

-- the tables' contents the pipeline runs at, and the buffers' contents when the region is entered
variable (a : (pcfg0 (F := F)).Adm)
variable (Varr : (c : Dev nD) → (b : Ref sig .tc) → Buf (Elt F) ((c : Thread nD τ).loc b))
-- how the one stacked array's share is dealt between the two input windows (the output has its own array)
variable (qS : Fin 3 → PosShare TreeShare)

abbrev cfgA : Pipeline.Cfg sig Λ₀ := cfg0 (F := F) a

/-- Point `t`'s coordinates. -/
abbrev crd (t : Fin (cfgA a).N) : (cfgA a).grid.Coords := (cfgA a).grid.coords t

/-- Each window's current staging buffer at point `t`, and that it is a whole buffer. -/
abbrev ms0 (t : Fin (cfgA a).N) : Memref sig .tc .vmem S1024x256 .f32 := spec0_0.stage ((cfgA a).slots t (0 : Fin 3))
abbrev hs0 (t : Fin (cfgA a).N) : (ms0 a t).IsWhole := hstage0_0 (((cfgA a).slots t (0 : Fin 3)).cast nbuf0_0)
abbrev ms1 (t : Fin (cfgA a).N) : Memref sig .tc .vmem S1024x256 .f32 := spec0_1.stage ((cfgA a).slots t (1 : Fin 3))
abbrev hs1 (t : Fin (cfgA a).N) : (ms1 a t).IsWhole := hstage0_1 (((cfgA a).slots t (1 : Fin 3)).cast nbuf0_1)
abbrev ms2 (t : Fin (cfgA a).N) : Memref sig .tc .vmem S8x1024 .f32 := spec0_2.stage ((cfgA a).slots t (2 : Fin 3))
abbrev hs2 (t : Fin (cfgA a).N) : (ms2 a t).IsWhole := hstage0_2 (((cfgA a).slots t (2 : Fin 3)).cast nbuf0_2)

/-- The two tables' contents. -/
abbrev tb0 : S36.Idx → Elt F .i32 := a.1 (0 : Fin 2)
abbrev tb1 : S36.Idx → Elt F .i32 := a.1 (1 : Fin 2)

/-- Window `w`'s block at point `t`, read off its array as the region finds it. -/
def iblk (c : Dev nD) (w : Fin (cfgA a).W) (t : Fin (cfgA a).N) : (((cfgA a).win w).xblock (crd a t)).Idx → Elt F ((cfgA a).win w).elt :=
  (((cfgA a).win w).blk t).view.read (Elt F) (Varr c (Pipeline.arrRef spec0 w))

/-- The body's three decisions at point `t`: first point; off the diagonal; last point. -/
abbrev P1 (t : Fin (cfgA a).N) : Prop := isFirst (crd a t)
abbrev P2 (t : Fin (cfgA a).N) : Prop := k0_cond2 (word0 (F := F) (crd a t) (tb0 a)) (word1 (F := F) (crd a t) (tb1 a)) = 1#1
abbrev P3 (t : Fin (cfgA a).N) : Prop := k0_cond3 (crd a t) = 1#1

/-- What must be known of point `t` and the tables' values there. -/
structure PointFacts (t : Fin (cfgA a).N) : Prop where
  chk1 : k0_chk1 (word0 (F := F) (crd a t) (tb0 a))
  chk2 : k0_chk2 (word0 (F := F) (crd a t) (tb0 a)) (word1 (F := F) (crd a t) (tb1 a))
  first0 : t.val = 0 → P1 a t
  first_excl : P1 a t → ¬ P2 a t ∧ ¬ P3 a t
  last_excl : P3 a t → ¬ P2 a t
  idle2 : ¬ P3 a t → (cfgA a).idle (2 : Fin 3) ((cfgA a).grid.coords t) = true ∧ ((cfgA a).win (2 : Fin 3)).flush t = false
  live2 : P3 a t → (cfgA a).idle (2 : Fin 3) ((cfgA a).grid.coords t) = false

variable (pf : ∀ t : Fin (cfgA a).N, PointFacts a t)

/-- One staging buffer of the output window, through which its contents are stated. -/
abbrev VO : View sig .tc .vmem S8x1024 .f32 := (Memref.whole cc0_stg2_0 : Memref sig .tc .vmem S8x1024 .f32).view

/-- A pair: what the output block and the accumulator hold. -/
abbrev St (c : Dev nD) : Type := (S8x1024.Idx → Elt F .f32) × Buf (Elt F) ((c : Thread nD τ).loc cc0_scratch0)

/-- Contents nothing has determined yet. -/
def junkSt (c : Dev nD) : St (F := F) c := (VO.read (Elt F) VO.junk, scM.view.junk)

/-- One step: what they hold after the body at point `t`, from what they held before. The output block changes
    at the last point only. -/
def step (c : Dev nD) (t : Fin (cfgA a).N) (prev : St (F := F) c) : St (F := F) c :=
  if q1 : P1 a t then
    (prev.1, (runA c (crd a t) (ms0 a t) (hs0 a t) (ms1 a t) (hs1 a t) (ms2 a t) (hs2 a t) (tb0 a) (tb1 a) (iblk a Varr c (0 : Fin 3) t) (iblk a Varr c (1 : Fin 3) t) (pf t).chk1 (pf t).chk2 q1 ((pf t).first_excl q1).1 ((pf t).first_excl q1).2).1)
  else
    if q3 : P3 a t then
      (VO.read (Elt F) (VO.writes (Elt F) VO.junk (runD c (crd a t) (ms0 a t) (hs0 a t) (ms1 a t) (hs1 a t) (ms2 a t) (hs2 a t) (tb0 a) (tb1 a) (iblk a Varr c (0 : Fin 3) t) (iblk a Varr c (1 : Fin 3) t) prev.2 (pf t).chk1 (pf t).chk2 q1 ((pf t).last_excl q3) q3).1),
        (runD c (crd a t) (ms0 a t) (hs0 a t) (ms1 a t) (hs1 a t) (ms2 a t) (hs2 a t) (tb0 a) (tb1 a) (iblk a Varr c (0 : Fin 3) t) (iblk a Varr c (1 : Fin 3) t) prev.2 (pf t).chk1 (pf t).chk2 q1 ((pf t).last_excl q3) q3).2.1)
    else
      if q2 : P2 a t then
        (prev.1, (runB c (crd a t) (ms0 a t) (hs0 a t) (ms1 a t) (hs1 a t) (ms2 a t) (hs2 a t) (tb0 a) (tb1 a) (iblk a Varr c (0 : Fin 3) t) (iblk a Varr c (1 : Fin 3) t) prev.2 (pf t).chk1 (pf t).chk2 q1 q2 q3).1)
      else
        (prev.1, (runC c (crd a t) (ms0 a t) (hs0 a t) (ms1 a t) (hs1 a t) (ms2 a t) (hs2 a t) (tb0 a) (tb1 a) (iblk a Varr c (0 : Fin 3) t) (iblk a Varr c (1 : Fin 3) t) prev.2 (pf t).chk1 (pf t).chk2 q1 q2 q3).1)

/-- The trajectory: after position `n`. -/
def traj (c : Dev nD) : (n : ℕ) → n < (cfgA a).N → St (F := F) c
  | 0, h => step a Varr pf c ⟨0, h⟩ (junkSt c)
  | n + 1, h => step a Varr pf c ⟨n + 1, h⟩ (traj c n (Nat.lt_of_succ_lt h))

/-- What they held before point `t` (anything before the first). -/
def prev (c : Dev nD) (t : Fin (cfgA a).N) : St (F := F) c :=
  if h : t.val = 0 then (junkSt c) else traj a Varr pf c (t.val - 1) (by omega)

theorem traj_eq (c : Dev nD) (t : Fin (cfgA a).N) : traj a Varr pf c t.val t.isLt = step a Varr pf c t (prev a Varr pf c t) := by
  obtain ⟨n, hn⟩ := t
  cases n with
  | zero => rfl
  | succ n => unfold prev; simp only [Nat.add_one_ne_zero, dif_neg, not_false_eq_true]; rfl

/-- The same before position `t` of the invariant's index. -/
def prevT (c : Dev nD) (t : Fin ((cfgA a).N + 1)) : St (F := F) c :=
  if h : t.val = 0 then (junkSt c) else traj a Varr pf c (t.val - 1) (by omega)

theorem prevT_castSucc (c : Dev nD) (t : Fin (cfgA a).N) : prevT a Varr pf c t.castSucc = prev a Varr pf c t := rfl
theorem prevT_succ (c : Dev nD) (t : Fin (cfgA a).N) : prevT a Varr pf c t.succ = traj a Varr pf c t.val t.isLt := by
  unfold prevT; rw [dif_neg (by simp)]; rfl

/-- The invariant before point `t`: the accumulator at what the trajectory says (anything before the first point), the
    body's halves of the two tables, and the generator register. -/
def Phi (c : Dev nD) (t : Fin ((cfgA a).N + 1)) : sProp 𝕄 :=
  iprop((∃ s, ⌜t.val ≠ 0 → s = (prevT a Varr pf c t).2⌝ ∗ (scM.view.loc (c : Thread nD τ) ↦{fullShare} s))
    ∗ (tbM0.view.loc (c : Thread nD τ) ↦{fullShare.right} tb0 a)
    ∗ (tbM1.view.loc (c : Thread nD τ) ↦{fullShare.right} tb1 a)
    ∗ (∃ r, prngReg c r))

/-- The proof data of the pipeline on core `c`. -/
def dats (_ : Fin 1) (c : Dev nD) : Dat τ (Elt F) Unit ℕ (UR sig nD τ) ℕ (cfgA a) c where
  A w := match w with
    | ⟨0, _⟩ => Varr c (Pipeline.arrRef spec0 (0 : Fin 3))
    | ⟨1, _⟩ => Varr c (Pipeline.arrRef spec0 (1 : Fin 3))
    | ⟨2, _⟩ => Varr c (Pipeline.arrRef spec0 (2 : Fin 3))
  after w t := match w with
    | ⟨0, _⟩ => iblk a Varr c (0 : Fin 3) t
    | ⟨1, _⟩ => iblk a Varr c (1 : Fin 3) t
    | ⟨2, _⟩ => (traj a Varr pf c t.val t.isLt).1
  Φ t := Phi a Varr pf c t
  q := qS
  owed _ := 0

end Cert.Kernel.Hand

end
-- ==== Proof.KBodyOblig.lean ====
/-
  The body obligation of the pipeline: at every grid point, from the invariant and the three
  windows' current staging buffers, the kernel body runs and re-establishes the invariant with the
  buffers as the proof data says.  By cases on the point's path; each case is that path's run.
-/
import proofs.«104923_j4312147165445_2_alg».proof.Proof.KBodyData

set_option maxRecDepth 16384
set_option Elab.async false

noncomputable section

namespace Cert.Kernel.Hand

open Cert.Kernel Cert.Kernel.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable {F : FTy → Type} [FloatOps F]

local notation "𝕄" => MT nD τ sig Unit (Elt F) ℕ (UR sig nD τ) ℕ

variable (a : (pcfg0 (F := F)).Adm)
variable (Varr : (c : Dev nD) → (b : Ref sig .tc) → Buf (Elt F) ((c : Thread nD τ).loc b))
variable (qS : Fin 3 → PosShare TreeShare)
variable (pf : ∀ t : Fin (cfgA a).N, PointFacts a t)

/-! ## The step, path by path -/

theorem step_A (c : Dev nD) (t : Fin (cfgA a).N) (prev : St (F := F) c) (q1 : P1 a t) :
    step a Varr pf c t prev = (prev.1, (runA c (crd a t) (ms0 a t) (hs0 a t) (ms1 a t) (hs1 a t) (ms2 a t) (hs2 a t) (tb0 a) (tb1 a) (iblk a Varr c (0 : Fin 3) t) (iblk a Varr c (1 : Fin 3) t) (pf t).chk1 (pf t).chk2 q1 ((pf t).first_excl q1).1 ((pf t).first_excl q1).2).1) := by
  unfold step; simp only [dif_pos q1]

theorem step_D (c : Dev nD) (t : Fin (cfgA a).N) (prev : St (F := F) c) (q1 : ¬ P1 a t) (q3 : P3 a t) :
    step a Varr pf c t prev = (VO.read (Elt F) (VO.writes (Elt F) VO.junk (runD c (crd a t) (ms0 a t) (hs0 a t) (ms1 a t) (hs1 a t) (ms2 a t) (hs2 a t) (tb0 a) (tb1 a) (iblk a Varr c (0 : Fin 3) t) (iblk a Varr c (1 : Fin 3) t) prev.2 (pf t).chk1 (pf t).chk2 q1 ((pf t).last_excl q3) q3).1),
      (runD c (crd a t) (ms0 a t) (hs0 a t) (ms1 a t) (hs1 a t) (ms2 a t) (hs2 a t) (tb0 a) (tb1 a) (iblk a Varr c (0 : Fin 3) t) (iblk a Varr c (1 : Fin 3) t) prev.2 (pf t).chk1 (pf t).chk2 q1 ((pf t).last_excl q3) q3).2.1) := by
  unfold step; simp only [dif_neg q1, dif_pos q3]

theorem step_B (c : Dev nD) (t : Fin (cfgA a).N) (prev : St (F := F) c) (q1 : ¬ P1 a t) (q3 : ¬ P3 a t) (q2 : P2 a t) :
    step a Varr pf c t prev = (prev.1, (runB c (crd a t) (ms0 a t) (hs0 a t) (ms1 a t) (hs1 a t) (ms2 a t) (hs2 a t) (tb0 a) (tb1 a) (iblk a Varr c (0 : Fin 3) t) (iblk a Varr c (1 : Fin 3) t) prev.2 (pf t).chk1 (pf t).chk2 q1 q2 q3).1) := by
  unfold step; simp only [dif_neg q1, dif_neg q3, dif_pos q2]

theorem step_C (c : Dev nD) (t : Fin (cfgA a).N) (prev : St (F := F) c) (q1 : ¬ P1 a t) (q3 : ¬ P3 a t) (q2 : ¬ P2 a t) :
    step a Varr pf c t prev = (prev.1, (runC c (crd a t) (ms0 a t) (hs0 a t) (ms1 a t) (hs1 a t) (ms2 a t) (hs2 a t) (tb0 a) (tb1 a) (iblk a Varr c (0 : Fin 3) t) (iblk a Varr c (1 : Fin 3) t) prev.2 (pf t).chk1 (pf t).chk2 q1 q2 q3).1) := by
  unfold step; simp only [dif_neg q1, dif_neg q3, dif_neg q2]

/-- The last point's one store covers the output block. -/
theorem coverD (c : Dev nD) (t : Fin (cfgA a).N) (prev : St (F := F) c) (q1 : ¬ P1 a t) (q3 : P3 a t) (y : S8x1024.Idx) :
    ∃ pc ∈ (runD c (crd a t) (ms0 a t) (hs0 a t) (ms1 a t) (hs1 a t) (ms2 a t) (hs2 a t) (tb0 a) (tb1 a) (iblk a Varr c (0 : Fin 3) t) (iblk a Varr c (1 : Fin 3) t) prev.2 (pf t).chk1 (pf t).chk2 q1 ((pf t).last_excl q3) q3).1, y ∈ pc.1.set :=
  View.cover_of_tiledL (runD c (crd a t) (ms0 a t) (hs0 a t) (ms1 a t) (hs1 a t) (ms2 a t) (hs2 a t) (tb0 a) (tb1 a) (iblk a Varr c (0 : Fin 3) t) (iblk a Varr c (1 : Fin 3) t) prev.2 (pf t).chk1 (pf t).chk2 q1 ((pf t).last_excl q3) q3).1 S8x1024.size (by sl_kernel_rfl) y

/-! ## What the windows' buffers hold when the body runs -/

theorem after_0 (c : Dev nD) (t : Fin (cfgA a).N) : (dats a Varr qS pf 0 c).after (0 : Fin 3) t = iblk a Varr c (0 : Fin 3) t := rfl
theorem after_1 (c : Dev nD) (t : Fin (cfgA a).N) : (dats a Varr qS pf 0 c).after (1 : Fin 3) t = iblk a Varr c (1 : Fin 3) t := rfl
theorem after_2 (c : Dev nD) (t : Fin (cfgA a).N) : (dats a Varr qS pf 0 c).after (2 : Fin 3) t = (traj a Varr pf c t.val t.isLt).1 := rfl

/-- An input window holds its block, fetched at this point or not. -/
theorem before_0 (c : Dev nD) (t : Fin (cfgA a).N) (d) : (dats a Varr qS pf 0 c).before (0 : Fin 3) t d = iblk a Varr c (0 : Fin 3) t :=
  ((dats a Varr qS pf 0 c).before_in_eq_fetched (0 : Fin 3) rfl (fun _ => rfl) (fun _ _ _ => rfl) (fun t => by rw [after_0]; unfold Dat.blockOf iblk; rfl) t d).trans
    (by unfold Dat.fetched Dat.blockOf iblk; rfl)
theorem before_1 (c : Dev nD) (t : Fin (cfgA a).N) (d) : (dats a Varr qS pf 0 c).before (1 : Fin 3) t d = iblk a Varr c (1 : Fin 3) t :=
  ((dats a Varr qS pf 0 c).before_in_eq_fetched (1 : Fin 3) rfl (fun _ => rfl) (fun _ _ _ => rfl) (fun t => by rw [after_1]; unfold Dat.blockOf iblk; rfl) t d).trans
    (by unfold Dat.fetched Dat.blockOf iblk; rfl)

/-- The body at point `t` on its staging buffers, as the pipeline calls it. -/
abbrev bodyAt (t : Fin (cfgA a).N) : Prog (TpuEff nD τ sig (Elt F) Λ₀ .tc) PUnit :=
  cc0__logdenom_kernel (crd a t) tbM0 (Memref.isWhole_whole _) tbM1 (Memref.isWhole_whole _) (ms0 a t) (hs0 a t) (ms1 a t) (hs1 a t) (ms2 a t) (hs2 a t) scM (Memref.isWhole_whole _)

set_option maxHeartbeats 4000000 in
theorem sound_body (c : Dev nD) (t : Fin (cfgA a).N) :
    iprop((dats a Varr qS pf 0 c).Φ t.castSucc ∗ (dats a Varr qS pf 0 c).owesAt () t.castSucc
        ∗ (∃ d, owns (c : Thread nD τ) (ms0 a t) fullShare ((dats a Varr qS pf 0 c).before (0 : Fin 3) t d))
        ∗ (∃ d, owns (c : Thread nD τ) (ms1 a t) fullShare ((dats a Varr qS pf 0 c).before (1 : Fin 3) t d))
        ∗ (∃ d, owns (c : Thread nD τ) (ms2 a t) fullShare ((dats a Varr qS pf 0 c).before (2 : Fin 3) t d)))
      ⊢ wp frame (wpE (defs₀ (F := F)) Variants.none c none) Set.univ (bodyAt a t) fun _ =>
          iprop((dats a Varr qS pf 0 c).Φ t.succ ∗ (dats a Varr qS pf 0 c).owesAt () t.succ
            ∗ bigSep Finset.univ fun w : Fin (cfgA a).W =>
                match (cfgA a).idle w ((cfgA a).grid.coords t) with
                | true =>
                  match ((cfgA a).win w).flush t with
                  | false => iprop(∃ d, owns (c : Thread nD τ) (((cfgA a).win w).stage ((cfgA a).slots t w)) fullShare ((dats a Varr qS pf 0 c).before w t d))
                  | true => owns (c : Thread nD τ) (((cfgA a).win w).stage ((cfgA a).slots t w)) fullShare ((dats a Varr qS pf 0 c).after w t)
                | false => owns (c : Thread nD τ) (((cfgA a).win w).stage ((cfgA a).slots t w)) fullShare ((dats a Varr qS pf 0 c).after w t)) := by
  rw [bigSep_W0]
  rewrite [show (dats a Varr qS pf 0 c).Φ t.succ = Phi a Varr pf c t.succ from rfl, show (dats a Varr qS pf 0 c).Φ t.castSucc = Phi a Varr pf c t.castSucc from rfl,
    show (dats a Varr qS pf 0 c).owesAt () t.succ = (dats a Varr qS pf 0 c).owesAt () t.castSucc from rfl]
  by_cases q1 : P1 a t
  · obtain ⟨i2, f2⟩ := (pf t).idle2 ((pf t).first_excl q1).2
    rewrite [i2]
    simp only [before_0, before_1, after_0, after_1, f2]
    unfold Phi; simp only [prevT_castSucc, prevT_succ, traj_eq, step_A a Varr pf c t _ q1, Fin.val_castSucc, Fin.val_succ]
    iintro ⟨⟨⟨%s0, %hs0', HS0⟩, HT0, HT1, HP⟩, Ho, ⟨%d0, H0⟩, ⟨%d1, H1⟩, ⟨%d2, H2⟩⟩
    iapply ((runA c (crd a t) (ms0 a t) (hs0 a t) (ms1 a t) (hs1 a t) (ms2 a t) (hs2 a t) (tb0 a) (tb1 a) (iblk a Varr c (0 : Fin 3) t) (iblk a Varr c (1 : Fin 3) t) (pf t).chk1 (pf t).chk2 q1 ((pf t).first_excl q1).1 ((pf t).first_excl q1).2).2 _ s0 _)
    isplitl [H0]; · iapply rep_of_owns; iexact H0
    isplitl [H1]; · iapply rep_of_owns; iexact H1
    isplitl [HT0]; · iexact HT0
    isplitl [HT1]; · iexact HT1
    isplitl [H2]; · iexact H2
    isplitl [HS0]; · iexact HS0
    iintro ⟨H0, H1, HT0, HT1, H2, HS0⟩
    isplitl [HS0 HT0 HT1 HP]
    · isplitl [HS0]
      · iexists _; isplitr; swap
        · iexact HS0
        · ipureintro; intro _; rfl
      isplitl [HT0]; · iexact HT0
      isplitl [HT1]; · iexact HT1
      iexact HP
    isplitl [Ho]; · iexact Ho
    isplitl [H0]; · iapply owns_of_rep; iexact H0
    isplitl [H1]; · iapply owns_of_rep; iexact H1
    iexists d2; iexact H2
  · have hne : t.val ≠ 0 := fun h => q1 ((pf t).first0 h)
    by_cases q3 : P3 a t
    · have i2 := (pf t).live2 q3
      rewrite [i2]
      simp only [before_0, before_1, after_0, after_1, after_2]
      unfold Phi; simp only [prevT_castSucc, prevT_succ, traj_eq, step_D a Varr pf c t _ q1 q3, Fin.val_castSucc, Fin.val_succ]
      iintro ⟨⟨⟨%s0, %hs0', HS0⟩, HT0, HT1, HP⟩, Ho, ⟨%d0, H0⟩, ⟨%d1, H1⟩, ⟨%d2, H2⟩⟩
      obtain rfl := hs0' hne
      iapply ((runD c (crd a t) (ms0 a t) (hs0 a t) (ms1 a t) (hs1 a t) (ms2 a t) (hs2 a t) (tb0 a) (tb1 a) (iblk a Varr c (0 : Fin 3) t) (iblk a Varr c (1 : Fin 3) t) _ (pf t).chk1 (pf t).chk2 q1 ((pf t).last_excl q3) q3).2.2 _)
      isplitl [H0]; · iapply rep_of_owns; iexact H0
      isplitl [H1]; · iapply rep_of_owns; iexact H1
      isplitl [HT0]; · iexact HT0
      isplitl [HT1]; · iexact HT1
      isplitl [H2]; · iexists _; iexact H2
      isplitl [HS0]; · iexact HS0
      iintro ⟨H0, H1, HT0, HT1, ⟨%e2, H2⟩, HS0⟩
      isplitl [HS0 HT0 HT1 HP]
      · isplitl [HS0]
        · iexists _; isplitr; swap
          · iexact HS0
          · ipureintro; intro _; rfl
        isplitl [HT0]; · iexact HT0
        isplitl [HT1]; · iexact HT1
        iexact HP
      isplitl [Ho]; · iexact Ho
      isplitl [H0]; · iapply owns_of_rep; iexact H0
      isplitl [H1]; · iapply owns_of_rep; iexact H1
      unfold owns; iexists _; isplitr; swap
      · iexact H2
      · ipureintro; exact View.read_writes_of_cover _ _ _ _ _ (coverD a Varr pf c t _ q1 q3)
    · obtain ⟨i2, f2⟩ := (pf t).idle2 q3
      by_cases q2 : P2 a t
      · rewrite [i2]
        simp only [before_0, before_1, after_0, after_1, f2]
        unfold Phi; simp only [prevT_castSucc, prevT_succ, traj_eq, step_B a Varr pf c t _ q1 q3 q2, Fin.val_castSucc, Fin.val_succ]
        iintro ⟨⟨⟨%s0, %hs0', HS0⟩, HT0, HT1, HP⟩, Ho, ⟨%d0, H0⟩, ⟨%d1, H1⟩, ⟨%d2, H2⟩⟩
        obtain rfl := hs0' hne
        iapply ((runB c (crd a t) (ms0 a t) (hs0 a t) (ms1 a t) (hs1 a t) (ms2 a t) (hs2 a t) (tb0 a) (tb1 a) (iblk a Varr c (0 : Fin 3) t) (iblk a Varr c (1 : Fin 3) t) _ (pf t).chk1 (pf t).chk2 q1 q2 q3).2 _ _)
        isplitl [H0]; · iapply rep_of_owns; iexact H0
        isplitl [H1]; · iapply rep_of_owns; iexact H1
        isplitl [HT0]; · iexact HT0
        isplitl [HT1]; · iexact HT1
        isplitl [H2]; · iexact H2
        isplitl [HS0]; · iexact HS0
        iintro ⟨H0, H1, HT0, HT1, H2, HS0⟩
        isplitl [HS0 HT0 HT1 HP]
        · isplitl [HS0]
          · iexists _; isplitr; swap
            · iexact HS0
            · ipureintro; intro _; rfl
          isplitl [HT0]; · iexact HT0
          isplitl [HT1]; · iexact HT1
          iexact HP
        isplitl [Ho]; · iexact Ho
        isplitl [H0]; · iapply owns_of_rep; iexact H0
        isplitl [H1]; · iapply owns_of_rep; iexact H1
        iexists d2; iexact H2
      · rewrite [i2]
        simp only [before_0, before_1, after_0, after_1, f2]
        unfold Phi; simp only [prevT_castSucc, prevT_succ, traj_eq, step_C a Varr pf c t _ q1 q3 q2, Fin.val_castSucc, Fin.val_succ]
        iintro ⟨⟨⟨%s0, %hs0', HS0⟩, HT0, HT1, HP⟩, Ho, ⟨%d0, H0⟩, ⟨%d1, H1⟩, ⟨%d2, H2⟩⟩
        obtain rfl := hs0' hne
        iapply ((runC c (crd a t) (ms0 a t) (hs0 a t) (ms1 a t) (hs1 a t) (ms2 a t) (hs2 a t) (tb0 a) (tb1 a) (iblk a Varr c (0 : Fin 3) t) (iblk a Varr c (1 : Fin 3) t) _ (pf t).chk1 (pf t).chk2 q1 q2 q3).2 _ _)
        isplitl [H0]; · iapply rep_of_owns; iexact H0
        isplitl [H1]; · iapply rep_of_owns; iexact H1
        isplitl [HT0]; · iexact HT0
        isplitl [HT1]; · iexact HT1
        isplitl [H2]; · iexact H2
        isplitl [HS0]; · iexact HS0
        iintro ⟨H0, H1, HT0, HT1, H2, HS0⟩
        isplitl [HS0 HT0 HT1 HP]
        · isplitl [HS0]
          · iexists _; isplitr; swap
            · iexact HS0
            · ipureintro; intro _; rfl
          isplitl [HT0]; · iexact HT0
          isplitl [HT1]; · iexact HT1
          iexact HP
        isplitl [Ho]; · iexact Ho
        isplitl [H0]; · iapply owns_of_rep; iexact H0
        isplitl [H1]; · iapply owns_of_rep; iexact H1
        iexists d2; iexact H2

/-- The library's body obligation, at every point. -/
theorem body_obligation (c : Dev nD) : BodyObligation (dats a Varr qS pf 0 c) (defs₀ (F := F)) Variants.none () Set.univ := fun t => by
  rw [bigSep_W0]
  exact sound_body a Varr qS pf c t

end Cert.Kernel.Hand

end
-- ==== Proof.KAdm.lean ====
/-
  The launch side of the kernel program's frame, first part.

  The pallas_call's two prefetched tables are constants the program itself writes: table 0 lists, for
  each of the 36 grid points, the row block (of 1024 rows) the first input window reads, table 1 the
  row block the second reads — the 36 pairs (r, c) with r ≤ c < 8.  Here: the tables' contents as a
  function of nothing; their admissibility (every entry is below 8, so every block of 1024 × 256 lies
  inside the 8192 × 256 array); the buffer contents when the region is entered (the host operations
  before it, folded over the launch memory); the fact that the tables then hold exactly those
  contents; and the program as host lines, the region, host lines.
-/
import proofs.«104923_j4312147165445_2_alg».proof.Proof.Gen.Kernel.Launch
import Idealize.ShloMosaic.Lib.Pipeline.FrameSuffix
import Idealize.ShloMosaic.Lib.StableHlo.Run

noncomputable section

namespace Cert.Kernel.Hand

open Idealize.ShloMosaic Idealize.ShloMosaic.TcCoe
open Idealize.SL Idealize.SL.RA Idealize.SL.BI
open scoped Idealize.SL.BI
open Idealize.SL.BI.BIBase Idealize.SL.Sem
open Cert.Kernel Cert.Kernel.Gen

variable {F : FTy → Type} [FloatOps F]

/-! ## The tables -/

/-- The prefetched tables' contents: table `k` holds the `k`-th literal list, element `i` the list's entry at
    `i`'s row-major position. -/
def tbl : pre0.Contents (Elt F) :=
  (fun
    | 0 => fun i => lit0 (S36.rowMajor i)
    | 1 => fun i => lit1 (S36.rowMajor i)
    | ⟨_ + 2, h⟩ => absurd h (Nat.not_lt.2 (Nat.le_add_left _ _)) : (k : Fin 2) → (pre0.ref k).ty.Contents (Elt F))

/-- Every entry of the first list is a row-block number below 8. -/
theorem lit0_lt : ∀ n : Fin 36, (lit0 n).toNat < 8 := by decide
/-- Every entry of the second list is a row-block number below 8. -/
theorem lit1_lt : ∀ n : Fin 36, (lit1 n).toNat < 8 := by decide

/-- The first window's row-block index at a point is an entry of table 0. -/
theorem transform_0_lt (pf : pre0.Contents (Elt F)) (h0 : ∀ j : S36.Idx, (pf 0 j : BitVec 32).toNat < 8) (i : grid0.Coords) :
    cc0_transform_0 k0_off1_inb numel1_S1 pf i 0 < 8 := h0 _
/-- Its column-block index is 0. -/
theorem transform_0_col (pf : pre0.Contents (Elt F)) (i : grid0.Coords) :
    cc0_transform_0 k0_off1_inb numel1_S1 pf i 1 = 0 := rfl
/-- The second window's row-block index at a point is an entry of table 1. -/
theorem transform_1_lt (pf : pre0.Contents (Elt F)) (h1 : ∀ j : S36.Idx, (pf 1 j : BitVec 32).toNat < 8) (i : grid0.Coords) :
    cc0_transform_1 k0_off1_inb numel1_S1 pf i 0 < 8 := h1 _
/-- Its column-block index is 0. -/
theorem transform_1_col (pf : pre0.Contents (Elt F)) (i : grid0.Coords) :
    cc0_transform_1 k0_off1_inb numel1_S1 pf i 1 = 0 := rfl

/-- Tables whose entries are all below 8 are admissible: block `b < 8` of 1024 rows ends at row
    `(b + 1) * 1024 ≤ 8192`, and the one column block is the whole width; the elements are 32 bits wide. -/
theorem ok_of_lt (pf : pre0.Contents (Elt F)) (h0 : ∀ j : S36.Idx, (pf 0 j : BitVec 32).toNat < 8)
    (h1 : ∀ j : S36.Idx, (pf 1 j : BitVec 32).toNat < 8) : ok0 pf := by
  refine ⟨fun i => ⟨fun a => ?_, .inl rfl⟩, fun i => ⟨fun a => ?_, .inl rfl⟩⟩
  · match a with
    | 0 =>
      have h := transform_0_lt pf h0 i
      show (cc0_transform_0 k0_off1_inb numel1_S1 pf i 0 + 1) * 1024 ≤ 8192
      omega
    | 1 =>
      show (cc0_transform_0 k0_off1_inb numel1_S1 pf i 1 + 1) * 256 ≤ 256
      rw [transform_0_col]
  · match a with
    | 0 =>
      have h := transform_1_lt pf h1 i
      show (cc0_transform_1 k0_off1_inb numel1_S1 pf i 0 + 1) * 1024 ≤ 8192
      omega
    | 1 =>
      show (cc0_transform_1 k0_off1_inb numel1_S1 pf i 1 + 1) * 256 ≤ 256
      rw [transform_1_col]

/-- The program's tables are admissible. -/
theorem ok_tbl : ok0 (F := F) tbl :=
  ok_of_lt tbl (fun j => lit0_lt (S36.rowMajor j)) (fun j => lit1_lt (S36.rowMajor j))

/-- The tables' contents as admissible contents: what the pipeline is pinned at. -/
def adm : (pcfg0 (F := F)).Adm := ⟨tbl, ok_tbl⟩

/-! ## The contents at the region's entry -/

variable (m : (ℓ : Loc nD τ sig) → Buf (Elt F) ℓ)

/-- Core `c`'s buffer contents when the region is entered: the host operations before it, in order, from the
    launch memory. -/
abbrev V0 (c : Dev nD) : Valuation τ sig (Elt F) :=
  StableHlo.after (List.flatten [hostOps0, hostOps0_1, hostOps0_2, hostOps0_3, hostOps0_4]) (fun b => m (c, b))

/-- At the region's entry the tables hold `tbl`: the first two operations write them and no later one does. -/
theorem V0_tbl (c : Dev nD) : ∀ k : Fin 2, V0 m c (Proc.devRef .tc (pre0.ref k)) = tbl k
  | 0 => by
    show V0 m c (Proc.devRef .tc main_c) = fun i => lit0 (S36.rowMajor i)
    dsimp only [V0]
    simp only [hostOps0, hostOps0_1, hostOps0_2, hostOps0_3, hostOps0_4, List.flatten_cons, List.flatten_nil, List.append_nil,
      List.cons_append, List.nil_append]
    after_results
    rfl
  | 1 => by
    show V0 m c (Proc.devRef .tc main_c_0) = fun i => lit1 (S36.rowMajor i)
    dsimp only [V0]
    simp only [hostOps0, hostOps0_1, hostOps0_2, hostOps0_3, hostOps0_4, List.flatten_cons, List.flatten_nil, List.append_nil,
      List.cons_append, List.nil_append]
    after_results
    rfl

/-! ## The program around the region -/

theorem hostOps0_fresh : (hostOps0 : List (HloOp τ sig (Elt F))).Forall fun op => op.fresh = ∅ := by
  simp only [List.Forall]; repeat' constructor
theorem hostOps0_1_fresh : (hostOps0_1 : List (HloOp τ sig (Elt F))).Forall fun op => op.fresh = ∅ := by
  simp only [List.Forall]; repeat' constructor
theorem hostOps0_2_fresh : (hostOps0_2 : List (HloOp τ sig (Elt F))).Forall fun op => op.fresh = ∅ := by
  simp only [List.Forall]; repeat' constructor
theorem hostOps0_3_fresh : (hostOps0_3 : List (HloOp τ sig (Elt F))).Forall fun op => op.fresh = ∅ := by
  simp only [List.Forall]; repeat' constructor
theorem hostOps0_4_fresh : (hostOps0_4 : List (HloOp τ sig (Elt F))).Forall fun op => op.fresh = ∅ := by
  simp only [List.Forall]; repeat' constructor
theorem hostOps1_fresh : (hostOps1 : List (HloOp τ sig (Elt F))).Forall fun op => op.fresh = ∅ := by
  simp only [List.Forall]; repeat' constructor

/-- The program is the host lines before the region, the region, and the host lines after it: holding the
    unscoped buffers at the launch memory it reduces to the region, entered at `V0`, continued by the later lines. -/
theorem hmain (𝒱₀ : Variants) :
    Pipeline.HMainPK (Ix := Unit) (Name := ℕ) (U := UR sig nD τ) (Lvl := ℕ) pcfgs 0 defs₀ 𝒱₀ m (main (F := F))
      (fun c b => V0 m c (Proc.devRef .tc b)) (fun _ => Pipeline.chain [StableHlo.seq hostOps1]) :=
  Pipeline.hmainP_around pcfgs 0 defs₀ 𝒱₀ m main [hostOps0, hostOps0_1, hostOps0_2, hostOps0_3, hostOps0_4] [hostOps1]
    ⟨hostOps0_sub, hostOps0_1_sub, hostOps0_2_sub, hostOps0_3_sub, hostOps0_4_sub⟩
    ⟨hostOps0_fresh, hostOps0_1_fresh, hostOps0_2_fresh, hostOps0_3_fresh, hostOps0_4_fresh⟩
    main_chain

end Cert.Kernel.Hand

end
-- ==== Proof.KBodyFacts.lean ====
/-
  The grid points' facts at the program's own tables.

  The two tables list the 36 tile pairs (p, q), p at most q below 8, row by row.  Every entry is
  below 8, so the accumulator rows the body addresses exist; the first point is the pair (0, 0) and
  the last the pair (7, 7), both on the diagonal; the output block is stored at the last point only
  and written back only there.  The words the body reads are the tables' entries; everything else is
  decided point by point over the 36 points.
-/
import proofs.«104923_j4312147165445_2_alg».proof.Proof.KBodyOblig
import proofs.«104923_j4312147165445_2_alg».proof.Proof.KAdm
import Mathlib.Tactic.IntervalCases

set_option maxRecDepth 16384
set_option Elab.async false

noncomputable section

namespace Cert.Kernel.Hand

open Cert.Kernel Cert.Kernel.Gen
open Idealize.ShloMosaic
open Idealize.ShloMosaic.TcCoe
open Idealize.SL.Sem
open Idealize.ShloMosaic.Pipeline (Dat Cfg Window)

variable {F : FTy → Type} [FloatOps F]

/-- The grid has 36 points, whatever the tables hold. -/
theorem N36 : (cfgA (F := F) adm).N = 36 := N_0

/-- Point `t`'s entry of the first list. -/
abbrev pW (t : Fin (cfgA (F := F) adm).N) : BitVec 32 := lit0 (t.cast N36)
/-- Point `t`'s entry of the second list. -/
abbrev qW (t : Fin (cfgA (F := F) adm).N) : BitVec 32 := lit1 (t.cast N36)

/-- The table position the body reads at grid point `i`. -/
abbrev jdx (i : grid0.Coords) : S36.Idx :=
  (Rect.unit (s := S36) (k0_off1 i) S1.size (k0_off1_inb i)).toLoadRect.idx (Shape.Idx.first (numel1_S1.symm ▸ Nat.one_pos))

/-- A word read from a table is the table's entry at that position, whatever the table holds. -/
theorem word0_eq (i : grid0.Coords) (T : S36.Idx → Elt F .i32) : word0 (F := F) i T = T (jdx i) := rfl
theorem word1_eq (i : grid0.Coords) (T : S36.Idx → Elt F .i32) : word1 (F := F) i T = T (jdx i) := rfl

/-- At point `t` that position is `t` (in row-major order, the only order of a list). -/
theorem jdx_rowMajor_val : ∀ t : Fin grid0.N, (S36.rowMajor (jdx (grid0.coords t))).val = t.val := by decide +kernel
theorem jdx_rowMajor (t : Fin grid0.N) : S36.rowMajor (jdx (grid0.coords t)) = t.cast N_0 := Fin.ext (jdx_rowMajor_val t)

/-- The word the body reads from the first table at point `t` is the list's entry `t`. -/
theorem word0_tbl (t : Fin (cfgA (F := F) adm).N) : word0 (F := F) (crd adm t) (tb0 adm) = pW (F := F) t := by
  rw [word0_eq]
  show lit0 (S36.rowMajor (jdx (grid0.coords t))) = lit0 (t.cast N36)
  rw [jdx_rowMajor]
/-- The same of the second table. -/
theorem word1_tbl (t : Fin (cfgA (F := F) adm).N) : word1 (F := F) (crd adm t) (tb1 adm) = qW (F := F) t := by
  rw [word1_eq]
  show lit1 (S36.rowMajor (jdx (grid0.coords t))) = lit1 (t.cast N36)
  rw [jdx_rowMajor]

/-! The decided facts, stated over the lists' entries and the grid coordinates only. -/

theorem dec_chk : ∀ t : Fin grid0.N, k0_chk1 (lit0 (t.cast N_0)) ∧ k0_chk2 (lit0 (t.cast N_0)) (lit1 (t.cast N_0)) := by decide +kernel
theorem dec_first0 : ∀ t : Fin grid0.N, t.val = 0 → isFirst (grid0.coords t) := by decide +kernel
theorem dec_first_excl : ∀ t : Fin grid0.N, isFirst (grid0.coords t) →
    ¬ (k0_cond2 (lit0 (t.cast N_0)) (lit1 (t.cast N_0)) = 1#1) ∧ ¬ (k0_cond3 (grid0.coords t) = 1#1) := by decide +kernel
theorem dec_last_excl : ∀ t : Fin grid0.N, k0_cond3 (grid0.coords t) = 1#1 → ¬ (k0_cond2 (lit0 (t.cast N_0)) (lit1 (t.cast N_0)) = 1#1) := by decide +kernel
theorem dec_idle2 : ∀ t : Fin grid0.N, ¬ (k0_cond3 (grid0.coords t) = 1#1) →
    idle0 (2 : Fin 3) (grid0.coords t) = true ∧ Window.flushOf grid0 true cc0_transform_2 t = false := by decide +kernel
theorem dec_live2 : ∀ t : Fin grid0.N, k0_cond3 (grid0.coords t) = 1#1 → idle0 (2 : Fin 3) (grid0.coords t) = false := by decide +kernel

/-- Every grid point's facts, at the program's tables. -/
theorem pointFacts : ∀ t : Fin (cfgA (F := F) adm).N, PointFacts (F := F) adm t := fun t =>
  { chk1 := by rw [word0_tbl]; exact (dec_chk t).1
    chk2 := by rw [word0_tbl, word1_tbl]; exact (dec_chk t).2
    first0 := dec_first0 t
    first_excl := fun h => by
      show ¬ (k0_cond2 (word0 (F := F) (crd adm t) (tb0 adm)) (word1 (F := F) (crd adm t) (tb1 adm)) = 1#1) ∧ ¬ (k0_cond3 (crd adm t) = 1#1)
      rw [word0_tbl, word1_tbl]; exact dec_first_excl t h
    last_excl := fun h => by
      show ¬ (k0_cond2 (word0 (F := F) (crd adm t) (tb0 adm)) (word1 (F := F) (crd adm t) (tb1 adm)) = 1#1)
      rw [word0_tbl, word1_tbl]; exact dec_last_excl t h
    idle2 := fun h => dec_idle2 t h
    live2 := fun h => dec_live2 t h }

end Cert.Kernel.Hand

end
-- ==== Proof.KBodyEnds.lean ====
/-
  The invariant's two ends.  At the first grid point it is made of what the launch hands the kernel:
  the accumulator at any contents, the body's halves of the two tables, the generator register.  After
  the last point it gives the accumulator and the register back; the tables' halves are let go.
-/
import proofs.«104923_j4312147165445_2_alg».proof.Proof.KBodyFacts
import Idealize.ShloMosaic.Lib.Pipeline.Frame

set_option maxRecDepth 16384

noncomputable section

namespace Cert.Kernel.Hand

open Cert.Kernel Cert.Kernel.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable {F : FTy → Type} [FloatOps F]

local notation "𝕄" => MT nD τ sig Unit (Elt F) ℕ (UR sig nD τ) ℕ

variable (Varr : (c : Dev nD) → (b : Ref sig .tc) → Buf (Elt F) ((c : Thread nD τ).loc b))
variable (qS : Fin 3 → PosShare TreeShare)

/-- The two tables conjoined one by one. -/
theorem bigSep_T {M : Type} [URA M] (Φ : Fin 2 → sProp M) : bigSep Finset.univ Φ = iprop(Φ (0 : Fin 2) ∗ Φ (1 : Fin 2)) :=
  bigSep_univ_eq_bigSepL [(0 : Fin 2), (1 : Fin 2)] (by decide) (by decide) Φ

/-- The invariant at the first point, from the scoped rest, the register and the tables' halves. -/
theorem phi0_intro (c : Dev nD) :
    iprop(Pipeline.ΦA (Val := Elt F) (U := UR sig nD τ) spec0 c ∗ Pipeline.ΦT (Val := Elt F) (U := UR sig nD τ) pre0 (tbl (F := F)) c)
      ⊢ (dats (F := F) adm Varr qS pointFacts 0 c).Φ 0 := by
  unfold Pipeline.ΦA Pipeline.ΦT Pipeline.prefHeld
  rw [bigSep_T, scopedRest0_eq, show (dats (F := F) adm Varr qS pointFacts 0 c).Φ 0 = Phi adm Varr pointFacts c 0 from rfl]
  unfold Phi
  iintro ⟨⟨⟨%s0, HS0⟩, HP⟩, HT0, HT1⟩
  isplitl [HS0]
  · iexists s0; isplitr; swap
    · iexact HS0
    · ipureintro; intro h; exact absurd rfl h
  isplitl [HT0]; · iexact HT0
  isplitl [HT1]; · iexact HT1
  iexact HP

/-- After the last point the accumulator and the register are given back. -/
theorem phiN_exit (c : Dev nD) :
    (dats (F := F) adm Varr qS pointFacts 0 c).Φ (Fin.last (cfgA (F := F) adm).N) ⊢ Pipeline.ΦA (Val := Elt F) (U := UR sig nD τ) spec0 c := by
  unfold Pipeline.ΦA
  rw [scopedRest0_eq, show (dats (F := F) adm Varr qS pointFacts 0 c).Φ (Fin.last (cfgA (F := F) adm).N) = Phi adm Varr pointFacts c (Fin.last _) from rfl]
  unfold Phi
  iintro ⟨⟨%s0, -, HS0⟩, -, -, HP⟩
  isplitl [HS0]; · iexists s0; iexact HS0
  iexact HP

end Cert.Kernel.Hand

end
-- ==== Proof.KLaunchSharedLib.lean ====
/-
  Three facts the frame of a pipeline needs when several of its windows are handed ONE array, stated for
  any pipeline.  The library proves their counterparts assuming the windows' arrays pairwise distinct;
  here the arrays may coincide.

  * The buffers a host line after the region may touch, held whole, are the DISTINCT buffers behind the
    windows' arrays and the buffers that bypass the region.
  * Host lines that write no array run from those two groups to the same two groups, the first unchanged,
    the second at what the lines compute.
  * The contents "the arrays at `A`, every other buffer at `V`" read at window `w`'s array are `A w`,
    provided every window on that same array is given the same contents.
  * The pipeline's arrays, window by window, each a whole buffer at the window's own share.
-/
import Idealize.ShloMosaic.Lib.Pipeline.FrameSuffix

noncomputable section

namespace Cert.Kernel.Hand

open Idealize.ShloMosaic Idealize.ShloMosaic.Pipeline
open Idealize.SL
open Idealize.SL.BI (sProp bigSep bigSep_map bigSep_union bigSep_congr)
open scoped Idealize.SL.BI
open Idealize.SL.BI.BIBase Idealize.SL.BI.Laws Idealize.SL.Sem Idealize.SL.ProofMode
open Idealize.SL.RA
open TcCoe

variable {nD : Nat} {τ : Topo} {sig : RefSig} {Val : EltTy → Type}
variable {Ix : Type} [DecidableEq Ix] {Name : Type} [DecidableEq Name] {U : Type} [URA U] {Lvl : Type}

section Tail

variable {Λ₀ : Idealize.SL.Sem.Labels} {P : Type}
variable (pcs : P → PCfg sig Λ₀ Val) (defs₀ : Defs nD τ sig Val Λ₀) (𝒱₀ : Variants)

local notation "𝕄" => MT nD τ sig Ix Val Name U Lvl
local notation "𝔻" => Pipeline.defs pcs defs₀
local notation "𝕍" => Variants.lift 𝒱₀

/-- The buffers a line after the region may touch, held whole at `Wv`, are the distinct buffers behind the
    windows' arrays at `Wv` and the bypassing buffers at `Wv` — whether or not windows share an array: no
    array's buffer is a bypassing buffer, and the first group is indexed by buffers, not by windows. -/
theorem held_tailRefs_shared {gr : Nat} {W : Nat} (pre : Prefetch sig) (win : Fin W → WinSpec sig gr)
    (c : Dev nD) (Wv : Valuation τ sig Val) :
    (StableHlo.held (c.tc : Thread nD τ) (tailRefs sig pre win) Wv : sProp 𝕄)
      = iprop(arrBufs win c (fun b => Wv (Proc.devRef .tc b)) ∗ unscopedRestP pre win c (fun b => Wv (Proc.devRef .tc b))) := by
  classical
  have hdisj : Disjoint (Finset.univ.image (arrRef win)) (restRefsP sig pre win) :=
    Finset.disjoint_left.mpr fun b hb hr => (Finset.mem_sdiff.mp (Finset.mem_sdiff.mp hr).1).2 hb
  unfold StableHlo.held tailRefs arrBufs unscopedRestP
  rw [bigSep_map, bigSep_union hdisj]
  rfl

set_option backward.isDefEq.respectTransparency.types false in
/-- The lines after the region, windows sharing arrays or not: from the boundary, the buffers behind the arrays at
    `Wv` and the bypassing buffers at `Wv`, the lines — touching only those buffers (`hsub`), allocating nothing
    (`hfresh`), writing no array (`hkeep`) — run and hand back the buffers behind the arrays at `Wv` still and the
    bypassing buffers at what the lines compute from `Wv`. -/
theorem tail_seqs_shared [Preorder Lvl] {gr : Nat} {W : Nat} (pre : Prefetch sig) (win : Fin W → WinSpec sig gr)
    (c : Dev nD) (Wv : Valuation τ sig Val) (opss : List (List (HloOp τ sig Val)))
    (hsub : ∀ ops ∈ opss, ∀ op ∈ ops, op.bufs ⊆ tailRefs sig pre win)
    (hfresh : ∀ ops ∈ opss, ∀ op ∈ ops, op.fresh = ∅)
    (hkeep : ∀ ops ∈ opss, ∀ op ∈ ops, ∀ w, Proc.devRef .tc (arrRef win w) ∉ op.writes)
    (Q' : PUnit → sProp 𝕄) :
    iprop((iprop(arrBufs win c (fun b => Wv (Proc.devRef .tc b))
              ∗ unscopedRestP pre win c (fun b => StableHlo.after opss.flatten Wv (Proc.devRef .tc b))) -∗ Q' ⟨⟩)
        ∗ boundary (c.tc : Thread nD τ) ∗ arrBufs win c (fun b => Wv (Proc.devRef .tc b))
        ∗ unscopedRestP pre win c (fun b => Wv (Proc.devRef .tc b)))
      ⊢ wp frame (wpE 𝔻 𝕍 (c.tc : Thread nD τ) none) Set.univ (chain (opss.map StableHlo.seq)) Q' := by
  classical
  have hW := held_tailRefs_shared (Ix := Ix) (Name := Name) (U := U) (Lvl := Lvl) pre win c Wv
  have hW' : (StableHlo.held (c.tc : Thread nD τ) (tailRefs sig pre win) (StableHlo.after opss.flatten Wv) : sProp 𝕄)
      = iprop(arrBufs win c (fun b => Wv (Proc.devRef .tc b))
          ∗ unscopedRestP pre win c (fun b => StableHlo.after opss.flatten Wv (Proc.devRef .tc b))) := by
    rw [held_tailRefs_shared pre win c]
    congr 1
    unfold arrBufs
    exact bigSep_congr fun b hb => by
      obtain ⟨w, -, rfl⟩ := Finset.mem_image.mp hb
      dsimp only
      rw [StableHlo.after_of_forall_not_mem _ _ fun op hop => ?_]
      obtain ⟨ops, hops, hop⟩ := List.mem_flatten.mp hop
      exact hkeep ops hops op hop w
  rw [← List.append_nil (opss.map StableHlo.seq), ← hW]
  iintro ⟨Hk, Hb⟩
  iapply (wp_seqs_then pcs defs₀ 𝒱₀ c (tailRefs sig pre win) [] opss hsub hfresh Wv) $$ Hb
  iintro Hb
  rw [chain_nil, wp_pure, hW']
  imodintro
  iapply Hk
  icases Hb with ⟨-, H⟩
  iexact H

end Tail

section Shares

variable {Λ₀ : Idealize.SL.Sem.Labels}

local notation "𝕄" => MT nD τ sig Ix Val Name U Lvl

/-- An input window's array is held at the share the proof data names for it. -/
theorem share_of_in {cfg : Cfg sig Λ₀} {c : Dev nD} (dat : Dat τ Val Ix Name U Lvl cfg c) (w : Fin cfg.W)
    (h : (cfg.win w).isOut = false) : dat.share w = dat.q w := by
  unfold Dat.share; rw [h]; exact if_neg Bool.false_ne_true

/-- An output window's array is held at the full share. -/
theorem share_of_out {cfg : Cfg sig Λ₀} {c : Dev nD} (dat : Dat τ Val Ix Name U Lvl cfg c) (w : Fin cfg.W)
    (h : (cfg.win w).isOut = true) : dat.share w = fullShare := by
  unfold Dat.share; rw [h]; exact if_pos rfl

/-- The pipeline's arrays, every window's array a whole buffer (`harr`): window by window, the buffer behind the
    window's array, whole, at the window's share — whatever the shares are. -/
theorem arrays_eq_shares {cfg : Cfg sig Λ₀} {c : Dev nD} (dat : Dat τ Val Ix Name U Lvl cfg c)
    (harr : ∀ w, (cfg.spec w).arr.IsWhole)
    (G : (w : Fin cfg.W) → Buf Val ((cfg.spec w).arr.view.loc (c.tc : Thread nD τ))) :
    (dat.arrays G : sProp 𝕄)
      = bigSep Finset.univ fun w => (((c.tc : Thread nD τ).loc (arrRef cfg.spec w)) ↦{dat.share w} G w : sProp 𝕄) := by
  unfold Dat.arrays
  exact bigSep_congr fun w _ => by rw [(harr w).set_eq_univ]

end Shares

/-- The contents with the arrays at `A` and every other buffer at `V`, read at window `w`'s array, are `A w` when
    every window on the same array is given the same contents (`hagree`; for distinct arrays there is no other
    such window). -/
theorem withArrays_arr_of_agree {gr : Nat} {W : Nat} (win : Fin W → WinSpec sig gr) (c : Dev nD) (V : Valuation τ sig Val)
    (A : (w : Fin W) → Buf Val ((win w).arr.view.loc (c.tc : Thread nD τ))) (w : Fin W)
    (hagree : ∀ (w' : Fin W) (e : Proc.devRef .tc (arrRef win w') = Proc.devRef (τ := τ) .tc (arrRef win w)),
      cast (congrArg (fun b' : DevRef τ sig => b'.ty.Contents Val) e) (A w') = A w) :
    withArrays win c V A (Proc.devRef .tc (arrRef win w)) = A w := by
  unfold withArrays
  have h : ∃ w', Proc.devRef .tc (arrRef win w') = Proc.devRef (τ := τ) .tc (arrRef win w) := ⟨w, rfl⟩
  rw [dif_pos h]
  exact hagree _ h.choose_spec

end Cert.Kernel.Hand

end
-- ==== Proof.KLaunchTail.lean ====
/-
  The launch side of the kernel program's frame: what the run needs about the windows' arrays and the
  host lines that follow the region.

  The pallas_call's first two input windows read ONE array (the 8192 × 256 stack of the two arguments);
  its third window writes the 8 × 1024 result.  So the distinct buffers behind the three windows' arrays
  are two, and the pipeline — which holds each window's array at a share of its own — holds the stack's
  left half for window 0, its right half for window 1, and the result whole.  The ten host lines after
  the region read the result and earlier host values; they touch no prefetched table, allocate nothing
  and write none of the windows' arrays.
-/
import proofs.«104923_j4312147165445_2_alg».proof.Proof.KAdm
import proofs.«104923_j4312147165445_2_alg».proof.Proof.KLaunchSharedLib

noncomputable section

namespace Cert.Kernel.Hand

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

/-! ## The shares -/

/-- The share each window holds its array at: the two input windows on the stacked array hold its left and
    right halves; the output window's entry is not read (an output's array is held at the full share). -/
def qShared : Fin 3 → PosShare TreeShare := fun
  | 0 => fullShare.left
  | 1 => fullShare.right
  | 2 => fullShare
  | ⟨_ + 3, h⟩ => absurd h (Nat.not_lt.2 (Nat.le_add_left _ _))

/-- The distinct buffers behind the three windows' arrays: the stacked array and the result. -/
theorem img_arr : Finset.univ.image (Pipeline.arrRef spec0) = {main_v13, main_v14} := by decide

/-- Those buffers held whole: the stacked array's and the result's. -/
theorem arrBufs_eq (c : Dev nD) (V : (b : Ref sig .tc) → Buf (Elt F) ((c.tc : Thread nD τ).loc b)) :
    (Pipeline.arrBufs spec0 c V : sProp 𝕄)
      = iprop((((c.tc : Thread nD τ).loc main_v13) ↦{fullShare} V main_v13)
          ∗ (((c.tc : Thread nD τ).loc main_v14) ↦{fullShare} V main_v14)) := by
  unfold Pipeline.arrBufs
  rw [img_arr, bigSep_insert (by decide), bigSep_singleton]
  rfl

section Data

variable (dats : (p : Fin 1) → (c : Dev nD) →
  Pipeline.Dat τ (Elt F) Unit ℕ (UR sig nD τ) ℕ (Pipeline.pin (pcfgs (F := F)) (fun _ => adm) p) c)

/-- The pipeline's arrays under the shares `qShared`: the stacked array's left half at window 0's contents, its
    right half at window 1's, the result whole at window 2's. -/
theorem arrays_eq3 (c : Dev nD) (hq : ∀ w, (dats 0 c).q w = qShared w)
    (G : (w : Fin 3) → Buf (Elt F) ((spec0 w).arr.view.loc (c.tc : Thread nD τ))) :
    ((dats 0 c).arrays G : sProp 𝕄)
      = iprop((((c.tc : Thread nD τ).loc main_v13) ↦{fullShare.left} G 0)
          ∗ (((c.tc : Thread nD τ).loc main_v13) ↦{fullShare.right} G 1)
          ∗ (((c.tc : Thread nD τ).loc main_v14) ↦{fullShare} G 2)) := by
  rw [arrays_eq_shares (dats 0 c) arr_whole0 G]
  refine (bigSep_W0 _).trans ?_
  rw [share_of_in (dats 0 c) 0 rfl, share_of_in (dats 0 c) 1 rfl, share_of_out (dats 0 c) 2 rfl, hq 0, hq 1]
  rfl

end Data

/-! ## The host lines after the region -/

/-- No line after the region touches a prefetched table. -/
theorem tail_sub : ∀ ops ∈ ([hostOps1] : List (List (HloOp τ sig (Elt F)))), ∀ op ∈ ops,
    op.bufs ⊆ Pipeline.tailRefs sig pre0 spec0 := by
  intro ops hops op hop
  simp only [List.mem_cons, List.mem_nil_iff, or_false] at hops
  rcases hops with rfl
  refine Pipeline.sub_tailRefs pre0 spec0 op ((List.forall_iff_forall_mem.mp hostOps1_sub) op hop) ?_
  simp only [hostOps1, List.mem_cons, List.mem_nil_iff, or_false] at hop
  rcases hop with rfl | rfl | rfl | rfl | rfl | rfl | rfl | rfl | rfl | rfl
  all_goals
    intro k
    fin_cases k <;>
      simp only [StableHlo.nullary_bufs, StableHlo.unary_bufs, StableHlo.binary_bufs, StableHlo.reshape_bufs,
        Finset.mem_insert, Finset.mem_singleton, not_or] <;>
      (repeat' constructor) <;> exact StableHlo.devRef_ne_of_ne (by decide)

/-- They allocate nothing. -/
theorem tail_fresh : ∀ ops ∈ ([hostOps1] : List (List (HloOp τ sig (Elt F)))), ∀ op ∈ ops, op.fresh = ∅ := by
  intro ops hops op hop
  simp only [List.mem_cons, List.mem_nil_iff, or_false] at hops
  rcases hops with rfl
  exact (List.forall_iff_forall_mem.mp hostOps1_fresh) op hop

/-- And write no array of the pipeline: each writes its own result buffer only. -/
theorem tail_keeps : ∀ ops ∈ ([hostOps1] : List (List (HloOp τ sig (Elt F)))), ∀ op ∈ ops,
    ∀ w, Proc.devRef .tc (Pipeline.arrRef spec0 w) ∉ op.writes := by
  intro ops hops op hop
  simp only [List.mem_cons, List.mem_nil_iff, or_false] at hops
  rcases hops with rfl
  simp only [hostOps1, List.mem_cons, List.mem_nil_iff, or_false] at hop
  rcases hop with rfl | rfl | rfl | rfl | rfl | rfl | rfl | rfl | rfl | rfl
  all_goals
    intro w
    fin_cases w <;>
      simp only [StableHlo.nullary_writes, StableHlo.unary_writes, StableHlo.binary_writes, StableHlo.reshape_writes,
        Finset.mem_singleton] <;>
      exact StableHlo.devRef_ne_of_ne (by decide)

end Cert.Kernel.Hand

end
-- ==== Proof.KLaunchShared.lean ====
/-
  The launch side of the kernel program's frame: the run of the whole program.

  The pallas_call reads ONE array, the 8192 × 256 stack of the two arguments, through its first TWO input
  windows (at a point, window 0 stages row block r and window 1 row block c of the same array), and writes
  its 8 × 1024 result through the third.  The pipeline holds each window's array at a share of its own, so
  the stack's buffer, held whole at the full share when the region is entered, is dealt as its LEFT half
  to window 0 and its RIGHT half to window 1 (both halves at the same contents: inputs are never written),
  and the two halves are joined again when the region is left, before the host lines that follow read it.
  With that, the library's launch theorem for windows sharing arrays gives: every weakly fair execution of
  the program terminates, faults nowhere, and ends with each window's array at what the write-backs leave
  and every other unscoped buffer at what the host lines after the region compute.
-/
import proofs.«104923_j4312147165445_2_alg».proof.Proof.KLaunchTail

noncomputable section

namespace Cert.Kernel.Hand

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

/-! ## Entering and leaving the region -/

section Run

variable (m : (ℓ : Loc nD τ sig) → Buf (Elt F) ℓ)
variable (dats : (p : Fin 1) → (c : Dev nD) →
  Pipeline.Dat τ (Elt F) Unit ℕ (UR sig nD τ) ℕ (Pipeline.pin (pcfgs (F := F)) (fun _ => adm) p) c)

local notation "cfgA" => Pipeline.pin (pcfgs (F := F)) (fun _ => adm)

/-- Window 0's array holds the stack as the region found it, at every point: an input is never written. -/
theorem arrAt_in0 (c : Dev nD) (hA : ∀ w, (dats 0 c).A w = V0 m c (Proc.devRef .tc (Pipeline.arrRef spec0 w))) (n : ℕ) :
    (dats 0 c).arrAt 0 n = V0 m c (Proc.devRef .tc main_v13) := ((dats 0 c).arrAt_in 0 rfl n).trans (hA 0)
/-- So does window 1's. -/
theorem arrAt_in1 (c : Dev nD) (hA : ∀ w, (dats 0 c).A w = V0 m c (Proc.devRef .tc (Pipeline.arrRef spec0 w))) (n : ℕ) :
    (dats 0 c).arrAt 1 n = V0 m c (Proc.devRef .tc main_v13) := ((dats 0 c).arrAt_in 1 rfl n).trans (hA 1)

/-- ENTERING: the buffers behind the arrays, whole at the full share at the entry contents, make the pipeline's
    arrays — the stacked array's full share dealt as its two halves to the two windows that read it. -/
theorem hsplit (c : Dev nD) (hA : ∀ w, (dats 0 c).A w = V0 m c (Proc.devRef .tc (Pipeline.arrRef spec0 w)))
    (hq : ∀ w, (dats 0 c).q w = qShared w) :
    (Pipeline.arrBufs spec0 c (fun b => V0 m c (Proc.devRef .tc b)) : sProp 𝕄)
      ⊢ (dats 0 c).arrays ((dats 0 c).arrAt · 0) := by
  rw [arrBufs_eq, arrays_eq3 dats c hq]
  rw [arrAt_in0 m dats c hA 0, arrAt_in1 m dats c hA 0, show (dats 0 c).arrAt 2 0 = V0 m c (Proc.devRef .tc main_v14) from hA 2]
  iintro ⟨H13, H14⟩
  ihave H := (pointsTo_share (PosShare.mem_left_op_right fullShare)).1 $$ H13
  icases H with ⟨Hl, Hr⟩
  isplitl [Hl]; · iexact Hl
  isplitl [Hr]; · iexact Hr
  iexact H14

/-- The buffer contents when the region is left: each window's array at what the write-backs leave, every other
    buffer as the region found it. -/
abbrev Wexit (c : Dev nD) : Valuation τ sig (Elt F) :=
  Pipeline.withArrays (cfgA 0).spec c (V0 m c) fun w => (dats 0 c).arrAt w (cfgA 0).N

/-- At the stacked array they are the entry contents: both windows on it agree (inputs, never written). -/
theorem Wexit_v13 (c : Dev nD) (hA : ∀ w, (dats 0 c).A w = V0 m c (Proc.devRef .tc (Pipeline.arrRef spec0 w))) :
    Wexit m dats c (Proc.devRef .tc main_v13) = V0 m c (Proc.devRef .tc main_v13) := by
  refine (withArrays_arr_of_agree (cfgA 0).spec c (V0 m c) (fun w => (dats 0 c).arrAt w (cfgA 0).N) (0 : Fin 3) ?_).trans
    (arrAt_in0 m dats c hA _)
  intro w' e
  match w', e with
  | 0, e => exact cast_eq _ _
  | 1, e => exact (cast_eq _ _).trans ((arrAt_in1 m dats c hA _).trans (arrAt_in0 m dats c hA _).symm)
  | 2, e => exact absurd (show main_v14 = main_v13 from Proc.devRef_injective _ e) (by decide)

/-- At the result they are what the output window's write-backs leave. -/
theorem Wexit_v14 (c : Dev nD) :
    Wexit m dats c (Proc.devRef .tc main_v14) = (dats 0 c).arrAt 2 (cfgA 0).N := by
  refine withArrays_arr_of_agree (cfgA 0).spec c (V0 m c) (fun w => (dats 0 c).arrAt w (cfgA 0).N) (2 : Fin 3) ?_
  intro w' e
  match w', e with
  | 0, e => exact absurd (show main_v13 = main_v14 from Proc.devRef_injective _ e) (by decide)
  | 1, e => exact absurd (show main_v13 = main_v14 from Proc.devRef_injective _ e) (by decide)
  | 2, e => exact cast_eq _ _

/-- The buffers that bypass the region are untouched by it. -/
theorem rest_exit (c : Dev nD) :
    (Pipeline.unscopedRestP pre0 spec0 c (fun b => V0 m c (Proc.devRef .tc b)) : sProp 𝕄)
      = Pipeline.unscopedRestP pre0 spec0 c (fun b => Wexit m dats c (Proc.devRef .tc b)) := by
  unfold Pipeline.unscopedRestP
  exact bigSep_congr fun b hb => by
    dsimp only
    rw [show Wexit m dats c (Proc.devRef .tc b) = V0 m c (Proc.devRef .tc b) from
      Pipeline.withArrays_of_ne (cfgA 0).spec c (V0 m c) _ b fun w e =>
        (Finset.mem_sdiff.mp (Finset.mem_sdiff.mp hb).1).2 (Finset.mem_image.mpr ⟨w, Finset.mem_univ _, e⟩)]

/-- LEAVING, joined: the pipeline's arrays after the last point are the buffers behind them whole at the full
    share at the exit contents — the stacked array's two halves, at one contents, joined. -/
theorem arrays_exit_join (c : Dev nD) (hA : ∀ w, (dats 0 c).A w = V0 m c (Proc.devRef .tc (Pipeline.arrRef spec0 w)))
    (hq : ∀ w, (dats 0 c).q w = qShared w) :
    ((dats 0 c).arrays ((dats 0 c).arrAt · (cfgA 0).N) : sProp 𝕄)
      ⊢ Pipeline.arrBufs spec0 c (fun b => Wexit m dats c (Proc.devRef .tc b)) := by
  rw [arrBufs_eq, arrays_eq3 dats c hq]
  rw [Wexit_v13 m dats c hA, Wexit_v14 m dats c, arrAt_in0 m dats c hA _, arrAt_in1 m dats c hA _]
  iintro ⟨Hl, Hr, H14⟩
  isplitr [H14]
  · iapply (pointsTo_share (PosShare.mem_left_op_right fullShare)).2
    isplitl [Hl]; · iexact Hl
    iexact Hr
  · iexact H14

/-- LEAVING, split again: and back. -/
theorem arrays_exit_split (c : Dev nD) (hA : ∀ w, (dats 0 c).A w = V0 m c (Proc.devRef .tc (Pipeline.arrRef spec0 w)))
    (hq : ∀ w, (dats 0 c).q w = qShared w) :
    (Pipeline.arrBufs spec0 c (fun b => Wexit m dats c (Proc.devRef .tc b)) : sProp 𝕄)
      ⊢ (dats 0 c).arrays ((dats 0 c).arrAt · (cfgA 0).N) := by
  rw [arrBufs_eq, arrays_eq3 dats c hq]
  rw [Wexit_v13 m dats c hA, Wexit_v14 m dats c, arrAt_in0 m dats c hA _, arrAt_in1 m dats c hA _]
  iintro ⟨H13, H14⟩
  ihave H := (pointsTo_share (PosShare.mem_left_op_right fullShare)).1 $$ H13
  icases H with ⟨Hl, Hr⟩
  isplitl [Hl]; · iexact Hl
  isplitl [Hr]; · iexact Hr
  iexact H14

set_option backward.isDefEq.respectTransparency.types false in
/-- THE LINES AFTER THE REGION: from the region's exit — the boundary, the pipeline's arrays after the last point,
    the bypassing buffers as the region found them — the host lines run (the stacked array joined for them to
    read, and dealt again afterwards) and hand back the arrays and the bypassing buffers at what the lines compute
    from the exit contents. -/
theorem htail (𝒱₀ : Variants) (c : Dev nD)
    (hA : ∀ w, (dats 0 c).A w = V0 m c (Proc.devRef .tc (Pipeline.arrRef spec0 w)))
    (hq : ∀ w, (dats 0 c).q w = qShared w) (Q' : PUnit → sProp 𝕄) :
    iprop((iprop((dats 0 c).arrays ((dats 0 c).arrAt · (cfgA 0).N)
              ∗ Pipeline.unscopedRestP pre0 spec0 c (Pipeline.afterTail pcfgs (fun _ => adm) dats 0 (V0 m) [hostOps1] c)) -∗ Q' ⟨⟩)
        ∗ boundary (c.tc : Thread nD τ) ∗ (dats 0 c).arrays ((dats 0 c).arrAt · (cfgA 0).N)
        ∗ Pipeline.unscopedRestP pre0 spec0 c (fun b => V0 m c (Proc.devRef .tc b)))
      ⊢ wp frame (wpE (Pipeline.defs pcfgs defs₀) (Variants.lift 𝒱₀) (c.tc : Thread nD τ) none) Set.univ
          (Pipeline.chain ([hostOps1].map StableHlo.seq)) Q' := by
  refine Idealize.SL.BI.BIBase.Entails.trans ?_ (tail_seqs_shared (Ix := Unit) (Name := ℕ) (U := UR sig nD τ) (Lvl := ℕ) pcfgs defs₀ 𝒱₀ pre0 spec0 c
    (Wexit m dats c) [hostOps1] tail_sub tail_fresh tail_keeps Q')
  rw [rest_exit m dats c]
  iintro ⟨Hk, Hb, Ha, Hr⟩
  isplitl [Hk]
  · iintro ⟨Ha', Hr'⟩
    iapply Hk
    isplitl [Ha']
    · iapply (arrays_exit_split m dats c hA hq); iexact Ha'
    · iexact Hr'
  isplitl [Hb]; · iexact Hb
  isplitl [Ha]
  · iapply (arrays_exit_join m dats c hA hq); iexact Ha
  · iexact Hr

end Run

/-! ## The run -/

section Frame

variable (m : (ℓ : Loc nD τ sig) → Buf (Elt F) ℓ) (ρ : Dev nD → PrngReg)
variable (dats : (p : Fin 1) → (c : Dev nD) →
  Pipeline.Dat τ (Elt F) Unit ℕ (UR sig nD τ) ℕ (Pipeline.pin (pcfgs (F := F)) (fun _ => adm) p) c)

local notation "cfgA" => Pipeline.pin (pcfgs (F := F)) (fun _ => adm)

/-- After the host lines the tables still hold their contents: no line after the region touches a table, and a
    table is no window's array. -/
theorem afterTail_pre (c : Dev nD) (k : Fin 2) :
    Pipeline.afterTail pcfgs (fun _ => adm) dats 0 (V0 m) [hostOps1] c (pre0.ref k) = tbl k := by
  unfold Pipeline.afterTail
  rw [StableHlo.after_of_forall_not_mem _ _ fun op hop hw => ?_,
    Pipeline.withArrays_of_ne _ c (V0 m c) _ _ fun w e => preFacts0.disj k w e.symm, V0_tbl]
  obtain ⟨ops, hops, hop⟩ := List.mem_flatten.mp hop
  exact Pipeline.devRef_pre_not_mem_tailRefs pre0 spec0 preFacts0 k (tail_sub ops hops op hop (op.writes_sub hw))

set_option backward.isDefEq.respectTransparency.types false in
/-- THE RUN. For any proof data whose arrays are the contents the region is entered at (`hA`), held at the shares
    `qShared` (`hq`), owing nothing (`howed`), with the body obligation at every point (`hbody`) and an invariant that
    starts from the scratch, the generator register and the tables' halves (`hin`) and gives the first two back
    (`hout`): every weakly fair execution of the program terminates, faults nowhere, and ends with every window's array
    at what the library computes from the proof data and every other unscoped buffer at what the host lines after
    the region compute from the region's exit contents. -/
theorem run_shared (𝒱₀ : Variants)
    (hA : ∀ c w, (dats 0 c).A w = V0 m c (Proc.devRef .tc (Pipeline.arrRef spec0 w)))
    (hq : ∀ c w, (dats 0 c).q w = qShared w)
    (howed : ∀ c t, (dats 0 c).owed t = 0)
    (hbody : ∀ c, Pipeline.BodyObligationLoose (dats 0 c) defs₀ 𝒱₀ () Set.univ)
    (hin : ∀ c, iprop(Pipeline.ΦA spec0 c ∗ Pipeline.ΦT pre0 tbl c) ⊢ (dats 0 c).Φ 0)
    (hout : ∀ c, (dats 0 c).Φ (Fin.last (cfgA 0).N) ⊢ Pipeline.ΦA spec0 c) :
    θ_run defs (onTc (τ := τ) (main (F := F))) (s₀ m ρ)
      (Pipeline.FramePost cfgA dats 0 (Pipeline.afterTail pcfgs (fun _ => adm) dats 0 (V0 m) [hostOps1])) := by
  classical
  exact Pipeline.θ_run_region_pf_tail pcfgs (fun _ => adm) dats () (cellOf_inj (fun _ => adm)) 0 winFacts₀0
    (Pipeline.OwnSemFacts.none (cfgA 0).spec) preFacts0 emb₁ defs₀ 𝒱₀ m ρ main
    (fun _ => Pipeline.chain ([hostOps1].map StableHlo.seq)) hbody
    block_pos0 arr_whole0 stage_whole0 howed
    (G := fun _ => iprop(emp))
    (u₀ := initOf (Pipeline.cells cfgA (cellOf_inj (fun _ => adm))) (Pipeline.launchToks cfgA (cellOf_inj (fun _ => adm))))
    (hu₀ := by
      iintro Hu; imodintro
      isplitl [Hu]
      · iapply (show (ownU _ : sProp 𝕄) ⊢ BI.own (emb₁ (initOf (Pipeline.cells cfgA (cellOf_inj (fun _ => adm)))
          (Pipeline.launchToks cfgA (cellOf_inj (fun _ => adm))))) from .rfl)
        iexact Hu
      iapply (show (BI.emp : sProp 𝕄) ⊢ bigSep Finset.univ (fun _ : Dev nD => (BI.emp : sProp 𝕄)) from by rw [BI.bigSep_emp_const])
      iempintro)
    (V := fun c b => V0 m c (Proc.devRef .tc b)) (hmain := hmain m 𝒱₀)
    (hsplit := fun c => hsplit m dats c (hA c) (hq c))
    (hpf := fun c k => V0_tbl m c k)
    (X := fun c => iprop(∃ r, prngReg c r)) (Y := fun c => iprop(∃ r, prngReg c r))
    (Z := fun c => Pipeline.unscopedRestP (Ix := Unit) (Name := ℕ) (U := UR sig nD τ) (Lvl := ℕ) pre0 spec0 c
      (fun b => V0 m c (Proc.devRef .tc b)))
    (Z' := fun c => Pipeline.unscopedRestP (Ix := Unit) (Name := ℕ) (U := UR sig nD τ) (Lvl := ℕ) pre0 spec0 c
      (Pipeline.afterTail pcfgs (fun _ => adm) dats 0 (V0 m) [hostOps1] c))
    (hX := fun c => by
      iintro ⟨HU, -, -, -, Hp, -⟩; imodintro
      isplitl [Hp]; · iexists _; iexact Hp
      iexact HU)
    (hin := fun c => (show _ ⊢ iprop(Pipeline.ΦA spec0 c ∗ Pipeline.ΦT pre0 tbl c) by
      unfold Pipeline.ΦA Pipeline.ΦT; iintro ⟨Hp, Ht, Hr⟩
      isplitr [Ht]
      · isplitl [Hr] <;> iassumption
      · iexact Ht).trans (hin c))
    (hout := fun c => (hout c).trans (by
      rw [Pipeline.ownSems0_none]; unfold Pipeline.ΦA
      iintro ⟨Hr, Hp⟩
      isplitl [Hp]; · iexact Hp
      isplitr; · iempintro
      iexact Hr))
    (htail := fun c Q' => htail m dats 𝒱₀ c (hA c) (hq c) Q')
    (QY := fun c s => ∀ b ∈ Pipeline.restRefsP sig pre0 spec0,
      s.mem ((c.tc : Thread nD τ).loc b) = Pipeline.afterTail pcfgs (fun _ => adm) dats 0 (V0 m) [hostOps1] c b)
    (hY := fun c s' => by
      iintro ⟨-, HU, HSI⟩
      unfold Pipeline.unscopedRestP
      imodintro
      iapply (pointsTo_read_all (Pipeline.restRefsP sig pre0 spec0) (fun b => (c.tc : Thread nD τ).loc b)
        (Pipeline.afterTail pcfgs (fun _ => adm) dats 0 (V0 m) [hostOps1] c) s')
      isplitl [HU] <;> iassumption)
    (hQ := fun s h c => ⟨(h c).1, Pipeline.rest_of_restP pre0 spec0 tbl c
      (Pipeline.afterTail pcfgs (fun _ => adm) dats 0 (V0 m) [hostOps1] c) s (afterTail_pre m dats c) (h c).2.1 (h c).2.2⟩)

end Frame

/-- info: 'Cert.Kernel.Hand.run_shared' depends on axioms: [propext, Classical.choice, Quot.sound] -/
#guard_msgs in #print axioms run_shared

end Cert.Kernel.Hand

end
-- ==== Proof.KKernelRun.lean ====
/-
  The kernel program's run: every weakly fair execution of @main terminates without a fault, the
  pipeline's arrays end at what the proof data computes and every other buffer at what the host
  operations give it.  The body obligation, the invariant's ends and the launch side put together.
-/
import proofs.«104923_j4312147165445_2_alg».proof.Proof.KBodyEnds
import proofs.«104923_j4312147165445_2_alg».proof.Proof.KLaunchShared

set_option maxRecDepth 16384

noncomputable section

namespace Cert.Kernel.Hand

open Cert.Kernel Cert.Kernel.Gen
open Idealize.ShloMosaic
open Idealize.ShloMosaic.TcCoe
open Idealize.SL Idealize.SL.Sem
open Idealize.ShloMosaic.Rounds
open Idealize.ShloMosaic.Pipeline (Dat Cfg Window BodyObligation BodyObligationLoose cellOf)

variable {F : FTy → Type} [FloatOps F]

variable (m : (ℓ : Loc nD τ sig) → Buf (Elt F) ℓ) (ρ : Dev nD → PrngReg)

/-- The buffers' contents when the region is entered, read at a TensorCore reference. -/
abbrev Ventry (c : Dev nD) (b : Ref sig .tc) : Buf (Elt F) ((c : Thread nD τ).loc b) := V0 m c (Proc.devRef .tc b)

/-- The proof data at the program's tables and the region-entry contents. -/
abbrev datsM : (p : Fin 1) → (c : Dev nD) → Dat τ (Elt F) Unit ℕ (UR sig nD τ) ℕ (Pipeline.pin (pcfgs (F := F)) (fun _ => adm) p) c :=
  dats (F := F) adm (Ventry m) qShared pointFacts

set_option backward.isDefEq.respectTransparency.types false in
theorem run_main :
    θ_run defs (onTc (τ := τ) (main (F := F))) (s₀ m ρ)
      (Pipeline.FramePost (Pipeline.pin pcfgs (fun _ => adm)) (datsM m) 0 (Pipeline.afterTail pcfgs (fun _ => adm) (datsM m) 0 (V0 m) [hostOps1])) :=
  run_shared m ρ (datsM m) Variants.none
    (fun c w => by fin_cases w <;> rfl)
    (fun _ _ => rfl) (fun _ _ => rfl)
    (fun c => (body_obligation (F := F) adm (Ventry m) qShared pointFacts c).loose)
    (phi0_intro (F := F) (Ventry m) qShared)
    (phiN_exit (F := F) (Ventry m) qShared)

end Cert.Kernel.Hand

end
-- ==== Proof.KLaunchPost.lean ====
/-
  The launch side of the kernel program's frame: what the claim reads off the run.

  The claim speaks of three buffers.  The two argument arrays are written by no host operation, before or
  after the region, and are no window's array (the region reads their STACK, a host value), so they end as
  the launch memory had them.  The program's result is the last value the host lines after the region
  compute; those lines read the region's result array — which ends at what the output window's write-backs
  leave — and one earlier host value, which the region does not touch.
-/
import proofs.«104923_j4312147165445_2_alg».proof.Proof.KLaunchShared

noncomputable section

namespace Cert.Kernel.Hand

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

section Post

variable (m : (ℓ : Loc nD τ sig) → Buf (Elt F) ℓ) (ρ : Dev nD → PrngReg)
variable (dats : (p : Fin 1) → (c : Dev nD) →
  Pipeline.Dat τ (Elt F) Unit ℕ (UR sig nD τ) ℕ (Pipeline.pin (pcfgs (F := F)) (fun _ => adm) p) c)

local notation "cfgA" => Pipeline.pin (pcfgs (F := F)) (fun _ => adm)

/-! ## The contents the region is entered at, at the arguments -/

/-- No host operation before the region writes the first argument. -/
theorem V0_arg0 (c : Dev nD) : V0 m c (Proc.devRef .tc main_arg0) = m ((c.tc : Thread nD τ).loc main_arg0) := by
  dsimp only [V0]
  simp only [hostOps0, hostOps0_1, hostOps0_2, hostOps0_3, hostOps0_4, List.flatten_cons, List.flatten_nil, List.append_nil,
    List.cons_append, List.nil_append]
  after_results

/-- Nor the second. -/
theorem V0_arg1 (c : Dev nD) : V0 m c (Proc.devRef .tc main_arg1) = m ((c.tc : Thread nD τ).loc main_arg1) := by
  dsimp only [V0]
  simp only [hostOps0, hostOps0_1, hostOps0_2, hostOps0_3, hostOps0_4, List.flatten_cons, List.flatten_nil, List.append_nil,
    List.cons_append, List.nil_append]
  after_results

/-! ## The contents the region is left at -/

/-- A buffer that is no window's array leaves the region as it entered it. -/
theorem Wexit_of_ne (c : Dev nD) (b : Ref sig .tc) (hb : ∀ w, Pipeline.arrRef spec0 w ≠ b) :
    Wexit m dats c (Proc.devRef .tc b) = V0 m c (Proc.devRef .tc b) :=
  Pipeline.withArrays_of_ne (cfgA 0).spec c (V0 m c) _ b hb

/-- The earlier host value the lines after the region read is as the region found it. -/
theorem Wexit_v12 (c : Dev nD) : Wexit m dats c (Proc.devRef .tc main_v12) = V0 m c (Proc.devRef .tc main_v12) :=
  Wexit_of_ne m dats c main_v12 (by decide)

/-! ## After the host lines -/

/-- The first argument after the host lines: they do not write it, and the region does not touch it. -/
theorem afterTail_arg0 (c : Dev nD) :
    Pipeline.afterTail pcfgs (fun _ => adm) dats 0 (V0 m) [hostOps1] c main_arg0 = m ((c.tc : Thread nD τ).loc main_arg0) := by
  unfold Pipeline.afterTail
  simp only [List.flatten_cons, List.flatten_nil, List.append_nil]
  refine Eq.trans ?_ ((Wexit_of_ne m dats c main_arg0 (by decide)).trans (V0_arg0 m c))
  show StableHlo.after hostOps1 (Wexit m dats c) (Proc.devRef .tc main_arg0) = _
  after_results

/-- The second likewise. -/
theorem afterTail_arg1 (c : Dev nD) :
    Pipeline.afterTail pcfgs (fun _ => adm) dats 0 (V0 m) [hostOps1] c main_arg1 = m ((c.tc : Thread nD τ).loc main_arg1) := by
  unfold Pipeline.afterTail
  simp only [List.flatten_cons, List.flatten_nil, List.append_nil]
  refine Eq.trans ?_ ((Wexit_of_ne m dats c main_arg1 (by decide)).trans (V0_arg1 m c))
  show StableHlo.after hostOps1 (Wexit m dats c) (Proc.devRef .tc main_arg1) = _
  after_results

/-- The program's result after the host lines: the lines' value from the contents the region is left at. -/
theorem afterTail_v21 (c : Dev nD) :
    Pipeline.afterTail pcfgs (fun _ => adm) dats 0 (V0 m) [hostOps1] c main_v21
      = StableHlo.after hostOps1 (Wexit m dats c) (Proc.devRef .tc main_v21) := by
  unfold Pipeline.afterTail
  simp only [List.flatten_cons, List.flatten_nil, List.append_nil]

/-! ## The run, read at the claim's buffers -/

/-- THE RUN at the three buffers the claim speaks of: under `run_shared`'s hypotheses every weakly fair execution
    of the program terminates, faults nowhere, and ends with the program's result at what the host lines after the
    region compute from the contents the region is left at (the region's result array at what the write-backs leave,
    `Wexit_v14`; the earlier host value untouched, `Wexit_v12`) and both argument arrays as launched. -/
theorem run_post (𝒱₀ : Variants)
    (hA : ∀ c w, (dats 0 c).A w = V0 m c (Proc.devRef .tc (Pipeline.arrRef spec0 w)))
    (hq : ∀ c w, (dats 0 c).q w = qShared w)
    (howed : ∀ c t, (dats 0 c).owed t = 0)
    (hbody : ∀ c, Pipeline.BodyObligationLoose (dats 0 c) defs₀ 𝒱₀ () Set.univ)
    (hin : ∀ c, iprop(Pipeline.ΦA spec0 c ∗ Pipeline.ΦT pre0 tbl c) ⊢ (dats 0 c).Φ 0)
    (hout : ∀ c, (dats 0 c).Φ (Fin.last (cfgA 0).N) ⊢ Pipeline.ΦA spec0 c) :
    θ_run defs (onTc (τ := τ) (main (F := F))) (s₀ m ρ) (fun r => ∀ c : Dev nD,
      r.2.mem ((c.tc : Thread nD τ).loc main_v21) = StableHlo.after hostOps1 (Wexit m dats c) (Proc.devRef .tc main_v21)
      ∧ r.2.mem ((c.tc : Thread nD τ).loc main_arg0) = m ((c.tc : Thread nD τ).loc main_arg0)
      ∧ r.2.mem ((c.tc : Thread nD τ).loc main_arg1) = m ((c.tc : Thread nD τ).loc main_arg1)) :=
  (θ_run defs _ _).mono (fun _ h c =>
    ⟨((h c).2 main_v21 (by decide : main_v21 ∈ Pipeline.restRefs sig spec0)).trans (afterTail_v21 m dats c),
     ((h c).2 main_arg0 (by decide : main_arg0 ∈ Pipeline.restRefs sig spec0)).trans (afterTail_arg0 m dats c),
     ((h c).2 main_arg1 (by decide : main_arg1 ∈ Pipeline.restRefs sig spec0)).trans (afterTail_arg1 m dats c)⟩)
    (run_shared m ρ dats 𝒱₀ hA hq howed hbody hin hout)

/-- info: 'Cert.Kernel.Hand.run_post' depends on axioms: [propext, Classical.choice, Quot.sound] -/
#guard_msgs in #print axioms run_post

end Post

end Cert.Kernel.Hand

end
-- ==== Proof.KKernelPost.lean ====
/-
  The kernel program's run read at the three buffers the claims speak of: the result buffer ends at
  the host operations after the pallas_call applied to the buffers as the region leaves them, and the
  two argument arrays end unchanged.
-/
import proofs.«104923_j4312147165445_2_alg».proof.Proof.KKernelRun
import proofs.«104923_j4312147165445_2_alg».proof.Proof.KLaunchPost

set_option maxRecDepth 16384

noncomputable section

namespace Cert.Kernel.Hand

open Cert.Kernel Cert.Kernel.Gen
open Idealize.ShloMosaic
open Idealize.ShloMosaic.TcCoe
open Idealize.SL Idealize.SL.Sem
open Idealize.ShloMosaic.Rounds
open Idealize.ShloMosaic.Pipeline (Dat Cfg Window BodyObligation BodyObligationLoose cellOf)

variable {F : FTy → Type} [FloatOps F]

variable (m : (ℓ : Loc nD τ sig) → Buf (Elt F) ℓ) (ρ : Dev nD → PrngReg)

set_option backward.isDefEq.respectTransparency.types false in
theorem post_main :
    θ_run defs (onTc (τ := τ) (main (F := F))) (s₀ m ρ) (fun r => ∀ c : Dev nD,
      r.2.mem ((c.tc : Thread nD τ).loc main_v21) = StableHlo.after hostOps1 (Wexit m (datsM m) c) (Proc.devRef .tc main_v21)
      ∧ r.2.mem ((c.tc : Thread nD τ).loc main_arg0) = m ((c.tc : Thread nD τ).loc main_arg0)
      ∧ r.2.mem ((c.tc : Thread nD τ).loc main_arg1) = m ((c.tc : Thread nD τ).loc main_arg1)) :=
  run_post m ρ (datsM m) Variants.none
    (fun c w => by fin_cases w <;> rfl)
    (fun _ _ => rfl) (fun _ _ => rfl)
    (fun c => (body_obligation (F := F) adm (Ventry m) qShared pointFacts c).loose)
    (phi0_intro (F := F) (Ventry m) qShared)
    (phiN_exit (F := F) (Ventry m) qShared)

/-- The frame: the run with the result forgotten. -/
theorem frame_main :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)) :=
  (θ_run defs _ _).mono (fun _ h c => (h c).2) (post_main m ρ)

end Cert.Kernel.Hand

end
-- ==== Proof.BodyRuns.lean ====
/-
  The kernel body run on whole staging buffers, once per control path.

  At a grid point the body reads the point's tile pair (p, q) from the two tables, zeroes the
  8 x 1024 accumulator at the first point, loads the two 1024-row blocks, adds the row sums of the
  masked exponential tile to accumulator row p and, off the diagonal (p different from q), its column
  sums to row q, and at the last point stores the logarithm of the accumulator to the output block.
  Four paths occur: the first point, an off-diagonal point, a diagonal point in the middle, and the
  last point.  Each run below says what the accumulator (and at the last point the output block)
  holds afterwards, under the path's decisions as hypotheses on the words read.
-/
import proofs.«104923_j4312147165445_2_alg».proof.Proof.Gen.KernelIdeal.Skeleton
import proofs.«104923_j4312147165445_2_alg».proof.Proof.Gen.KernelIdeal.Launch
import Idealize.ShloMosaic.Lib.Pipeline.Kit
import Idealize.ShloMosaic.Lib.Pipeline.TableIdle
import Idealize.ShloMosaic.Lib.Pipeline.FrameBody
import Idealize.ShloMosaic.Lib.Writes
import Idealize.ShloMosaic.Lib.Ring
import Idealize.ShloMosaic.Lib.Exec
import Idealize.ShloMosaic.Lib.Affine
import Idealize.ShloMosaic.Lib.Tactic

set_option maxRecDepth 16384
set_option Elab.async false

noncomputable section

namespace Cert.KernelIdeal.Hand

open Cert.KernelIdeal Cert.KernelIdeal.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable {F : FTy → Type} [FloatOps F]

local notation "𝕄" => MT nD τ sig Unit (Elt F) ℕ (UR sig nD τ) ℕ

/-- The two tables and the accumulator as whole buffers. -/
abbrev tbM0 : Memref sig .tc .smem S36 .i32 := Memref.whole main_c
abbrev tbM1 : Memref sig .tc .smem S36 .i32 := Memref.whole main_c_0
abbrev scM : Memref sig .tc .vmem S8x1024 .f32 := Memref.whole cc0_scratch0

/-- The word the body reads from the first table at grid point `i`: entry `i` of its contents. -/
abbrev word0 (i : grid0.Coords) (T : S36.Idx → Elt F .i32) : Elt F .i32 :=
  View.readAt (Elt F) (tbM0).view (Rect.unit (s := S36) (k0_off1 i) S1.size (k0_off1_inb i)).toLoadRect T (Shape.Idx.first (numel1_S1.symm ▸ Nat.one_pos))
/-- The same of the second table. -/
abbrev word1 (i : grid0.Coords) (T : S36.Idx → Elt F .i32) : Elt F .i32 :=
  View.readAt (Elt F) (tbM1).view (Rect.unit (s := S36) (k0_off1 i) S1.size (k0_off1_inb i)).toLoadRect T (Shape.Idx.first (numel1_S1.symm ▸ Nat.one_pos))

/-- "This is the first grid point", as the body computes it. -/
abbrev isFirst (i : grid0.Coords) : Prop :=
  (Scalar.cmpi .ne (Scalar.extui (Scalar.cmpi .eq (BitVec.ofNat 32 (i 0).val) 0#32)) 0#32) = 1#1

set_option maxHeartbeats 8000000 in
/-- The first point (tile pair (0,0)): the accumulator is zeroed, whatever it held, then row p is updated. -/
noncomputable def runA (c : Dev nD) (i : grid0.Coords) (arg3 : Memref sig .tc .vmem S1024x256 .f32) (harg3 : arg3.IsWhole) (arg4 : Memref sig .tc .vmem S1024x256 .f32) (harg4 : arg4.IsWhole)
    (arg5 : Memref sig .tc .vmem S8x1024 .f32) (harg5 : arg5.IsWhole)
    (T0 T1 : S36.Idx → Elt F .i32) (x0 x1 : S1024x256.Idx → Elt F .f32)
    (hw1 : k0_chk1 (word0 (F := F) i T0)) (hw2 : k0_chk2 (word0 (F := F) i T0) (word1 (F := F) i T1))
    (k0_h1 : isFirst i) (k0_h2 : ¬ (k0_cond2 (word0 (F := F) i T0) (word1 (F := F) i T1) = 1#1)) (k0_h3 : ¬(k0_cond3 i = 1#1)) :
    { out0 : Buf (Elt F) ((c : Thread nD τ).loc cc0_scratch0) //
      ∀ (y2 : S8x1024.Idx → Elt F .f32) (xa0 : Buf (Elt F) ((c : Thread nD τ).loc cc0_scratch0)) (K : PUnit → sProp 𝕄),
        iprop((arg3.view.loc (c : Thread nD τ) ↦[arg3.view.set]{fullShare} arg3.view.rep x0)
          ∗ (arg4.view.loc (c : Thread nD τ) ↦[arg4.view.set]{fullShare} arg4.view.rep x1)
          ∗ (tbM0.view.loc (c : Thread nD τ) ↦{fullShare.right} T0)
          ∗ (tbM1.view.loc (c : Thread nD τ) ↦{fullShare.right} T1)
          ∗ owns (c : Thread nD τ) arg5 fullShare y2
          ∗ (scM.view.loc (c : Thread nD τ) ↦{fullShare} xa0)
          ∗ (iprop((arg3.view.loc (c : Thread nD τ) ↦[arg3.view.set]{fullShare} arg3.view.rep x0)
          ∗ (arg4.view.loc (c : Thread nD τ) ↦[arg4.view.set]{fullShare} arg4.view.rep x1)
          ∗ (tbM0.view.loc (c : Thread nD τ) ↦{fullShare.right} T0)
          ∗ (tbM1.view.loc (c : Thread nD τ) ↦{fullShare.right} T1)
              ∗ owns (c : Thread nD τ) arg5 fullShare y2
              ∗ (scM.view.loc (c : Thread nD τ) ↦{fullShare} out0)) -∗ K ⟨⟩))
          ⊢ wp frame (wpE (defs₀ (F := F)) Variants.none c none) Set.univ (cc0__logdenom_kernel i tbM0 (Memref.isWhole_whole _) tbM1 (Memref.isWhole_whole _) arg3 harg3 arg4 harg4 arg5 harg5 scM (Memref.isWhole_whole _)) K } :=
  ⟨_, fun (y2 : S8x1024.Idx → Elt F .f32) (xa0 : Buf (Elt F) ((c : Thread nD τ).loc cc0_scratch0)) K => by
    unfold owns
    rw [cc0__logdenom_kernel_eq_skeleton]; unfold cc0__logdenom_kernel_skel
    iintro ⟨H0, H1, HT0, HT1, ⟨%f2, %hf2, HO2⟩, HS0, Hk⟩
    obtain rfl := harg5.eq_unread hf2
    have hS0 : scM.IsWhole := Memref.isWhole_whole _
    have hT0 : tbM0.IsWhole := Memref.isWhole_whole _
    have hT1 : tbM1.IsWhole := Memref.isWhole_whole _
    sl_exec! (disch := first | exact hw1 | exact hw2 | exact k0_h1 | exact k0_h2 | exact k0_h3)
    sl_step
    iapply Hk
    isplitl [H0]; · iexact H0
    isplitl [H1]; · iexact H1
    isplitl [HT0]; · iexact HT0
    isplitl [HT1]; · iexact HT1
    isplitl [HO2]
    · iexists _; isplitr; · ipureintro; exact harg5.read_unread _
      iexact HO2
    iexact HS0⟩

set_option maxHeartbeats 8000000 in
/-- An off-diagonal point after the first and before the last: rows p and q of the accumulator are updated. -/
noncomputable def runB (c : Dev nD) (i : grid0.Coords) (arg3 : Memref sig .tc .vmem S1024x256 .f32) (harg3 : arg3.IsWhole) (arg4 : Memref sig .tc .vmem S1024x256 .f32) (harg4 : arg4.IsWhole)
    (arg5 : Memref sig .tc .vmem S8x1024 .f32) (harg5 : arg5.IsWhole)
    (T0 T1 : S36.Idx → Elt F .i32) (x0 x1 : S1024x256.Idx → Elt F .f32) (xa0 : Buf (Elt F) ((c : Thread nD τ).loc cc0_scratch0))
    (hw1 : k0_chk1 (word0 (F := F) i T0)) (hw2 : k0_chk2 (word0 (F := F) i T0) (word1 (F := F) i T1))
    (k0_h1 : ¬ isFirst i) (k0_h2 : k0_cond2 (word0 (F := F) i T0) (word1 (F := F) i T1) = 1#1) (k0_h3 : ¬(k0_cond3 i = 1#1)) :
    { out0 : Buf (Elt F) ((c : Thread nD τ).loc cc0_scratch0) //
      ∀ (y2 : S8x1024.Idx → Elt F .f32) (K : PUnit → sProp 𝕄),
        iprop((arg3.view.loc (c : Thread nD τ) ↦[arg3.view.set]{fullShare} arg3.view.rep x0)
          ∗ (arg4.view.loc (c : Thread nD τ) ↦[arg4.view.set]{fullShare} arg4.view.rep x1)
          ∗ (tbM0.view.loc (c : Thread nD τ) ↦{fullShare.right} T0)
          ∗ (tbM1.view.loc (c : Thread nD τ) ↦{fullShare.right} T1)
          ∗ owns (c : Thread nD τ) arg5 fullShare y2
          ∗ (scM.view.loc (c : Thread nD τ) ↦{fullShare} xa0)
          ∗ (iprop((arg3.view.loc (c : Thread nD τ) ↦[arg3.view.set]{fullShare} arg3.view.rep x0)
          ∗ (arg4.view.loc (c : Thread nD τ) ↦[arg4.view.set]{fullShare} arg4.view.rep x1)
          ∗ (tbM0.view.loc (c : Thread nD τ) ↦{fullShare.right} T0)
          ∗ (tbM1.view.loc (c : Thread nD τ) ↦{fullShare.right} T1)
              ∗ owns (c : Thread nD τ) arg5 fullShare y2
              ∗ (scM.view.loc (c : Thread nD τ) ↦{fullShare} out0)) -∗ K ⟨⟩))
          ⊢ wp frame (wpE (defs₀ (F := F)) Variants.none c none) Set.univ (cc0__logdenom_kernel i tbM0 (Memref.isWhole_whole _) tbM1 (Memref.isWhole_whole _) arg3 harg3 arg4 harg4 arg5 harg5 scM (Memref.isWhole_whole _)) K } :=
  ⟨_, fun (y2 : S8x1024.Idx → Elt F .f32) K => by
    unfold owns
    rw [cc0__logdenom_kernel_eq_skeleton]; unfold cc0__logdenom_kernel_skel
    iintro ⟨H0, H1, HT0, HT1, ⟨%f2, %hf2, HO2⟩, HS0, Hk⟩
    obtain rfl := harg5.eq_unread hf2
    have hS0 : scM.IsWhole := Memref.isWhole_whole _
    have hT0 : tbM0.IsWhole := Memref.isWhole_whole _
    have hT1 : tbM1.IsWhole := Memref.isWhole_whole _
    sl_exec! (disch := first | exact hw1 | exact hw2 | exact k0_h1 | exact k0_h2 | exact k0_h3)
    sl_step
    iapply Hk
    isplitl [H0]; · iexact H0
    isplitl [H1]; · iexact H1
    isplitl [HT0]; · iexact HT0
    isplitl [HT1]; · iexact HT1
    isplitl [HO2]
    · iexists _; isplitr; · ipureintro; exact harg5.read_unread _
      iexact HO2
    iexact HS0⟩

set_option maxHeartbeats 8000000 in
/-- A diagonal point after the first and before the last: row p of the accumulator is updated. -/
noncomputable def runC (c : Dev nD) (i : grid0.Coords) (arg3 : Memref sig .tc .vmem S1024x256 .f32) (harg3 : arg3.IsWhole) (arg4 : Memref sig .tc .vmem S1024x256 .f32) (harg4 : arg4.IsWhole)
    (arg5 : Memref sig .tc .vmem S8x1024 .f32) (harg5 : arg5.IsWhole)
    (T0 T1 : S36.Idx → Elt F .i32) (x0 x1 : S1024x256.Idx → Elt F .f32) (xa0 : Buf (Elt F) ((c : Thread nD τ).loc cc0_scratch0))
    (hw1 : k0_chk1 (word0 (F := F) i T0)) (hw2 : k0_chk2 (word0 (F := F) i T0) (word1 (F := F) i T1))
    (k0_h1 : ¬ isFirst i) (k0_h2 : ¬ (k0_cond2 (word0 (F := F) i T0) (word1 (F := F) i T1) = 1#1)) (k0_h3 : ¬(k0_cond3 i = 1#1)) :
    { out0 : Buf (Elt F) ((c : Thread nD τ).loc cc0_scratch0) //
      ∀ (y2 : S8x1024.Idx → Elt F .f32) (K : PUnit → sProp 𝕄),
        iprop((arg3.view.loc (c : Thread nD τ) ↦[arg3.view.set]{fullShare} arg3.view.rep x0)
          ∗ (arg4.view.loc (c : Thread nD τ) ↦[arg4.view.set]{fullShare} arg4.view.rep x1)
          ∗ (tbM0.view.loc (c : Thread nD τ) ↦{fullShare.right} T0)
          ∗ (tbM1.view.loc (c : Thread nD τ) ↦{fullShare.right} T1)
          ∗ owns (c : Thread nD τ) arg5 fullShare y2
          ∗ (scM.view.loc (c : Thread nD τ) ↦{fullShare} xa0)
          ∗ (iprop((arg3.view.loc (c : Thread nD τ) ↦[arg3.view.set]{fullShare} arg3.view.rep x0)
          ∗ (arg4.view.loc (c : Thread nD τ) ↦[arg4.view.set]{fullShare} arg4.view.rep x1)
          ∗ (tbM0.view.loc (c : Thread nD τ) ↦{fullShare.right} T0)
          ∗ (tbM1.view.loc (c : Thread nD τ) ↦{fullShare.right} T1)
              ∗ owns (c : Thread nD τ) arg5 fullShare y2
              ∗ (scM.view.loc (c : Thread nD τ) ↦{fullShare} out0)) -∗ K ⟨⟩))
          ⊢ wp frame (wpE (defs₀ (F := F)) Variants.none c none) Set.univ (cc0__logdenom_kernel i tbM0 (Memref.isWhole_whole _) tbM1 (Memref.isWhole_whole _) arg3 harg3 arg4 harg4 arg5 harg5 scM (Memref.isWhole_whole _)) K } :=
  ⟨_, fun (y2 : S8x1024.Idx → Elt F .f32) K => by
    unfold owns
    rw [cc0__logdenom_kernel_eq_skeleton]; unfold cc0__logdenom_kernel_skel
    iintro ⟨H0, H1, HT0, HT1, ⟨%f2, %hf2, HO2⟩, HS0, Hk⟩
    obtain rfl := harg5.eq_unread hf2
    have hS0 : scM.IsWhole := Memref.isWhole_whole _
    have hT0 : tbM0.IsWhole := Memref.isWhole_whole _
    have hT1 : tbM1.IsWhole := Memref.isWhole_whole _
    sl_exec! (disch := first | exact hw1 | exact hw2 | exact k0_h1 | exact k0_h2 | exact k0_h3)
    sl_step
    iapply Hk
    isplitl [H0]; · iexact H0
    isplitl [H1]; · iexact H1
    isplitl [HT0]; · iexact HT0
    isplitl [HT1]; · iexact HT1
    isplitl [HO2]
    · iexists _; isplitr; · ipureintro; exact harg5.read_unread _
      iexact HO2
    iexact HS0⟩

set_option maxHeartbeats 8000000 in
/-- The last point (a diagonal one): row p is updated and the logarithm of the whole accumulator is stored to the output block. -/
noncomputable def runD (c : Dev nD) (i : grid0.Coords) (arg3 : Memref sig .tc .vmem S1024x256 .f32) (harg3 : arg3.IsWhole) (arg4 : Memref sig .tc .vmem S1024x256 .f32) (harg4 : arg4.IsWhole)
    (arg5 : Memref sig .tc .vmem S8x1024 .f32) (harg5 : arg5.IsWhole)
    (T0 T1 : S36.Idx → Elt F .i32) (x0 x1 : S1024x256.Idx → Elt F .f32) (xa0 : Buf (Elt F) ((c : Thread nD τ).loc cc0_scratch0))
    (hw1 : k0_chk1 (word0 (F := F) i T0)) (hw2 : k0_chk2 (word0 (F := F) i T0) (word1 (F := F) i T1))
    (k0_h1 : ¬ isFirst i) (k0_h2 : ¬ (k0_cond2 (word0 (F := F) i T0) (word1 (F := F) i T1) = 1#1)) (k0_h3 : k0_cond3 i = 1#1) :
    Σ' (out0 : List (View.Piece (Elt F) S8x1024 .f32)), { out1 : Buf (Elt F) ((c : Thread nD τ).loc cc0_scratch0) //
      ∀ (K : PUnit → sProp 𝕄),
        iprop((arg3.view.loc (c : Thread nD τ) ↦[arg3.view.set]{fullShare} arg3.view.rep x0)
          ∗ (arg4.view.loc (c : Thread nD τ) ↦[arg4.view.set]{fullShare} arg4.view.rep x1)
          ∗ (tbM0.view.loc (c : Thread nD τ) ↦{fullShare.right} T0)
          ∗ (tbM1.view.loc (c : Thread nD τ) ↦{fullShare.right} T1)
          ∗ (∃ d, owns (c : Thread nD τ) arg5 fullShare d)
          ∗ (scM.view.loc (c : Thread nD τ) ↦{fullShare} xa0)
          ∗ (iprop((arg3.view.loc (c : Thread nD τ) ↦[arg3.view.set]{fullShare} arg3.view.rep x0)
          ∗ (arg4.view.loc (c : Thread nD τ) ↦[arg4.view.set]{fullShare} arg4.view.rep x1)
          ∗ (tbM0.view.loc (c : Thread nD τ) ↦{fullShare.right} T0)
          ∗ (tbM1.view.loc (c : Thread nD τ) ↦{fullShare.right} T1)
              ∗ (∃ f, arg5.view.loc (c : Thread nD τ) ↦[arg5.view.set]{fullShare} arg5.view.writes (Elt F) f out0)
              ∗ (scM.view.loc (c : Thread nD τ) ↦{fullShare} out1)) -∗ K ⟨⟩))
          ⊢ wp frame (wpE (defs₀ (F := F)) Variants.none c none) Set.univ (cc0__logdenom_kernel i tbM0 (Memref.isWhole_whole _) tbM1 (Memref.isWhole_whole _) arg3 harg3 arg4 harg4 arg5 harg5 scM (Memref.isWhole_whole _)) K } :=
  ⟨_, _, fun K => by
    unfold owns
    rw [cc0__logdenom_kernel_eq_skeleton]; unfold cc0__logdenom_kernel_skel
    iintro ⟨H0, H1, HT0, HT1, ⟨%d2, %f2, -, HO2⟩, HS0, Hk⟩
    have hS0 : scM.IsWhole := Memref.isWhole_whole _
    have hT0 : tbM0.IsWhole := Memref.isWhole_whole _
    have hT1 : tbM1.IsWhole := Memref.isWhole_whole _
    sl_exec! (disch := first | exact hw1 | exact hw2 | exact k0_h1 | exact k0_h2 | exact k0_h3)
    sl_step
    iapply Hk
    isplitl [H0]; · iexact H0
    isplitl [H1]; · iexact H1
    isplitl [HT0]; · iexact HT0
    isplitl [HT1]; · iexact HT1
    isplitl [HO2]; · iexists _; iexact HO2
    iexact HS0⟩

end Cert.KernelIdeal.Hand

end
-- ==== Proof.BodyData.lean ====
/-
  What the accumulator and the output block hold point by point, the proof data of the pipeline,
  and the body obligation at every grid point.

  The pipeline is taken at any admissible contents of the two tables; the facts about a point
  that depend on the tables' values (which of the four paths it takes, that the rows it addresses
  exist) are a hypothesis here and are decided where the tables are known.
-/
import proofs.«104923_j4312147165445_2_alg».proof.Proof.BodyRuns

set_option maxRecDepth 16384
set_option Elab.async false

noncomputable section

namespace Cert.KernelIdeal.Hand

open Cert.KernelIdeal Cert.KernelIdeal.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable {F : FTy → Type} [FloatOps F]

local notation "𝕄" => MT nD τ sig Unit (Elt F) ℕ (UR sig nD τ) ℕ

-- the tables' contents the pipeline runs at, and the buffers' contents when the region is entered
variable (a : (pcfg0 (F := F)).Adm)
variable (Varr : (c : Dev nD) → (b : Ref sig .tc) → Buf (Elt F) ((c : Thread nD τ).loc b))
-- how the one stacked array's share is dealt between the two input windows (the output has its own array)
variable (qS : Fin 3 → PosShare TreeShare)

abbrev cfgA : Pipeline.Cfg sig Λ₀ := cfg0 (F := F) a

/-- Point `t`'s coordinates. -/
abbrev crd (t : Fin (cfgA a).N) : (cfgA a).grid.Coords := (cfgA a).grid.coords t

/-- Each window's current staging buffer at point `t`, and that it is a whole buffer. -/
abbrev ms0 (t : Fin (cfgA a).N) : Memref sig .tc .vmem S1024x256 .f32 := spec0_0.stage ((cfgA a).slots t (0 : Fin 3))
abbrev hs0 (t : Fin (cfgA a).N) : (ms0 a t).IsWhole := hstage0_0 (((cfgA a).slots t (0 : Fin 3)).cast nbuf0_0)
abbrev ms1 (t : Fin (cfgA a).N) : Memref sig .tc .vmem S1024x256 .f32 := spec0_1.stage ((cfgA a).slots t (1 : Fin 3))
abbrev hs1 (t : Fin (cfgA a).N) : (ms1 a t).IsWhole := hstage0_1 (((cfgA a).slots t (1 : Fin 3)).cast nbuf0_1)
abbrev ms2 (t : Fin (cfgA a).N) : Memref sig .tc .vmem S8x1024 .f32 := spec0_2.stage ((cfgA a).slots t (2 : Fin 3))
abbrev hs2 (t : Fin (cfgA a).N) : (ms2 a t).IsWhole := hstage0_2 (((cfgA a).slots t (2 : Fin 3)).cast nbuf0_2)

/-- The two tables' contents. -/
abbrev tb0 : S36.Idx → Elt F .i32 := a.1 (0 : Fin 2)
abbrev tb1 : S36.Idx → Elt F .i32 := a.1 (1 : Fin 2)

/-- Window `w`'s block at point `t`, read off its array as the region finds it. -/
def iblk (c : Dev nD) (w : Fin (cfgA a).W) (t : Fin (cfgA a).N) : (((cfgA a).win w).xblock (crd a t)).Idx → Elt F ((cfgA a).win w).elt :=
  (((cfgA a).win w).blk t).view.read (Elt F) (Varr c (Pipeline.arrRef spec0 w))

/-- The body's three decisions at point `t`: first point; off the diagonal; last point. -/
abbrev P1 (t : Fin (cfgA a).N) : Prop := isFirst (crd a t)
abbrev P2 (t : Fin (cfgA a).N) : Prop := k0_cond2 (word0 (F := F) (crd a t) (tb0 a)) (word1 (F := F) (crd a t) (tb1 a)) = 1#1
abbrev P3 (t : Fin (cfgA a).N) : Prop := k0_cond3 (crd a t) = 1#1

/-- What must be known of point `t` and the tables' values there. -/
structure PointFacts (t : Fin (cfgA a).N) : Prop where
  chk1 : k0_chk1 (word0 (F := F) (crd a t) (tb0 a))
  chk2 : k0_chk2 (word0 (F := F) (crd a t) (tb0 a)) (word1 (F := F) (crd a t) (tb1 a))
  first0 : t.val = 0 → P1 a t
  first_excl : P1 a t → ¬ P2 a t ∧ ¬ P3 a t
  last_excl : P3 a t → ¬ P2 a t
  idle2 : ¬ P3 a t → (cfgA a).idle (2 : Fin 3) ((cfgA a).grid.coords t) = true ∧ ((cfgA a).win (2 : Fin 3)).flush t = false
  live2 : P3 a t → (cfgA a).idle (2 : Fin 3) ((cfgA a).grid.coords t) = false

variable (pf : ∀ t : Fin (cfgA a).N, PointFacts a t)

/-- One staging buffer of the output window, through which its contents are stated. -/
abbrev VO : View sig .tc .vmem S8x1024 .f32 := (Memref.whole cc0_stg2_0 : Memref sig .tc .vmem S8x1024 .f32).view

/-- A pair: what the output block and the accumulator hold. -/
abbrev St (c : Dev nD) : Type := (S8x1024.Idx → Elt F .f32) × Buf (Elt F) ((c : Thread nD τ).loc cc0_scratch0)

/-- Contents nothing has determined yet. -/
def junkSt (c : Dev nD) : St (F := F) c := (VO.read (Elt F) VO.junk, scM.view.junk)

/-- One step: what they hold after the body at point `t`, from what they held before. The output block changes
    at the last point only. -/
def step (c : Dev nD) (t : Fin (cfgA a).N) (prev : St (F := F) c) : St (F := F) c :=
  if q1 : P1 a t then
    (prev.1, (runA c (crd a t) (ms0 a t) (hs0 a t) (ms1 a t) (hs1 a t) (ms2 a t) (hs2 a t) (tb0 a) (tb1 a) (iblk a Varr c (0 : Fin 3) t) (iblk a Varr c (1 : Fin 3) t) (pf t).chk1 (pf t).chk2 q1 ((pf t).first_excl q1).1 ((pf t).first_excl q1).2).1)
  else
    if q3 : P3 a t then
      (VO.read (Elt F) (VO.writes (Elt F) VO.junk (runD c (crd a t) (ms0 a t) (hs0 a t) (ms1 a t) (hs1 a t) (ms2 a t) (hs2 a t) (tb0 a) (tb1 a) (iblk a Varr c (0 : Fin 3) t) (iblk a Varr c (1 : Fin 3) t) prev.2 (pf t).chk1 (pf t).chk2 q1 ((pf t).last_excl q3) q3).1),
        (runD c (crd a t) (ms0 a t) (hs0 a t) (ms1 a t) (hs1 a t) (ms2 a t) (hs2 a t) (tb0 a) (tb1 a) (iblk a Varr c (0 : Fin 3) t) (iblk a Varr c (1 : Fin 3) t) prev.2 (pf t).chk1 (pf t).chk2 q1 ((pf t).last_excl q3) q3).2.1)
    else
      if q2 : P2 a t then
        (prev.1, (runB c (crd a t) (ms0 a t) (hs0 a t) (ms1 a t) (hs1 a t) (ms2 a t) (hs2 a t) (tb0 a) (tb1 a) (iblk a Varr c (0 : Fin 3) t) (iblk a Varr c (1 : Fin 3) t) prev.2 (pf t).chk1 (pf t).chk2 q1 q2 q3).1)
      else
        (prev.1, (runC c (crd a t) (ms0 a t) (hs0 a t) (ms1 a t) (hs1 a t) (ms2 a t) (hs2 a t) (tb0 a) (tb1 a) (iblk a Varr c (0 : Fin 3) t) (iblk a Varr c (1 : Fin 3) t) prev.2 (pf t).chk1 (pf t).chk2 q1 q2 q3).1)

/-- The trajectory: after position `n`. -/
def traj (c : Dev nD) : (n : ℕ) → n < (cfgA a).N → St (F := F) c
  | 0, h => step a Varr pf c ⟨0, h⟩ (junkSt c)
  | n + 1, h => step a Varr pf c ⟨n + 1, h⟩ (traj c n (Nat.lt_of_succ_lt h))

/-- What they held before point `t` (anything before the first). -/
def prev (c : Dev nD) (t : Fin (cfgA a).N) : St (F := F) c :=
  if h : t.val = 0 then (junkSt c) else traj a Varr pf c (t.val - 1) (by omega)

theorem traj_eq (c : Dev nD) (t : Fin (cfgA a).N) : traj a Varr pf c t.val t.isLt = step a Varr pf c t (prev a Varr pf c t) := by
  obtain ⟨n, hn⟩ := t
  cases n with
  | zero => rfl
  | succ n => unfold prev; simp only [Nat.add_one_ne_zero, dif_neg, not_false_eq_true]; rfl

/-- The same before position `t` of the invariant's index. -/
def prevT (c : Dev nD) (t : Fin ((cfgA a).N + 1)) : St (F := F) c :=
  if h : t.val = 0 then (junkSt c) else traj a Varr pf c (t.val - 1) (by omega)

theorem prevT_castSucc (c : Dev nD) (t : Fin (cfgA a).N) : prevT a Varr pf c t.castSucc = prev a Varr pf c t := rfl
theorem prevT_succ (c : Dev nD) (t : Fin (cfgA a).N) : prevT a Varr pf c t.succ = traj a Varr pf c t.val t.isLt := by
  unfold prevT; rw [dif_neg (by simp)]; rfl

/-- The invariant before point `t`: the accumulator at what the trajectory says (anything before the first point), the
    body's halves of the two tables, and the generator register. -/
def Phi (c : Dev nD) (t : Fin ((cfgA a).N + 1)) : sProp 𝕄 :=
  iprop((∃ s, ⌜t.val ≠ 0 → s = (prevT a Varr pf c t).2⌝ ∗ (scM.view.loc (c : Thread nD τ) ↦{fullShare} s))
    ∗ (tbM0.view.loc (c : Thread nD τ) ↦{fullShare.right} tb0 a)
    ∗ (tbM1.view.loc (c : Thread nD τ) ↦{fullShare.right} tb1 a)
    ∗ (∃ r, prngReg c r))

/-- The proof data of the pipeline on core `c`. -/
def dats (_ : Fin 1) (c : Dev nD) : Dat τ (Elt F) Unit ℕ (UR sig nD τ) ℕ (cfgA a) c where
  A w := match w with
    | ⟨0, _⟩ => Varr c (Pipeline.arrRef spec0 (0 : Fin 3))
    | ⟨1, _⟩ => Varr c (Pipeline.arrRef spec0 (1 : Fin 3))
    | ⟨2, _⟩ => Varr c (Pipeline.arrRef spec0 (2 : Fin 3))
  after w t := match w with
    | ⟨0, _⟩ => iblk a Varr c (0 : Fin 3) t
    | ⟨1, _⟩ => iblk a Varr c (1 : Fin 3) t
    | ⟨2, _⟩ => (traj a Varr pf c t.val t.isLt).1
  Φ t := Phi a Varr pf c t
  q := qS
  owed _ := 0

end Cert.KernelIdeal.Hand

end
-- ==== Proof.BodyOblig.lean ====
/-
  The body obligation of the pipeline: at every grid point, from the invariant and the three
  windows' current staging buffers, the kernel body runs and re-establishes the invariant with the
  buffers as the proof data says.  By cases on the point's path; each case is that path's run.
-/
import proofs.«104923_j4312147165445_2_alg».proof.Proof.BodyData

set_option maxRecDepth 16384
set_option Elab.async false

noncomputable section

namespace Cert.KernelIdeal.Hand

open Cert.KernelIdeal Cert.KernelIdeal.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable {F : FTy → Type} [FloatOps F]

local notation "𝕄" => MT nD τ sig Unit (Elt F) ℕ (UR sig nD τ) ℕ

variable (a : (pcfg0 (F := F)).Adm)
variable (Varr : (c : Dev nD) → (b : Ref sig .tc) → Buf (Elt F) ((c : Thread nD τ).loc b))
variable (qS : Fin 3 → PosShare TreeShare)
variable (pf : ∀ t : Fin (cfgA a).N, PointFacts a t)

/-! ## The step, path by path -/

theorem step_A (c : Dev nD) (t : Fin (cfgA a).N) (prev : St (F := F) c) (q1 : P1 a t) :
    step a Varr pf c t prev = (prev.1, (runA c (crd a t) (ms0 a t) (hs0 a t) (ms1 a t) (hs1 a t) (ms2 a t) (hs2 a t) (tb0 a) (tb1 a) (iblk a Varr c (0 : Fin 3) t) (iblk a Varr c (1 : Fin 3) t) (pf t).chk1 (pf t).chk2 q1 ((pf t).first_excl q1).1 ((pf t).first_excl q1).2).1) := by
  unfold step; simp only [dif_pos q1]

theorem step_D (c : Dev nD) (t : Fin (cfgA a).N) (prev : St (F := F) c) (q1 : ¬ P1 a t) (q3 : P3 a t) :
    step a Varr pf c t prev = (VO.read (Elt F) (VO.writes (Elt F) VO.junk (runD c (crd a t) (ms0 a t) (hs0 a t) (ms1 a t) (hs1 a t) (ms2 a t) (hs2 a t) (tb0 a) (tb1 a) (iblk a Varr c (0 : Fin 3) t) (iblk a Varr c (1 : Fin 3) t) prev.2 (pf t).chk1 (pf t).chk2 q1 ((pf t).last_excl q3) q3).1),
      (runD c (crd a t) (ms0 a t) (hs0 a t) (ms1 a t) (hs1 a t) (ms2 a t) (hs2 a t) (tb0 a) (tb1 a) (iblk a Varr c (0 : Fin 3) t) (iblk a Varr c (1 : Fin 3) t) prev.2 (pf t).chk1 (pf t).chk2 q1 ((pf t).last_excl q3) q3).2.1) := by
  unfold step; simp only [dif_neg q1, dif_pos q3]

theorem step_B (c : Dev nD) (t : Fin (cfgA a).N) (prev : St (F := F) c) (q1 : ¬ P1 a t) (q3 : ¬ P3 a t) (q2 : P2 a t) :
    step a Varr pf c t prev = (prev.1, (runB c (crd a t) (ms0 a t) (hs0 a t) (ms1 a t) (hs1 a t) (ms2 a t) (hs2 a t) (tb0 a) (tb1 a) (iblk a Varr c (0 : Fin 3) t) (iblk a Varr c (1 : Fin 3) t) prev.2 (pf t).chk1 (pf t).chk2 q1 q2 q3).1) := by
  unfold step; simp only [dif_neg q1, dif_neg q3, dif_pos q2]

theorem step_C (c : Dev nD) (t : Fin (cfgA a).N) (prev : St (F := F) c) (q1 : ¬ P1 a t) (q3 : ¬ P3 a t) (q2 : ¬ P2 a t) :
    step a Varr pf c t prev = (prev.1, (runC c (crd a t) (ms0 a t) (hs0 a t) (ms1 a t) (hs1 a t) (ms2 a t) (hs2 a t) (tb0 a) (tb1 a) (iblk a Varr c (0 : Fin 3) t) (iblk a Varr c (1 : Fin 3) t) prev.2 (pf t).chk1 (pf t).chk2 q1 q2 q3).1) := by
  unfold step; simp only [dif_neg q1, dif_neg q3, dif_neg q2]

/-- The last point's one store covers the output block. -/
theorem coverD (c : Dev nD) (t : Fin (cfgA a).N) (prev : St (F := F) c) (q1 : ¬ P1 a t) (q3 : P3 a t) (y : S8x1024.Idx) :
    ∃ pc ∈ (runD c (crd a t) (ms0 a t) (hs0 a t) (ms1 a t) (hs1 a t) (ms2 a t) (hs2 a t) (tb0 a) (tb1 a) (iblk a Varr c (0 : Fin 3) t) (iblk a Varr c (1 : Fin 3) t) prev.2 (pf t).chk1 (pf t).chk2 q1 ((pf t).last_excl q3) q3).1, y ∈ pc.1.set :=
  View.cover_of_tiledL (runD c (crd a t) (ms0 a t) (hs0 a t) (ms1 a t) (hs1 a t) (ms2 a t) (hs2 a t) (tb0 a) (tb1 a) (iblk a Varr c (0 : Fin 3) t) (iblk a Varr c (1 : Fin 3) t) prev.2 (pf t).chk1 (pf t).chk2 q1 ((pf t).last_excl q3) q3).1 S8x1024.size (by sl_kernel_rfl) y

/-! ## What the windows' buffers hold when the body runs -/

theorem after_0 (c : Dev nD) (t : Fin (cfgA a).N) : (dats a Varr qS pf 0 c).after (0 : Fin 3) t = iblk a Varr c (0 : Fin 3) t := rfl
theorem after_1 (c : Dev nD) (t : Fin (cfgA a).N) : (dats a Varr qS pf 0 c).after (1 : Fin 3) t = iblk a Varr c (1 : Fin 3) t := rfl
theorem after_2 (c : Dev nD) (t : Fin (cfgA a).N) : (dats a Varr qS pf 0 c).after (2 : Fin 3) t = (traj a Varr pf c t.val t.isLt).1 := rfl

/-- An input window holds its block, fetched at this point or not. -/
theorem before_0 (c : Dev nD) (t : Fin (cfgA a).N) (d) : (dats a Varr qS pf 0 c).before (0 : Fin 3) t d = iblk a Varr c (0 : Fin 3) t :=
  ((dats a Varr qS pf 0 c).before_in_eq_fetched (0 : Fin 3) rfl (fun _ => rfl) (fun _ _ _ => rfl) (fun t => by rw [after_0]; unfold Dat.blockOf iblk; rfl) t d).trans
    (by unfold Dat.fetched Dat.blockOf iblk; rfl)
theorem before_1 (c : Dev nD) (t : Fin (cfgA a).N) (d) : (dats a Varr qS pf 0 c).before (1 : Fin 3) t d = iblk a Varr c (1 : Fin 3) t :=
  ((dats a Varr qS pf 0 c).before_in_eq_fetched (1 : Fin 3) rfl (fun _ => rfl) (fun _ _ _ => rfl) (fun t => by rw [after_1]; unfold Dat.blockOf iblk; rfl) t d).trans
    (by unfold Dat.fetched Dat.blockOf iblk; rfl)

/-- The body at point `t` on its staging buffers, as the pipeline calls it. -/
abbrev bodyAt (t : Fin (cfgA a).N) : Prog (TpuEff nD τ sig (Elt F) Λ₀ .tc) PUnit :=
  cc0__logdenom_kernel (crd a t) tbM0 (Memref.isWhole_whole _) tbM1 (Memref.isWhole_whole _) (ms0 a t) (hs0 a t) (ms1 a t) (hs1 a t) (ms2 a t) (hs2 a t) scM (Memref.isWhole_whole _)

set_option maxHeartbeats 4000000 in
theorem sound_body (c : Dev nD) (t : Fin (cfgA a).N) :
    iprop((dats a Varr qS pf 0 c).Φ t.castSucc ∗ (dats a Varr qS pf 0 c).owesAt () t.castSucc
        ∗ (∃ d, owns (c : Thread nD τ) (ms0 a t) fullShare ((dats a Varr qS pf 0 c).before (0 : Fin 3) t d))
        ∗ (∃ d, owns (c : Thread nD τ) (ms1 a t) fullShare ((dats a Varr qS pf 0 c).before (1 : Fin 3) t d))
        ∗ (∃ d, owns (c : Thread nD τ) (ms2 a t) fullShare ((dats a Varr qS pf 0 c).before (2 : Fin 3) t d)))
      ⊢ wp frame (wpE (defs₀ (F := F)) Variants.none c none) Set.univ (bodyAt a t) fun _ =>
          iprop((dats a Varr qS pf 0 c).Φ t.succ ∗ (dats a Varr qS pf 0 c).owesAt () t.succ
            ∗ bigSep Finset.univ fun w : Fin (cfgA a).W =>
                match (cfgA a).idle w ((cfgA a).grid.coords t) with
                | true =>
                  match ((cfgA a).win w).flush t with
                  | false => iprop(∃ d, owns (c : Thread nD τ) (((cfgA a).win w).stage ((cfgA a).slots t w)) fullShare ((dats a Varr qS pf 0 c).before w t d))
                  | true => owns (c : Thread nD τ) (((cfgA a).win w).stage ((cfgA a).slots t w)) fullShare ((dats a Varr qS pf 0 c).after w t)
                | false => owns (c : Thread nD τ) (((cfgA a).win w).stage ((cfgA a).slots t w)) fullShare ((dats a Varr qS pf 0 c).after w t)) := by
  rw [bigSep_W0]
  rewrite [show (dats a Varr qS pf 0 c).Φ t.succ = Phi a Varr pf c t.succ from rfl, show (dats a Varr qS pf 0 c).Φ t.castSucc = Phi a Varr pf c t.castSucc from rfl,
    show (dats a Varr qS pf 0 c).owesAt () t.succ = (dats a Varr qS pf 0 c).owesAt () t.castSucc from rfl]
  by_cases q1 : P1 a t
  · obtain ⟨i2, f2⟩ := (pf t).idle2 ((pf t).first_excl q1).2
    rewrite [i2]
    simp only [before_0, before_1, after_0, after_1, f2]
    unfold Phi; simp only [prevT_castSucc, prevT_succ, traj_eq, step_A a Varr pf c t _ q1, Fin.val_castSucc, Fin.val_succ]
    iintro ⟨⟨⟨%s0, %hs0', HS0⟩, HT0, HT1, HP⟩, Ho, ⟨%d0, H0⟩, ⟨%d1, H1⟩, ⟨%d2, H2⟩⟩
    iapply ((runA c (crd a t) (ms0 a t) (hs0 a t) (ms1 a t) (hs1 a t) (ms2 a t) (hs2 a t) (tb0 a) (tb1 a) (iblk a Varr c (0 : Fin 3) t) (iblk a Varr c (1 : Fin 3) t) (pf t).chk1 (pf t).chk2 q1 ((pf t).first_excl q1).1 ((pf t).first_excl q1).2).2 _ s0 _)
    isplitl [H0]; · iapply rep_of_owns; iexact H0
    isplitl [H1]; · iapply rep_of_owns; iexact H1
    isplitl [HT0]; · iexact HT0
    isplitl [HT1]; · iexact HT1
    isplitl [H2]; · iexact H2
    isplitl [HS0]; · iexact HS0
    iintro ⟨H0, H1, HT0, HT1, H2, HS0⟩
    isplitl [HS0 HT0 HT1 HP]
    · isplitl [HS0]
      · iexists _; isplitr; swap
        · iexact HS0
        · ipureintro; intro _; rfl
      isplitl [HT0]; · iexact HT0
      isplitl [HT1]; · iexact HT1
      iexact HP
    isplitl [Ho]; · iexact Ho
    isplitl [H0]; · iapply owns_of_rep; iexact H0
    isplitl [H1]; · iapply owns_of_rep; iexact H1
    iexists d2; iexact H2
  · have hne : t.val ≠ 0 := fun h => q1 ((pf t).first0 h)
    by_cases q3 : P3 a t
    · have i2 := (pf t).live2 q3
      rewrite [i2]
      simp only [before_0, before_1, after_0, after_1, after_2]
      unfold Phi; simp only [prevT_castSucc, prevT_succ, traj_eq, step_D a Varr pf c t _ q1 q3, Fin.val_castSucc, Fin.val_succ]
      iintro ⟨⟨⟨%s0, %hs0', HS0⟩, HT0, HT1, HP⟩, Ho, ⟨%d0, H0⟩, ⟨%d1, H1⟩, ⟨%d2, H2⟩⟩
      obtain rfl := hs0' hne
      iapply ((runD c (crd a t) (ms0 a t) (hs0 a t) (ms1 a t) (hs1 a t) (ms2 a t) (hs2 a t) (tb0 a) (tb1 a) (iblk a Varr c (0 : Fin 3) t) (iblk a Varr c (1 : Fin 3) t) _ (pf t).chk1 (pf t).chk2 q1 ((pf t).last_excl q3) q3).2.2 _)
      isplitl [H0]; · iapply rep_of_owns; iexact H0
      isplitl [H1]; · iapply rep_of_owns; iexact H1
      isplitl [HT0]; · iexact HT0
      isplitl [HT1]; · iexact HT1
      isplitl [H2]; · iexists _; iexact H2
      isplitl [HS0]; · iexact HS0
      iintro ⟨H0, H1, HT0, HT1, ⟨%e2, H2⟩, HS0⟩
      isplitl [HS0 HT0 HT1 HP]
      · isplitl [HS0]
        · iexists _; isplitr; swap
          · iexact HS0
          · ipureintro; intro _; rfl
        isplitl [HT0]; · iexact HT0
        isplitl [HT1]; · iexact HT1
        iexact HP
      isplitl [Ho]; · iexact Ho
      isplitl [H0]; · iapply owns_of_rep; iexact H0
      isplitl [H1]; · iapply owns_of_rep; iexact H1
      unfold owns; iexists _; isplitr; swap
      · iexact H2
      · ipureintro; exact View.read_writes_of_cover _ _ _ _ _ (coverD a Varr pf c t _ q1 q3)
    · obtain ⟨i2, f2⟩ := (pf t).idle2 q3
      by_cases q2 : P2 a t
      · rewrite [i2]
        simp only [before_0, before_1, after_0, after_1, f2]
        unfold Phi; simp only [prevT_castSucc, prevT_succ, traj_eq, step_B a Varr pf c t _ q1 q3 q2, Fin.val_castSucc, Fin.val_succ]
        iintro ⟨⟨⟨%s0, %hs0', HS0⟩, HT0, HT1, HP⟩, Ho, ⟨%d0, H0⟩, ⟨%d1, H1⟩, ⟨%d2, H2⟩⟩
        obtain rfl := hs0' hne
        iapply ((runB c (crd a t) (ms0 a t) (hs0 a t) (ms1 a t) (hs1 a t) (ms2 a t) (hs2 a t) (tb0 a) (tb1 a) (iblk a Varr c (0 : Fin 3) t) (iblk a Varr c (1 : Fin 3) t) _ (pf t).chk1 (pf t).chk2 q1 q2 q3).2 _ _)
        isplitl [H0]; · iapply rep_of_owns; iexact H0
        isplitl [H1]; · iapply rep_of_owns; iexact H1
        isplitl [HT0]; · iexact HT0
        isplitl [HT1]; · iexact HT1
        isplitl [H2]; · iexact H2
        isplitl [HS0]; · iexact HS0
        iintro ⟨H0, H1, HT0, HT1, H2, HS0⟩
        isplitl [HS0 HT0 HT1 HP]
        · isplitl [HS0]
          · iexists _; isplitr; swap
            · iexact HS0
            · ipureintro; intro _; rfl
          isplitl [HT0]; · iexact HT0
          isplitl [HT1]; · iexact HT1
          iexact HP
        isplitl [Ho]; · iexact Ho
        isplitl [H0]; · iapply owns_of_rep; iexact H0
        isplitl [H1]; · iapply owns_of_rep; iexact H1
        iexists d2; iexact H2
      · rewrite [i2]
        simp only [before_0, before_1, after_0, after_1, f2]
        unfold Phi; simp only [prevT_castSucc, prevT_succ, traj_eq, step_C a Varr pf c t _ q1 q3 q2, Fin.val_castSucc, Fin.val_succ]
        iintro ⟨⟨⟨%s0, %hs0', HS0⟩, HT0, HT1, HP⟩, Ho, ⟨%d0, H0⟩, ⟨%d1, H1⟩, ⟨%d2, H2⟩⟩
        obtain rfl := hs0' hne
        iapply ((runC c (crd a t) (ms0 a t) (hs0 a t) (ms1 a t) (hs1 a t) (ms2 a t) (hs2 a t) (tb0 a) (tb1 a) (iblk a Varr c (0 : Fin 3) t) (iblk a Varr c (1 : Fin 3) t) _ (pf t).chk1 (pf t).chk2 q1 q2 q3).2 _ _)
        isplitl [H0]; · iapply rep_of_owns; iexact H0
        isplitl [H1]; · iapply rep_of_owns; iexact H1
        isplitl [HT0]; · iexact HT0
        isplitl [HT1]; · iexact HT1
        isplitl [H2]; · iexact H2
        isplitl [HS0]; · iexact HS0
        iintro ⟨H0, H1, HT0, HT1, H2, HS0⟩
        isplitl [HS0 HT0 HT1 HP]
        · isplitl [HS0]
          · iexists _; isplitr; swap
            · iexact HS0
            · ipureintro; intro _; rfl
          isplitl [HT0]; · iexact HT0
          isplitl [HT1]; · iexact HT1
          iexact HP
        isplitl [Ho]; · iexact Ho
        isplitl [H0]; · iapply owns_of_rep; iexact H0
        isplitl [H1]; · iapply owns_of_rep; iexact H1
        iexists d2; iexact H2

/-- The library's body obligation, at every point. -/
theorem body_obligation (c : Dev nD) : BodyObligation (dats a Varr qS pf 0 c) (defs₀ (F := F)) Variants.none () Set.univ := fun t => by
  rw [bigSep_W0]
  exact sound_body a Varr qS pf c t

end Cert.KernelIdeal.Hand

end
-- ==== Proof.Adm.lean ====
/-
  The launch side of the kernel program's frame, first part.

  The pallas_call's two prefetched tables are constants the program itself writes: table 0 lists, for
  each of the 36 grid points, the row block (of 1024 rows) the first input window reads, table 1 the
  row block the second reads — the 36 pairs (r, c) with r ≤ c < 8.  Here: the tables' contents as a
  function of nothing; their admissibility (every entry is below 8, so every block of 1024 × 256 lies
  inside the 8192 × 256 array); the buffer contents when the region is entered (the host operations
  before it, folded over the launch memory); the fact that the tables then hold exactly those
  contents; and the program as host lines, the region, host lines.
-/
import proofs.«104923_j4312147165445_2_alg».proof.Proof.Gen.KernelIdeal.Launch
import Idealize.ShloMosaic.Lib.Pipeline.FrameSuffix
import Idealize.ShloMosaic.Lib.StableHlo.Run

noncomputable section

namespace Cert.KernelIdeal.Hand

open Idealize.ShloMosaic Idealize.ShloMosaic.TcCoe
open Idealize.SL Idealize.SL.RA Idealize.SL.BI
open scoped Idealize.SL.BI
open Idealize.SL.BI.BIBase Idealize.SL.Sem
open Cert.KernelIdeal Cert.KernelIdeal.Gen

variable {F : FTy → Type} [FloatOps F]

/-! ## The tables -/

/-- The prefetched tables' contents: table `k` holds the `k`-th literal list, element `i` the list's entry at
    `i`'s row-major position. -/
def tbl : pre0.Contents (Elt F) :=
  (fun
    | 0 => fun i => lit0 (S36.rowMajor i)
    | 1 => fun i => lit1 (S36.rowMajor i)
    | ⟨_ + 2, h⟩ => absurd h (Nat.not_lt.2 (Nat.le_add_left _ _)) : (k : Fin 2) → (pre0.ref k).ty.Contents (Elt F))

/-- Every entry of the first list is a row-block number below 8. -/
theorem lit0_lt : ∀ n : Fin 36, (lit0 n).toNat < 8 := by decide
/-- Every entry of the second list is a row-block number below 8. -/
theorem lit1_lt : ∀ n : Fin 36, (lit1 n).toNat < 8 := by decide

/-- The first window's row-block index at a point is an entry of table 0. -/
theorem transform_0_lt (pf : pre0.Contents (Elt F)) (h0 : ∀ j : S36.Idx, (pf 0 j : BitVec 32).toNat < 8) (i : grid0.Coords) :
    cc0_transform_0 k0_off1_inb numel1_S1 pf i 0 < 8 := h0 _
/-- Its column-block index is 0. -/
theorem transform_0_col (pf : pre0.Contents (Elt F)) (i : grid0.Coords) :
    cc0_transform_0 k0_off1_inb numel1_S1 pf i 1 = 0 := rfl
/-- The second window's row-block index at a point is an entry of table 1. -/
theorem transform_1_lt (pf : pre0.Contents (Elt F)) (h1 : ∀ j : S36.Idx, (pf 1 j : BitVec 32).toNat < 8) (i : grid0.Coords) :
    cc0_transform_1 k0_off1_inb numel1_S1 pf i 0 < 8 := h1 _
/-- Its column-block index is 0. -/
theorem transform_1_col (pf : pre0.Contents (Elt F)) (i : grid0.Coords) :
    cc0_transform_1 k0_off1_inb numel1_S1 pf i 1 = 0 := rfl

/-- Tables whose entries are all below 8 are admissible: block `b < 8` of 1024 rows ends at row
    `(b + 1) * 1024 ≤ 8192`, and the one column block is the whole width; the elements are 32 bits wide. -/
theorem ok_of_lt (pf : pre0.Contents (Elt F)) (h0 : ∀ j : S36.Idx, (pf 0 j : BitVec 32).toNat < 8)
    (h1 : ∀ j : S36.Idx, (pf 1 j : BitVec 32).toNat < 8) : ok0 pf := by
  refine ⟨fun i => ⟨fun a => ?_, .inl rfl⟩, fun i => ⟨fun a => ?_, .inl rfl⟩⟩
  · match a with
    | 0 =>
      have h := transform_0_lt pf h0 i
      show (cc0_transform_0 k0_off1_inb numel1_S1 pf i 0 + 1) * 1024 ≤ 8192
      omega
    | 1 =>
      show (cc0_transform_0 k0_off1_inb numel1_S1 pf i 1 + 1) * 256 ≤ 256
      rw [transform_0_col]
  · match a with
    | 0 =>
      have h := transform_1_lt pf h1 i
      show (cc0_transform_1 k0_off1_inb numel1_S1 pf i 0 + 1) * 1024 ≤ 8192
      omega
    | 1 =>
      show (cc0_transform_1 k0_off1_inb numel1_S1 pf i 1 + 1) * 256 ≤ 256
      rw [transform_1_col]

/-- The program's tables are admissible. -/
theorem ok_tbl : ok0 (F := F) tbl :=
  ok_of_lt tbl (fun j => lit0_lt (S36.rowMajor j)) (fun j => lit1_lt (S36.rowMajor j))

/-- The tables' contents as admissible contents: what the pipeline is pinned at. -/
def adm : (pcfg0 (F := F)).Adm := ⟨tbl, ok_tbl⟩

/-! ## The contents at the region's entry -/

variable (m : (ℓ : Loc nD τ sig) → Buf (Elt F) ℓ)

/-- Core `c`'s buffer contents when the region is entered: the host operations before it, in order, from the
    launch memory. -/
abbrev V0 (c : Dev nD) : Valuation τ sig (Elt F) :=
  StableHlo.after (List.flatten [hostOps0, hostOps0_1, hostOps0_2, hostOps0_3, hostOps0_4]) (fun b => m (c, b))

/-- At the region's entry the tables hold `tbl`: the first two operations write them and no later one does. -/
theorem V0_tbl (c : Dev nD) : ∀ k : Fin 2, V0 m c (Proc.devRef .tc (pre0.ref k)) = tbl k
  | 0 => by
    show V0 m c (Proc.devRef .tc main_c) = fun i => lit0 (S36.rowMajor i)
    dsimp only [V0]
    simp only [hostOps0, hostOps0_1, hostOps0_2, hostOps0_3, hostOps0_4, List.flatten_cons, List.flatten_nil, List.append_nil,
      List.cons_append, List.nil_append]
    after_results
    rfl
  | 1 => by
    show V0 m c (Proc.devRef .tc main_c_0) = fun i => lit1 (S36.rowMajor i)
    dsimp only [V0]
    simp only [hostOps0, hostOps0_1, hostOps0_2, hostOps0_3, hostOps0_4, List.flatten_cons, List.flatten_nil, List.append_nil,
      List.cons_append, List.nil_append]
    after_results
    rfl

/-! ## The program around the region -/

theorem hostOps0_fresh : (hostOps0 : List (HloOp τ sig (Elt F))).Forall fun op => op.fresh = ∅ := by
  simp only [List.Forall]; repeat' constructor
theorem hostOps0_1_fresh : (hostOps0_1 : List (HloOp τ sig (Elt F))).Forall fun op => op.fresh = ∅ := by
  simp only [List.Forall]; repeat' constructor
theorem hostOps0_2_fresh : (hostOps0_2 : List (HloOp τ sig (Elt F))).Forall fun op => op.fresh = ∅ := by
  simp only [List.Forall]; repeat' constructor
theorem hostOps0_3_fresh : (hostOps0_3 : List (HloOp τ sig (Elt F))).Forall fun op => op.fresh = ∅ := by
  simp only [List.Forall]; repeat' constructor
theorem hostOps0_4_fresh : (hostOps0_4 : List (HloOp τ sig (Elt F))).Forall fun op => op.fresh = ∅ := by
  simp only [List.Forall]; repeat' constructor
theorem hostOps1_fresh : (hostOps1 : List (HloOp τ sig (Elt F))).Forall fun op => op.fresh = ∅ := by
  simp only [List.Forall]; repeat' constructor

/-- The program is the host lines before the region, the region, and the host lines after it: holding the
    unscoped buffers at the launch memory it reduces to the region, entered at `V0`, continued by the later lines. -/
theorem hmain (𝒱₀ : Variants) :
    Pipeline.HMainPK (Ix := Unit) (Name := ℕ) (U := UR sig nD τ) (Lvl := ℕ) pcfgs 0 defs₀ 𝒱₀ m (main (F := F))
      (fun c b => V0 m c (Proc.devRef .tc b)) (fun _ => Pipeline.chain [StableHlo.seq hostOps1]) :=
  Pipeline.hmainP_around pcfgs 0 defs₀ 𝒱₀ m main [hostOps0, hostOps0_1, hostOps0_2, hostOps0_3, hostOps0_4] [hostOps1]
    ⟨hostOps0_sub, hostOps0_1_sub, hostOps0_2_sub, hostOps0_3_sub, hostOps0_4_sub⟩
    ⟨hostOps0_fresh, hostOps0_1_fresh, hostOps0_2_fresh, hostOps0_3_fresh, hostOps0_4_fresh⟩
    main_chain

end Cert.KernelIdeal.Hand

end
-- ==== Proof.BodyFacts.lean ====
/-
  The grid points' facts at the program's own tables.

  The two tables list the 36 tile pairs (p, q), p at most q below 8, row by row.  Every entry is
  below 8, so the accumulator rows the body addresses exist; the first point is the pair (0, 0) and
  the last the pair (7, 7), both on the diagonal; the output block is stored at the last point only
  and written back only there.  The words the body reads are the tables' entries; everything else is
  decided point by point over the 36 points.
-/
import proofs.«104923_j4312147165445_2_alg».proof.Proof.BodyOblig
import proofs.«104923_j4312147165445_2_alg».proof.Proof.Adm
import Mathlib.Tactic.IntervalCases

set_option maxRecDepth 16384
set_option Elab.async false

noncomputable section

namespace Cert.KernelIdeal.Hand

open Cert.KernelIdeal Cert.KernelIdeal.Gen
open Idealize.ShloMosaic
open Idealize.ShloMosaic.TcCoe
open Idealize.SL.Sem
open Idealize.ShloMosaic.Pipeline (Dat Cfg Window)

variable {F : FTy → Type} [FloatOps F]

/-- The grid has 36 points, whatever the tables hold. -/
theorem N36 : (cfgA (F := F) adm).N = 36 := N_0

/-- Point `t`'s entry of the first list. -/
abbrev pW (t : Fin (cfgA (F := F) adm).N) : BitVec 32 := lit0 (t.cast N36)
/-- Point `t`'s entry of the second list. -/
abbrev qW (t : Fin (cfgA (F := F) adm).N) : BitVec 32 := lit1 (t.cast N36)

/-- The table position the body reads at grid point `i`. -/
abbrev jdx (i : grid0.Coords) : S36.Idx :=
  (Rect.unit (s := S36) (k0_off1 i) S1.size (k0_off1_inb i)).toLoadRect.idx (Shape.Idx.first (numel1_S1.symm ▸ Nat.one_pos))

/-- A word read from a table is the table's entry at that position, whatever the table holds. -/
theorem word0_eq (i : grid0.Coords) (T : S36.Idx → Elt F .i32) : word0 (F := F) i T = T (jdx i) := rfl
theorem word1_eq (i : grid0.Coords) (T : S36.Idx → Elt F .i32) : word1 (F := F) i T = T (jdx i) := rfl

/-- At point `t` that position is `t` (in row-major order, the only order of a list). -/
theorem jdx_rowMajor_val : ∀ t : Fin grid0.N, (S36.rowMajor (jdx (grid0.coords t))).val = t.val := by decide +kernel
theorem jdx_rowMajor (t : Fin grid0.N) : S36.rowMajor (jdx (grid0.coords t)) = t.cast N_0 := Fin.ext (jdx_rowMajor_val t)

/-- The word the body reads from the first table at point `t` is the list's entry `t`. -/
theorem word0_tbl (t : Fin (cfgA (F := F) adm).N) : word0 (F := F) (crd adm t) (tb0 adm) = pW (F := F) t := by
  rw [word0_eq]
  show lit0 (S36.rowMajor (jdx (grid0.coords t))) = lit0 (t.cast N36)
  rw [jdx_rowMajor]
/-- The same of the second table. -/
theorem word1_tbl (t : Fin (cfgA (F := F) adm).N) : word1 (F := F) (crd adm t) (tb1 adm) = qW (F := F) t := by
  rw [word1_eq]
  show lit1 (S36.rowMajor (jdx (grid0.coords t))) = lit1 (t.cast N36)
  rw [jdx_rowMajor]

/-! The decided facts, stated over the lists' entries and the grid coordinates only. -/

theorem dec_chk : ∀ t : Fin grid0.N, k0_chk1 (lit0 (t.cast N_0)) ∧ k0_chk2 (lit0 (t.cast N_0)) (lit1 (t.cast N_0)) := by decide +kernel
theorem dec_first0 : ∀ t : Fin grid0.N, t.val = 0 → isFirst (grid0.coords t) := by decide +kernel
theorem dec_first_excl : ∀ t : Fin grid0.N, isFirst (grid0.coords t) →
    ¬ (k0_cond2 (lit0 (t.cast N_0)) (lit1 (t.cast N_0)) = 1#1) ∧ ¬ (k0_cond3 (grid0.coords t) = 1#1) := by decide +kernel
theorem dec_last_excl : ∀ t : Fin grid0.N, k0_cond3 (grid0.coords t) = 1#1 → ¬ (k0_cond2 (lit0 (t.cast N_0)) (lit1 (t.cast N_0)) = 1#1) := by decide +kernel
theorem dec_idle2 : ∀ t : Fin grid0.N, ¬ (k0_cond3 (grid0.coords t) = 1#1) →
    idle0 (2 : Fin 3) (grid0.coords t) = true ∧ Window.flushOf grid0 true cc0_transform_2 t = false := by decide +kernel
theorem dec_live2 : ∀ t : Fin grid0.N, k0_cond3 (grid0.coords t) = 1#1 → idle0 (2 : Fin 3) (grid0.coords t) = false := by decide +kernel

/-- Every grid point's facts, at the program's tables. -/
theorem pointFacts : ∀ t : Fin (cfgA (F := F) adm).N, PointFacts (F := F) adm t := fun t =>
  { chk1 := by rw [word0_tbl]; exact (dec_chk t).1
    chk2 := by rw [word0_tbl, word1_tbl]; exact (dec_chk t).2
    first0 := dec_first0 t
    first_excl := fun h => by
      show ¬ (k0_cond2 (word0 (F := F) (crd adm t) (tb0 adm)) (word1 (F := F) (crd adm t) (tb1 adm)) = 1#1) ∧ ¬ (k0_cond3 (crd adm t) = 1#1)
      rw [word0_tbl, word1_tbl]; exact dec_first_excl t h
    last_excl := fun h => by
      show ¬ (k0_cond2 (word0 (F := F) (crd adm t) (tb0 adm)) (word1 (F := F) (crd adm t) (tb1 adm)) = 1#1)
      rw [word0_tbl, word1_tbl]; exact dec_last_excl t h
    idle2 := fun h => dec_idle2 t h
    live2 := fun h => dec_live2 t h }

end Cert.KernelIdeal.Hand

end
-- ==== Proof.BodyEnds.lean ====
/-
  The invariant's two ends.  At the first grid point it is made of what the launch hands the kernel:
  the accumulator at any contents, the body's halves of the two tables, the generator register.  After
  the last point it gives the accumulator and the register back; the tables' halves are let go.
-/
import proofs.«104923_j4312147165445_2_alg».proof.Proof.BodyFacts
import Idealize.ShloMosaic.Lib.Pipeline.Frame

set_option maxRecDepth 16384

noncomputable section

namespace Cert.KernelIdeal.Hand

open Cert.KernelIdeal Cert.KernelIdeal.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable {F : FTy → Type} [FloatOps F]

local notation "𝕄" => MT nD τ sig Unit (Elt F) ℕ (UR sig nD τ) ℕ

variable (Varr : (c : Dev nD) → (b : Ref sig .tc) → Buf (Elt F) ((c : Thread nD τ).loc b))
variable (qS : Fin 3 → PosShare TreeShare)

/-- The two tables conjoined one by one. -/
theorem bigSep_T {M : Type} [URA M] (Φ : Fin 2 → sProp M) : bigSep Finset.univ Φ = iprop(Φ (0 : Fin 2) ∗ Φ (1 : Fin 2)) :=
  bigSep_univ_eq_bigSepL [(0 : Fin 2), (1 : Fin 2)] (by decide) (by decide) Φ

/-- The invariant at the first point, from the scoped rest, the register and the tables' halves. -/
theorem phi0_intro (c : Dev nD) :
    iprop(Pipeline.ΦA (Val := Elt F) (U := UR sig nD τ) spec0 c ∗ Pipeline.ΦT (Val := Elt F) (U := UR sig nD τ) pre0 (tbl (F := F)) c)
      ⊢ (dats (F := F) adm Varr qS pointFacts 0 c).Φ 0 := by
  unfold Pipeline.ΦA Pipeline.ΦT Pipeline.prefHeld
  rw [bigSep_T, scopedRest0_eq, show (dats (F := F) adm Varr qS pointFacts 0 c).Φ 0 = Phi adm Varr pointFacts c 0 from rfl]
  unfold Phi
  iintro ⟨⟨⟨%s0, HS0⟩, HP⟩, HT0, HT1⟩
  isplitl [HS0]
  · iexists s0; isplitr; swap
    · iexact HS0
    · ipureintro; intro h; exact absurd rfl h
  isplitl [HT0]; · iexact HT0
  isplitl [HT1]; · iexact HT1
  iexact HP

/-- After the last point the accumulator and the register are given back. -/
theorem phiN_exit (c : Dev nD) :
    (dats (F := F) adm Varr qS pointFacts 0 c).Φ (Fin.last (cfgA (F := F) adm).N) ⊢ Pipeline.ΦA (Val := Elt F) (U := UR sig nD τ) spec0 c := by
  unfold Pipeline.ΦA
  rw [scopedRest0_eq, show (dats (F := F) adm Varr qS pointFacts 0 c).Φ (Fin.last (cfgA (F := F) adm).N) = Phi adm Varr pointFacts c (Fin.last _) from rfl]
  unfold Phi
  iintro ⟨⟨%s0, -, HS0⟩, -, -, HP⟩
  isplitl [HS0]; · iexists s0; iexact HS0
  iexact HP

end Cert.KernelIdeal.Hand

end
-- ==== Proof.LaunchSharedLib.lean ====
/-
  Three facts the frame of a pipeline needs when several of its windows are handed ONE array, stated for
  any pipeline.  The library proves their counterparts assuming the windows' arrays pairwise distinct;
  here the arrays may coincide.

  * The buffers a host line after the region may touch, held whole, are the DISTINCT buffers behind the
    windows' arrays and the buffers that bypass the region.
  * Host lines that write no array run from those two groups to the same two groups, the first unchanged,
    the second at what the lines compute.
  * The contents "the arrays at `A`, every other buffer at `V`" read at window `w`'s array are `A w`,
    provided every window on that same array is given the same contents.
  * The pipeline's arrays, window by window, each a whole buffer at the window's own share.
-/
import Idealize.ShloMosaic.Lib.Pipeline.FrameSuffix

noncomputable section

namespace Cert.KernelIdeal.Hand

open Idealize.ShloMosaic Idealize.ShloMosaic.Pipeline
open Idealize.SL
open Idealize.SL.BI (sProp bigSep bigSep_map bigSep_union bigSep_congr)
open scoped Idealize.SL.BI
open Idealize.SL.BI.BIBase Idealize.SL.BI.Laws Idealize.SL.Sem Idealize.SL.ProofMode
open Idealize.SL.RA
open TcCoe

variable {nD : Nat} {τ : Topo} {sig : RefSig} {Val : EltTy → Type}
variable {Ix : Type} [DecidableEq Ix] {Name : Type} [DecidableEq Name] {U : Type} [URA U] {Lvl : Type}

section Tail

variable {Λ₀ : Idealize.SL.Sem.Labels} {P : Type}
variable (pcs : P → PCfg sig Λ₀ Val) (defs₀ : Defs nD τ sig Val Λ₀) (𝒱₀ : Variants)

local notation "𝕄" => MT nD τ sig Ix Val Name U Lvl
local notation "𝔻" => Pipeline.defs pcs defs₀
local notation "𝕍" => Variants.lift 𝒱₀

/-- The buffers a line after the region may touch, held whole at `Wv`, are the distinct buffers behind the
    windows' arrays at `Wv` and the bypassing buffers at `Wv` — whether or not windows share an array: no
    array's buffer is a bypassing buffer, and the first group is indexed by buffers, not by windows. -/
theorem held_tailRefs_shared {gr : Nat} {W : Nat} (pre : Prefetch sig) (win : Fin W → WinSpec sig gr)
    (c : Dev nD) (Wv : Valuation τ sig Val) :
    (StableHlo.held (c.tc : Thread nD τ) (tailRefs sig pre win) Wv : sProp 𝕄)
      = iprop(arrBufs win c (fun b => Wv (Proc.devRef .tc b)) ∗ unscopedRestP pre win c (fun b => Wv (Proc.devRef .tc b))) := by
  classical
  have hdisj : Disjoint (Finset.univ.image (arrRef win)) (restRefsP sig pre win) :=
    Finset.disjoint_left.mpr fun b hb hr => (Finset.mem_sdiff.mp (Finset.mem_sdiff.mp hr).1).2 hb
  unfold StableHlo.held tailRefs arrBufs unscopedRestP
  rw [bigSep_map, bigSep_union hdisj]
  rfl

set_option backward.isDefEq.respectTransparency.types false in
/-- The lines after the region, windows sharing arrays or not: from the boundary, the buffers behind the arrays at
    `Wv` and the bypassing buffers at `Wv`, the lines — touching only those buffers (`hsub`), allocating nothing
    (`hfresh`), writing no array (`hkeep`) — run and hand back the buffers behind the arrays at `Wv` still and the
    bypassing buffers at what the lines compute from `Wv`. -/
theorem tail_seqs_shared [Preorder Lvl] {gr : Nat} {W : Nat} (pre : Prefetch sig) (win : Fin W → WinSpec sig gr)
    (c : Dev nD) (Wv : Valuation τ sig Val) (opss : List (List (HloOp τ sig Val)))
    (hsub : ∀ ops ∈ opss, ∀ op ∈ ops, op.bufs ⊆ tailRefs sig pre win)
    (hfresh : ∀ ops ∈ opss, ∀ op ∈ ops, op.fresh = ∅)
    (hkeep : ∀ ops ∈ opss, ∀ op ∈ ops, ∀ w, Proc.devRef .tc (arrRef win w) ∉ op.writes)
    (Q' : PUnit → sProp 𝕄) :
    iprop((iprop(arrBufs win c (fun b => Wv (Proc.devRef .tc b))
              ∗ unscopedRestP pre win c (fun b => StableHlo.after opss.flatten Wv (Proc.devRef .tc b))) -∗ Q' ⟨⟩)
        ∗ boundary (c.tc : Thread nD τ) ∗ arrBufs win c (fun b => Wv (Proc.devRef .tc b))
        ∗ unscopedRestP pre win c (fun b => Wv (Proc.devRef .tc b)))
      ⊢ wp frame (wpE 𝔻 𝕍 (c.tc : Thread nD τ) none) Set.univ (chain (opss.map StableHlo.seq)) Q' := by
  classical
  have hW := held_tailRefs_shared (Ix := Ix) (Name := Name) (U := U) (Lvl := Lvl) pre win c Wv
  have hW' : (StableHlo.held (c.tc : Thread nD τ) (tailRefs sig pre win) (StableHlo.after opss.flatten Wv) : sProp 𝕄)
      = iprop(arrBufs win c (fun b => Wv (Proc.devRef .tc b))
          ∗ unscopedRestP pre win c (fun b => StableHlo.after opss.flatten Wv (Proc.devRef .tc b))) := by
    rw [held_tailRefs_shared pre win c]
    congr 1
    unfold arrBufs
    exact bigSep_congr fun b hb => by
      obtain ⟨w, -, rfl⟩ := Finset.mem_image.mp hb
      dsimp only
      rw [StableHlo.after_of_forall_not_mem _ _ fun op hop => ?_]
      obtain ⟨ops, hops, hop⟩ := List.mem_flatten.mp hop
      exact hkeep ops hops op hop w
  rw [← List.append_nil (opss.map StableHlo.seq), ← hW]
  iintro ⟨Hk, Hb⟩
  iapply (wp_seqs_then pcs defs₀ 𝒱₀ c (tailRefs sig pre win) [] opss hsub hfresh Wv) $$ Hb
  iintro Hb
  rw [chain_nil, wp_pure, hW']
  imodintro
  iapply Hk
  icases Hb with ⟨-, H⟩
  iexact H

end Tail

section Shares

variable {Λ₀ : Idealize.SL.Sem.Labels}

local notation "𝕄" => MT nD τ sig Ix Val Name U Lvl

/-- An input window's array is held at the share the proof data names for it. -/
theorem share_of_in {cfg : Cfg sig Λ₀} {c : Dev nD} (dat : Dat τ Val Ix Name U Lvl cfg c) (w : Fin cfg.W)
    (h : (cfg.win w).isOut = false) : dat.share w = dat.q w := by
  unfold Dat.share; rw [h]; exact if_neg Bool.false_ne_true

/-- An output window's array is held at the full share. -/
theorem share_of_out {cfg : Cfg sig Λ₀} {c : Dev nD} (dat : Dat τ Val Ix Name U Lvl cfg c) (w : Fin cfg.W)
    (h : (cfg.win w).isOut = true) : dat.share w = fullShare := by
  unfold Dat.share; rw [h]; exact if_pos rfl

/-- The pipeline's arrays, every window's array a whole buffer (`harr`): window by window, the buffer behind the
    window's array, whole, at the window's share — whatever the shares are. -/
theorem arrays_eq_shares {cfg : Cfg sig Λ₀} {c : Dev nD} (dat : Dat τ Val Ix Name U Lvl cfg c)
    (harr : ∀ w, (cfg.spec w).arr.IsWhole)
    (G : (w : Fin cfg.W) → Buf Val ((cfg.spec w).arr.view.loc (c.tc : Thread nD τ))) :
    (dat.arrays G : sProp 𝕄)
      = bigSep Finset.univ fun w => (((c.tc : Thread nD τ).loc (arrRef cfg.spec w)) ↦{dat.share w} G w : sProp 𝕄) := by
  unfold Dat.arrays
  exact bigSep_congr fun w _ => by rw [(harr w).set_eq_univ]

end Shares

/-- The contents with the arrays at `A` and every other buffer at `V`, read at window `w`'s array, are `A w` when
    every window on the same array is given the same contents (`hagree`; for distinct arrays there is no other
    such window). -/
theorem withArrays_arr_of_agree {gr : Nat} {W : Nat} (win : Fin W → WinSpec sig gr) (c : Dev nD) (V : Valuation τ sig Val)
    (A : (w : Fin W) → Buf Val ((win w).arr.view.loc (c.tc : Thread nD τ))) (w : Fin W)
    (hagree : ∀ (w' : Fin W) (e : Proc.devRef .tc (arrRef win w') = Proc.devRef (τ := τ) .tc (arrRef win w)),
      cast (congrArg (fun b' : DevRef τ sig => b'.ty.Contents Val) e) (A w') = A w) :
    withArrays win c V A (Proc.devRef .tc (arrRef win w)) = A w := by
  unfold withArrays
  have h : ∃ w', Proc.devRef .tc (arrRef win w') = Proc.devRef (τ := τ) .tc (arrRef win w) := ⟨w, rfl⟩
  rw [dif_pos h]
  exact hagree _ h.choose_spec

end Cert.KernelIdeal.Hand

end
-- ==== Proof.LaunchTail.lean ====
/-
  The launch side of the kernel program's frame: what the run needs about the windows' arrays and the
  host lines that follow the region.

  The pallas_call's first two input windows read ONE array (the 8192 × 256 stack of the two arguments);
  its third window writes the 8 × 1024 result.  So the distinct buffers behind the three windows' arrays
  are two, and the pipeline — which holds each window's array at a share of its own — holds the stack's
  left half for window 0, its right half for window 1, and the result whole.  The ten host lines after
  the region read the result and earlier host values; they touch no prefetched table, allocate nothing
  and write none of the windows' arrays.
-/
import proofs.«104923_j4312147165445_2_alg».proof.Proof.Adm
import proofs.«104923_j4312147165445_2_alg».proof.Proof.LaunchSharedLib

noncomputable section

namespace Cert.KernelIdeal.Hand

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

/-! ## The shares -/

/-- The share each window holds its array at: the two input windows on the stacked array hold its left and
    right halves; the output window's entry is not read (an output's array is held at the full share). -/
def qShared : Fin 3 → PosShare TreeShare := fun
  | 0 => fullShare.left
  | 1 => fullShare.right
  | 2 => fullShare
  | ⟨_ + 3, h⟩ => absurd h (Nat.not_lt.2 (Nat.le_add_left _ _))

/-- The distinct buffers behind the three windows' arrays: the stacked array and the result. -/
theorem img_arr : Finset.univ.image (Pipeline.arrRef spec0) = {main_v13, main_v14} := by decide

/-- Those buffers held whole: the stacked array's and the result's. -/
theorem arrBufs_eq (c : Dev nD) (V : (b : Ref sig .tc) → Buf (Elt F) ((c.tc : Thread nD τ).loc b)) :
    (Pipeline.arrBufs spec0 c V : sProp 𝕄)
      = iprop((((c.tc : Thread nD τ).loc main_v13) ↦{fullShare} V main_v13)
          ∗ (((c.tc : Thread nD τ).loc main_v14) ↦{fullShare} V main_v14)) := by
  unfold Pipeline.arrBufs
  rw [img_arr, bigSep_insert (by decide), bigSep_singleton]
  rfl

section Data

variable (dats : (p : Fin 1) → (c : Dev nD) →
  Pipeline.Dat τ (Elt F) Unit ℕ (UR sig nD τ) ℕ (Pipeline.pin (pcfgs (F := F)) (fun _ => adm) p) c)

/-- The pipeline's arrays under the shares `qShared`: the stacked array's left half at window 0's contents, its
    right half at window 1's, the result whole at window 2's. -/
theorem arrays_eq3 (c : Dev nD) (hq : ∀ w, (dats 0 c).q w = qShared w)
    (G : (w : Fin 3) → Buf (Elt F) ((spec0 w).arr.view.loc (c.tc : Thread nD τ))) :
    ((dats 0 c).arrays G : sProp 𝕄)
      = iprop((((c.tc : Thread nD τ).loc main_v13) ↦{fullShare.left} G 0)
          ∗ (((c.tc : Thread nD τ).loc main_v13) ↦{fullShare.right} G 1)
          ∗ (((c.tc : Thread nD τ).loc main_v14) ↦{fullShare} G 2)) := by
  rw [arrays_eq_shares (dats 0 c) arr_whole0 G]
  refine (bigSep_W0 _).trans ?_
  rw [share_of_in (dats 0 c) 0 rfl, share_of_in (dats 0 c) 1 rfl, share_of_out (dats 0 c) 2 rfl, hq 0, hq 1]
  rfl

end Data

/-! ## The host lines after the region -/

/-- No line after the region touches a prefetched table. -/
theorem tail_sub : ∀ ops ∈ ([hostOps1] : List (List (HloOp τ sig (Elt F)))), ∀ op ∈ ops,
    op.bufs ⊆ Pipeline.tailRefs sig pre0 spec0 := by
  intro ops hops op hop
  simp only [List.mem_cons, List.mem_nil_iff, or_false] at hops
  rcases hops with rfl
  refine Pipeline.sub_tailRefs pre0 spec0 op ((List.forall_iff_forall_mem.mp hostOps1_sub) op hop) ?_
  simp only [hostOps1, List.mem_cons, List.mem_nil_iff, or_false] at hop
  rcases hop with rfl | rfl | rfl | rfl | rfl | rfl | rfl | rfl | rfl | rfl
  all_goals
    intro k
    fin_cases k <;>
      simp only [StableHlo.nullary_bufs, StableHlo.unary_bufs, StableHlo.binary_bufs, StableHlo.reshape_bufs,
        Finset.mem_insert, Finset.mem_singleton, not_or] <;>
      (repeat' constructor) <;> exact StableHlo.devRef_ne_of_ne (by decide)

/-- They allocate nothing. -/
theorem tail_fresh : ∀ ops ∈ ([hostOps1] : List (List (HloOp τ sig (Elt F)))), ∀ op ∈ ops, op.fresh = ∅ := by
  intro ops hops op hop
  simp only [List.mem_cons, List.mem_nil_iff, or_false] at hops
  rcases hops with rfl
  exact (List.forall_iff_forall_mem.mp hostOps1_fresh) op hop

/-- And write no array of the pipeline: each writes its own result buffer only. -/
theorem tail_keeps : ∀ ops ∈ ([hostOps1] : List (List (HloOp τ sig (Elt F)))), ∀ op ∈ ops,
    ∀ w, Proc.devRef .tc (Pipeline.arrRef spec0 w) ∉ op.writes := by
  intro ops hops op hop
  simp only [List.mem_cons, List.mem_nil_iff, or_false] at hops
  rcases hops with rfl
  simp only [hostOps1, List.mem_cons, List.mem_nil_iff, or_false] at hop
  rcases hop with rfl | rfl | rfl | rfl | rfl | rfl | rfl | rfl | rfl | rfl
  all_goals
    intro w
    fin_cases w <;>
      simp only [StableHlo.nullary_writes, StableHlo.unary_writes, StableHlo.binary_writes, StableHlo.reshape_writes,
        Finset.mem_singleton] <;>
      exact StableHlo.devRef_ne_of_ne (by decide)

end Cert.KernelIdeal.Hand

end
-- ==== Proof.LaunchShared.lean ====
/-
  The launch side of the kernel program's frame: the run of the whole program.

  The pallas_call reads ONE array, the 8192 × 256 stack of the two arguments, through its first TWO input
  windows (at a point, window 0 stages row block r and window 1 row block c of the same array), and writes
  its 8 × 1024 result through the third.  The pipeline holds each window's array at a share of its own, so
  the stack's buffer, held whole at the full share when the region is entered, is dealt as its LEFT half
  to window 0 and its RIGHT half to window 1 (both halves at the same contents: inputs are never written),
  and the two halves are joined again when the region is left, before the host lines that follow read it.
  With that, the library's launch theorem for windows sharing arrays gives: every weakly fair execution of
  the program terminates, faults nowhere, and ends with each window's array at what the write-backs leave
  and every other unscoped buffer at what the host lines after the region compute.
-/
import proofs.«104923_j4312147165445_2_alg».proof.Proof.LaunchTail

noncomputable section

namespace Cert.KernelIdeal.Hand

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

/-! ## Entering and leaving the region -/

section Run

variable (m : (ℓ : Loc nD τ sig) → Buf (Elt F) ℓ)
variable (dats : (p : Fin 1) → (c : Dev nD) →
  Pipeline.Dat τ (Elt F) Unit ℕ (UR sig nD τ) ℕ (Pipeline.pin (pcfgs (F := F)) (fun _ => adm) p) c)

local notation "cfgA" => Pipeline.pin (pcfgs (F := F)) (fun _ => adm)

/-- Window 0's array holds the stack as the region found it, at every point: an input is never written. -/
theorem arrAt_in0 (c : Dev nD) (hA : ∀ w, (dats 0 c).A w = V0 m c (Proc.devRef .tc (Pipeline.arrRef spec0 w))) (n : ℕ) :
    (dats 0 c).arrAt 0 n = V0 m c (Proc.devRef .tc main_v13) := ((dats 0 c).arrAt_in 0 rfl n).trans (hA 0)
/-- So does window 1's. -/
theorem arrAt_in1 (c : Dev nD) (hA : ∀ w, (dats 0 c).A w = V0 m c (Proc.devRef .tc (Pipeline.arrRef spec0 w))) (n : ℕ) :
    (dats 0 c).arrAt 1 n = V0 m c (Proc.devRef .tc main_v13) := ((dats 0 c).arrAt_in 1 rfl n).trans (hA 1)

/-- ENTERING: the buffers behind the arrays, whole at the full share at the entry contents, make the pipeline's
    arrays — the stacked array's full share dealt as its two halves to the two windows that read it. -/
theorem hsplit (c : Dev nD) (hA : ∀ w, (dats 0 c).A w = V0 m c (Proc.devRef .tc (Pipeline.arrRef spec0 w)))
    (hq : ∀ w, (dats 0 c).q w = qShared w) :
    (Pipeline.arrBufs spec0 c (fun b => V0 m c (Proc.devRef .tc b)) : sProp 𝕄)
      ⊢ (dats 0 c).arrays ((dats 0 c).arrAt · 0) := by
  rw [arrBufs_eq, arrays_eq3 dats c hq]
  rw [arrAt_in0 m dats c hA 0, arrAt_in1 m dats c hA 0, show (dats 0 c).arrAt 2 0 = V0 m c (Proc.devRef .tc main_v14) from hA 2]
  iintro ⟨H13, H14⟩
  ihave H := (pointsTo_share (PosShare.mem_left_op_right fullShare)).1 $$ H13
  icases H with ⟨Hl, Hr⟩
  isplitl [Hl]; · iexact Hl
  isplitl [Hr]; · iexact Hr
  iexact H14

/-- The buffer contents when the region is left: each window's array at what the write-backs leave, every other
    buffer as the region found it. -/
abbrev Wexit (c : Dev nD) : Valuation τ sig (Elt F) :=
  Pipeline.withArrays (cfgA 0).spec c (V0 m c) fun w => (dats 0 c).arrAt w (cfgA 0).N

/-- At the stacked array they are the entry contents: both windows on it agree (inputs, never written). -/
theorem Wexit_v13 (c : Dev nD) (hA : ∀ w, (dats 0 c).A w = V0 m c (Proc.devRef .tc (Pipeline.arrRef spec0 w))) :
    Wexit m dats c (Proc.devRef .tc main_v13) = V0 m c (Proc.devRef .tc main_v13) := by
  refine (withArrays_arr_of_agree (cfgA 0).spec c (V0 m c) (fun w => (dats 0 c).arrAt w (cfgA 0).N) (0 : Fin 3) ?_).trans
    (arrAt_in0 m dats c hA _)
  intro w' e
  match w', e with
  | 0, e => exact cast_eq _ _
  | 1, e => exact (cast_eq _ _).trans ((arrAt_in1 m dats c hA _).trans (arrAt_in0 m dats c hA _).symm)
  | 2, e => exact absurd (show main_v14 = main_v13 from Proc.devRef_injective _ e) (by decide)

/-- At the result they are what the output window's write-backs leave. -/
theorem Wexit_v14 (c : Dev nD) :
    Wexit m dats c (Proc.devRef .tc main_v14) = (dats 0 c).arrAt 2 (cfgA 0).N := by
  refine withArrays_arr_of_agree (cfgA 0).spec c (V0 m c) (fun w => (dats 0 c).arrAt w (cfgA 0).N) (2 : Fin 3) ?_
  intro w' e
  match w', e with
  | 0, e => exact absurd (show main_v13 = main_v14 from Proc.devRef_injective _ e) (by decide)
  | 1, e => exact absurd (show main_v13 = main_v14 from Proc.devRef_injective _ e) (by decide)
  | 2, e => exact cast_eq _ _

/-- The buffers that bypass the region are untouched by it. -/
theorem rest_exit (c : Dev nD) :
    (Pipeline.unscopedRestP pre0 spec0 c (fun b => V0 m c (Proc.devRef .tc b)) : sProp 𝕄)
      = Pipeline.unscopedRestP pre0 spec0 c (fun b => Wexit m dats c (Proc.devRef .tc b)) := by
  unfold Pipeline.unscopedRestP
  exact bigSep_congr fun b hb => by
    dsimp only
    rw [show Wexit m dats c (Proc.devRef .tc b) = V0 m c (Proc.devRef .tc b) from
      Pipeline.withArrays_of_ne (cfgA 0).spec c (V0 m c) _ b fun w e =>
        (Finset.mem_sdiff.mp (Finset.mem_sdiff.mp hb).1).2 (Finset.mem_image.mpr ⟨w, Finset.mem_univ _, e⟩)]

/-- LEAVING, joined: the pipeline's arrays after the last point are the buffers behind them whole at the full
    share at the exit contents — the stacked array's two halves, at one contents, joined. -/
theorem arrays_exit_join (c : Dev nD) (hA : ∀ w, (dats 0 c).A w = V0 m c (Proc.devRef .tc (Pipeline.arrRef spec0 w)))
    (hq : ∀ w, (dats 0 c).q w = qShared w) :
    ((dats 0 c).arrays ((dats 0 c).arrAt · (cfgA 0).N) : sProp 𝕄)
      ⊢ Pipeline.arrBufs spec0 c (fun b => Wexit m dats c (Proc.devRef .tc b)) := by
  rw [arrBufs_eq, arrays_eq3 dats c hq]
  rw [Wexit_v13 m dats c hA, Wexit_v14 m dats c, arrAt_in0 m dats c hA _, arrAt_in1 m dats c hA _]
  iintro ⟨Hl, Hr, H14⟩
  isplitr [H14]
  · iapply (pointsTo_share (PosShare.mem_left_op_right fullShare)).2
    isplitl [Hl]; · iexact Hl
    iexact Hr
  · iexact H14

/-- LEAVING, split again: and back. -/
theorem arrays_exit_split (c : Dev nD) (hA : ∀ w, (dats 0 c).A w = V0 m c (Proc.devRef .tc (Pipeline.arrRef spec0 w)))
    (hq : ∀ w, (dats 0 c).q w = qShared w) :
    (Pipeline.arrBufs spec0 c (fun b => Wexit m dats c (Proc.devRef .tc b)) : sProp 𝕄)
      ⊢ (dats 0 c).arrays ((dats 0 c).arrAt · (cfgA 0).N) := by
  rw [arrBufs_eq, arrays_eq3 dats c hq]
  rw [Wexit_v13 m dats c hA, Wexit_v14 m dats c, arrAt_in0 m dats c hA _, arrAt_in1 m dats c hA _]
  iintro ⟨H13, H14⟩
  ihave H := (pointsTo_share (PosShare.mem_left_op_right fullShare)).1 $$ H13
  icases H with ⟨Hl, Hr⟩
  isplitl [Hl]; · iexact Hl
  isplitl [Hr]; · iexact Hr
  iexact H14

set_option backward.isDefEq.respectTransparency.types false in
/-- THE LINES AFTER THE REGION: from the region's exit — the boundary, the pipeline's arrays after the last point,
    the bypassing buffers as the region found them — the host lines run (the stacked array joined for them to
    read, and dealt again afterwards) and hand back the arrays and the bypassing buffers at what the lines compute
    from the exit contents. -/
theorem htail (𝒱₀ : Variants) (c : Dev nD)
    (hA : ∀ w, (dats 0 c).A w = V0 m c (Proc.devRef .tc (Pipeline.arrRef spec0 w)))
    (hq : ∀ w, (dats 0 c).q w = qShared w) (Q' : PUnit → sProp 𝕄) :
    iprop((iprop((dats 0 c).arrays ((dats 0 c).arrAt · (cfgA 0).N)
              ∗ Pipeline.unscopedRestP pre0 spec0 c (Pipeline.afterTail pcfgs (fun _ => adm) dats 0 (V0 m) [hostOps1] c)) -∗ Q' ⟨⟩)
        ∗ boundary (c.tc : Thread nD τ) ∗ (dats 0 c).arrays ((dats 0 c).arrAt · (cfgA 0).N)
        ∗ Pipeline.unscopedRestP pre0 spec0 c (fun b => V0 m c (Proc.devRef .tc b)))
      ⊢ wp frame (wpE (Pipeline.defs pcfgs defs₀) (Variants.lift 𝒱₀) (c.tc : Thread nD τ) none) Set.univ
          (Pipeline.chain ([hostOps1].map StableHlo.seq)) Q' := by
  refine Idealize.SL.BI.BIBase.Entails.trans ?_ (tail_seqs_shared (Ix := Unit) (Name := ℕ) (U := UR sig nD τ) (Lvl := ℕ) pcfgs defs₀ 𝒱₀ pre0 spec0 c
    (Wexit m dats c) [hostOps1] tail_sub tail_fresh tail_keeps Q')
  rw [rest_exit m dats c]
  iintro ⟨Hk, Hb, Ha, Hr⟩
  isplitl [Hk]
  · iintro ⟨Ha', Hr'⟩
    iapply Hk
    isplitl [Ha']
    · iapply (arrays_exit_split m dats c hA hq); iexact Ha'
    · iexact Hr'
  isplitl [Hb]; · iexact Hb
  isplitl [Ha]
  · iapply (arrays_exit_join m dats c hA hq); iexact Ha
  · iexact Hr

end Run

/-! ## The run -/

section Frame

variable (m : (ℓ : Loc nD τ sig) → Buf (Elt F) ℓ) (ρ : Dev nD → PrngReg)
variable (dats : (p : Fin 1) → (c : Dev nD) →
  Pipeline.Dat τ (Elt F) Unit ℕ (UR sig nD τ) ℕ (Pipeline.pin (pcfgs (F := F)) (fun _ => adm) p) c)

local notation "cfgA" => Pipeline.pin (pcfgs (F := F)) (fun _ => adm)

/-- After the host lines the tables still hold their contents: no line after the region touches a table, and a
    table is no window's array. -/
theorem afterTail_pre (c : Dev nD) (k : Fin 2) :
    Pipeline.afterTail pcfgs (fun _ => adm) dats 0 (V0 m) [hostOps1] c (pre0.ref k) = tbl k := by
  unfold Pipeline.afterTail
  rw [StableHlo.after_of_forall_not_mem _ _ fun op hop hw => ?_,
    Pipeline.withArrays_of_ne _ c (V0 m c) _ _ fun w e => preFacts0.disj k w e.symm, V0_tbl]
  obtain ⟨ops, hops, hop⟩ := List.mem_flatten.mp hop
  exact Pipeline.devRef_pre_not_mem_tailRefs pre0 spec0 preFacts0 k (tail_sub ops hops op hop (op.writes_sub hw))

set_option backward.isDefEq.respectTransparency.types false in
/-- THE RUN. For any proof data whose arrays are the contents the region is entered at (`hA`), held at the shares
    `qShared` (`hq`), owing nothing (`howed`), with the body obligation at every point (`hbody`) and an invariant that
    starts from the scratch, the generator register and the tables' halves (`hin`) and gives the first two back
    (`hout`): every weakly fair execution of the program terminates, faults nowhere, and ends with every window's array
    at what the library computes from the proof data and every other unscoped buffer at what the host lines after
    the region compute from the region's exit contents. -/
theorem run_shared (𝒱₀ : Variants)
    (hA : ∀ c w, (dats 0 c).A w = V0 m c (Proc.devRef .tc (Pipeline.arrRef spec0 w)))
    (hq : ∀ c w, (dats 0 c).q w = qShared w)
    (howed : ∀ c t, (dats 0 c).owed t = 0)
    (hbody : ∀ c, Pipeline.BodyObligationLoose (dats 0 c) defs₀ 𝒱₀ () Set.univ)
    (hin : ∀ c, iprop(Pipeline.ΦA spec0 c ∗ Pipeline.ΦT pre0 tbl c) ⊢ (dats 0 c).Φ 0)
    (hout : ∀ c, (dats 0 c).Φ (Fin.last (cfgA 0).N) ⊢ Pipeline.ΦA spec0 c) :
    θ_run defs (onTc (τ := τ) (main (F := F))) (s₀ m ρ)
      (Pipeline.FramePost cfgA dats 0 (Pipeline.afterTail pcfgs (fun _ => adm) dats 0 (V0 m) [hostOps1])) := by
  classical
  exact Pipeline.θ_run_region_pf_tail pcfgs (fun _ => adm) dats () (cellOf_inj (fun _ => adm)) 0 winFacts₀0
    (Pipeline.OwnSemFacts.none (cfgA 0).spec) preFacts0 emb₁ defs₀ 𝒱₀ m ρ main
    (fun _ => Pipeline.chain ([hostOps1].map StableHlo.seq)) hbody
    block_pos0 arr_whole0 stage_whole0 howed
    (G := fun _ => iprop(emp))
    (u₀ := initOf (Pipeline.cells cfgA (cellOf_inj (fun _ => adm))) (Pipeline.launchToks cfgA (cellOf_inj (fun _ => adm))))
    (hu₀ := by
      iintro Hu; imodintro
      isplitl [Hu]
      · iapply (show (ownU _ : sProp 𝕄) ⊢ BI.own (emb₁ (initOf (Pipeline.cells cfgA (cellOf_inj (fun _ => adm)))
          (Pipeline.launchToks cfgA (cellOf_inj (fun _ => adm))))) from .rfl)
        iexact Hu
      iapply (show (BI.emp : sProp 𝕄) ⊢ bigSep Finset.univ (fun _ : Dev nD => (BI.emp : sProp 𝕄)) from by rw [BI.bigSep_emp_const])
      iempintro)
    (V := fun c b => V0 m c (Proc.devRef .tc b)) (hmain := hmain m 𝒱₀)
    (hsplit := fun c => hsplit m dats c (hA c) (hq c))
    (hpf := fun c k => V0_tbl m c k)
    (X := fun c => iprop(∃ r, prngReg c r)) (Y := fun c => iprop(∃ r, prngReg c r))
    (Z := fun c => Pipeline.unscopedRestP (Ix := Unit) (Name := ℕ) (U := UR sig nD τ) (Lvl := ℕ) pre0 spec0 c
      (fun b => V0 m c (Proc.devRef .tc b)))
    (Z' := fun c => Pipeline.unscopedRestP (Ix := Unit) (Name := ℕ) (U := UR sig nD τ) (Lvl := ℕ) pre0 spec0 c
      (Pipeline.afterTail pcfgs (fun _ => adm) dats 0 (V0 m) [hostOps1] c))
    (hX := fun c => by
      iintro ⟨HU, -, -, -, Hp, -⟩; imodintro
      isplitl [Hp]; · iexists _; iexact Hp
      iexact HU)
    (hin := fun c => (show _ ⊢ iprop(Pipeline.ΦA spec0 c ∗ Pipeline.ΦT pre0 tbl c) by
      unfold Pipeline.ΦA Pipeline.ΦT; iintro ⟨Hp, Ht, Hr⟩
      isplitr [Ht]
      · isplitl [Hr] <;> iassumption
      · iexact Ht).trans (hin c))
    (hout := fun c => (hout c).trans (by
      rw [Pipeline.ownSems0_none]; unfold Pipeline.ΦA
      iintro ⟨Hr, Hp⟩
      isplitl [Hp]; · iexact Hp
      isplitr; · iempintro
      iexact Hr))
    (htail := fun c Q' => htail m dats 𝒱₀ c (hA c) (hq c) Q')
    (QY := fun c s => ∀ b ∈ Pipeline.restRefsP sig pre0 spec0,
      s.mem ((c.tc : Thread nD τ).loc b) = Pipeline.afterTail pcfgs (fun _ => adm) dats 0 (V0 m) [hostOps1] c b)
    (hY := fun c s' => by
      iintro ⟨-, HU, HSI⟩
      unfold Pipeline.unscopedRestP
      imodintro
      iapply (pointsTo_read_all (Pipeline.restRefsP sig pre0 spec0) (fun b => (c.tc : Thread nD τ).loc b)
        (Pipeline.afterTail pcfgs (fun _ => adm) dats 0 (V0 m) [hostOps1] c) s')
      isplitl [HU] <;> iassumption)
    (hQ := fun s h c => ⟨(h c).1, Pipeline.rest_of_restP pre0 spec0 tbl c
      (Pipeline.afterTail pcfgs (fun _ => adm) dats 0 (V0 m) [hostOps1] c) s (afterTail_pre m dats c) (h c).2.1 (h c).2.2⟩)

end Frame

/-- info: 'Cert.KernelIdeal.Hand.run_shared' depends on axioms: [propext, Classical.choice, Quot.sound] -/
#guard_msgs in #print axioms run_shared

end Cert.KernelIdeal.Hand

end
-- ==== Proof.KernelRun.lean ====
/-
  The kernel program's run: every weakly fair execution of @main terminates without a fault, the
  pipeline's arrays end at what the proof data computes and every other buffer at what the host
  operations give it.  The body obligation, the invariant's ends and the launch side put together.
-/
import proofs.«104923_j4312147165445_2_alg».proof.Proof.BodyEnds
import proofs.«104923_j4312147165445_2_alg».proof.Proof.LaunchShared

set_option maxRecDepth 16384

noncomputable section

namespace Cert.KernelIdeal.Hand

open Cert.KernelIdeal Cert.KernelIdeal.Gen
open Idealize.ShloMosaic
open Idealize.ShloMosaic.TcCoe
open Idealize.SL Idealize.SL.Sem
open Idealize.ShloMosaic.Rounds
open Idealize.ShloMosaic.Pipeline (Dat Cfg Window BodyObligation BodyObligationLoose cellOf)

variable {F : FTy → Type} [FloatOps F]

variable (m : (ℓ : Loc nD τ sig) → Buf (Elt F) ℓ) (ρ : Dev nD → PrngReg)

/-- The buffers' contents when the region is entered, read at a TensorCore reference. -/
abbrev Ventry (c : Dev nD) (b : Ref sig .tc) : Buf (Elt F) ((c : Thread nD τ).loc b) := V0 m c (Proc.devRef .tc b)

/-- The proof data at the program's tables and the region-entry contents. -/
abbrev datsM : (p : Fin 1) → (c : Dev nD) → Dat τ (Elt F) Unit ℕ (UR sig nD τ) ℕ (Pipeline.pin (pcfgs (F := F)) (fun _ => adm) p) c :=
  dats (F := F) adm (Ventry m) qShared pointFacts

set_option backward.isDefEq.respectTransparency.types false in
theorem run_main :
    θ_run defs (onTc (τ := τ) (main (F := F))) (s₀ m ρ)
      (Pipeline.FramePost (Pipeline.pin pcfgs (fun _ => adm)) (datsM m) 0 (Pipeline.afterTail pcfgs (fun _ => adm) (datsM m) 0 (V0 m) [hostOps1])) :=
  run_shared m ρ (datsM m) Variants.none
    (fun c w => by fin_cases w <;> rfl)
    (fun _ _ => rfl) (fun _ _ => rfl)
    (fun c => (body_obligation (F := F) adm (Ventry m) qShared pointFacts c).loose)
    (phi0_intro (F := F) (Ventry m) qShared)
    (phiN_exit (F := F) (Ventry m) qShared)

end Cert.KernelIdeal.Hand

end
-- ==== Proof.LaunchPost.lean ====
/-
  The launch side of the kernel program's frame: what the claim reads off the run.

  The claim speaks of three buffers.  The two argument arrays are written by no host operation, before or
  after the region, and are no window's array (the region reads their STACK, a host value), so they end as
  the launch memory had them.  The program's result is the last value the host lines after the region
  compute; those lines read the region's result array — which ends at what the output window's write-backs
  leave — and one earlier host value, which the region does not touch.
-/
import proofs.«104923_j4312147165445_2_alg».proof.Proof.LaunchShared

noncomputable section

namespace Cert.KernelIdeal.Hand

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

section Post

variable (m : (ℓ : Loc nD τ sig) → Buf (Elt F) ℓ) (ρ : Dev nD → PrngReg)
variable (dats : (p : Fin 1) → (c : Dev nD) →
  Pipeline.Dat τ (Elt F) Unit ℕ (UR sig nD τ) ℕ (Pipeline.pin (pcfgs (F := F)) (fun _ => adm) p) c)

local notation "cfgA" => Pipeline.pin (pcfgs (F := F)) (fun _ => adm)

/-! ## The contents the region is entered at, at the arguments -/

/-- No host operation before the region writes the first argument. -/
theorem V0_arg0 (c : Dev nD) : V0 m c (Proc.devRef .tc main_arg0) = m ((c.tc : Thread nD τ).loc main_arg0) := by
  dsimp only [V0]
  simp only [hostOps0, hostOps0_1, hostOps0_2, hostOps0_3, hostOps0_4, List.flatten_cons, List.flatten_nil, List.append_nil,
    List.cons_append, List.nil_append]
  after_results

/-- Nor the second. -/
theorem V0_arg1 (c : Dev nD) : V0 m c (Proc.devRef .tc main_arg1) = m ((c.tc : Thread nD τ).loc main_arg1) := by
  dsimp only [V0]
  simp only [hostOps0, hostOps0_1, hostOps0_2, hostOps0_3, hostOps0_4, List.flatten_cons, List.flatten_nil, List.append_nil,
    List.cons_append, List.nil_append]
  after_results

/-! ## The contents the region is left at -/

/-- A buffer that is no window's array leaves the region as it entered it. -/
theorem Wexit_of_ne (c : Dev nD) (b : Ref sig .tc) (hb : ∀ w, Pipeline.arrRef spec0 w ≠ b) :
    Wexit m dats c (Proc.devRef .tc b) = V0 m c (Proc.devRef .tc b) :=
  Pipeline.withArrays_of_ne (cfgA 0).spec c (V0 m c) _ b hb

/-- The earlier host value the lines after the region read is as the region found it. -/
theorem Wexit_v12 (c : Dev nD) : Wexit m dats c (Proc.devRef .tc main_v12) = V0 m c (Proc.devRef .tc main_v12) :=
  Wexit_of_ne m dats c main_v12 (by decide)

/-! ## After the host lines -/

/-- The first argument after the host lines: they do not write it, and the region does not touch it. -/
theorem afterTail_arg0 (c : Dev nD) :
    Pipeline.afterTail pcfgs (fun _ => adm) dats 0 (V0 m) [hostOps1] c main_arg0 = m ((c.tc : Thread nD τ).loc main_arg0) := by
  unfold Pipeline.afterTail
  simp only [List.flatten_cons, List.flatten_nil, List.append_nil]
  refine Eq.trans ?_ ((Wexit_of_ne m dats c main_arg0 (by decide)).trans (V0_arg0 m c))
  show StableHlo.after hostOps1 (Wexit m dats c) (Proc.devRef .tc main_arg0) = _
  after_results

/-- The second likewise. -/
theorem afterTail_arg1 (c : Dev nD) :
    Pipeline.afterTail pcfgs (fun _ => adm) dats 0 (V0 m) [hostOps1] c main_arg1 = m ((c.tc : Thread nD τ).loc main_arg1) := by
  unfold Pipeline.afterTail
  simp only [List.flatten_cons, List.flatten_nil, List.append_nil]
  refine Eq.trans ?_ ((Wexit_of_ne m dats c main_arg1 (by decide)).trans (V0_arg1 m c))
  show StableHlo.after hostOps1 (Wexit m dats c) (Proc.devRef .tc main_arg1) = _
  after_results

/-- The program's result after the host lines: the lines' value from the contents the region is left at. -/
theorem afterTail_v21 (c : Dev nD) :
    Pipeline.afterTail pcfgs (fun _ => adm) dats 0 (V0 m) [hostOps1] c main_v21
      = StableHlo.after hostOps1 (Wexit m dats c) (Proc.devRef .tc main_v21) := by
  unfold Pipeline.afterTail
  simp only [List.flatten_cons, List.flatten_nil, List.append_nil]

/-! ## The run, read at the claim's buffers -/

/-- THE RUN at the three buffers the claim speaks of: under `run_shared`'s hypotheses every weakly fair execution
    of the program terminates, faults nowhere, and ends with the program's result at what the host lines after the
    region compute from the contents the region is left at (the region's result array at what the write-backs leave,
    `Wexit_v14`; the earlier host value untouched, `Wexit_v12`) and both argument arrays as launched. -/
theorem run_post (𝒱₀ : Variants)
    (hA : ∀ c w, (dats 0 c).A w = V0 m c (Proc.devRef .tc (Pipeline.arrRef spec0 w)))
    (hq : ∀ c w, (dats 0 c).q w = qShared w)
    (howed : ∀ c t, (dats 0 c).owed t = 0)
    (hbody : ∀ c, Pipeline.BodyObligationLoose (dats 0 c) defs₀ 𝒱₀ () Set.univ)
    (hin : ∀ c, iprop(Pipeline.ΦA spec0 c ∗ Pipeline.ΦT pre0 tbl c) ⊢ (dats 0 c).Φ 0)
    (hout : ∀ c, (dats 0 c).Φ (Fin.last (cfgA 0).N) ⊢ Pipeline.ΦA spec0 c) :
    θ_run defs (onTc (τ := τ) (main (F := F))) (s₀ m ρ) (fun r => ∀ c : Dev nD,
      r.2.mem ((c.tc : Thread nD τ).loc main_v21) = StableHlo.after hostOps1 (Wexit m dats c) (Proc.devRef .tc main_v21)
      ∧ r.2.mem ((c.tc : Thread nD τ).loc main_arg0) = m ((c.tc : Thread nD τ).loc main_arg0)
      ∧ r.2.mem ((c.tc : Thread nD τ).loc main_arg1) = m ((c.tc : Thread nD τ).loc main_arg1)) :=
  (θ_run defs _ _).mono (fun _ h c =>
    ⟨((h c).2 main_v21 (by decide : main_v21 ∈ Pipeline.restRefs sig spec0)).trans (afterTail_v21 m dats c),
     ((h c).2 main_arg0 (by decide : main_arg0 ∈ Pipeline.restRefs sig spec0)).trans (afterTail_arg0 m dats c),
     ((h c).2 main_arg1 (by decide : main_arg1 ∈ Pipeline.restRefs sig spec0)).trans (afterTail_arg1 m dats c)⟩)
    (run_shared m ρ dats 𝒱₀ hA hq howed hbody hin hout)

/-- info: 'Cert.KernelIdeal.Hand.run_post' depends on axioms: [propext, Classical.choice, Quot.sound] -/
#guard_msgs in #print axioms run_post

end Post

end Cert.KernelIdeal.Hand

end
-- ==== Proof.KernelPost.lean ====
/-
  The kernel program's run read at the three buffers the claims speak of: the result buffer ends at
  the host operations after the pallas_call applied to the buffers as the region leaves them, and the
  two argument arrays end unchanged.
-/
import proofs.«104923_j4312147165445_2_alg».proof.Proof.KernelRun
import proofs.«104923_j4312147165445_2_alg».proof.Proof.LaunchPost

set_option maxRecDepth 16384

noncomputable section

namespace Cert.KernelIdeal.Hand

open Cert.KernelIdeal Cert.KernelIdeal.Gen
open Idealize.ShloMosaic
open Idealize.ShloMosaic.TcCoe
open Idealize.SL Idealize.SL.Sem
open Idealize.ShloMosaic.Rounds
open Idealize.ShloMosaic.Pipeline (Dat Cfg Window BodyObligation BodyObligationLoose cellOf)

variable {F : FTy → Type} [FloatOps F]

variable (m : (ℓ : Loc nD τ sig) → Buf (Elt F) ℓ) (ρ : Dev nD → PrngReg)

set_option backward.isDefEq.respectTransparency.types false in
theorem post_main :
    θ_run defs (onTc (τ := τ) (main (F := F))) (s₀ m ρ) (fun r => ∀ c : Dev nD,
      r.2.mem ((c.tc : Thread nD τ).loc main_v21) = StableHlo.after hostOps1 (Wexit m (datsM m) c) (Proc.devRef .tc main_v21)
      ∧ r.2.mem ((c.tc : Thread nD τ).loc main_arg0) = m ((c.tc : Thread nD τ).loc main_arg0)
      ∧ r.2.mem ((c.tc : Thread nD τ).loc main_arg1) = m ((c.tc : Thread nD τ).loc main_arg1)) :=
  run_post m ρ (datsM m) Variants.none
    (fun c w => by fin_cases w <;> rfl)
    (fun _ _ => rfl) (fun _ _ => rfl)
    (fun c => (body_obligation (F := F) adm (Ventry m) qShared pointFacts c).loose)
    (phi0_intro (F := F) (Ventry m) qShared)
    (phiN_exit (F := F) (Ventry m) qShared)

/-- The frame: the run with the result forgotten. -/
theorem frame_main :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)) :=
  (θ_run defs _ _).mono (fun _ h c => (h c).2) (post_main m ρ)

end Cert.KernelIdeal.Hand

end
-- ==== Proof.LaunchPostVal.lean ====
/-
  The launch side of the kernel program's frame: the program's result as one function.

  The ten host lines after the region reshape the region's 8 × 1024 result to 8192 entries, multiply an
  earlier host vector of 8192 entries by the constant 2, subtract the reshaped result from it, negate, sum
  the 8192 entries and divide by the constant 8192.  Read off the lines: the program's result is that
  composition applied to the earlier host vector, which the region does not touch, and to the region's
  result array, which ends at what the output window's write-backs leave.
-/
import proofs.«104923_j4312147165445_2_alg».proof.Proof.LaunchPost

noncomputable section

namespace Cert.KernelIdeal.Hand

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

section Val

/-- The host lines after the region as one function of the earlier host vector `P` and the region's result `L`,
    the operations in the program's order. -/
def tailOut (P : (⟨S8192, .f32⟩ : BufTy).Contents (Elt F)) (L : (⟨S8x1024, .f32⟩ : BufTy).Contents (Elt F)) :
    (⟨S_, .f32⟩ : BufTy).Contents (Elt F) :=
  Host.divf (F := F)
    (Host.reduceAdd (F := F)
      (Host.negf (F := F)
        (subf (mulf P (broadcastInDim S8192 ![] bcast_S_S8192 (constant (F := F) S_ .f32 0x40000000#32)))
          (shapeCast S8192 L shapeCasts_S8x1024_S8192)))
      (constant (F := F) S_ .f32 0x00000000#32) reducesTo_S8192_S_d0 h_S_)
    (constant (F := F) S_ .f32 0x46000000#32)

/-- From any contents, the last value the lines compute is that function of the two buffers they read from outside. -/
theorem tail_v21 (W : Valuation τ sig (Elt F)) :
    StableHlo.after hostOps1 W (Proc.devRef .tc main_v21)
      = tailOut (W (Proc.devRef .tc main_v12)) (W (Proc.devRef .tc main_v14)) := by
  after_results
  rfl

variable (m : (ℓ : Loc nD τ sig) → Buf (Elt F) ℓ)
variable (dats : (p : Fin 1) → (c : Dev nD) →
  Pipeline.Dat τ (Elt F) Unit ℕ (UR sig nD τ) ℕ (Pipeline.pin (pcfgs (F := F)) (fun _ => adm) p) c)

local notation "cfgA" => Pipeline.pin (pcfgs (F := F)) (fun _ => adm)

/-- The program's result after the run: the host lines' function of the earlier host vector as the region found it
    and of the region's result array as the output window's write-backs leave it. -/
theorem result_v21 (c : Dev nD) :
    StableHlo.after hostOps1 (Wexit m dats c) (Proc.devRef .tc main_v21)
      = tailOut (V0 m c (Proc.devRef .tc main_v12)) ((dats 0 c).arrAt 2 (cfgA 0).N) := by
  rw [tail_v21, Wexit_v12 m dats c, Wexit_v14 m dats c]

end Val

end Cert.KernelIdeal.Hand

end
-- ==== Proof.Spec.lean ====
/-
  The common value of the two programs, as one function of the two argument arrays over the
  extended reals.

  Stack the two arrays into Z (8192 rows of 256).  Divide every row by its clamped length,
  n(r) = max (sqrt (sum_d Z(r,d)^2)) eps, to get the unit rows zn; sim(r,c) is the inner product of
  rows r and c of zn.  Row r's partner is the row 4096 away.  The loss of row r is
  -(2 * sim(r, partner r) - log (sum over c other than r of exp (2 * sim(r,c)))), and the result is
  the mean of the 8192 losses.
-/
import Idealize.ShloMosaic.PureOps.Ideal
import Idealize.ShloMosaic.Lib.ValueIdx

noncomputable section

open scoped BigOperators

namespace Cert.Spec

open Idealize.ShloMosaic Idealize.ShloMosaic.ValueIdx

/-- The clamp on a row's length (the binary value of the single-precision literal nearest 1e-8). -/
abbrev eps : EReal := Ideal.ofBits .f32 0x322BCC77#32
/-- The literal 2 (the inverse temperature). -/
abbrev two : EReal := Ideal.ofBits .f32 0x40000000#32
/-- The literal 8192 (the number of rows). -/
abbrev rows : EReal := Ideal.ofBits .f32 0x46000000#32

/-- An array of 4096 rows of 256 extended reals. -/
abbrev Arg : Type := (⟨2, ![4096, 256]⟩ : Shape).Idx → EReal

/-- The two arrays stacked: rows 0..4095 are the first array's, rows 4096..8191 the second's. -/
def Z (zi zj : Arg) (r : Fin 8192) (d : Fin 256) : EReal :=
  if h : r.val < 4096 then zi (ix2 (⟨r.val, h⟩ : Fin 4096) d)
  else zj (ix2 (⟨r.val - 4096, by omega⟩ : Fin 4096) d)

variable (X : Fin 8192 → Fin 256 → EReal)

/-- A row's clamped length. -/
def len (r : Fin 8192) : EReal := max (Ideal.sqrt (∑ d : Fin 256, X r d * X r d)) eps
/-- The row divided by its clamped length. -/
def zn (r : Fin 8192) (d : Fin 256) : EReal := Ideal.div (X r d) (len X r)
/-- The inner product of two unit rows. -/
def sim (r c : Fin 8192) : EReal := ∑ d : Fin 256, zn X r d * zn X c d
/-- The weight of column c in row r's denominator: nothing on the diagonal, exp (2 sim) off it. -/
def wgt (r c : Fin 8192) : EReal := if r.val = c.val then 0 else Ideal.exp (sim X r c * two)
/-- Row r's denominator. -/
def den (r : Fin 8192) : EReal := ∑ c : Fin 8192, wgt X r c
/-- The similarity of row r and its partner, with the row of the first half written first. -/
def pos (r : Fin 8192) : EReal :=
  if h : r.val < 4096 then sim X r ⟨r.val + 4096, by omega⟩ else sim X ⟨r.val - 4096, by omega⟩ r
/-- Row r's loss. -/
def loss (r : Fin 8192) : EReal := -(pos X r * two - Ideal.log (den X r))

/-- The mean loss: the one number both programs end with. -/
def G (zi zj : Arg) : EReal := Ideal.div (∑ r : Fin 8192, loss (Z zi zj) r) rows

end Cert.Spec

end
-- ==== Proof.HostLemmas.lean ====
/-
  Host-side array operations read at an index, at the ideal values: the host's float sum of a whole
  vector and of each row of a matrix from the zero constant (the plain finite sums), a two-piece
  concatenation along the leading axis (the first piece below the seam, the second piece above it),
  a row-major reshape of a matrix to a vector (element r is the matrix at (r / a, r % a)), and the
  three broadcasts the row normalisation uses.
-/
import Idealize.ShloMosaic.Lib.ValueIdx
import Idealize.ShloMosaic.Lib.Pipeline.Value
import Idealize.ShloMosaic.PureOps.Ideal.Laws

noncomputable section

open scoped BigOperators

namespace Cert.Proof.KHost

open Idealize.ShloMosaic Idealize.ShloMosaic.ValueIdx

/-- A rank-1 index set is its coordinate's range. -/
def idxEquiv1 {n : Nat} : (⟨1, ![n]⟩ : Shape).Idx ≃ Fin n where
  toFun i := i 0
  invFun a := ix1 a
  left_inv i := (eq_ix1 i).symm
  right_inv _ := rfl

/-- A sum over a rank-1 index set is the sum over the coordinate. -/
theorem sum_idx1 {M : Type*} [AddCommMonoid M] {n : Nat} (f : (⟨1, ![n]⟩ : Shape).Idx → M) :
    ∑ i, f i = ∑ a : Fin n, f (ix1 a) := by
  rw [← Equiv.sum_comp (idxEquiv1 (n := n)).symm f]
  rfl

/-- The host's sum of a whole vector from the zero constant is the sum of its elements. -/
theorem hostSum_total {n : Nat} (h' : (⟨1, ![n]⟩ : Shape).ReducesTo [0] ⟨0, ![]⟩)
    (hu : 0 < (⟨0, ![]⟩ : Shape).numel) (x : FVec Ideal ⟨1, ![n]⟩ .f32) (j : (⟨0, ![]⟩ : Shape).Idx) :
    Host.reduceAdd (F := Ideal) x (constant (F := Ideal) ⟨0, ![]⟩ .f32 0x00000000#32) h' hu j
      = ∑ r : Fin n, x (ix1 r) := by
  unfold Host.reduceAdd
  rw [Ideal.hostReduceAdd_def, Ideal.hostReduceAdd_total h' (fun b => b.elim0), sum_idx1]
  show Ideal.ofBits .f32 0x00000000#32 + _ = _
  rw [Ideal.ofBits_zero_f32, zero_add]

/-- The host's sum of each row of a matrix from the zero constant is the sum over the row. -/
theorem hostSum_rows {n m : Nat} (h' : (⟨2, ![n, m]⟩ : Shape).ReducesTo [1] ⟨1, ![n]⟩)
    (h : (⟨2, ![n, m]⟩ : Shape).Reduces [1] ⟨1, ![n]⟩) (hu : 0 < (⟨0, ![]⟩ : Shape).numel)
    (x : FVec Ideal ⟨2, ![n, m]⟩ .f32) (r : Fin n) :
    Host.reduceAdd (F := Ideal) x (constant (F := Ideal) ⟨0, ![]⟩ .f32 0x00000000#32) h' hu (ix1 r)
      = ∑ d : Fin m, x (ix2 r d) := by
  unfold Host.reduceAdd
  rw [Ideal.hostReduceAdd_def, Ideal.hostReduceAdd_single h' h]
  show Ideal.ofBits .f32 0x00000000#32 + _ = _
  rw [Ideal.ofBits_zero_f32, zero_add]
  refine Finset.sum_congr rfl fun d _ => congrArg x ?_
  funext c
  apply Fin.ext
  match c with
  | ⟨0, _⟩ => rfl
  | ⟨1, _⟩ => rfl

/-- Two vectors of length n concatenated: below n the first, from n on the second. -/
theorem concat1_apply {n N : Nat} {α : Type} (hN : N = n + n)
    (h : Shape.Concatenates [(⟨1, ![n]⟩ : Shape), ⟨1, ![n]⟩] ⟨1, ![N]⟩ 0)
    (a b : (⟨1, ![n]⟩ : Shape).Idx → α) (r : Fin N) :
    concatenate ⟨1, ![N]⟩ 0 [⟨⟨1, ![n]⟩, a⟩, ⟨⟨1, ![n]⟩, b⟩] h (ix1 r)
      = if hr : r.val < n then a (ix1 ⟨r.val, hr⟩) else b (ix1 ⟨r.val - n, by omega⟩) := by
  split
  · next hr =>
    refine concatenate_pair_apply_left 0 a b h (ix1 r) rfl (ix1 ⟨r.val, hr⟩) ?_
    intro c
    match c with
    | ⟨0, _⟩ => rfl
  · next hr =>
    refine concatenate_pair_apply_right 0 a b h (ix1 r) rfl rfl (ix1 ⟨r.val - n, by omega⟩) ?_ ?_
    · intro c hc
      exact absurd (Subsingleton.elim _ _) hc
    · show (r.val - n) + n = r.val
      omega

/-- Two matrices of n rows concatenated along the rows: below row n the first, from row n on the second. -/
theorem concat2_apply {n N m : Nat} {α : Type} (hN : N = n + n)
    (h : Shape.Concatenates [(⟨2, ![n, m]⟩ : Shape), ⟨2, ![n, m]⟩] ⟨2, ![N, m]⟩ 0)
    (a b : (⟨2, ![n, m]⟩ : Shape).Idx → α) (r : Fin N) (d : Fin m) :
    concatenate ⟨2, ![N, m]⟩ 0 [⟨⟨2, ![n, m]⟩, a⟩, ⟨⟨2, ![n, m]⟩, b⟩] h (ix2 r d)
      = if hr : r.val < n then a (ix2 ⟨r.val, hr⟩ d) else b (ix2 ⟨r.val - n, by omega⟩ d) := by
  split
  · next hr =>
    refine concatenate_pair_apply_left 0 a b h (ix2 r d) rfl (ix2 ⟨r.val, hr⟩ d) ?_
    intro c
    match c with
    | ⟨0, _⟩ => rfl
    | ⟨1, _⟩ => rfl
  · next hr =>
    refine concatenate_pair_apply_right 0 a b h (ix2 r d) rfl rfl (ix2 ⟨r.val - n, by omega⟩ d) ?_ ?_
    · intro c hc
      match c, hc with
      | ⟨0, _⟩, hc => exact absurd rfl hc
      | ⟨1, _⟩, _ => rfl
    · show (r.val - n) + n = r.val
      omega

/-- A t × a matrix reshaped to a vector, row-major: element r is the matrix at (r / a, r % a). -/
theorem reshape_rows_apply {t a N : Nat} {α : Type} (hN : N = t * a) (ha : 0 < a)
    (h : (⟨2, ![t, a]⟩ : Shape).ShapeCasts ⟨1, ![N]⟩) (L : (⟨2, ![t, a]⟩ : Shape).Idx → α) (r : Fin N) :
    shapeCast ⟨1, ![N]⟩ L h (ix1 r)
      = L (ix2 ⟨r.val / a, Nat.div_lt_of_lt_mul (lt_of_lt_of_eq r.isLt (hN.trans (Nat.mul_comm t a)))⟩
          ⟨r.val % a, Nat.mod_lt _ ha⟩) := by
  refine shapeCast_apply L h (ix1 r) _ ?_
  rw [Shape.rowMajor_val_two, Shape.rowMajor_val_one]
  show r.val / a * a + r.val % a = r.val
  exact Nat.div_add_mod' _ _

/-- A vector broadcast to a one-column matrix reads the vector at the row. -/
theorem bcast_col_apply {n : Nat} {α : Type}
    (h : (⟨1, ![n]⟩ : Shape).BroadcastsInDim ⟨2, ![n, 1]⟩ (![0] : Fin 1 → Fin 2))
    (v : (⟨1, ![n]⟩ : Shape).Idx → α) (r : Fin n) (z : Fin 1) :
    broadcastInDim ⟨2, ![n, 1]⟩ ![0] h v (ix2 r z) = v (ix1 r) := by
  refine broadcastInDim_apply _ h v (ix2 r z) (ix1 r) ?_
  intro c
  match c with
  | ⟨0, _⟩ =>
    show r.val = if n = 1 then 0 else r.val
    split
    · have := r.isLt; omega
    · rfl

/-- A one-column matrix broadcast along the columns reads its row's one entry. -/
theorem bcast_row_apply {n m : Nat} {α : Type}
    (h : (⟨2, ![n, 1]⟩ : Shape).BroadcastsInDim ⟨2, ![n, m]⟩ (![0, 1] : Fin 2 → Fin 2))
    (w : (⟨2, ![n, 1]⟩ : Shape).Idx → α) (r : Fin n) (d : Fin m) :
    broadcastInDim ⟨2, ![n, m]⟩ ![0, 1] h w (ix2 r d) = w (ix2 r (0 : Fin 1)) := by
  refine broadcastInDim_apply _ h w (ix2 r d) (ix2 r (0 : Fin 1)) ?_
  intro c
  match c with
  | ⟨0, _⟩ =>
    show r.val = if n = 1 then 0 else r.val
    split
    · have := r.isLt; omega
    · rfl
  | ⟨1, _⟩ =>
    show 0 = if 1 = 1 then 0 else d.val
    rfl

end Cert.Proof.KHost

end
-- ==== Proof.HostTailCore.lean ====
/-
  The host arithmetic after the call, over literal shapes: from the 8192 partner similarities P and
  the call's 8 × 1024 result L, the mean over the rows r of  -(P r · 2 - L (r / 1024, r % 1024)).
  When P r is the partner similarity of row r and L (t, a) the logarithm of row 1024 t + a's
  denominator, every summand is that row's loss, so the value is the mean loss.
-/
import proofs.«104923_j4312147165445_2_alg».proof.Proof.Spec
import proofs.«104923_j4312147165445_2_alg».proof.Proof.HostLemmas

noncomputable section

open scoped BigOperators

namespace Cert.Proof.KHost

open Idealize.ShloMosaic Idealize.ShloMosaic.ValueIdx

/-- The mean of the rows' losses, read off the host's operations after the call. -/
theorem tail_core
    (hb : (⟨0, ![]⟩ : Shape).BroadcastsInDim ⟨1, ![8192]⟩ (![] : Fin 0 → Fin 1))
    (hc : (⟨2, ![8, 1024]⟩ : Shape).ShapeCasts ⟨1, ![8192]⟩)
    (hr : (⟨1, ![8192]⟩ : Shape).ReducesTo [0] ⟨0, ![]⟩) (hu : 0 < (⟨0, ![]⟩ : Shape).numel)
    (P : FVec Ideal ⟨1, ![8192]⟩ .f32) (L : FVec Ideal ⟨2, ![8, 1024]⟩ .f32)
    (X : Fin 8192 → Fin 256 → EReal)
    (hP : ∀ r : Fin 8192, P (ix1 r) = Cert.Spec.pos X r)
    (hL : ∀ (t : Fin 8) (a : Fin 1024),
      L (ix2 t a) = Ideal.log (Cert.Spec.den X ⟨t.val * 1024 + a.val, by omega⟩))
    (j : (⟨0, ![]⟩ : Shape).Idx) :
    Host.divf (F := Ideal)
        (Host.reduceAdd (F := Ideal)
          (Host.negf (F := Ideal)
            (subf (mulf P (broadcastInDim ⟨1, ![8192]⟩ ![] hb (constant (F := Ideal) ⟨0, ![]⟩ .f32 0x40000000#32)))
              (shapeCast ⟨1, ![8192]⟩ L hc)))
          (constant (F := Ideal) ⟨0, ![]⟩ .f32 0x00000000#32) hr hu)
        (constant (F := Ideal) ⟨0, ![]⟩ .f32 0x46000000#32) j
      = Ideal.div (∑ r : Fin 8192, Cert.Spec.loss X r) Cert.Spec.rows := by
  show Ideal.div (Host.reduceAdd (F := Ideal) _ _ hr hu j) (Ideal.ofBits .f32 0x46000000#32) = _
  rw [hostSum_total hr hu _ j]
  refine congrArg (fun s => Ideal.div s Cert.Spec.rows) (Finset.sum_congr rfl fun r _ => ?_)
  show -(P (ix1 r) * Ideal.ofBits .f32 0x40000000#32 - shapeCast ⟨1, ![8192]⟩ L hc (ix1 r)) = Cert.Spec.loss X r
  rw [reshape_rows_apply (t := 8) (a := 1024) rfl (by decide) hc L r, hP r, hL]
  unfold Cert.Spec.loss
  refine congrArg (fun z => -(Cert.Spec.pos X r * Cert.Spec.two - Ideal.log (Cert.Spec.den X z))) (Fin.ext ?_)
  exact Nat.div_add_mod' r.val 1024

end Cert.Proof.KHost

end
-- ==== Proof.HostTail.lean ====
/-
  The host arithmetic after the call at the ideal values: the call's 8 × 1024 result is reshaped
  to 8192 entries, the doubled vector of partner similarities is multiplied by 2, the difference is
  negated and summed, and the sum divided by 8192.  With the partner similarities and the logarithms
  of the rows' denominators going in, the result is the mean of the rows' losses.
-/
import proofs.«104923_j4312147165445_2_alg».proof.Proof.Gen.KernelIdeal
import proofs.«104923_j4312147165445_2_alg».proof.Proof.Spec
import proofs.«104923_j4312147165445_2_alg».proof.Proof.HostTailCore

noncomputable section

open scoped BigOperators

namespace Cert.Proof.KHost

open Idealize.ShloMosaic Idealize.ShloMosaic.ValueIdx
open Cert.KernelIdeal Cert.KernelIdeal.Facts₀

/-- The program's result as a function of the doubled vector of partner similarities P and the
    call's result L: the host's operations after the call, in the program's order. -/
def tailVal (P : FVec Ideal S8192 .f32) (L : FVec Ideal S8x1024 .f32) : FVec Ideal S_ .f32 :=
  Host.divf (F := Ideal)
    (Host.reduceAdd (F := Ideal)
      (Host.negf (F := Ideal)
        (subf (mulf P (broadcastInDim S8192 ![] bcast_S_S8192 (constant (F := Ideal) S_ .f32 0x40000000#32)))
          (shapeCast S8192 L shapeCasts_S8x1024_S8192)))
      (constant (F := Ideal) S_ .f32 0x00000000#32) reducesTo_S8192_S_d0 h_S_)
    (constant (F := Ideal) S_ .f32 0x46000000#32)

/-- With the partner similarities in P and the logarithms of the denominators in L (row-major,
    1024 rows to each of the 8 leading coordinates), the program's result is the mean loss. -/
theorem tailVal_eq (P : FVec Ideal S8192 .f32) (L : FVec Ideal S8x1024 .f32) (X : Fin 8192 → Fin 256 → EReal)
    (hP : ∀ r : Fin 8192, P (ix1 r) = Cert.Spec.pos X r)
    (hL : ∀ (t : Fin 8) (a : Fin 1024),
      L (ix2 t a) = Ideal.log (Cert.Spec.den X ⟨t.val * 1024 + a.val, by omega⟩)) :
    tailVal P L ValueIdx.ix0 = Ideal.div (∑ r : Fin 8192, Cert.Spec.loss X r) Cert.Spec.rows :=
  tail_core bcast_S_S8192 shapeCasts_S8x1024_S8192 reducesTo_S8192_S_d0 h_S_ P L X hP hL ValueIdx.ix0

/-- At the stacked arguments the mean loss is the specification's value. -/
theorem tailVal_eq_G (P : FVec Ideal S8192 .f32) (L : FVec Ideal S8x1024 .f32) (x0 x1 : Cert.Spec.Arg)
    (hP : ∀ r : Fin 8192, P (ix1 r) = Cert.Spec.pos (Cert.Spec.Z x0 x1) r)
    (hL : ∀ (t : Fin 8) (a : Fin 1024),
      L (ix2 t a) = Ideal.log (Cert.Spec.den (Cert.Spec.Z x0 x1) ⟨t.val * 1024 + a.val, by omega⟩)) :
    tailVal P L ValueIdx.ix0 = Cert.Spec.G x0 x1 :=
  tailVal_eq P L (Cert.Spec.Z x0 x1) hP hL

end Cert.Proof.KHost

end
-- ==== Proof.LaunchPostIdeal.lean ====
/-
  The kernel program's result at the ideal values.

  At the extended reals the host lines after the region, read as one function, are the function the host
  arithmetic's value lemmas are stated over; so the program ends with its result at that function of the
  earlier host vector and of the region's result array.
-/
import proofs.«104923_j4312147165445_2_alg».proof.Proof.LaunchPostVal
import proofs.«104923_j4312147165445_2_alg».proof.Proof.HostTail

noncomputable section

namespace Cert.KernelIdeal.Hand

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

/-- At the extended reals the host lines' function is the one the value lemmas name. -/
theorem tailOut_eq_tailVal (P : FVec Ideal S8192 .f32) (L : FVec Ideal S8x1024 .f32) :
    tailOut (F := Ideal) P L = Cert.Proof.KHost.tailVal P L := rfl

variable (m : (ℓ : Loc nD τ sig) → Buf (Elt Ideal) ℓ)
variable (dats : (p : Fin 1) → (c : Dev nD) →
  Pipeline.Dat τ (Elt Ideal) Unit ℕ (UR sig nD τ) ℕ (Pipeline.pin (pcfgs (F := Ideal)) (fun _ => adm) p) c)

/-- The program's result after the run, at the extended reals. -/
theorem result_v21_ideal (c : Dev nD) :
    StableHlo.after hostOps1 (Wexit m dats c) (Proc.devRef .tc main_v21)
      = Cert.Proof.KHost.tailVal (V0 m c (Proc.devRef .tc main_v12))
          ((dats 0 c).arrAt 2 (Pipeline.pin (pcfgs (F := Ideal)) (fun _ => adm) 0).N) :=
  result_v21 m dats c

end Cert.KernelIdeal.Hand

end
-- ==== Proof.HostPrefixCore.lean ====
/-
  The host arithmetic before the call, over literal shapes.  Each argument's rows are divided by
  their clamped lengths; the partner similarity of row i of the first array and row i of the second
  is the inner product of the two unit rows.  On the stacked array Z (the first array's 4096 rows,
  then the second's) these are the specification's unit rows and partner similarities: row i and
  row i + 4096 are partners, and both rows' partner similarity is the same inner product.
-/
import proofs.«104923_j4312147165445_2_alg».proof.Proof.Spec
import proofs.«104923_j4312147165445_2_alg».proof.Proof.HostLemmas

noncomputable section

open scoped BigOperators

namespace Cert.Proof.KHost

open Idealize.ShloMosaic Idealize.ShloMosaic.ValueIdx

/-- Entry d of row i of an array, divided by the row's clamped length. -/
def rowUnit (x : Cert.Spec.Arg) (i : Fin 4096) (d : Fin 256) : EReal :=
  Ideal.div (x (ix2 i d)) (max (Ideal.sqrt (∑ e : Fin 256, x (ix2 i e) * x (ix2 i e))) Cert.Spec.eps)

/-! ## The specification on the stacked array -/

/-- A row of the first half of the stack is the first array's row. -/
theorem Z_lo (x0 x1 : Cert.Spec.Arg) (i : Fin 4096) (d : Fin 256) :
    Cert.Spec.Z x0 x1 ⟨i.val, by omega⟩ d = x0 (ix2 i d) := by
  unfold Cert.Spec.Z
  rw [dif_pos (show (⟨i.val, _⟩ : Fin 8192).val < 4096 from i.isLt)]

/-- A row of the second half of the stack is the second array's row. -/
theorem Z_hi (x0 x1 : Cert.Spec.Arg) (i : Fin 4096) (d : Fin 256) :
    Cert.Spec.Z x0 x1 ⟨i.val + 4096, by omega⟩ d = x1 (ix2 i d) := by
  unfold Cert.Spec.Z
  rw [dif_neg (show ¬ (⟨i.val + 4096, _⟩ : Fin 8192).val < 4096 from Nat.not_lt.2 (Nat.le_add_left _ _))]
  exact congrArg (fun k : Fin 4096 => x1 (ix2 k d)) (Fin.ext (by show i.val + 4096 - 4096 = i.val; omega))

/-- The unit row of a row of the first half. -/
theorem zn_lo (x0 x1 : Cert.Spec.Arg) (i : Fin 4096) (d : Fin 256) :
    Cert.Spec.zn (Cert.Spec.Z x0 x1) ⟨i.val, by omega⟩ d = rowUnit x0 i d := by
  unfold Cert.Spec.zn Cert.Spec.len rowUnit
  simp only [Z_lo]

/-- The unit row of a row of the second half. -/
theorem zn_hi (x0 x1 : Cert.Spec.Arg) (i : Fin 4096) (d : Fin 256) :
    Cert.Spec.zn (Cert.Spec.Z x0 x1) ⟨i.val + 4096, by omega⟩ d = rowUnit x1 i d := by
  unfold Cert.Spec.zn Cert.Spec.len rowUnit
  simp only [Z_hi]

/-- The partner similarity of a row of the first half. -/
theorem pos_lo (x0 x1 : Cert.Spec.Arg) (i : Fin 4096) :
    Cert.Spec.pos (Cert.Spec.Z x0 x1) ⟨i.val, by omega⟩ = ∑ d : Fin 256, rowUnit x0 i d * rowUnit x1 i d := by
  unfold Cert.Spec.pos
  rw [dif_pos (show (⟨i.val, _⟩ : Fin 8192).val < 4096 from i.isLt)]
  unfold Cert.Spec.sim
  refine Finset.sum_congr rfl fun d _ => ?_
  rw [zn_lo]
  exact congrArg (rowUnit x0 i d * ·) (zn_hi x0 x1 i d)

/-- The partner similarity of a row of the second half: the same inner product. -/
theorem pos_hi (x0 x1 : Cert.Spec.Arg) (i : Fin 4096) :
    Cert.Spec.pos (Cert.Spec.Z x0 x1) ⟨i.val + 4096, by omega⟩ = ∑ d : Fin 256, rowUnit x0 i d * rowUnit x1 i d := by
  unfold Cert.Spec.pos
  rw [dif_neg (show ¬ (⟨i.val + 4096, _⟩ : Fin 8192).val < 4096 from Nat.not_lt.2 (Nat.le_add_left _ _))]
  unfold Cert.Spec.sim
  refine Finset.sum_congr rfl fun d _ => ?_
  rw [zn_hi]
  refine congrArg (· * rowUnit x1 i d) ?_
  have e : (⟨(⟨i.val + 4096, by omega⟩ : Fin 8192).val - 4096, by omega⟩ : Fin 8192) = ⟨i.val, by omega⟩ :=
    Fin.ext (by show i.val + 4096 - 4096 = i.val; omega)
  rw [e]
  exact zn_lo x0 x1 i d

/-! ## The host's operations -/

section Ops

variable (hR : (⟨2, ![4096, 256]⟩ : Shape).ReducesTo [1] ⟨1, ![4096]⟩)
  (hu : 0 < (⟨0, ![]⟩ : Shape).numel)
  (hb0 : (⟨1, ![4096]⟩ : Shape).BroadcastsInDim ⟨2, ![4096, 1]⟩ (![0] : Fin 1 → Fin 2))
  (hbe : (⟨0, ![]⟩ : Shape).BroadcastsInDim ⟨2, ![4096, 1]⟩ (![] : Fin 0 → Fin 2))
  (hb01 : (⟨2, ![4096, 1]⟩ : Shape).BroadcastsInDim ⟨2, ![4096, 256]⟩ (![0, 1] : Fin 2 → Fin 2))

/-- An array divided, row by row, by its rows' clamped lengths, read at an entry. -/
theorem unit_core (x : FVec Ideal ⟨2, ![4096, 256]⟩ .f32) (i : Fin 4096) (d : Fin 256) :
    Host.divf (F := Ideal) x
        (broadcastInDim ⟨2, ![4096, 256]⟩ ![0, 1] hb01
          (maximumf
            (Host.sqrt (F := Ideal)
              (broadcastInDim ⟨2, ![4096, 1]⟩ ![0] hb0
                (Host.reduceAdd (F := Ideal) (mulf x x) (constant (F := Ideal) ⟨0, ![]⟩ .f32 0x00000000#32) hR hu)))
            (broadcastInDim ⟨2, ![4096, 1]⟩ ![] hbe (constant (F := Ideal) ⟨0, ![]⟩ .f32 0x322BCC77#32))))
        (ix2 i d)
      = rowUnit x i d := by
  show Ideal.div (x (ix2 i d)) (broadcastInDim (s := ⟨2, ![4096, 1]⟩) ⟨2, ![4096, 256]⟩ ![0, 1] hb01 _ (ix2 i d)) = _
  rw [bcast_row_apply hb01 _ i d]
  show Ideal.div (x (ix2 i d))
      (max (Ideal.sqrt (broadcastInDim (s := ⟨1, ![4096]⟩) ⟨2, ![4096, 1]⟩ ![0] hb0 _ (ix2 i (0 : Fin 1)))) (Ideal.ofBits .f32 0x322BCC77#32)) = _
  rw [bcast_col_apply hb0 _ i (0 : Fin 1), hostSum_rows hR (by decide) hu _ i]
  rfl

/-- The inner products of the two arrays' unit rows, read at a row. -/
theorem sim_core (x0 x1 : FVec Ideal ⟨2, ![4096, 256]⟩ .f32) (u0 u1 : FVec Ideal ⟨2, ![4096, 256]⟩ .f32)
    (h0 : ∀ i d, u0 (ix2 i d) = rowUnit x0 i d) (h1 : ∀ i d, u1 (ix2 i d) = rowUnit x1 i d) (i : Fin 4096) :
    Host.reduceAdd (F := Ideal) (mulf u0 u1) (constant (F := Ideal) ⟨0, ![]⟩ .f32 0x00000000#32) hR hu (ix1 i)
      = ∑ d : Fin 256, rowUnit x0 i d * rowUnit x1 i d := by
  rw [hostSum_rows hR (by decide) hu _ i]
  refine Finset.sum_congr rfl fun d _ => ?_
  show u0 (ix2 i d) * u1 (ix2 i d) = _
  rw [h0, h1]

end Ops

/-- The doubled vector of partner similarities holds every row's partner similarity. -/
theorem pos_core (hC : Shape.Concatenates [(⟨1, ![4096]⟩ : Shape), ⟨1, ![4096]⟩] ⟨1, ![8192]⟩ 0)
    (x0 x1 : Cert.Spec.Arg) (v : FVec Ideal ⟨1, ![4096]⟩ .f32)
    (hv : ∀ i : Fin 4096, v (ix1 i) = ∑ d : Fin 256, rowUnit x0 i d * rowUnit x1 i d) (r : Fin 8192) :
    concatenate ⟨1, ![8192]⟩ 0 [⟨⟨1, ![4096]⟩, v⟩, ⟨⟨1, ![4096]⟩, v⟩] hC (ix1 r)
      = Cert.Spec.pos (Cert.Spec.Z x0 x1) r := by
  rw [concat1_apply (n := 4096) rfl hC v v r]
  split
  · next hr =>
    rw [hv]
    exact (pos_lo x0 x1 ⟨r.val, hr⟩).symm
  · next hr =>
    rw [hv]
    refine (pos_hi x0 x1 ⟨r.val - 4096, by omega⟩).symm.trans ?_
    exact congrArg (Cert.Spec.pos (Cert.Spec.Z x0 x1)) (Fin.ext (by show r.val - 4096 + 4096 = r.val; omega))

/-- The two arguments concatenated along the rows are the stacked array. -/
theorem stack_core (hC : Shape.Concatenates [(⟨2, ![4096, 256]⟩ : Shape), ⟨2, ![4096, 256]⟩] ⟨2, ![8192, 256]⟩ 0)
    (x0 x1 : Cert.Spec.Arg) (r : Fin 8192) (d : Fin 256) :
    concatenate ⟨2, ![8192, 256]⟩ 0 [⟨⟨2, ![4096, 256]⟩, x0⟩, ⟨⟨2, ![4096, 256]⟩, x1⟩] hC (ix2 r d)
      = Cert.Spec.Z x0 x1 r d := by
  rw [concat2_apply (n := 4096) rfl hC x0 x1 r d]
  rfl

end Cert.Proof.KHost

end
-- ==== Proof.HostPrefix.lean ====
/-
  The host arithmetic before the call at the ideal values, in the program's order: each argument's
  rows' lengths (the square root of the sum of squares), clamped from below, the arguments divided
  by them, the inner products of corresponding rows of the two unit arrays (the 4096 partner
  similarities), that vector concatenated with itself, and the two arguments concatenated.  The
  doubled vector holds every row's partner similarity on the stacked array, and the concatenated
  arguments are the stacked array.
-/
import proofs.«104923_j4312147165445_2_alg».proof.Proof.Gen.KernelIdeal
import proofs.«104923_j4312147165445_2_alg».proof.Proof.Spec
import proofs.«104923_j4312147165445_2_alg».proof.Proof.HostPrefixCore

noncomputable section

open scoped BigOperators

namespace Cert.Proof.KHost

open Idealize.ShloMosaic Idealize.ShloMosaic.ValueIdx
open Cert.KernelIdeal Cert.KernelIdeal.Facts₀

/-- The lengths of an array's rows, as a column: the square root of each row's sum of squares. -/
def normCol (x : FVec Ideal S4096x256 .f32) : FVec Ideal S4096x1 .f32 :=
  Host.sqrt (F := Ideal)
    (broadcastInDim S4096x1 ![0] bcast_S4096_S4096x1_0
      (Host.reduceAdd (F := Ideal) (mulf x x) (constant (F := Ideal) S_ .f32 0x00000000#32)
        reducesTo_S4096x256_S4096_d1 h_S_))

/-- The rows' lengths clamped from below. -/
def clampCol (x : FVec Ideal S4096x256 .f32) : FVec Ideal S4096x1 .f32 :=
  maximumf (normCol x) (broadcastInDim S4096x1 ![] bcast_S_S4096x1 (constant (F := Ideal) S_ .f32 0x322BCC77#32))

/-- An array divided, row by row, by its rows' clamped lengths. -/
def unitRows (x : FVec Ideal S4096x256 .f32) : FVec Ideal S4096x256 .f32 :=
  Host.divf (F := Ideal) x (broadcastInDim S4096x256 ![0, 1] bcast_S4096x1_S4096x256_0_1 (clampCol x))

/-- The 4096 partner similarities: the inner products of corresponding unit rows. -/
def simVec (x0 x1 : FVec Ideal S4096x256 .f32) : FVec Ideal S4096 .f32 :=
  Host.reduceAdd (F := Ideal) (mulf (unitRows x0) (unitRows x1)) (constant (F := Ideal) S_ .f32 0x00000000#32)
    reducesTo_S4096x256_S4096_d1 h_S_

/-- The partner similarities concatenated with themselves: one entry for each of the 8192 rows. -/
def posArr (x0 x1 : FVec Ideal S4096x256 .f32) : FVec Ideal S8192 .f32 :=
  concatenate S8192 0 [⟨S4096, simVec x0 x1⟩, ⟨S4096, simVec x0 x1⟩] concatenates_S4096_S4096_S8192_d0

/-- The two arguments concatenated along the rows: the call's input. -/
def stackArr (x0 x1 : FVec Ideal S4096x256 .f32) : FVec Ideal S8192x256 .f32 :=
  concatenate S8192x256 0 [⟨S4096x256, x0⟩, ⟨S4096x256, x1⟩] concatenates_S4096x256_S4096x256_S8192x256_d0

/-- A unit array's entry. -/
theorem unitRows_apply (x : FVec Ideal S4096x256 .f32) (i : Fin 4096) (d : Fin 256) :
    unitRows x (ix2 i d) = rowUnit x i d :=
  unit_core reducesTo_S4096x256_S4096_d1 h_S_ bcast_S4096_S4096x1_0 bcast_S_S4096x1 bcast_S4096x1_S4096x256_0_1 x i d

/-- A partner similarity as the inner product of the two unit rows. -/
theorem simVec_apply (x0 x1 : FVec Ideal S4096x256 .f32) (i : Fin 4096) :
    simVec x0 x1 (ix1 i) = ∑ d : Fin 256, rowUnit x0 i d * rowUnit x1 i d :=
  sim_core reducesTo_S4096x256_S4096_d1 h_S_ x0 x1 (unitRows x0) (unitRows x1) (unitRows_apply x0) (unitRows_apply x1) i

/-- The doubled vector holds every row's partner similarity on the stacked array. -/
theorem posArr_apply (x0 x1 : FVec Ideal S4096x256 .f32) (r : Fin 8192) :
    posArr x0 x1 (ix1 r) = Cert.Spec.pos (Cert.Spec.Z x0 x1) r :=
  pos_core concatenates_S4096_S4096_S8192_d0 x0 x1 (simVec x0 x1) (simVec_apply x0 x1) r

/-- The concatenated arguments are the stacked array. -/
theorem stackArr_apply (x0 x1 : FVec Ideal S4096x256 .f32) (r : Fin 8192) (d : Fin 256) :
    stackArr x0 x1 (ix2 r d) = Cert.Spec.Z x0 x1 r d :=
  stack_core concatenates_S4096x256_S4096x256_S8192x256_d0 x0 x1 r d

end Cert.Proof.KHost

end
-- ==== Proof.EntryValues.lean ====
/-
  What two buffers hold when the region is entered, at the ideal instance: the doubled vector of
  partner similarities and the stacked array are the host operations before the pallas_call applied
  to the two arguments.  Read at an index they are the specification's partner similarity and
  stacked array.
-/
import proofs.«104923_j4312147165445_2_alg».proof.Proof.Adm
import proofs.«104923_j4312147165445_2_alg».proof.Proof.HostPrefix
import Idealize.ShloMosaic.Lib.StableHlo.Run

set_option maxRecDepth 16384

noncomputable section

namespace Cert.KernelIdeal.Hand

open Cert.KernelIdeal Cert.KernelIdeal.Gen
open Idealize.ShloMosaic Idealize.ShloMosaic.TcCoe Idealize.ShloMosaic.StableHlo
open Idealize.SL.Sem
open Idealize.ShloMosaic.ValueIdx (ix1 ix2)

variable (m : (ℓ : Loc nD τ sig) → Buf (Elt Ideal) ℓ) (c : Dev nD)

/-- The first argument array on core `c`. -/
abbrev argI : (⟨S4096x256, .f32⟩ : BufTy).Contents (Elt Ideal) := m ((c.tc : Thread nD τ).loc main_arg0)
/-- The second argument array on core `c`. -/
abbrev argJ : (⟨S4096x256, .f32⟩ : BufTy).Contents (Elt Ideal) := m ((c.tc : Thread nD τ).loc main_arg1)

set_option maxHeartbeats 4000000 in
/-- The doubled vector of partner similarities, as the host computes it from the two arguments. -/
theorem V0_v12 :
    (V0 m c (Proc.devRef .tc main_v12) : S8192.Idx → Elt Ideal .f32) = Cert.Proof.KHost.posArr (argI m c) (argJ m c) := by
  dsimp only [V0]
  simp only [hostOps0, hostOps0_1, hostOps0_2, hostOps0_3, hostOps0_4, List.flatten_cons, List.flatten_nil, List.append_nil, List.cons_append, List.nil_append]
  after_results_simp
  repeat (first
    | rw [nullary_result] | rw [unary_result] | rw [binary_result] | rw [TRef.nullary_result] | rw [TRef.unary_result] | rw [TRef.binary_result]
    | (rw [nullary_result_ne]; rotate_left; decide)
    | (rw [unary_result_ne]; rotate_left; decide)
    | (rw [binary_result_ne]; rotate_left; decide))
  simp only [TRef.ofBuf, TRef.toBuf, cast_cast, cast_eq]
  rfl

set_option maxHeartbeats 4000000 in
/-- The stacked array: the two arguments one above the other. -/
theorem V0_v13 :
    (V0 m c (Proc.devRef .tc main_v13) : S8192x256.Idx → Elt Ideal .f32) = Cert.Proof.KHost.stackArr (argI m c) (argJ m c) := by
  dsimp only [V0]
  simp only [hostOps0, hostOps0_1, hostOps0_2, hostOps0_3, hostOps0_4, List.flatten_cons, List.flatten_nil, List.append_nil, List.cons_append, List.nil_append]
  after_results_simp
  rfl

/-- The stacked array of the specification. -/
abbrev XM : Fin 8192 → Fin 256 → EReal := Cert.Spec.Z (argI m c) (argJ m c)

theorem V0_v12_apply (r : Fin 8192) :
    (V0 m c (Proc.devRef .tc main_v12) : S8192.Idx → Elt Ideal .f32) (ix1 r) = Cert.Spec.pos (XM m c) r := by
  rw [V0_v12]; exact Cert.Proof.KHost.posArr_apply _ _ r

theorem V0_v13_apply (r : Fin 8192) (d : Fin 256) :
    (V0 m c (Proc.devRef .tc main_v13) : S8192x256.Idx → Elt Ideal .f32) (ix2 r d) = XM m c r d := by
  rw [V0_v13]; exact Cert.Proof.KHost.stackArr_apply _ _ r d

end Cert.KernelIdeal.Hand

end
-- ==== Proof.AccFold.lean ====
/-
  The accumulation over the 36 tile pairs, as arithmetic on extended reals.

  The 8192 rows are cut into 8 blocks of 1024; row a of block p is row p * 1024 + a.  The 36 pairs
  (p, q) with p ≤ q < 8 are visited in the order of the two tables pTab, qTab.  At a pair the 8 × 1024
  accumulator's row p gains, at each a, the sum over b of the weight of (row p a, row q b) -- the row
  sums of the tile --, and, when p ≠ q, row q then gains, at each b, the sum over a of the same
  weights -- the column sums of the tile.  Since the weight is symmetric, the column sums of tile
  (p, q) are the row sums of the mirrored tile (q, p), which is never visited.  So after the 36 pairs
  row t has received, for every block q, the row sums of tile (t, q) exactly once: from the pair
  (t, q) when t ≤ q, from the pair (q, t) when q < t.  Regrouping the 8192 columns into the 8 blocks,
  that total is the denominator of row t * 1024 + a.
-/
import proofs.«104923_j4312147165445_2_alg».proof.Proof.Spec

noncomputable section

open scoped BigOperators

namespace Cert.Proof.KMath

/-- Row `a` of block `p`. -/
def row (p : Fin 8) (a : Fin 1024) : Fin 8192 := ⟨p.val * 1024 + a.val, by omega⟩

theorem row_val (p : Fin 8) (a : Fin 1024) : (row p a).val = p.val * 1024 + a.val := rfl

/-- The first block index of the k-th pair. -/
def pTab : Fin 36 → Fin 8 :=
  ![0, 0, 0, 0, 0, 0, 0, 0, 1, 1, 1, 1, 1, 1, 1, 2, 2, 2, 2, 2, 2, 3, 3, 3, 3, 3, 4, 4, 4, 4, 5, 5, 5, 6, 6, 7]
/-- The second block index of the k-th pair. -/
def qTab : Fin 36 → Fin 8 :=
  ![0, 1, 2, 3, 4, 5, 6, 7, 1, 2, 3, 4, 5, 6, 7, 2, 3, 4, 5, 6, 7, 3, 4, 5, 6, 7, 4, 5, 6, 7, 5, 6, 7, 6, 7, 7]

/-- Every pair has p ≤ q. -/
theorem pTab_le_qTab : ∀ k, pTab k ≤ qTab k := by decide

/-! ## The 8192 columns as 8 blocks of 1024 -/

/-- A row number is its block and its place in the block. -/
def rowEquiv : Fin 8 × Fin 1024 ≃ Fin 8192 where
  toFun x := row x.1 x.2
  invFun r := (⟨r.val / 1024, by omega⟩, ⟨r.val % 1024, by omega⟩)
  left_inv := by
    rintro ⟨p, a⟩
    refine Prod.ext (Fin.ext ?_) (Fin.ext ?_)
    · show (p.val * 1024 + a.val) / 1024 = p.val
      omega
    · show (p.val * 1024 + a.val) % 1024 = a.val
      omega
  right_inv := by
    intro r
    refine Fin.ext ?_
    show r.val / 1024 * 1024 + r.val % 1024 = r.val
    omega

/-- A sum over the 8192 rows is the sum over the blocks of the sums over each block. -/
theorem sum_rows {M : Type*} [AddCommMonoid M] (f : Fin 8192 → M) :
    ∑ c : Fin 8192, f c = ∑ q : Fin 8, ∑ b : Fin 1024, f (row q b) := by
  rw [← rowEquiv.sum_comp f, Fintype.sum_prod_type]
  rfl

/-! ## The weight is symmetric -/

variable (X : Fin 8192 → Fin 256 → EReal)

theorem sim_comm (r c : Fin 8192) : Cert.Spec.sim X r c = Cert.Spec.sim X c r := by
  unfold Cert.Spec.sim
  exact Finset.sum_congr rfl fun d _ => mul_comm _ _

theorem wgt_comm (r c : Fin 8192) : Cert.Spec.wgt X r c = Cert.Spec.wgt X c r := by
  unfold Cert.Spec.wgt
  rw [sim_comm X r c]
  by_cases h : r.val = c.val
  · rw [if_pos h, if_pos h.symm]
  · rw [if_neg h, if_neg (Ne.symm h)]

/-- The denominator of row a of block t, block by block. -/
theorem den_blocks (t : Fin 8) (a : Fin 1024) :
    Cert.Spec.den X (row t a) = ∑ q : Fin 8, ∑ b : Fin 1024, Cert.Spec.wgt X (row t a) (row q b) := by
  unfold Cert.Spec.den
  exact sum_rows _

/-! ## One pair's update, and the 36 in order -/

/-- Row p gains the tile's row sums. -/
def rowStep (p q : Fin 8) (acc : Fin 8 → Fin 1024 → EReal) : Fin 8 → Fin 1024 → EReal := fun t a =>
  if t = p then acc t a + ∑ b : Fin 1024, Cert.Spec.wgt X (row p a) (row q b) else acc t a

/-- Row q gains the tile's column sums. -/
def colStep (p q : Fin 8) (acc : Fin 8 → Fin 1024 → EReal) : Fin 8 → Fin 1024 → EReal := fun t b =>
  if t = q then acc t b + ∑ a : Fin 1024, Cert.Spec.wgt X (row p a) (row q b) else acc t b

/-- One pair: the row sums into row p, then, off the diagonal, the column sums into row q (read after the
    first update). -/
def step (p q : Fin 8) (acc : Fin 8 → Fin 1024 → EReal) : Fin 8 → Fin 1024 → EReal :=
  if p = q then rowStep X p q acc else colStep X p q (rowStep X p q acc)

/-- The accumulator after the first k pairs (k ≤ 36; constant from 36 on). -/
def accAfter : ℕ → Fin 8 → Fin 1024 → EReal
  | 0 => fun _ _ => 0
  | k + 1 => if h : k < 36 then step X (pTab ⟨k, h⟩) (qTab ⟨k, h⟩) (accAfter k) else accAfter k

theorem accAfter_zero (t : Fin 8) (a : Fin 1024) : accAfter X 0 t a = 0 := rfl

/-- One more pair is one more step. -/
theorem accAfter_succ (k : Fin 36) :
    accAfter X (k.val + 1) = step X (pTab k) (qTab k) (accAfter X k.val) := by
  show (if h : k.val < 36 then step X (pTab ⟨k.val, h⟩) (qTab ⟨k.val, h⟩) (accAfter X k.val) else accAfter X k.val) = _
  rw [dif_pos k.isLt]

/-- A diagonal pair: only the row sums, into row p. -/
theorem accAfter_succ_diag (k : Fin 36) (h : pTab k = qTab k) :
    accAfter X (k.val + 1) = rowStep X (pTab k) (qTab k) (accAfter X k.val) := by
  rw [accAfter_succ, step, if_pos h]

/-- An off-diagonal pair: the row sums into row p, then the column sums into row q. -/
theorem accAfter_succ_offdiag (k : Fin 36) (h : pTab k ≠ qTab k) :
    accAfter X (k.val + 1) = colStep X (pTab k) (qTab k) (rowStep X (pTab k) (qTab k) (accAfter X k.val)) := by
  rw [accAfter_succ, step, if_neg h]

/-- The row update at the updated row … -/
theorem rowStep_self (p q : Fin 8) (acc : Fin 8 → Fin 1024 → EReal) (a : Fin 1024) :
    rowStep X p q acc p a = acc p a + ∑ b : Fin 1024, Cert.Spec.wgt X (row p a) (row q b) := if_pos rfl
/-- … and at another row. -/
theorem rowStep_of_ne (p q : Fin 8) (acc : Fin 8 → Fin 1024 → EReal) (t : Fin 8) (h : t ≠ p) (a : Fin 1024) :
    rowStep X p q acc t a = acc t a := if_neg h
/-- The column update at the updated row … -/
theorem colStep_self (p q : Fin 8) (acc : Fin 8 → Fin 1024 → EReal) (b : Fin 1024) :
    colStep X p q acc q b = acc q b + ∑ a : Fin 1024, Cert.Spec.wgt X (row p a) (row q b) := if_pos rfl
/-- … and at another row. -/
theorem colStep_of_ne (p q : Fin 8) (acc : Fin 8 → Fin 1024 → EReal) (t : Fin 8) (h : t ≠ q) (b : Fin 1024) :
    colStep X p q acc t b = acc t b := if_neg h

/-! ## Which pair serves which tile -/

/-- The block whose tile of row-block t the k-th pair supplies, if any: q from the pair (t, q), p from the
    pair (p, t) with p ≠ t. -/
def tileOf (t : Fin 8) (k : Fin 36) : Option (Fin 8) :=
  if pTab k = t then some (qTab k) else if qTab k = t then some (pTab k) else none

/-- Where each block's pairs start in the tables. -/
def off : Fin 8 → ℕ := ![0, 8, 15, 21, 26, 30, 33, 35]

/-- The pair that supplies tile (t, q): (t, q) when t ≤ q, (q, t) otherwise. -/
def srv (t q : Fin 8) : Fin 36 :=
  ⟨if t ≤ q then off t + (q.val - t.val) else off q + (t.val - q.val), by revert t q; decide⟩

/-- Exactly one pair supplies each tile of each row block. -/
theorem tileOf_eq_some_iff : ∀ (t : Fin 8) (k : Fin 36) (q : Fin 8), tileOf t k = some q ↔ k = srv t q := by
  decide

/-- Summing what each pair supplies to row block t is summing over the 8 blocks. -/
theorem sum_tiles {M : Type*} [AddCommMonoid M] (R : Fin 8 → M) (t : Fin 8) :
    ∑ k : Fin 36, (tileOf t k).elim 0 R = ∑ q : Fin 8, R q := by
  have h1 : ∀ k : Fin 36, (tileOf t k).elim 0 R = ∑ q : Fin 8, if tileOf t k = some q then R q else 0 := by
    intro k
    cases h : tileOf t k with
    | none => simp
    | some q0 => simp [Finset.sum_ite_eq]
  rw [Finset.sum_congr rfl fun k _ => h1 k, Finset.sum_comm]
  refine Finset.sum_congr rfl fun q _ => ?_
  rw [Finset.sum_eq_single (srv t q)]
  · rw [if_pos ((tileOf_eq_some_iff t (srv t q) q).mpr rfl)]
  · intro k _ hk
    rw [if_neg fun h => hk ((tileOf_eq_some_iff t k q).mp h)]
  · intro h
    exact absurd (Finset.mem_univ _) h

/-! ## The total -/

/-- What the k-th pair adds to row t at a: the row sums of the tile it supplies. -/
theorem step_apply (p q : Fin 8) (hpq : p ≤ q) (acc : Fin 8 → Fin 1024 → EReal) (t : Fin 8) (a : Fin 1024) :
    step X p q acc t a = acc t a +
      (if p = t then ∑ b : Fin 1024, Cert.Spec.wgt X (row t a) (row q b)
        else if q = t then ∑ b : Fin 1024, Cert.Spec.wgt X (row t a) (row p b) else 0) := by
  unfold step
  by_cases hd : p = q
  · subst hd
    rw [if_pos rfl]
    by_cases ht : t = p
    · subst ht
      rw [rowStep_self, if_pos rfl]
    · rw [rowStep_of_ne X p p acc t ht, if_neg (Ne.symm ht), if_neg (Ne.symm ht), add_zero]
  · rw [if_neg hd]
    by_cases ht : t = p
    · subst ht
      rw [colStep_of_ne X t q _ t hd, rowStep_self, if_pos rfl]
    · by_cases hq : t = q
      · subst hq
        rw [colStep_self, rowStep_of_ne X p t acc t ht, if_neg hd, if_pos rfl]
        exact congrArg (acc t a + ·) (Finset.sum_congr rfl fun b _ => wgt_comm X _ _)
      · rw [colStep_of_ne X p q _ t hq, rowStep_of_ne X p q acc t ht, if_neg (Ne.symm ht), if_neg (Ne.symm hq),
          add_zero]

/-- The same through `tileOf`. -/
theorem step_tile (k : Fin 36) (acc : Fin 8 → Fin 1024 → EReal) (t : Fin 8) (a : Fin 1024) :
    step X (pTab k) (qTab k) acc t a = acc t a +
      (tileOf t k).elim 0 (fun q => ∑ b : Fin 1024, Cert.Spec.wgt X (row t a) (row q b)) := by
  rw [step_apply X _ _ (pTab_le_qTab k)]
  unfold tileOf
  by_cases h1 : pTab k = t
  · rw [if_pos h1, if_pos h1]; rfl
  · rw [if_neg h1, if_neg h1]
    by_cases h2 : qTab k = t
    · rw [if_pos h2, if_pos h2]; rfl
    · rw [if_neg h2, if_neg h2]; rfl

/-- After n pairs row t holds what the first n pairs supplied. -/
theorem accAfter_eq_sum (n : ℕ) (t : Fin 8) (a : Fin 1024) :
    accAfter X n t a = ∑ k ∈ Finset.range n, if h : k < 36 then
      (tileOf t ⟨k, h⟩).elim 0 (fun q => ∑ b : Fin 1024, Cert.Spec.wgt X (row t a) (row q b)) else 0 := by
  induction n with
  | zero => simp [accAfter]
  | succ n ih =>
    rw [Finset.sum_range_succ, ← ih]
    by_cases h : n < 36
    · rw [dif_pos h]
      show (if h : n < 36 then step X (pTab ⟨n, h⟩) (qTab ⟨n, h⟩) (accAfter X n) else accAfter X n) t a = _
      rw [dif_pos h]
      exact step_tile X ⟨n, h⟩ _ t a
    · rw [dif_neg h, add_zero]
      show (if h : n < 36 then step X (pTab ⟨n, h⟩) (qTab ⟨n, h⟩) (accAfter X n) else accAfter X n) t a = _
      rw [dif_neg h]

/-- After the 36 pairs the accumulator holds every row's denominator. -/
theorem accAfter_final (t : Fin 8) (a : Fin 1024) : accAfter X 36 t a = Cert.Spec.den X (row t a) := by
  rw [accAfter_eq_sum, den_blocks,
    ← sum_tiles (fun q => ∑ b : Fin 1024, Cert.Spec.wgt X (row t a) (row q b)) t,
    ← Fin.sum_univ_eq_sum_range (fun k => if h : k < 36 then
      (tileOf t ⟨k, h⟩).elim 0 (fun q => ∑ b : Fin 1024, Cert.Spec.wgt X (row t a) (row q b)) else 0) 36]
  exact Finset.sum_congr rfl fun k _ => by rw [dif_pos k.isLt]

end Cert.Proof.KMath

end
-- ==== Proof.AccTab.lean ====
/-
  The two literal tables of the program, which list the 36 pairs of blocks in the order they are
  visited, are the words of the tables pTab and qTab.
-/
import proofs.«104923_j4312147165445_2_alg».proof.KernelIdeal
import proofs.«104923_j4312147165445_2_alg».proof.Proof.AccFold

namespace Cert.Proof.KMath

/-- The first table holds the words of the first block indices. -/
theorem lit0_eq : ∀ k : Fin 36, Cert.KernelIdeal.lit0 k = BitVec.ofNat 32 (pTab k).val := by decide

/-- The second table holds the words of the second block indices. -/
theorem lit1_eq : ∀ k : Fin 36, Cert.KernelIdeal.lit1 k = BitVec.ofNat 32 (qTab k).val := by decide

end Cert.Proof.KMath
-- ==== Proof.BlkIn.lean ====
/-
  The two input windows' blocks as rows of the stacked array.

  The 8192 × 256 array is read in blocks of 1024 rows (and all 256 columns).  At grid point t the first
  window's block index is the first table's entry at t and the second window's the second table's; the
  tables list the 36 pairs of blocks, so the element (a, d) of the first window's block is the array's
  element (p * 1024 + a, d) with p the first block of the t-th pair, and likewise for the second window
  and the pair's second block.  An input array is never written back, so it holds its entry contents
  throughout.
-/
import proofs.«104923_j4312147165445_2_alg».proof.Proof.BodyOblig
import proofs.«104923_j4312147165445_2_alg».proof.Proof.Adm
import proofs.«104923_j4312147165445_2_alg».proof.Proof.AccTab
import Idealize.ShloMosaic.Lib.Pipeline.Value
import Idealize.ShloMosaic.Lib.ValueIdx

set_option maxRecDepth 16384
set_option Elab.async false

noncomputable section

namespace Cert.KernelIdeal.Hand

open Cert.KernelIdeal Cert.KernelIdeal.Gen
open Idealize.ShloMosaic
open Idealize.ShloMosaic.TcCoe
open Idealize.SL Idealize.SL.RA Idealize.SL.Sem
open Idealize.ShloMosaic.Pipeline (Dat Cfg Window)
open Idealize.ShloMosaic.ValueIdx (ix2)
open Cert.Proof.KMath (row pTab qTab)

variable {F : FTy → Type} [FloatOps F]

variable (Varr : (c : Dev nD) → (b : Ref sig .tc) → Buf (Elt F) ((c : Thread nD τ).loc b))
variable (qS : Fin 3 → PosShare TreeShare)
variable (pf : ∀ t : Fin (cfgA (F := F) adm).N, PointFacts (F := F) adm t)

/-- The first table's entry at point t, as the first window's index map reads it, is the first block of the
    t-th pair: decided over the 36 points. -/
theorem dec_index0 : ∀ t : Fin grid0.N,
    (lit0 (S36.rowMajor ((Rect.unit (s := S36) (k0_off1 (grid0.coords t)) S1.size (k0_off1_inb (grid0.coords t))).emb
      (Shape.Idx.first (numel1_S1.symm ▸ Nat.one_pos))))).toNat = (pTab (t.cast N_0)).val := by
  decide +kernel

/-- The second table's entry at point t is the second block of the t-th pair. -/
theorem dec_index1 : ∀ t : Fin grid0.N,
    (lit1 (S36.rowMajor ((Rect.unit (s := S36) (k0_off1 (grid0.coords t)) S1.size (k0_off1_inb (grid0.coords t))).emb
      (Shape.Idx.first (numel1_S1.symm ▸ Nat.one_pos))))).toNat = (qTab (t.cast N_0)).val := by
  decide +kernel

/-- The first window's block index at point t: the first block of the t-th pair, and column block 0. -/
theorem index0_eq (t : Fin (cfgA (F := F) adm).N) :
    ((cfgA (F := F) adm).win (0 : Fin 3)).index t (0 : Fin 2) = (pTab (t.cast N_0)).val
      ∧ ((cfgA (F := F) adm).win (0 : Fin 3)).index t (1 : Fin 2) = 0 :=
  ⟨(show ((cfgA (F := F) adm).win (0 : Fin 3)).index t (0 : Fin 2)
      = (lit0 (S36.rowMajor ((Rect.unit (s := S36) (k0_off1 (grid0.coords t)) S1.size (k0_off1_inb (grid0.coords t))).emb
          (Shape.Idx.first (numel1_S1.symm ▸ Nat.one_pos))))).toNat from rfl).trans (dec_index0 t), rfl⟩

/-- The second window's block index at point t: the second block of the t-th pair, and column block 0. -/
theorem index1_eq (t : Fin (cfgA (F := F) adm).N) :
    ((cfgA (F := F) adm).win (1 : Fin 3)).index t (0 : Fin 2) = (qTab (t.cast N_0)).val
      ∧ ((cfgA (F := F) adm).win (1 : Fin 3)).index t (1 : Fin 2) = 0 :=
  ⟨(show ((cfgA (F := F) adm).win (1 : Fin 3)).index t (0 : Fin 2)
      = (lit1 (S36.rowMajor ((Rect.unit (s := S36) (k0_off1 (grid0.coords t)) S1.size (k0_off1_inb (grid0.coords t))).emb
          (Shape.Idx.first (numel1_S1.symm ▸ Nat.one_pos))))).toNat from rfl).trans (dec_index1 t), rfl⟩

/-- THE FIRST WINDOW'S BLOCK at point t, element (a, d): the array's row a of block p, column d. -/
theorem iblk0_apply (c : Dev nD) (t : Fin (cfgA (F := F) adm).N) (a : Fin 1024) (d : Fin 256) :
    (iblk (F := F) adm Varr c (0 : Fin 3) t : S1024x256.Idx → Elt F .f32) (ix2 a d)
      = (Varr c (Pipeline.arrRef spec0 (0 : Fin 3)) : S8192x256.Idx → Elt F .f32)
          (ix2 (row (pTab (t.cast N_0)) a) d) := by
  obtain ⟨h0, h1⟩ := index0_eq (F := F) t
  unfold iblk
  rw [View.read_apply]
  refine congrArg (Varr c (Pipeline.arrRef spec0 (0 : Fin 3)) : S8192x256.Idx → Elt F .f32) (funext fun ax => Fin.ext ?_)
  match ax with
  | ⟨0, _⟩ =>
    show ((cfgA (F := F) adm).win (0 : Fin 3)).index t (0 : Fin 2) * 1024 + 1 * a.val = (pTab (t.cast N_0)).val * 1024 + a.val
    rw [h0]; omega
  | ⟨1, _⟩ =>
    show ((cfgA (F := F) adm).win (0 : Fin 3)).index t (1 : Fin 2) * 256 + 1 * d.val = d.val
    rw [h1]; omega

/-- THE SECOND WINDOW'S BLOCK at point t, element (b, d): the array's row b of block q, column d. -/
theorem iblk1_apply (c : Dev nD) (t : Fin (cfgA (F := F) adm).N) (b : Fin 1024) (d : Fin 256) :
    (iblk (F := F) adm Varr c (1 : Fin 3) t : S1024x256.Idx → Elt F .f32) (ix2 b d)
      = (Varr c (Pipeline.arrRef spec0 (1 : Fin 3)) : S8192x256.Idx → Elt F .f32)
          (ix2 (row (qTab (t.cast N_0)) b) d) := by
  obtain ⟨h0, h1⟩ := index1_eq (F := F) t
  unfold iblk
  rw [View.read_apply]
  refine congrArg (Varr c (Pipeline.arrRef spec0 (1 : Fin 3)) : S8192x256.Idx → Elt F .f32) (funext fun ax => Fin.ext ?_)
  match ax with
  | ⟨0, _⟩ =>
    show ((cfgA (F := F) adm).win (1 : Fin 3)).index t (0 : Fin 2) * 1024 + 1 * b.val = (qTab (t.cast N_0)).val * 1024 + b.val
    rw [h0]; omega
  | ⟨1, _⟩ =>
    show ((cfgA (F := F) adm).win (1 : Fin 3)).index t (1 : Fin 2) * 256 + 1 * d.val = d.val
    rw [h1]; omega

/-- An input window's array keeps its entry contents: the first window's … -/
theorem arrAt0_entry (c : Dev nD) (n : ℕ) :
    (dats (F := F) adm Varr qS pf 0 c).arrAt (0 : Fin 3) n = Varr c (Pipeline.arrRef spec0 (0 : Fin 3)) :=
  (dats (F := F) adm Varr qS pf 0 c).arrAt_in (0 : Fin 3) rfl n

/-- … and the second window's. -/
theorem arrAt1_entry (c : Dev nD) (n : ℕ) :
    (dats (F := F) adm Varr qS pf 0 c).arrAt (1 : Fin 3) n = Varr c (Pipeline.arrRef spec0 (1 : Fin 3)) :=
  (dats (F := F) adm Varr qS pf 0 c).arrAt_in (1 : Fin 3) rfl n

end Cert.KernelIdeal.Hand

end
-- ==== Proof.TileNorm.lean ====
/-
  The kernel body's normalisation of a block of 1024 rows, at the ideal instance: every row divided by
  its clamped length.  The clamp is a positive real, so the clamped length is positive (a positive real
  or +∞) and a finite entry divided by it is again finite.
-/
import proofs.«104923_j4312147165445_2_alg».proof.Proof.Gen.KernelIdeal.Skeleton
import proofs.«104923_j4312147165445_2_alg».proof.Proof.Spec
import Idealize.ShloMosaic.Lib.ValueIdx
import Idealize.ShloMosaic.Lib.ValueLayout
import Idealize.ShloMosaic.Lib.Pipeline.Value
import Idealize.ShloMosaic.PureOps.Ideal.Laws

noncomputable section

open scoped BigOperators

namespace Cert.Proof.KMath

open Idealize.ShloMosaic Idealize.ShloMosaic.ValueIdx

/-! ## The keepdims layout forms read at an index -/

/-- An `[a]` array cast to `[a, 1]` reads, at `(i, u)`, the operand at `i`. -/
theorem shapeCast_a_a1_apply {α : Type} {a : ℕ} (x : (⟨1, ![a]⟩ : Shape).Idx → α)
    (h : (⟨1, ![a]⟩ : Shape).ShapeCasts ⟨2, ![a, 1]⟩) (i : Fin a) (u : Fin 1) :
    shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- An `[a, 1]` array broadcast to `[a, b]` reads, at `(p, c)`, the operand's one entry of row `p`. -/
theorem broadcastTo_a1_ab_apply {α : Type} {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ =>
    show (0 : ℕ) = if (1 : ℕ) = 1 then 0 else c.val
    rw [if_pos rfl]

/-- The sum along axis 1 of a 1024 × 256 block, at row r. -/
theorem rowsum256_apply (src : FVec Ideal Cert.KernelIdeal.S1024x256 .f32)
    (h : Cert.KernelIdeal.S1024x256.Reduces [1] Cert.KernelIdeal.S1024) (r : Fin 1024) :
    multiReduction .add [1] Cert.KernelIdeal.S1024 src 0x00000000#32 h (.inl rfl) rfl (ix1 r)
      = ∑ k : Fin 256, src (ix2 r k) := by
  refine (Ideal.multiReduction_add_single src 0x00000000#32 h (.inl rfl) rfl (ix1 r)).trans ?_
  refine Finset.sum_congr rfl fun k _ => congrArg src (funext fun c => ?_)
  match c with
  | ⟨0, _⟩ => exact Fin.ext rfl
  | ⟨1, _⟩ => exact Fin.ext rfl

/-! ## The clamp -/

/-- The clamp is the real 11258999 · 2⁻⁵⁰. -/
theorem eps_eq : Cert.Spec.eps = ((((2 ^ 23 + 2870391 : ℕ) : ℝ) * (2 : ℝ) ^ (-50 : ℤ) : ℝ) : EReal) := by
  simp [Cert.Spec.eps, Ideal.ofBits, Ideal.ieee, -EReal.coe_mul]

/-- It is positive. -/
theorem eps_pos : (0 : EReal) < Cert.Spec.eps := by
  rw [eps_eq]
  exact EReal.coe_pos.mpr (by positivity)

variable (X : Fin 8192 → Fin 256 → EReal)

/-- So every clamped length is positive. -/
theorem len_pos (r : Fin 8192) : 0 < Cert.Spec.len X r := lt_max_of_lt_right eps_pos

/-- A real divided by a positive extended real is a real (zero when the divisor is +∞). -/
theorem div_real (x : ℝ) {L : EReal} (hL : 0 < L) : ∃ z : ℝ, Ideal.div (x : EReal) L = (z : EReal) := by
  induction L using EReal.rec with
  | bot => exact absurd hL (not_lt.mpr bot_le)
  | coe l =>
    have hl : l ≠ 0 := ne_of_gt (EReal.coe_pos.mp hL)
    exact ⟨x * (1 / l), by rw [Ideal.div_coe hl, EReal.coe_mul]⟩
  | top =>
    refine ⟨0, ?_⟩
    rw [Ideal.div, if_neg EReal.top_ne_zero, EReal.inv_top, mul_zero, EReal.coe_zero]

/-- A finite array's unit rows are finite. -/
theorem zn_real (hX : ∀ r d, ∃ x : ℝ, X r d = (x : EReal)) (r : Fin 8192) (d : Fin 256) :
    ∃ z : ℝ, Cert.Spec.zn X r d = (z : EReal) := by
  obtain ⟨x, hx⟩ := hX r d
  unfold Cert.Spec.zn
  rw [hx]
  exact div_real x (len_pos X r)

/-- A finite extended real minus itself is zero. -/
theorem sub_self_of_real {y : EReal} (h : ∃ z : ℝ, y = (z : EReal)) : y - y = 0 := by
  obtain ⟨z, rfl⟩ := h
  rw [← EReal.coe_sub, sub_self, EReal.coe_zero]

/-! ## The normalised block -/

/-- The kernel body's normalisation of a loaded block: the block over the broadcast of
    max (sqrt (sum over the lanes of the squares)) clamp. -/
def nrm (v : Vec Ideal Cert.KernelIdeal.S1024x256 .f32) : FVec Ideal Cert.KernelIdeal.S1024x256 .f32 :=
  divf (shapeCast Cert.KernelIdeal.S1024x256 v Cert.KernelIdeal.Gen.shapeCasts_S1024x256_S1024x256)
    (broadcastTo Cert.KernelIdeal.S1024x256
      (maximumf
        (sqrt (shapeCast Cert.KernelIdeal.S1024x1
          (multiReduction .add [1] Cert.KernelIdeal.S1024
            (mulf (shapeCast Cert.KernelIdeal.S1024x256 v Cert.KernelIdeal.Gen.shapeCasts_S1024x256_S1024x256)
              (shapeCast Cert.KernelIdeal.S1024x256 v Cert.KernelIdeal.Gen.shapeCasts_S1024x256_S1024x256))
            0x00000000#32 Cert.KernelIdeal.Gen.reduces_S1024x256_S1024 (.inl rfl) rfl)
          Cert.KernelIdeal.Gen.shapeCasts_S1024_S1024x1))
        (broadcast Cert.KernelIdeal.S1024x1 (Scalar.ofBits (F := Ideal) .f32 0x322BCC77#32)))
      Cert.KernelIdeal.Gen.broadcasts_S1024x1_S1024x256)

/-- Where row a of the block is row r of the array, the normalised block's row a is the unit row r. -/
theorem nrm_apply (r : Fin 8192) (v : Vec Ideal Cert.KernelIdeal.S1024x256 .f32) (a : Fin 1024)
    (hv : ∀ d : Fin 256, v (ix2 a d) = X r d) (d : Fin 256) : nrm v (ix2 a d) = Cert.Spec.zn X r d := by
  have hcast : shapeCast Cert.KernelIdeal.S1024x256 v Cert.KernelIdeal.Gen.shapeCasts_S1024x256_S1024x256 = v :=
    shapeCast_self v _
  unfold nrm
  rw [hcast]
  show Ideal.div (v (ix2 a d)) (broadcastTo Cert.KernelIdeal.S1024x256 _ _ (ix2 a d)) = _
  rw [broadcastTo_a1_ab_apply]
  show Ideal.div (v (ix2 a d))
    (max (Ideal.sqrt (shapeCast Cert.KernelIdeal.S1024x1 _ _ (ix2 a (0 : Fin 1)))) (Ideal.ofBits .f32 0x322BCC77#32)) = _
  rw [shapeCast_a_a1_apply, rowsum256_apply]
  unfold Cert.Spec.zn Cert.Spec.len
  rw [hv d]
  refine congrArg (fun s => Ideal.div (X r d) (max (Ideal.sqrt s) _)) (Finset.sum_congr rfl fun k _ => ?_)
  show v (ix2 a k) * v (ix2 a k) = _
  rw [hv k]

end Cert.Proof.KMath

end
-- ==== Proof.TileMask.lean ====
/-
  The kernel body's small payloads at the ideal instance, read at an index: the masked exponential
  (zero on the global diagonal, exp off it), the two accumulator updates (a row of the accumulator plus
  the tile's row sums, or plus its column sums), the final logarithm and the zero accumulator.
-/
import proofs.«104923_j4312147165445_2_alg».proof.Proof.Gen.KernelIdeal.Skeleton
import Idealize.ShloMosaic.Lib.ValueIdx
import Idealize.ShloMosaic.Lib.ValueLayout
import Idealize.ShloMosaic.Lib.Pipeline.Value
import Idealize.ShloMosaic.PureOps.Ideal.Laws

noncomputable section

open scoped BigOperators

namespace Cert.Proof.KMath

open Idealize.ShloMosaic Idealize.ShloMosaic.ValueIdx

/-! ## Words below 2 ^ 32 -/

/-- Two numbers below 2 ^ 32 with the same 32-bit word are equal. -/
theorem word_eq_iff {m n : ℕ} (hm : m < 4294967296) (hn : n < 4294967296) :
    BitVec.ofNat 32 m = BitVec.ofNat 32 n ↔ m = n := by
  constructor
  · intro h
    have h' := congrArg BitVec.toNat h
    simp only [BitVec.toNat_ofNat] at h'
    omega
  · rintro rfl; rfl

/-- The global row number block * 1024 + place, computed on 32-bit words, is the word of the number. -/
theorem word_row (p a : ℕ) :
    IntOp.addi (IntOp.muli (BitVec.ofNat 32 p) 1024#32) (BitVec.ofNat 32 a) = BitVec.ofNat 32 (p * 1024 + a) := by
  show BitVec.ofNat 32 p * BitVec.ofNat 32 1024 + BitVec.ofNat 32 a = _
  rw [← BitVec.ofNat_mul, ← BitVec.ofNat_add]

/-! ## Lane sums of a 1024 × 1024 tile -/

/-- The sum along axis 1, at row r. -/
theorem rowsum_apply (src : FVec Ideal Cert.KernelIdeal.S1024x1024 .f32)
    (h : Cert.KernelIdeal.S1024x1024.Reduces [1] Cert.KernelIdeal.S1024) (r : Fin 1024) :
    multiReduction .add [1] Cert.KernelIdeal.S1024 src 0x00000000#32 h (.inl rfl) rfl (ix1 r)
      = ∑ k : Fin 1024, src (ix2 r k) := by
  refine (Ideal.multiReduction_add_single src 0x00000000#32 h (.inl rfl) rfl (ix1 r)).trans ?_
  refine Finset.sum_congr rfl fun k _ => congrArg src (funext fun c => ?_)
  match c with
  | ⟨0, _⟩ => exact Fin.ext rfl
  | ⟨1, _⟩ => exact Fin.ext rfl

/-- The sum along axis 0, at column c. -/
theorem colsum_apply (src : FVec Ideal Cert.KernelIdeal.S1024x1024 .f32)
    (h : Cert.KernelIdeal.S1024x1024.Reduces [0] Cert.KernelIdeal.S1024) (c : Fin 1024) :
    multiReduction .add [0] Cert.KernelIdeal.S1024 src 0x00000000#32 h (.inl rfl) rfl (ix1 c)
      = ∑ k : Fin 1024, src (ix2 k c) := by
  refine (Ideal.multiReduction_add_single src 0x00000000#32 h (.inl rfl) rfl (ix1 c)).trans ?_
  refine Finset.sum_congr rfl fun k _ => congrArg src (funext fun d => ?_)
  match d with
  | ⟨0, _⟩ => exact Fin.ext rfl
  | ⟨1, _⟩ => exact Fin.ext rfl

/-! ## The masked exponential -/

/-- At (a, b) of the tile of blocks (p, q): zero where the global row and column numbers agree, the
    exponential of the tile's entry elsewhere. -/
theorem mask_eq (p q : Fin 8) (S : FVec Ideal Cert.KernelIdeal.S1024x1024 .f32) (a b : Fin 1024) :
    Cert.KernelIdeal.Gen.k0_pay1 (F := Ideal) (BitVec.ofNat 32 p.val) (BitVec.ofNat 32 q.val) S (ix2 a b)
      = if p.val * 1024 + a.val = q.val * 1024 + b.val then 0 else Ideal.exp (S (ix2 a b)) := by
  have hr : iota .tc Cert.KernelIdeal.S1024x1024 32 [0] Cert.KernelIdeal.Gen.iota_S1024x1024_d0_w32 (ix2 a b)
      = BitVec.ofNat 32 a.val := iota_single_apply _ _ _ _ _ _
  have hc : iota .tc Cert.KernelIdeal.S1024x1024 32 [1] Cert.KernelIdeal.Gen.iota_S1024x1024_d1_w32 (ix2 a b)
      = BitVec.ofNat 32 b.val := iota_single_apply _ _ _ _ _ _
  show Scalar.select
      (IntOp.cmpi .eq
        (IntOp.addi (IntOp.muli (BitVec.ofNat 32 p.val) 1024#32)
          (iota .tc Cert.KernelIdeal.S1024x1024 32 [0] Cert.KernelIdeal.Gen.iota_S1024x1024_d0_w32 (ix2 a b)))
        (IntOp.addi (IntOp.muli (BitVec.ofNat 32 q.val) 1024#32)
          (iota .tc Cert.KernelIdeal.S1024x1024 32 [1] Cert.KernelIdeal.Gen.iota_S1024x1024_d1_w32 (ix2 a b))))
      (Ideal.ofBits .f32 0x00000000#32) (Ideal.exp (S (ix2 a b))) = _
  rw [hr, hc, word_row, word_row, Ideal.ofBits_zero_f32]
  have hp := p.isLt
  have hq := q.isLt
  have ha := a.isLt
  have hb := b.isLt
  by_cases h : p.val * 1024 + a.val = q.val * 1024 + b.val
  · rw [if_pos h, h]
    show Scalar.select (BitVec.ofBool (BitVec.ofNat 32 (q.val * 1024 + b.val) == BitVec.ofNat 32 (q.val * 1024 + b.val))) _ _ = _
    rw [beq_self_eq_true]
    exact select_one _ _
  · rw [if_neg h]
    have hne : BitVec.ofNat 32 (p.val * 1024 + a.val) ≠ BitVec.ofNat 32 (q.val * 1024 + b.val) :=
      fun e => h ((word_eq_iff (by omega) (by omega)).mp e)
    show Scalar.select (BitVec.ofBool (BitVec.ofNat 32 (p.val * 1024 + a.val) == BitVec.ofNat 32 (q.val * 1024 + b.val))) _ _ = _
    rw [beq_eq_false_iff_ne.mpr hne]
    exact select_zero _ _

/-! ## The accumulator updates, the logarithm, the zero accumulator -/

/-- Row update: the accumulator's row plus the tile's row sums. -/
theorem rowupd_eq (v1 v3 : BitVec 32) (S : FVec Ideal Cert.KernelIdeal.S1024x1024 .f32)
    (old : Vec Ideal Cert.KernelIdeal.S1x1024 .f32) (a : Fin 1024) :
    Cert.KernelIdeal.Gen.k0_pay2 (F := Ideal) v1 v3 S old (ix2 (0 : Fin 1) a)
      = old (ix2 (0 : Fin 1) a) + ∑ b : Fin 1024, Cert.KernelIdeal.Gen.k0_pay1 (F := Ideal) v1 v3 S (ix2 a b) := by
  show shapeCast Cert.KernelIdeal.S1x1024
      (addf (shapeCast Cert.KernelIdeal.S1024 old Cert.KernelIdeal.Gen.shapeCasts_S1x1024_S1024)
        (multiReduction .add [1] Cert.KernelIdeal.S1024 (Cert.KernelIdeal.Gen.k0_pay1 (F := Ideal) v1 v3 S) 0x00000000#32
          Cert.KernelIdeal.Gen.reduces_S1024x1024_S1024 (.inl rfl) rfl))
      Cert.KernelIdeal.Gen.shapeCasts_S1024_S1x1024 (ix2 (0 : Fin 1) a) = _
  refine (shapeCast_a_1a_apply _ _ (0 : Fin 1) a).trans ?_
  show shapeCast Cert.KernelIdeal.S1024 old Cert.KernelIdeal.Gen.shapeCasts_S1x1024_S1024 (ix1 a)
      + multiReduction .add [1] Cert.KernelIdeal.S1024 (Cert.KernelIdeal.Gen.k0_pay1 (F := Ideal) v1 v3 S) 0x00000000#32
          Cert.KernelIdeal.Gen.reduces_S1024x1024_S1024 (.inl rfl) rfl (ix1 a) = _
  rw [rowsum_apply]
  exact congrArg (· + _) (shapeCast_1a_a_apply _ _ a)

/-- Column update: the accumulator's row plus the tile's column sums. -/
theorem colupd_eq (v1 v3 : BitVec 32) (S : FVec Ideal Cert.KernelIdeal.S1024x1024 .f32)
    (old : Vec Ideal Cert.KernelIdeal.S1x1024 .f32) (b : Fin 1024) :
    Cert.KernelIdeal.Gen.k0_pay3 (F := Ideal) v1 v3 S old (ix2 (0 : Fin 1) b)
      = old (ix2 (0 : Fin 1) b) + ∑ a : Fin 1024, Cert.KernelIdeal.Gen.k0_pay1 (F := Ideal) v1 v3 S (ix2 a b) := by
  show shapeCast Cert.KernelIdeal.S1x1024
      (addf (shapeCast Cert.KernelIdeal.S1024 old Cert.KernelIdeal.Gen.shapeCasts_S1x1024_S1024)
        (multiReduction .add [0] Cert.KernelIdeal.S1024 (Cert.KernelIdeal.Gen.k0_pay1 (F := Ideal) v1 v3 S) 0x00000000#32
          Cert.KernelIdeal.Gen.reduces_S1024x1024_S1024_2 (.inl rfl) rfl))
      Cert.KernelIdeal.Gen.shapeCasts_S1024_S1x1024 (ix2 (0 : Fin 1) b) = _
  refine (shapeCast_a_1a_apply _ _ (0 : Fin 1) b).trans ?_
  show shapeCast Cert.KernelIdeal.S1024 old Cert.KernelIdeal.Gen.shapeCasts_S1x1024_S1024 (ix1 b)
      + multiReduction .add [0] Cert.KernelIdeal.S1024 (Cert.KernelIdeal.Gen.k0_pay1 (F := Ideal) v1 v3 S) 0x00000000#32
          Cert.KernelIdeal.Gen.reduces_S1024x1024_S1024_2 (.inl rfl) rfl (ix1 b) = _
  rw [colsum_apply]
  exact congrArg (· + _) (shapeCast_1a_a_apply _ _ b)

/-- The last point's payload is the logarithm, element by element. -/
theorem log_eq (v : Vec Ideal Cert.KernelIdeal.S8x1024 .f32) (i : Cert.KernelIdeal.S8x1024.Idx) :
    Cert.KernelIdeal.Gen.k0_pay4 (F := Ideal) v i = Ideal.log (v i) := rfl

/-- The first point's payload is the zero accumulator. -/
theorem zero_eq (i : Cert.KernelIdeal.S8x1024.Idx) : Cert.KernelIdeal.Gen.k0_pay5 (F := Ideal) i = 0 := by
  show shapeCast Cert.KernelIdeal.S8x1024 (broadcast Cert.KernelIdeal.S8x1024 (Ideal.ofBits .f32 0x00000000#32))
      Cert.KernelIdeal.Gen.shapeCasts_S8x1024_S8x1024 i = 0
  rw [shapeCast_self]
  exact Ideal.ofBits_zero_f32

end Cert.Proof.KMath

end
-- ==== Proof.TileSim.lean ====
/-
  The kernel body's tile of the similarity matrix, at the ideal instance.  The body normalises the two
  loaded blocks, splits each into a leading part and a remainder (the remainder is the block minus
  itself: zero on finite entries, a format change being the identity here), and adds three matrix
  products, leading · leading, leading · remainder and remainder · leading, all contracting the 256
  lanes; the last two vanish, the first is the inner product of the unit rows, and the whole is
  multiplied by 2.
-/
import proofs.«104923_j4312147165445_2_alg».proof.Proof.TileNorm
import proofs.«104923_j4312147165445_2_alg».proof.Proof.TileMask
import proofs.«104923_j4312147165445_2_alg».proof.Proof.AccFold

noncomputable section

open scoped BigOperators

namespace Cert.Proof.KMath

open Idealize.ShloMosaic Idealize.ShloMosaic.ValueIdx

/-- The product of an m × k matrix with the transpose of an n × k one, into the zero accumulator, read at
    (a, b): the sum over the contracted lane of the products of the entries. -/
theorem matmul_abT_apply {m n k : ℕ} {φ₁ φ₂ : FTy}
    (w : DotDims.WF ⟨2, ![m, k]⟩ ⟨2, ![n, k]⟩ ⟨2, ![m, n]⟩ [1] [1] [0] [0] [] [])
    (prec : Option ContractPrecision) (A : FVec Ideal ⟨2, ![m, k]⟩ φ₁) (B : FVec Ideal ⟨2, ![n, k]⟩ φ₂)
    (a : Fin m) (b : Fin n) :
    matmul (⟨[1], [1], [0], [0], [], [], w⟩ : DotDims ⟨2, ![m, k]⟩ ⟨2, ![n, k]⟩ ⟨2, ![m, n]⟩) prec A B
        (constant ⟨2, ![m, n]⟩ .f32 0x00000000#32) (ix2 a b)
      = ∑ c : Fin k, A (ix2 a c) * B (ix2 b c) := by
  show FloatOps.matmul _ prec A B _ (ix2 a b) = _
  rw [Ideal.matmul_constant_zero_apply,
    ← Equiv.sum_comp (contrEquiv1 (⟨[1], [1], [0], [0], [], [], w⟩ : DotDims ⟨2, ![m, k]⟩ ⟨2, ![n, k]⟩ ⟨2, ![m, n]⟩) k rfl rfl).symm]
  refine Finset.sum_congr rfl fun c _ => ?_
  have c2 := contrEquiv1_symm_val
    (⟨[1], [1], [0], [0], [], [], w⟩ : DotDims ⟨2, ![m, k]⟩ ⟨2, ![n, k]⟩ ⟨2, ![m, n]⟩) k rfl rfl c
  have l2 : (⟨[1], [1], [0], [0], [], [], w⟩ : DotDims ⟨2, ![m, k]⟩ ⟨2, ![n, k]⟩ ⟨2, ![m, n]⟩).lhsIdx (ix2 a b)
      ((contrEquiv1 _ k rfl rfl).symm c) = ix2 a c := by
    funext ax; apply Fin.ext
    match ax with
    | ⟨0, _⟩ => simp [DotDims.lhsIdx]; rfl
    | ⟨1, _⟩ => simp [DotDims.lhsIdx]; exact c2
  have r2 : (⟨[1], [1], [0], [0], [], [], w⟩ : DotDims ⟨2, ![m, k]⟩ ⟨2, ![n, k]⟩ ⟨2, ![m, n]⟩).rhsIdx (ix2 a b)
      ((contrEquiv1 _ k rfl rfl).symm c) = ix2 b c := by
    funext ax; apply Fin.ext
    match ax with
    | ⟨0, _⟩ => simp [DotDims.rhsIdx]; rfl
    | ⟨1, _⟩ => simp [DotDims.rhsIdx]; exact c2
  rw [l2, r2]

/-- The body's tile payload over the normalised blocks. -/
theorem pay6_eq_nrm (v7 v17 : Vec Ideal Cert.KernelIdeal.S1024x256 .f32) :
    Cert.KernelIdeal.Gen.k0_pay6 (F := Ideal) v7 v17
      = mulf
          (addf
            (addf
              (matmul Cert.KernelIdeal.dot_S1024x256_S1024x256_S1024x1024_1_1_0_0_n_n none
                (truncf .bf16 (nrm v7) Cert.KernelIdeal.Gen.bitsLt_bf16_f32)
                (truncf .bf16 (nrm v17) Cert.KernelIdeal.Gen.bitsLt_bf16_f32)
                (constant Cert.KernelIdeal.S1024x1024 .f32 0x00000000#32))
              (matmul Cert.KernelIdeal.dot_S1024x256_S1024x256_S1024x1024_1_1_0_0_n_n none
                (truncf .bf16 (nrm v7) Cert.KernelIdeal.Gen.bitsLt_bf16_f32)
                (truncf .bf16 (subf (nrm v17) (nrm v17)) Cert.KernelIdeal.Gen.bitsLt_bf16_f32)
                (constant Cert.KernelIdeal.S1024x1024 .f32 0x00000000#32)))
            (matmul Cert.KernelIdeal.dot_S1024x256_S1024x256_S1024x1024_1_1_0_0_n_n none
              (truncf .bf16 (subf (nrm v7) (nrm v7)) Cert.KernelIdeal.Gen.bitsLt_bf16_f32)
              (truncf .bf16 (nrm v17) Cert.KernelIdeal.Gen.bitsLt_bf16_f32)
              (constant Cert.KernelIdeal.S1024x1024 .f32 0x00000000#32)))
          (broadcast Cert.KernelIdeal.S1024x1024 (Scalar.ofBits (F := Ideal) .f32 0x40000000#32)) := rfl

variable (X : Fin 8192 → Fin 256 → EReal)

/-- THE TILE: at (a, b) of the tile of blocks (p, q), twice the similarity of rows p * 1024 + a and
    q * 1024 + b. -/
theorem tile_eq (hX : ∀ r d, ∃ x : ℝ, X r d = (x : EReal)) (p q : Fin 8)
    (bp bq : Vec Ideal Cert.KernelIdeal.S1024x256 .f32)
    (hp : ∀ (a : Fin 1024) (d : Fin 256), bp (ix2 a d) = X (row p a) d)
    (hq : ∀ (b : Fin 1024) (d : Fin 256), bq (ix2 b d) = X (row q b) d) (a b : Fin 1024) :
    Cert.KernelIdeal.Gen.k0_pay6 (F := Ideal) bp bq (ix2 a b)
      = Cert.Spec.sim X (row p a) (row q b) * Cert.Spec.two := by
  have hA : ∀ c : Fin 256, nrm bp (ix2 a c) = Cert.Spec.zn X (row p a) c := nrm_apply X (row p a) bp a (hp a)
  have hB : ∀ c : Fin 256, nrm bq (ix2 b c) = Cert.Spec.zn X (row q b) c := nrm_apply X (row q b) bq b (hq b)
  have h1 : matmul Cert.KernelIdeal.dot_S1024x256_S1024x256_S1024x1024_1_1_0_0_n_n none
      (truncf .bf16 (nrm bp) Cert.KernelIdeal.Gen.bitsLt_bf16_f32)
      (truncf .bf16 (nrm bq) Cert.KernelIdeal.Gen.bitsLt_bf16_f32)
      (constant Cert.KernelIdeal.S1024x1024 .f32 0x00000000#32) (ix2 a b) = Cert.Spec.sim X (row p a) (row q b) := by
    refine (matmul_abT_apply Cert.KernelIdeal.Gen.dot_S1024x256_S1024x256_S1024x1024_1_1_0_0_n_n_wf none _ _ a b).trans ?_
    unfold Cert.Spec.sim
    refine Finset.sum_congr rfl fun c _ => ?_
    show nrm bp (ix2 a c) * nrm bq (ix2 b c) = _
    rw [hA c, hB c]
  have h2 : matmul Cert.KernelIdeal.dot_S1024x256_S1024x256_S1024x1024_1_1_0_0_n_n none
      (truncf .bf16 (nrm bp) Cert.KernelIdeal.Gen.bitsLt_bf16_f32)
      (truncf .bf16 (subf (nrm bq) (nrm bq)) Cert.KernelIdeal.Gen.bitsLt_bf16_f32)
      (constant Cert.KernelIdeal.S1024x1024 .f32 0x00000000#32) (ix2 a b) = 0 := by
    refine (matmul_abT_apply Cert.KernelIdeal.Gen.dot_S1024x256_S1024x256_S1024x1024_1_1_0_0_n_n_wf none _ _ a b).trans ?_
    refine Finset.sum_eq_zero fun c _ => ?_
    show nrm bp (ix2 a c) * (nrm bq (ix2 b c) - nrm bq (ix2 b c)) = 0
    rw [hB c, sub_self_of_real (zn_real X hX (row q b) c), mul_zero]
  have h3 : matmul Cert.KernelIdeal.dot_S1024x256_S1024x256_S1024x1024_1_1_0_0_n_n none
      (truncf .bf16 (subf (nrm bp) (nrm bp)) Cert.KernelIdeal.Gen.bitsLt_bf16_f32)
      (truncf .bf16 (nrm bq) Cert.KernelIdeal.Gen.bitsLt_bf16_f32)
      (constant Cert.KernelIdeal.S1024x1024 .f32 0x00000000#32) (ix2 a b) = 0 := by
    refine (matmul_abT_apply Cert.KernelIdeal.Gen.dot_S1024x256_S1024x256_S1024x1024_1_1_0_0_n_n_wf none _ _ a b).trans ?_
    refine Finset.sum_eq_zero fun c _ => ?_
    show (nrm bp (ix2 a c) - nrm bp (ix2 a c)) * nrm bq (ix2 b c) = 0
    rw [hA c, sub_self_of_real (zn_real X hX (row p a) c), zero_mul]
  rw [pay6_eq_nrm]
  show (matmul Cert.KernelIdeal.dot_S1024x256_S1024x256_S1024x1024_1_1_0_0_n_n none
        (truncf .bf16 (nrm bp) Cert.KernelIdeal.Gen.bitsLt_bf16_f32)
        (truncf .bf16 (nrm bq) Cert.KernelIdeal.Gen.bitsLt_bf16_f32)
        (constant Cert.KernelIdeal.S1024x1024 .f32 0x00000000#32) (ix2 a b)
      + matmul Cert.KernelIdeal.dot_S1024x256_S1024x256_S1024x1024_1_1_0_0_n_n none
        (truncf .bf16 (nrm bp) Cert.KernelIdeal.Gen.bitsLt_bf16_f32)
        (truncf .bf16 (subf (nrm bq) (nrm bq)) Cert.KernelIdeal.Gen.bitsLt_bf16_f32)
        (constant Cert.KernelIdeal.S1024x1024 .f32 0x00000000#32) (ix2 a b)
      + matmul Cert.KernelIdeal.dot_S1024x256_S1024x256_S1024x1024_1_1_0_0_n_n none
        (truncf .bf16 (subf (nrm bp) (nrm bp)) Cert.KernelIdeal.Gen.bitsLt_bf16_f32)
        (truncf .bf16 (nrm bq) Cert.KernelIdeal.Gen.bitsLt_bf16_f32)
        (constant Cert.KernelIdeal.S1024x1024 .f32 0x00000000#32) (ix2 a b))
      * Ideal.ofBits .f32 0x40000000#32 = _
  rw [h1, h2, h3, add_zero, add_zero]

/-- The masked exponential of that tile is the weight. -/
theorem wgt_eq (hX : ∀ r d, ∃ x : ℝ, X r d = (x : EReal)) (p q : Fin 8)
    (bp bq : Vec Ideal Cert.KernelIdeal.S1024x256 .f32)
    (hp : ∀ (a : Fin 1024) (d : Fin 256), bp (ix2 a d) = X (row p a) d)
    (hq : ∀ (b : Fin 1024) (d : Fin 256), bq (ix2 b d) = X (row q b) d) (a b : Fin 1024) :
    Cert.KernelIdeal.Gen.k0_pay1 (F := Ideal) (BitVec.ofNat 32 p.val) (BitVec.ofNat 32 q.val)
        (Cert.KernelIdeal.Gen.k0_pay6 (F := Ideal) bp bq) (ix2 a b)
      = Cert.Spec.wgt X (row p a) (row q b) := by
  rw [mask_eq, tile_eq X hX p q bp bq hp hq a b]
  rfl

end Cert.Proof.KMath

end
-- ==== Proof.TrajPrep.lean ====
/-
  The facts about a grid point that the trajectory's value needs, at the ideal instance: the words the
  body reads at point k are the block indices (p, q) of the k-th pair; the body's off-diagonal test
  holds exactly when p differs from q and its first-point test only at point 0; the two loaded blocks
  are blocks p and q of the stacked array; and the masked exponential of their tile is the weight.
-/
import proofs.«104923_j4312147165445_2_alg».proof.Proof.BodyFacts
import proofs.«104923_j4312147165445_2_alg».proof.Proof.BlkIn
import proofs.«104923_j4312147165445_2_alg».proof.Proof.EntryValues
import proofs.«104923_j4312147165445_2_alg».proof.Proof.TileSim

set_option maxRecDepth 16384
set_option Elab.async false

noncomputable section

namespace Cert.KernelIdeal.Hand

open Cert.KernelIdeal Cert.KernelIdeal.Gen
open Idealize.ShloMosaic
open Idealize.ShloMosaic.TcCoe
open Idealize.SL Idealize.SL.RA Idealize.SL.Sem
open Idealize.ShloMosaic.Pipeline (Dat Cfg Window)
open Idealize.ShloMosaic.ValueIdx (ix2)
open Cert.Proof.KMath (row pTab qTab)

variable (m : (ℓ : Loc nD τ sig) → Buf (Elt Ideal) ℓ) (c : Dev nD)

/-- The first block of point k's pair. -/
abbrev pk (k : Fin (cfgA (F := Ideal) adm).N) : Fin 8 := pTab (k.cast N_0)
/-- The second block of point k's pair. -/
abbrev qk (k : Fin (cfgA (F := Ideal) adm).N) : Fin 8 := qTab (k.cast N_0)

/-- The word read from the first table at point k is the word of the pair's first block. -/
theorem word0_pq (k : Fin (cfgA (F := Ideal) adm).N) :
    word0 (F := Ideal) (crd adm k) (tb0 adm) = BitVec.ofNat 32 (pk k).val :=
  (word0_tbl (F := Ideal) k).trans (Cert.Proof.KMath.lit0_eq _)

/-- The word read from the second table is the word of the pair's second block. -/
theorem word1_pq (k : Fin (cfgA (F := Ideal) adm).N) :
    word1 (F := Ideal) (crd adm k) (tb1 adm) = BitVec.ofNat 32 (qk k).val :=
  (word1_tbl (F := Ideal) k).trans (Cert.Proof.KMath.lit1_eq _)

/-- The body's off-diagonal test on two block indices holds exactly when they differ. -/
theorem cond2_iff : ∀ p q : Fin 8, k0_cond2 (BitVec.ofNat 32 p.val) (BitVec.ofNat 32 q.val) = 1#1 ↔ p ≠ q := by
  decide

/-- So at point k it holds exactly when the pair is off the diagonal. -/
theorem P2_iff (k : Fin (cfgA (F := Ideal) adm).N) : P2 (F := Ideal) adm k ↔ pk k ≠ qk k := by
  show k0_cond2 (word0 (F := Ideal) (crd adm k) (tb0 adm)) (word1 (F := Ideal) (crd adm k) (tb1 adm)) = 1#1 ↔ _
  rw [word0_pq, word1_pq]
  exact cond2_iff _ _

/-- The body's first-point test holds at point 0 only: decided over the 36 points. -/
theorem dec_first_zero : ∀ t : Fin grid0.N, isFirst (grid0.coords t) → t.val = 0 := by decide +kernel

theorem P1_zero (k : Fin (cfgA (F := Ideal) adm).N) (h : P1 (F := Ideal) adm k) : k.val = 0 := dec_first_zero k h

/-- The first loaded block at point k is block p of the stacked array. -/
theorem blk0_apply (k : Fin (cfgA (F := Ideal) adm).N) (a : Fin 1024) (d : Fin 256) :
    (iblk (F := Ideal) adm (fun c b => V0 m c (Proc.devRef .tc b)) c (0 : Fin 3) k : S1024x256.Idx → Elt Ideal .f32) (ix2 a d)
      = XM m c (row (pk k) a) d := by
  rw [iblk0_apply]
  exact V0_v13_apply m c _ d

/-- The second loaded block at point k is block q of the stacked array. -/
theorem blk1_apply (k : Fin (cfgA (F := Ideal) adm).N) (b : Fin 1024) (d : Fin 256) :
    (iblk (F := Ideal) adm (fun c b => V0 m c (Proc.devRef .tc b)) c (1 : Fin 3) k : S1024x256.Idx → Elt Ideal .f32) (ix2 b d)
      = XM m c (row (qk k) b) d := by
  rw [iblk1_apply]
  exact V0_v13_apply m c _ d

/-- The masked exponential of the tile of the two loaded blocks is the weight of the pair's rows. -/
theorem wgt_point (hfin : ∀ r d, ∃ x : ℝ, XM m c r d = (x : EReal)) (k : Fin (cfgA (F := Ideal) adm).N)
    (a b : Fin 1024) :
    k0_pay1 (F := Ideal) (BitVec.ofNat 32 (pk k).val) (BitVec.ofNat 32 (qk k).val)
        (k0_pay6 (F := Ideal) (iblk (F := Ideal) adm (fun c b => V0 m c (Proc.devRef .tc b)) c (0 : Fin 3) k)
          (iblk (F := Ideal) adm (fun c b => V0 m c (Proc.devRef .tc b)) c (1 : Fin 3) k)) (ix2 a b)
      = Cert.Spec.wgt (XM m c) (row (pk k) a) (row (qk k) b) :=
  Cert.Proof.KMath.wgt_eq (XM m c) hfin (pk k) (qk k) _ _ (blk0_apply m c k) (blk1_apply m c k) a b

end Cert.KernelIdeal.Hand

end
-- ==== Proof.BlkOut.lean ====
/-
  The output array after the run.

  The third window's one block is the whole 8 × 1024 output array, at block index (0, 0) at every grid
  point; it is written back once, after the last of the 36 points, and that write-back covers the whole
  array.  So the array ends holding what the output block held after the last point.
-/
import proofs.«104923_j4312147165445_2_alg».proof.Proof.BodyOblig
import proofs.«104923_j4312147165445_2_alg».proof.Proof.Adm
import Idealize.ShloMosaic.Lib.Pipeline.Value

set_option maxRecDepth 16384
set_option Elab.async false

noncomputable section

namespace Cert.KernelIdeal.Hand

open Cert.KernelIdeal Cert.KernelIdeal.Gen
open Idealize.ShloMosaic
open Idealize.ShloMosaic.TcCoe
open Idealize.SL Idealize.SL.RA Idealize.SL.Sem
open Idealize.ShloMosaic.Pipeline (Dat Cfg Window)

variable {F : FTy → Type} [FloatOps F]

variable (Varr : (c : Dev nD) → (b : Ref sig .tc) → Buf (Elt F) ((c : Thread nD τ).loc b))
variable (qS : Fin 3 → PosShare TreeShare)
variable (pf : ∀ t : Fin (cfgA (F := F) adm).N, PointFacts (F := F) adm t)

/-- The output window's write-back schedule, decided over the grid: only the last point writes back. -/
theorem dec_flush2 : ∀ t : Fin grid0.N, Window.flushOf grid0 true cc0_transform_2 t = true ↔ t.val = 35 := by
  decide +kernel

/-- The same of the pipeline's own window. -/
theorem flush2_iff (t : Fin (cfgA (F := F) adm).N) : ((cfgA (F := F) adm).win (2 : Fin 3)).flush t = true ↔ t.val = 35 :=
  dec_flush2 t

/-- The output window's block index is (0, 0) at every point. -/
theorem index2_zero (t : Fin (cfgA (F := F) adm).N) :
    (fun a => ((cfgA (F := F) adm).win (2 : Fin 3)).index t a * main_v14.ty.shape.size a) = fun _ => 0 :=
  funext fun a => by
    match a with
    | ⟨0, _⟩ => rfl
    | ⟨1, _⟩ => rfl

/-- What the one write-back writes is the output block after the last point, read through the whole array. -/
theorem flushed2_eq (c : Dev nD) (h35 : 35 < (cfgA (F := F) adm).N) (t : Fin (cfgA (F := F) adm).N)
    (hf : ((cfgA (F := F) adm).win (2 : Fin 3)).flush t = true) :
    (dats (F := F) adm Varr qS pf 0 c).flushed (2 : Fin 3) t
      = (((cfgA (F := F) adm).win (2 : Fin 3)).blk t).view.read (Elt F) (traj (F := F) adm Varr pf c 35 h35).1 := by
  have h1 : t.val = 35 := (flush2_iff (F := F) t).mp hf
  obtain rfl : t = ⟨35, h35⟩ := Fin.ext h1
  show ((cfgA (F := F) adm).win (2 : Fin 3)).cut (grid0.coords ⟨35, h35⟩)
    ((dats (F := F) adm Varr qS pf 0 c).after (2 : Fin 3) ⟨35, h35⟩) = _
  rw [after_2]
  exact (Memref.read_access_unit_zero (Elt F) main_v14 (index2_zero (F := F) ⟨35, h35⟩)
    (fun a => by rw [congrFun (index2_zero (F := F) ⟨35, h35⟩) a]; simp) _).symm

/-- THE OUTPUT ARRAY after the run is the output block after the last point. -/
theorem arrAt2_eq (c : Dev nD) (h35 : 35 < (cfgA (F := F) adm).N) :
    (dats (F := F) adm Varr qS pf 0 c).arrAt (2 : Fin 3) (cfgA (F := F) adm).N
      = (traj (F := F) adm Varr pf c 35 h35).1 :=
  (dats (F := F) adm Varr qS pf 0 c).arrAt_eq_of_cover (2 : Fin 3) (traj (F := F) adm Varr pf c 35 h35).1
    (fun t hf => flushed2_eq (F := F) Varr qS pf c h35 t hf) fun i =>
    ⟨⟨35, h35⟩, (flush2_iff (F := F) ⟨35, h35⟩).mpr rfl, by
      show i ∈ ((View.whole main_v14).slice (((cfgA (F := F) adm).win (2 : Fin 3)).rect ⟨35, h35⟩)).set
      rw [View.set_slice_whole, Rect.mem_set_unit]
      intro a
      have h0 : (i 0 : Nat) < 8 := (i 0).isLt
      have h1 : (i 1 : Nat) < 1024 := (i 1).isLt
      match a with
      | ⟨0, _⟩ =>
        show 0 * 8 ≤ (i 0 : Nat) ∧ (i 0 : Nat) < 0 * 8 + 8
        omega
      | ⟨1, _⟩ =>
        show 0 * 1024 ≤ (i 1 : Nat) ∧ (i 1 : Nat) < 0 * 1024 + 1024
        omega⟩

end Cert.KernelIdeal.Hand

end
-- ==== Proof.Acc2Lemmas.lean ====
/-
  One-row and whole-block stores into a two-axis buffer, read back at an index.  A store through
  the one-row rectangle at row p replaces row p by its payload and leaves every other row as it
  was; a load through that rectangle reads row p; a store through the rectangle of the whole shape
  replaces everything; a load of the whole shape from contents given by their values reads the
  values.
-/
import Idealize.ShloMosaic.Lib.ValueIdx
import Idealize.ShloMosaic.Lib.Writes
import Idealize.ShloMosaic.Lib.Exec.Geometry

noncomputable section

namespace Cert.Proof.KAcc

open Idealize.ShloMosaic Idealize.ShloMosaic.ValueIdx

variable {sig : RefSig} {κ : Kind} {sp : Space} {e : EltTy} {Val : EltTy → Type} {m n : Nat}

/-- Under a one-row rectangle at row p, its entry (0, a) is the shape's entry (p, a). -/
theorem rowRect_emb (off : Fin 2 → Nat)
    (inb : ∀ a, off a + (![1, n] : Fin 2 → Nat) a ≤ (⟨2, ![m, n]⟩ : Shape).size a)
    (p : Fin m) (h0 : off 0 = p.val) (h1 : off 1 = 0) (a : Fin n) :
    (Rect.unit (s := ⟨2, ![m, n]⟩) off ![1, n] inb).emb (ix2 (0 : Fin 1) a) = ix2 p a := by
  funext c
  apply Fin.ext
  match c with
  | ⟨0, _⟩ =>
    show off 0 + 1 * 0 = p.val
    omega
  | ⟨1, _⟩ =>
    show off 1 + 1 * a.val = a.val
    omega

/-- After a store through the one-row rectangle at row p, row p reads the payload and every other
    row what the earlier stores left. -/
theorem read_writes_row (v : View sig κ sp ⟨2, ![m, n]⟩ e) (g : v.ty.Contents Val) (off : Fin 2 → Nat)
    (inb : ∀ a, off a + (![1, n] : Fin 2 → Nat) a ≤ (⟨2, ![m, n]⟩ : Shape).size a)
    (p : Fin m) (h0 : off 0 = p.val) (h1 : off 1 = 0)
    (w : (Rect.unit (s := ⟨2, ![m, n]⟩) off ![1, n] inb).shape.Idx → Val e)
    (L : List (View.Piece Val ⟨2, ![m, n]⟩ e)) (t : Fin m) (a : Fin n) :
    v.read Val (v.writes Val g (⟨Rect.unit (s := ⟨2, ![m, n]⟩) off ![1, n] inb, w⟩ :: L)) (ix2 t a)
      = if t = p then w (ix2 (0 : Fin 1) a) else v.read Val (v.writes Val g L) (ix2 t a) := by
  split
  · next ht =>
    subst ht
    rw [← rowRect_emb off inb t h0 h1 a]
    exact View.read_writes_cons_emb v g _ w L _
  · next ht =>
    rw [View.writes_cons]
    refine View.read_slice_write_of_not_mem _ _ _ _ ?_
    rw [Rect.map_emb_univ, Rect.mem_set_unit]
    intro h
    have h' := h 0
    apply ht
    apply Fin.ext
    have e1 : ((ix2 t a : (⟨2, ![m, n]⟩ : Shape).Idx) 0).val = t.val := rfl
    have e2 : (![1, n] : Fin 2 → Nat) 0 = 1 := rfl
    rw [e1, e2] at h'
    omega

/-- A load through the one-row rectangle at row p reads row p. -/
theorem readAt_row (v : View sig κ sp ⟨2, ![m, n]⟩ e) (g : v.ty.Contents Val) (off : Fin 2 → Nat)
    (inb : ∀ a, off a + (![1, n] : Fin 2 → Nat) a ≤ (⟨2, ![m, n]⟩ : Shape).size a)
    (p : Fin m) (h0 : off 0 = p.val) (h1 : off 1 = 0) (a : Fin n) :
    v.readAt Val (Rect.unit (s := ⟨2, ![m, n]⟩) off ![1, n] inb).toLoadRect g (ix2 (0 : Fin 1) a)
      = v.read Val g (ix2 p a) := by
  rw [View.readAt_apply]
  exact congrArg (v.read Val g) (rowRect_emb off inb p h0 h1 a)

/-- Under the rectangle of the whole shape every entry is itself. -/
theorem wholeRect_emb (off : Fin 2 → Nat) (h0 : off 0 = 0) (h1 : off 1 = 0)
    (inb : ∀ a, off a + (⟨2, ![m, n]⟩ : Shape).size a ≤ (⟨2, ![m, n]⟩ : Shape).size a)
    (y : (⟨2, ![m, n]⟩ : Shape).Idx) :
    (Rect.unit (s := ⟨2, ![m, n]⟩) off (⟨2, ![m, n]⟩ : Shape).size inb).emb y = y := by
  funext c
  apply Fin.ext
  match c with
  | ⟨0, _⟩ =>
    show off 0 + 1 * (y 0).val = (y 0).val
    omega
  | ⟨1, _⟩ =>
    show off 1 + 1 * (y 1).val = (y 1).val
    omega

/-- After a store through the rectangle of the whole shape every entry reads the payload. -/
theorem read_writes_wholeRect (v : View sig κ sp ⟨2, ![m, n]⟩ e) (g : v.ty.Contents Val) (off : Fin 2 → Nat)
    (h0 : off 0 = 0) (h1 : off 1 = 0)
    (inb : ∀ a, off a + (⟨2, ![m, n]⟩ : Shape).size a ≤ (⟨2, ![m, n]⟩ : Shape).size a)
    (w : (Rect.unit (s := ⟨2, ![m, n]⟩) off (⟨2, ![m, n]⟩ : Shape).size inb).shape.Idx → Val e)
    (L : List (View.Piece Val ⟨2, ![m, n]⟩ e)) (y : (⟨2, ![m, n]⟩ : Shape).Idx) :
    v.read Val (v.writes Val g (⟨Rect.unit (s := ⟨2, ![m, n]⟩) off (⟨2, ![m, n]⟩ : Shape).size inb, w⟩ :: L)) y = w y :=
  (congrArg (v.read Val _) (wholeRect_emb off h0 h1 inb y).symm).trans
    (View.read_writes_cons_emb v g _ w L y)

/-- A load of the whole shape reads the contents entry by entry. -/
theorem readAt_wholeRect (v : View sig κ sp ⟨2, ![m, n]⟩ e) (g : v.ty.Contents Val) (off : Fin 2 → Nat)
    (h0 : off 0 = 0) (h1 : off 1 = 0)
    (inb : ∀ a, off a + (⟨2, ![m, n]⟩ : Shape).size a ≤ (⟨2, ![m, n]⟩ : Shape).size a)
    (y : (⟨2, ![m, n]⟩ : Shape).Idx) :
    v.readAt Val (Rect.unit (s := ⟨2, ![m, n]⟩) off (⟨2, ![m, n]⟩ : Shape).size inb).toLoadRect g y
      = v.read Val g y := by
  rw [View.readAt_apply]
  exact congrArg (v.read Val g) (wholeRect_emb off h0 h1 inb y)

/-- A load of the whole shape from contents given by their values reads the values. -/
theorem readAt_wholeRect_rep [∀ e, Nonempty (Val e)] (v : View sig κ sp ⟨2, ![m, n]⟩ e) (off : Fin 2 → Nat)
    (h0 : off 0 = 0) (h1 : off 1 = 0)
    (inb : ∀ a, off a + (⟨2, ![m, n]⟩ : Shape).size a ≤ (⟨2, ![m, n]⟩ : Shape).size a)
    (x : (⟨2, ![m, n]⟩ : Shape).Idx → Val e) :
    v.readAt Val (Rect.unit (s := ⟨2, ![m, n]⟩) off (⟨2, ![m, n]⟩ : Shape).size inb).toLoadRect (v.rep x) = x := by
  funext y
  rw [readAt_wholeRect v _ off h0 h1 inb y, View.read_rep]

end Cert.Proof.KAcc

end
-- ==== Proof.Acc2Runs.lean ====
/-
  The accumulator after the kernel body at a grid point, entry by entry, at the ideal values.

  At a point with tile pair (p, q) the body adds the row sums of the tile's weights W to row p of
  the 8 × 1024 accumulator and, off the diagonal, then adds the column sums to row q (read after
  the first update); at the first point the accumulator is zero before the update, whatever the
  buffer held; at the last point the logarithm of the updated accumulator goes to the output
  block.  The four paths' runs leave lists of stores through one-row rectangles (and one
  whole-block store); each is read back at an entry (t, a).
-/
import proofs.«104923_j4312147165445_2_alg».proof.Proof.BodyRuns
import proofs.«104923_j4312147165445_2_alg».proof.Proof.AccFold
import proofs.«104923_j4312147165445_2_alg».proof.Proof.TileMask
import proofs.«104923_j4312147165445_2_alg».proof.Proof.Acc2Lemmas

set_option maxRecDepth 16384

noncomputable section

open scoped BigOperators

namespace Cert.Proof.KAcc

open Cert.KernelIdeal Cert.KernelIdeal.Gen Cert.KernelIdeal.Hand
open Idealize.ShloMosaic Idealize.ShloMosaic.TcCoe Idealize.ShloMosaic.Tactic Idealize.ShloMosaic.ValueIdx
open Idealize.SL.Sem
open Cert.Proof.KMath (row rowStep colStep)

/-- The tile of scaled similarities the body computes from the two loaded blocks. -/
abbrev tileS {F : FTy → Type} [FloatOps F] (arg3 arg4 : Memref sig .tc .vmem S1024x256 .f32)
    (x0 x1 : S1024x256.Idx → Elt F .f32) : FVec F S1024x1024 .f32 :=
  k0_pay6
    (View.readAt (Elt F) arg3.view (Rect.unit (s := S1024x256) ![0, 0] S1024x256.size inb_S1024x256_S1024x256_0_0).toLoadRect
      (arg3.view.rep x0))
    (View.readAt (Elt F) arg4.view (Rect.unit (s := S1024x256) ![0, 0] S1024x256.size inb_S1024x256_S1024x256_0_0).toLoadRect
      (arg4.view.rep x1))

/-- A block loaded whole from a staging buffer holding the values x reads x. -/
theorem readAt_block_rep {F : FTy → Type} [FloatOps F] (arg : Memref sig .tc .vmem S1024x256 .f32)
    (x : S1024x256.Idx → Elt F .f32) :
    View.readAt (Elt F) arg.view
        (Rect.unit (s := S1024x256) ![0, 0] S1024x256.size inb_S1024x256_S1024x256_0_0).toLoadRect (arg.view.rep x) = x :=
  readAt_wholeRect_rep (m := 1024) (n := 256) arg.view ![0, 0] rfl rfl inb_S1024x256_S1024x256_0_0 x

/-- So the tile is the tile payload of the two blocks' values. -/
theorem tileS_eq {F : FTy → Type} [FloatOps F] (arg3 arg4 : Memref sig .tc .vmem S1024x256 .f32)
    (x0 x1 : S1024x256.Idx → Elt F .f32) : tileS arg3 arg4 x0 x1 = k0_pay6 x0 x1 := by
  unfold tileS
  rw [readAt_block_rep, readAt_block_rep]

/-- A table word that is the word of a block number below 8 has that number as its value. -/
theorem toNat_of_word {w : BitVec 32} {p : Fin 8} (h : w = BitVec.ofNat 32 p.val) : w.toNat = p.val := by
  subst h
  have := p.isLt
  simp only [BitVec.toNat_ofNat]
  omega

section Stores

variable (c : Dev nD)

/-- The accumulator's buffer reads as its contents. -/
theorem read_scratch (X : Buf (Elt Ideal) ((c : Thread nD τ).loc cc0_scratch0)) (y : S8x1024.Idx) :
    (View.whole cc0_scratch0).read (Elt Ideal) X y = X y := rfl

/-- The row update as the last store: row p becomes the row read (from g, where it holds R) plus the tile's row
    sums. -/
theorem rowStore_eq (g0 g : Buf (Elt Ideal) ((c : Thread nD τ).loc cc0_scratch0))
    (L : List (View.Piece (Elt Ideal) S8x1024 .f32)) (w0 w1 : BitVec 32)
    (inb : ∀ a, k0_off2 w0 a + (![1, 1024] : Fin 2 → Nat) a ≤ S8x1024.size a)
    (S S' : FVec Ideal S1024x1024 .f32) (p q : Fin 8)
    (h0 : w0 = BitVec.ofNat 32 p.val) (h1 : w1 = BitVec.ofNat 32 q.val) (hS : S = S')
    (W : Fin 1024 → Fin 1024 → EReal)
    (hW : ∀ a b, k0_pay1 (F := Ideal) (BitVec.ofNat 32 p.val) (BitVec.ofNat 32 q.val) S' (ix2 a b) = W a b)
    (R : Fin 1024 → EReal) (hR : ∀ a, g (ix2 p a) = R a)
    (t : Fin 8) (a : Fin 1024) :
    (View.whole cc0_scratch0).writes (Elt Ideal) g0
        (⟨Rect.unit (s := S8x1024) (k0_off2 w0) ![1, 1024] inb,
          k0_pay2 (F := Ideal) w0 w1 S
            (View.readAt (Elt Ideal) (View.whole cc0_scratch0)
              (Rect.unit (s := S8x1024) (k0_off2 w0) ![1, 1024] inb).toLoadRect g)⟩ :: L) (ix2 t a)
      = if t = p then R a + ∑ b : Fin 1024, W a b
        else (View.whole cc0_scratch0).writes (Elt Ideal) g0 L (ix2 t a) := by
  subst hS
  have hoff : k0_off2 w0 0 = p.val := toNat_of_word h0
  refine (read_scratch c _ _).symm.trans ?_
  refine (read_writes_row (m := 8) (n := 1024) (View.whole cc0_scratch0) g0 _ _ p hoff rfl _ L t a).trans ?_
  by_cases ht : t = p
  · rw [if_pos ht, if_pos ht, Cert.Proof.KMath.rowupd_eq]
    refine congrArg₂ (· + ·) ?_ (Finset.sum_congr rfl fun b _ => ?_)
    · exact (readAt_row (m := 8) (n := 1024) (View.whole cc0_scratch0) g _ _ p hoff rfl a).trans (hR a)
    · rw [h0, h1]
      exact hW a b
  · rw [if_neg ht, if_neg ht]
    rfl

/-- The column update as the last store: row q becomes the row read (from g, where it holds R) plus the tile's
    column sums. -/
theorem colStore_eq (g0 g : Buf (Elt Ideal) ((c : Thread nD τ).loc cc0_scratch0))
    (L : List (View.Piece (Elt Ideal) S8x1024 .f32)) (w0 w1 : BitVec 32)
    (inb : ∀ a, k0_off3 w1 a + (![1, 1024] : Fin 2 → Nat) a ≤ S8x1024.size a)
    (S S' : FVec Ideal S1024x1024 .f32) (p q : Fin 8)
    (h0 : w0 = BitVec.ofNat 32 p.val) (h1 : w1 = BitVec.ofNat 32 q.val) (hS : S = S')
    (W : Fin 1024 → Fin 1024 → EReal)
    (hW : ∀ a b, k0_pay1 (F := Ideal) (BitVec.ofNat 32 p.val) (BitVec.ofNat 32 q.val) S' (ix2 a b) = W a b)
    (R : Fin 1024 → EReal) (hR : ∀ a, g (ix2 q a) = R a)
    (t : Fin 8) (a : Fin 1024) :
    (View.whole cc0_scratch0).writes (Elt Ideal) g0
        (⟨Rect.unit (s := S8x1024) (k0_off3 w1) ![1, 1024] inb,
          k0_pay3 (F := Ideal) w0 w1 S
            (View.readAt (Elt Ideal) (View.whole cc0_scratch0)
              (Rect.unit (s := S8x1024) (k0_off3 w1) ![1, 1024] inb).toLoadRect g)⟩ :: L) (ix2 t a)
      = if t = q then R a + ∑ a' : Fin 1024, W a' a
        else (View.whole cc0_scratch0).writes (Elt Ideal) g0 L (ix2 t a) := by
  subst hS
  have hoff : k0_off3 w1 0 = q.val := toNat_of_word h1
  refine (read_scratch c _ _).symm.trans ?_
  refine (read_writes_row (m := 8) (n := 1024) (View.whole cc0_scratch0) g0 _ _ q hoff rfl _ L t a).trans ?_
  by_cases ht : t = q
  · rw [if_pos ht, if_pos ht, Cert.Proof.KMath.colupd_eq]
    refine congrArg₂ (· + ·) ?_ (Finset.sum_congr rfl fun a' _ => ?_)
    · exact (readAt_row (m := 8) (n := 1024) (View.whole cc0_scratch0) g _ _ q hoff rfl a).trans (hR a)
    · rw [h0, h1]
      exact hW a' a
  · rw [if_neg ht, if_neg ht]
    rfl

/-- The whole-block store of the zero payload leaves zero everywhere. -/
theorem zeroStore_eq (g0 : Buf (Elt Ideal) ((c : Thread nD τ).loc cc0_scratch0))
    (inb0 : ∀ a, (![0, 0] : Fin 2 → Nat) a + S8x1024.size a ≤ S8x1024.size a) (y : S8x1024.Idx) :
    (View.whole cc0_scratch0).writes (Elt Ideal) g0
        [⟨Rect.unit (s := S8x1024) ![0, 0] S8x1024.size inb0, k0_pay5 (F := Ideal)⟩] y = (0 : EReal) := by
  refine (read_scratch c _ _).symm.trans ?_
  refine (read_writes_wholeRect (m := 8) (n := 1024) (View.whole cc0_scratch0) g0 ![0, 0] rfl rfl inb0 _ [] y).trans ?_
  exact Cert.Proof.KMath.zero_eq y

variable (g : Buf (Elt Ideal) ((c : Thread nD τ).loc cc0_scratch0)) (w0 w1 : BitVec 32)
  (S S' : FVec Ideal S1024x1024 .f32) (p q : Fin 8)
  (h0 : w0 = BitVec.ofNat 32 p.val) (h1 : w1 = BitVec.ofNat 32 q.val) (hS : S = S')
  (W : Fin 1024 → Fin 1024 → EReal)
  (hW : ∀ a b, k0_pay1 (F := Ideal) (BitVec.ofNat 32 p.val) (BitVec.ofNat 32 q.val) S' (ix2 a b) = W a b)

include h0 h1 hS hW

/-- The row update alone, over an accumulator holding A. -/
theorem rowOnly_eq (inb : ∀ a, k0_off2 w0 a + (![1, 1024] : Fin 2 → Nat) a ≤ S8x1024.size a)
    (A : Fin 8 → Fin 1024 → EReal) (hA : ∀ t a, g (ix2 t a) = A t a) (t : Fin 8) (a : Fin 1024) :
    (View.whole cc0_scratch0).writes (Elt Ideal) g
        [⟨Rect.unit (s := S8x1024) (k0_off2 w0) ![1, 1024] inb,
          k0_pay2 (F := Ideal) w0 w1 S
            (View.readAt (Elt Ideal) (View.whole cc0_scratch0)
              (Rect.unit (s := S8x1024) (k0_off2 w0) ![1, 1024] inb).toLoadRect g)⟩] (ix2 t a)
      = if t = p then A t a + ∑ b : Fin 1024, W a b else A t a := by
  refine (rowStore_eq c g g [] w0 w1 inb S S' p q h0 h1 hS W hW (A p) (hA p) t a).trans ?_
  by_cases ht : t = p
  · subst ht
    rw [if_pos rfl, if_pos rfl]
  · rw [if_neg ht, if_neg ht]
    exact hA t a

/-- The row update, then the column update reading the updated accumulator. -/
theorem rowCol_eq (inb2 : ∀ a, k0_off2 w0 a + (![1, 1024] : Fin 2 → Nat) a ≤ S8x1024.size a)
    (inb3 : ∀ a, k0_off3 w1 a + (![1, 1024] : Fin 2 → Nat) a ≤ S8x1024.size a)
    (A : Fin 8 → Fin 1024 → EReal) (hA : ∀ t a, g (ix2 t a) = A t a) (t : Fin 8) (a : Fin 1024) :
    (View.whole cc0_scratch0).writes (Elt Ideal) g
        [⟨Rect.unit (s := S8x1024) (k0_off3 w1) ![1, 1024] inb3,
          k0_pay3 (F := Ideal) w0 w1 S
            (View.readAt (Elt Ideal) (View.whole cc0_scratch0)
              (Rect.unit (s := S8x1024) (k0_off3 w1) ![1, 1024] inb3).toLoadRect
              ((View.whole cc0_scratch0).writes (Elt Ideal) g
                [⟨Rect.unit (s := S8x1024) (k0_off2 w0) ![1, 1024] inb2,
                  k0_pay2 (F := Ideal) w0 w1 S
                    (View.readAt (Elt Ideal) (View.whole cc0_scratch0)
                      (Rect.unit (s := S8x1024) (k0_off2 w0) ![1, 1024] inb2).toLoadRect g)⟩]))⟩,
         ⟨Rect.unit (s := S8x1024) (k0_off2 w0) ![1, 1024] inb2,
          k0_pay2 (F := Ideal) w0 w1 S
            (View.readAt (Elt Ideal) (View.whole cc0_scratch0)
              (Rect.unit (s := S8x1024) (k0_off2 w0) ![1, 1024] inb2).toLoadRect g)⟩] (ix2 t a)
      = if t = q then (if t = p then A t a + ∑ b : Fin 1024, W a b else A t a) + ∑ a' : Fin 1024, W a' a
        else (if t = p then A t a + ∑ b : Fin 1024, W a b else A t a) := by
  refine (colStore_eq c g _ _ w0 w1 inb3 S S' p q h0 h1 hS W hW
    (fun a => if q = p then A q a + ∑ b : Fin 1024, W a b else A q a)
    (fun a => rowOnly_eq c g w0 w1 S S' p q h0 h1 hS W hW inb2 A hA q a) t a).trans ?_
  by_cases ht : t = q
  · subst ht
    rw [if_pos rfl, if_pos rfl]
  · rw [if_neg ht, if_neg ht]
    exact rowOnly_eq c g w0 w1 S S' p q h0 h1 hS W hW inb2 A hA t a

/-- The zeroing store, then the row update reading the zeroed accumulator: whatever the buffer held. -/
theorem zeroRow_eq (inb0 : ∀ a, (![0, 0] : Fin 2 → Nat) a + S8x1024.size a ≤ S8x1024.size a)
    (inb2 : ∀ a, k0_off2 w0 a + (![1, 1024] : Fin 2 → Nat) a ≤ S8x1024.size a) (t : Fin 8) (a : Fin 1024) :
    (View.whole cc0_scratch0).writes (Elt Ideal) g
        [⟨Rect.unit (s := S8x1024) (k0_off2 w0) ![1, 1024] inb2,
          k0_pay2 (F := Ideal) w0 w1 S
            (View.readAt (Elt Ideal) (View.whole cc0_scratch0)
              (Rect.unit (s := S8x1024) (k0_off2 w0) ![1, 1024] inb2).toLoadRect
              ((View.whole cc0_scratch0).writes (Elt Ideal) g
                [⟨Rect.unit (s := S8x1024) ![0, 0] S8x1024.size inb0, k0_pay5 (F := Ideal)⟩]))⟩,
         ⟨Rect.unit (s := S8x1024) ![0, 0] S8x1024.size inb0, k0_pay5 (F := Ideal)⟩] (ix2 t a)
      = if t = p then (0 : EReal) + ∑ b : Fin 1024, W a b else 0 := by
  refine (rowStore_eq c g _ _ w0 w1 inb2 S S' p q h0 h1 hS W hW (fun _ => 0)
    (fun a => zeroStore_eq c g inb0 (ix2 p a)) t a).trans ?_
  by_cases ht : t = p
  · rw [if_pos ht, if_pos ht]
  · rw [if_neg ht, if_neg ht]
    exact zeroStore_eq c g inb0 (ix2 t a)

omit h0 h1 hS hW in
/-- The last point's output store, read through any view of the output block's shape: the logarithm of the
    accumulator it read. -/
theorem logStore_eq {κ : Kind} {sp : Space} (v : View sig κ sp S8x1024 .f32) (f : v.ty.Contents (Elt Ideal))
    (G : Buf (Elt Ideal) ((c : Thread nD τ).loc cc0_scratch0))
    (inb0 : ∀ a, (![0, 0] : Fin 2 → Nat) a + S8x1024.size a ≤ S8x1024.size a) (y : S8x1024.Idx) :
    v.read (Elt Ideal) (v.writes (Elt Ideal) f
        [⟨Rect.unit (s := S8x1024) ![0, 0] S8x1024.size inb0,
          k0_pay4 (F := Ideal) (View.readAt (Elt Ideal) (View.whole cc0_scratch0)
            (Rect.unit (s := S8x1024) ![0, 0] S8x1024.size inb0).toLoadRect G)⟩]) y
      = Ideal.log (G y) := by
  refine (read_writes_wholeRect (m := 8) (n := 1024) v f ![0, 0] rfl rfl inb0 _ [] y).trans ?_
  exact congrArg Ideal.log
    ((readAt_wholeRect (m := 8) (n := 1024) (Val := Elt Ideal) (View.whole cc0_scratch0) G ![0, 0] rfl rfl inb0 y).trans
      (read_scratch c G y))

end Stores

/-! ## The four runs -/

section Runs

variable (c : Dev nD) (i : grid0.Coords) (arg3 : Memref sig .tc .vmem S1024x256 .f32) (harg3 : arg3.IsWhole)
  (arg4 : Memref sig .tc .vmem S1024x256 .f32) (harg4 : arg4.IsWhole)
  (arg5 : Memref sig .tc .vmem S8x1024 .f32) (harg5 : arg5.IsWhole)
  (T0 T1 : S36.Idx → Elt Ideal .i32) (x0 x1 : S1024x256.Idx → Elt Ideal .f32)
  (hw1 : k0_chk1 (word0 (F := Ideal) i T0)) (hw2 : k0_chk2 (word0 (F := Ideal) i T0) (word1 (F := Ideal) i T1))
  (p q : Fin 8) (hp : word0 (F := Ideal) i T0 = BitVec.ofNat 32 p.val) (hq : word1 (F := Ideal) i T1 = BitVec.ofNat 32 q.val)
  (W : Fin 1024 → Fin 1024 → EReal)
  (hW : ∀ a b, k0_pay1 (F := Ideal) (BitVec.ofNat 32 p.val) (BitVec.ofNat 32 q.val) (tileS arg3 arg4 x0 x1) (ix2 a b) = W a b)

include hp hq hW

/-- A diagonal point in the middle: the row update. -/
theorem runC_apply (xa0 : Buf (Elt Ideal) ((c : Thread nD τ).loc cc0_scratch0))
    (k0_h1 : ¬ isFirst i) (k0_h2 : ¬ (k0_cond2 (word0 (F := Ideal) i T0) (word1 (F := Ideal) i T1) = 1#1)) (k0_h3 : ¬(k0_cond3 i = 1#1))
    (A : Fin 8 → Fin 1024 → EReal) (hA : ∀ t a, xa0 (ix2 t a) = A t a) (t : Fin 8) (a : Fin 1024) :
    (runC (F := Ideal) c i arg3 harg3 arg4 harg4 arg5 harg5 T0 T1 x0 x1 xa0 hw1 hw2 k0_h1 k0_h2 k0_h3).1 (ix2 t a)
      = if t = p then A t a + ∑ b : Fin 1024, W a b else A t a := by
  unfold runC
  dsimp only
  sl_unfold_run_names
  exact rowOnly_eq c xa0 _ _ _ (tileS arg3 arg4 x0 x1) p q hp hq rfl W hW _ A hA t a

/-- An off-diagonal point: the row update, then the column update. -/
theorem runB_apply (xa0 : Buf (Elt Ideal) ((c : Thread nD τ).loc cc0_scratch0))
    (k0_h1 : ¬ isFirst i) (k0_h2 : k0_cond2 (word0 (F := Ideal) i T0) (word1 (F := Ideal) i T1) = 1#1) (k0_h3 : ¬(k0_cond3 i = 1#1))
    (A : Fin 8 → Fin 1024 → EReal) (hA : ∀ t a, xa0 (ix2 t a) = A t a) (t : Fin 8) (a : Fin 1024) :
    (runB (F := Ideal) c i arg3 harg3 arg4 harg4 arg5 harg5 T0 T1 x0 x1 xa0 hw1 hw2 k0_h1 k0_h2 k0_h3).1 (ix2 t a)
      = if t = q then (if t = p then A t a + ∑ b : Fin 1024, W a b else A t a) + ∑ a' : Fin 1024, W a' a
        else (if t = p then A t a + ∑ b : Fin 1024, W a b else A t a) := by
  unfold runB
  dsimp only
  sl_unfold_run_names
  exact rowCol_eq c xa0 _ _ _ (tileS arg3 arg4 x0 x1) p q hp hq rfl W hW _ _ A hA t a

/-- The first point: the row update of the zero accumulator, whatever the buffer held. -/
theorem runA_apply
    (k0_h1 : isFirst i) (k0_h2 : ¬ (k0_cond2 (word0 (F := Ideal) i T0) (word1 (F := Ideal) i T1) = 1#1)) (k0_h3 : ¬(k0_cond3 i = 1#1))
    (t : Fin 8) (a : Fin 1024) :
    (runA (F := Ideal) c i arg3 harg3 arg4 harg4 arg5 harg5 T0 T1 x0 x1 hw1 hw2 k0_h1 k0_h2 k0_h3).1 (ix2 t a)
      = if t = p then 0 + ∑ b : Fin 1024, W a b else 0 := by
  unfold runA
  dsimp only
  sl_unfold_run_names
  exact zeroRow_eq c _ _ _ _ (tileS arg3 arg4 x0 x1) p q hp hq rfl W hW _ _ t a

/-- The last point, the accumulator: the row update. -/
theorem runD_acc_apply (xa0 : Buf (Elt Ideal) ((c : Thread nD τ).loc cc0_scratch0))
    (k0_h1 : ¬ isFirst i) (k0_h2 : ¬ (k0_cond2 (word0 (F := Ideal) i T0) (word1 (F := Ideal) i T1) = 1#1)) (k0_h3 : k0_cond3 i = 1#1)
    (A : Fin 8 → Fin 1024 → EReal) (hA : ∀ t a, xa0 (ix2 t a) = A t a) (t : Fin 8) (a : Fin 1024) :
    (runD (F := Ideal) c i arg3 harg3 arg4 harg4 arg5 harg5 T0 T1 x0 x1 xa0 hw1 hw2 k0_h1 k0_h2 k0_h3).2.1 (ix2 t a)
      = if t = p then A t a + ∑ b : Fin 1024, W a b else A t a := by
  unfold runD
  dsimp only
  sl_unfold_run_names
  exact rowOnly_eq c xa0 _ _ _ (tileS arg3 arg4 x0 x1) p q hp hq rfl W hW _ A hA t a

/-- The last point, the output block: the logarithm of the updated accumulator, through any view of the block's
    shape and over any earlier contents. -/
theorem runD_out_apply {κ : Kind} {sp : Space} (v : View sig κ sp S8x1024 .f32) (f : v.ty.Contents (Elt Ideal))
    (xa0 : Buf (Elt Ideal) ((c : Thread nD τ).loc cc0_scratch0))
    (k0_h1 : ¬ isFirst i) (k0_h2 : ¬ (k0_cond2 (word0 (F := Ideal) i T0) (word1 (F := Ideal) i T1) = 1#1)) (k0_h3 : k0_cond3 i = 1#1)
    (A : Fin 8 → Fin 1024 → EReal) (hA : ∀ t a, xa0 (ix2 t a) = A t a) (t : Fin 8) (a : Fin 1024) :
    v.read (Elt Ideal) (v.writes (Elt Ideal) f
        (runD (F := Ideal) c i arg3 harg3 arg4 harg4 arg5 harg5 T0 T1 x0 x1 xa0 hw1 hw2 k0_h1 k0_h2 k0_h3).1) (ix2 t a)
      = Ideal.log (if t = p then A t a + ∑ b : Fin 1024, W a b else A t a) := by
  unfold runD
  dsimp only
  sl_unfold_run_names
  refine (logStore_eq c v f _ _ (ix2 t a)).trans ?_
  exact congrArg Ideal.log (rowOnly_eq c xa0 _ _ _ (tileS arg3 arg4 x0 x1) p q hp hq rfl W hW _ A hA t a)

end Runs

end Cert.Proof.KAcc

end
-- ==== Proof.Acc2Steps.lean ====
/-
  The four paths' reads written as the accumulation's steps: with the tile's weights the
  specification's weights of the global rows (row p a, row q b), the row update is rowStep, the
  row update followed by the column update is colStep after rowStep, the first point is rowStep
  of the zero accumulator, and the output block holds the logarithm of the updated accumulator.
-/
import proofs.«104923_j4312147165445_2_alg».proof.Proof.Acc2Runs

set_option maxRecDepth 16384

noncomputable section

open scoped BigOperators

namespace Cert.Proof.KAcc

open Cert.KernelIdeal Cert.KernelIdeal.Gen Cert.KernelIdeal.Hand
open Idealize.ShloMosaic Idealize.ShloMosaic.TcCoe Idealize.ShloMosaic.ValueIdx
open Idealize.SL.Sem
open Cert.Proof.KMath (row rowStep colStep)

variable (c : Dev nD) (i : grid0.Coords) (arg3 : Memref sig .tc .vmem S1024x256 .f32) (harg3 : arg3.IsWhole)
  (arg4 : Memref sig .tc .vmem S1024x256 .f32) (harg4 : arg4.IsWhole)
  (arg5 : Memref sig .tc .vmem S8x1024 .f32) (harg5 : arg5.IsWhole)
  (T0 T1 : S36.Idx → Elt Ideal .i32) (x0 x1 : S1024x256.Idx → Elt Ideal .f32)
  (hw1 : k0_chk1 (word0 (F := Ideal) i T0)) (hw2 : k0_chk2 (word0 (F := Ideal) i T0) (word1 (F := Ideal) i T1))
  (p q : Fin 8) (hp : word0 (F := Ideal) i T0 = BitVec.ofNat 32 p.val) (hq : word1 (F := Ideal) i T1 = BitVec.ofNat 32 q.val)
  (X : Fin 8192 → Fin 256 → EReal)
  (hW : ∀ a b, k0_pay1 (F := Ideal) (BitVec.ofNat 32 p.val) (BitVec.ofNat 32 q.val) (tileS arg3 arg4 x0 x1) (ix2 a b)
    = Cert.Spec.wgt X (row p a) (row q b))

include hp hq hW

/-- A diagonal point in the middle is the row step. -/
theorem runC_step (xa0 : Buf (Elt Ideal) ((c : Thread nD τ).loc cc0_scratch0))
    (k0_h1 : ¬ isFirst i) (k0_h2 : ¬ (k0_cond2 (word0 (F := Ideal) i T0) (word1 (F := Ideal) i T1) = 1#1)) (k0_h3 : ¬(k0_cond3 i = 1#1))
    (A : Fin 8 → Fin 1024 → EReal) (hA : ∀ t a, xa0 (ix2 t a) = A t a) (t : Fin 8) (a : Fin 1024) :
    (runC (F := Ideal) c i arg3 harg3 arg4 harg4 arg5 harg5 T0 T1 x0 x1 xa0 hw1 hw2 k0_h1 k0_h2 k0_h3).1 (ix2 t a)
      = rowStep X p q A t a :=
  runC_apply c i arg3 harg3 arg4 harg4 arg5 harg5 T0 T1 x0 x1 hw1 hw2 p q hp hq
    (fun a b => Cert.Spec.wgt X (row p a) (row q b)) hW xa0 k0_h1 k0_h2 k0_h3 A hA t a

/-- An off-diagonal point is the row step followed by the column step. -/
theorem runB_step (xa0 : Buf (Elt Ideal) ((c : Thread nD τ).loc cc0_scratch0))
    (k0_h1 : ¬ isFirst i) (k0_h2 : k0_cond2 (word0 (F := Ideal) i T0) (word1 (F := Ideal) i T1) = 1#1) (k0_h3 : ¬(k0_cond3 i = 1#1))
    (A : Fin 8 → Fin 1024 → EReal) (hA : ∀ t a, xa0 (ix2 t a) = A t a) (t : Fin 8) (a : Fin 1024) :
    (runB (F := Ideal) c i arg3 harg3 arg4 harg4 arg5 harg5 T0 T1 x0 x1 xa0 hw1 hw2 k0_h1 k0_h2 k0_h3).1 (ix2 t a)
      = colStep X p q (rowStep X p q A) t a :=
  runB_apply c i arg3 harg3 arg4 harg4 arg5 harg5 T0 T1 x0 x1 hw1 hw2 p q hp hq
    (fun a b => Cert.Spec.wgt X (row p a) (row q b)) hW xa0 k0_h1 k0_h2 k0_h3 A hA t a

/-- The first point is the row step of the zero accumulator. -/
theorem runA_step
    (k0_h1 : isFirst i) (k0_h2 : ¬ (k0_cond2 (word0 (F := Ideal) i T0) (word1 (F := Ideal) i T1) = 1#1)) (k0_h3 : ¬(k0_cond3 i = 1#1))
    (t : Fin 8) (a : Fin 1024) :
    (runA (F := Ideal) c i arg3 harg3 arg4 harg4 arg5 harg5 T0 T1 x0 x1 hw1 hw2 k0_h1 k0_h2 k0_h3).1 (ix2 t a)
      = rowStep X p q (fun _ _ => 0) t a :=
  runA_apply c i arg3 harg3 arg4 harg4 arg5 harg5 T0 T1 x0 x1 hw1 hw2 p q hp hq
    (fun a b => Cert.Spec.wgt X (row p a) (row q b)) hW k0_h1 k0_h2 k0_h3 t a

/-- The last point's accumulator is the row step. -/
theorem runD_acc_step (xa0 : Buf (Elt Ideal) ((c : Thread nD τ).loc cc0_scratch0))
    (k0_h1 : ¬ isFirst i) (k0_h2 : ¬ (k0_cond2 (word0 (F := Ideal) i T0) (word1 (F := Ideal) i T1) = 1#1)) (k0_h3 : k0_cond3 i = 1#1)
    (A : Fin 8 → Fin 1024 → EReal) (hA : ∀ t a, xa0 (ix2 t a) = A t a) (t : Fin 8) (a : Fin 1024) :
    (runD (F := Ideal) c i arg3 harg3 arg4 harg4 arg5 harg5 T0 T1 x0 x1 xa0 hw1 hw2 k0_h1 k0_h2 k0_h3).2.1 (ix2 t a)
      = rowStep X p q A t a :=
  runD_acc_apply c i arg3 harg3 arg4 harg4 arg5 harg5 T0 T1 x0 x1 hw1 hw2 p q hp hq
    (fun a b => Cert.Spec.wgt X (row p a) (row q b)) hW xa0 k0_h1 k0_h2 k0_h3 A hA t a

/-- The last point's output block holds the logarithm of the row step. -/
theorem runD_out_step {κ : Kind} {sp : Space} (v : View sig κ sp S8x1024 .f32) (f : v.ty.Contents (Elt Ideal))
    (xa0 : Buf (Elt Ideal) ((c : Thread nD τ).loc cc0_scratch0))
    (k0_h1 : ¬ isFirst i) (k0_h2 : ¬ (k0_cond2 (word0 (F := Ideal) i T0) (word1 (F := Ideal) i T1) = 1#1)) (k0_h3 : k0_cond3 i = 1#1)
    (A : Fin 8 → Fin 1024 → EReal) (hA : ∀ t a, xa0 (ix2 t a) = A t a) (t : Fin 8) (a : Fin 1024) :
    v.read (Elt Ideal) (v.writes (Elt Ideal) f
        (runD (F := Ideal) c i arg3 harg3 arg4 harg4 arg5 harg5 T0 T1 x0 x1 xa0 hw1 hw2 k0_h1 k0_h2 k0_h3).1) (ix2 t a)
      = Ideal.log (rowStep X p q A t a) :=
  runD_out_apply c i arg3 harg3 arg4 harg4 arg5 harg5 T0 T1 x0 x1 hw1 hw2 p q hp hq
    (fun a b => Cert.Spec.wgt X (row p a) (row q b)) hW v f xa0 k0_h1 k0_h2 k0_h3 A hA t a

end Cert.Proof.KAcc

end
-- ==== Proof.TrajAcc.lean ====
/-
  The value of the trajectory at the ideal instance: what the accumulator holds after each grid point,
  and what the output block holds after the last.

  After point n the 8 × 1024 accumulator holds the accumulation of the first n + 1 tile pairs: the first
  point zeroes it and adds its (diagonal) pair's row sums; an off-diagonal point adds its pair's row sums
  to row p and then its column sums to row q; a diagonal point adds its row sums to row p.  After the
  last of the 36 points every entry is its row's denominator, and the output block, stored at that point,
  is the logarithm of it.
-/
import proofs.«104923_j4312147165445_2_alg».proof.Proof.TrajPrep
import proofs.«104923_j4312147165445_2_alg».proof.Proof.BlkOut
import proofs.«104923_j4312147165445_2_alg».proof.Proof.Acc2Steps
import proofs.«104923_j4312147165445_2_alg».proof.Proof.KernelRun

set_option maxRecDepth 16384
set_option Elab.async false

noncomputable section

open scoped BigOperators

namespace Cert.KernelIdeal.Hand

open Cert.KernelIdeal Cert.KernelIdeal.Gen
open Idealize.ShloMosaic
open Idealize.ShloMosaic.TcCoe
open Idealize.SL Idealize.SL.RA Idealize.SL.Sem
open Idealize.ShloMosaic.Pipeline (Dat Cfg Window)
open Idealize.ShloMosaic.ValueIdx (ix2)
open Cert.Proof.KMath (row pTab qTab accAfter rowStep colStep)

variable (m : (ℓ : Loc nD τ sig) → Buf (Elt Ideal) ℓ) (c : Dev nD)

/-- The body's masked exponential tile at point k, over the staged blocks, is the weights of the pair's rows. -/
theorem hWk (hfin : ∀ r d, ∃ x : ℝ, XM m c r d = (x : EReal)) (k : Fin (cfgA (F := Ideal) adm).N) (a b : Fin 1024) :
    k0_pay1 (F := Ideal) (BitVec.ofNat 32 (pk k).val) (BitVec.ofNat 32 (qk k).val)
        (Cert.Proof.KAcc.tileS (ms0 adm k) (ms1 adm k)
          (iblk (F := Ideal) adm (Ventry m) c (0 : Fin 3) k) (iblk (F := Ideal) adm (Ventry m) c (1 : Fin 3) k)) (ix2 a b)
      = Cert.Spec.wgt (XM m c) (row (pk k) a) (row (qk k) b) := by
  rw [Cert.Proof.KAcc.tileS_eq]
  exact wgt_point m c hfin k a b

/-! ## One point, path by path -/

/-- The first point: the row update of the zero accumulator, whatever the accumulator held. -/
theorem stepA_acc (hfin : ∀ r d, ∃ x : ℝ, XM m c r d = (x : EReal)) (k : Fin (cfgA (F := Ideal) adm).N)
    (prev : St (F := Ideal) c) (q1 : P1 (F := Ideal) adm k) (t : Fin 8) (a : Fin 1024) :
    (step (F := Ideal) adm (Ventry m) pointFacts c k prev).2 (ix2 t a)
      = rowStep (XM m c) (pk k) (qk k) (fun _ _ => 0) t a := by
  have e := congrFun (congrArg Prod.snd (step_A (F := Ideal) adm (Ventry m) pointFacts c k prev q1)) (ix2 t a)
  have key := Cert.Proof.KAcc.runA_step (c := c) (i := crd adm k) (arg3 := ms0 adm k) (harg3 := hs0 adm k) (arg4 := ms1 adm k) (harg4 := hs1 adm k)
      (arg5 := ms2 adm k) (harg5 := hs2 adm k) (T0 := tb0 adm) (T1 := tb1 adm)
      (x0 := iblk (F := Ideal) adm (Ventry m) c (0 : Fin 3) k) (x1 := iblk (F := Ideal) adm (Ventry m) c (1 : Fin 3) k)
      (hw1 := (pointFacts (F := Ideal) k).chk1) (hw2 := (pointFacts (F := Ideal) k).chk2)
      (p := pk k) (q := qk k) (hp := word0_pq k) (hq := word1_pq k) (X := XM m c) (hW := hWk m c hfin k)
      (k0_h1 := q1) (k0_h2 := ((pointFacts (F := Ideal) k).first_excl q1).1)
      (k0_h3 := ((pointFacts (F := Ideal) k).first_excl q1).2) (t := t) (a := a)
  refine e.trans ?_
  with_reducible exact key

/-- The last point, the accumulator: a row update. -/
theorem stepD_acc (hfin : ∀ r d, ∃ x : ℝ, XM m c r d = (x : EReal)) (k : Fin (cfgA (F := Ideal) adm).N)
    (prev : St (F := Ideal) c) (A : Fin 8 → Fin 1024 → EReal) (hA : ∀ (t : Fin 8) (a : Fin 1024), prev.2 (ix2 t a) = A t a)
    (q1 : ¬ P1 (F := Ideal) adm k) (q3 : P3 (F := Ideal) adm k) (t : Fin 8) (a : Fin 1024) :
    (step (F := Ideal) adm (Ventry m) pointFacts c k prev).2 (ix2 t a) = rowStep (XM m c) (pk k) (qk k) A t a := by
  have e := congrFun (congrArg Prod.snd (step_D (F := Ideal) adm (Ventry m) pointFacts c k prev q1 q3)) (ix2 t a)
  have key := Cert.Proof.KAcc.runD_acc_step (c := c) (i := crd adm k) (arg3 := ms0 adm k) (harg3 := hs0 adm k) (arg4 := ms1 adm k) (harg4 := hs1 adm k)
      (arg5 := ms2 adm k) (harg5 := hs2 adm k) (T0 := tb0 adm) (T1 := tb1 adm)
      (x0 := iblk (F := Ideal) adm (Ventry m) c (0 : Fin 3) k) (x1 := iblk (F := Ideal) adm (Ventry m) c (1 : Fin 3) k)
      (hw1 := (pointFacts (F := Ideal) k).chk1) (hw2 := (pointFacts (F := Ideal) k).chk2)
      (p := pk k) (q := qk k) (hp := word0_pq k) (hq := word1_pq k) (X := XM m c) (hW := hWk m c hfin k)
      (xa0 := prev.2) (k0_h1 := q1) (k0_h2 := (pointFacts (F := Ideal) k).last_excl q3) (k0_h3 := q3)
      (A := A) (hA := hA) (t := t) (a := a)
  refine e.trans ?_
  with_reducible exact key

/-- The last point, the output block: the logarithm of the updated accumulator. -/
theorem stepD_out (hfin : ∀ r d, ∃ x : ℝ, XM m c r d = (x : EReal)) (k : Fin (cfgA (F := Ideal) adm).N)
    (prev : St (F := Ideal) c) (A : Fin 8 → Fin 1024 → EReal) (hA : ∀ (t : Fin 8) (a : Fin 1024), prev.2 (ix2 t a) = A t a)
    (q1 : ¬ P1 (F := Ideal) adm k) (q3 : P3 (F := Ideal) adm k) (t : Fin 8) (a : Fin 1024) :
    (step (F := Ideal) adm (Ventry m) pointFacts c k prev).1 (ix2 t a)
      = Ideal.log (rowStep (XM m c) (pk k) (qk k) A t a) := by
  have e := congrFun (congrArg Prod.fst (step_D (F := Ideal) adm (Ventry m) pointFacts c k prev q1 q3)) (ix2 t a)
  have key := Cert.Proof.KAcc.runD_out_step (c := c) (i := crd adm k) (arg3 := ms0 adm k) (harg3 := hs0 adm k) (arg4 := ms1 adm k) (harg4 := hs1 adm k)
      (arg5 := ms2 adm k) (harg5 := hs2 adm k) (T0 := tb0 adm) (T1 := tb1 adm)
      (x0 := iblk (F := Ideal) adm (Ventry m) c (0 : Fin 3) k) (x1 := iblk (F := Ideal) adm (Ventry m) c (1 : Fin 3) k)
      (hw1 := (pointFacts (F := Ideal) k).chk1) (hw2 := (pointFacts (F := Ideal) k).chk2)
      (p := pk k) (q := qk k) (hp := word0_pq k) (hq := word1_pq k) (X := XM m c) (hW := hWk m c hfin k)
      (v := VO) (f := VO.junk) (xa0 := prev.2) (k0_h1 := q1) (k0_h2 := (pointFacts (F := Ideal) k).last_excl q3) (k0_h3 := q3)
      (A := A) (hA := hA) (t := t) (a := a)
  refine e.trans ?_
  with_reducible exact key

/-- An off-diagonal point: the row update, then the column update. -/
theorem stepB_acc (hfin : ∀ r d, ∃ x : ℝ, XM m c r d = (x : EReal)) (k : Fin (cfgA (F := Ideal) adm).N)
    (prev : St (F := Ideal) c) (A : Fin 8 → Fin 1024 → EReal) (hA : ∀ (t : Fin 8) (a : Fin 1024), prev.2 (ix2 t a) = A t a)
    (q1 : ¬ P1 (F := Ideal) adm k) (q3 : ¬ P3 (F := Ideal) adm k) (q2 : P2 (F := Ideal) adm k) (t : Fin 8) (a : Fin 1024) :
    (step (F := Ideal) adm (Ventry m) pointFacts c k prev).2 (ix2 t a)
      = colStep (XM m c) (pk k) (qk k) (rowStep (XM m c) (pk k) (qk k) A) t a := by
  have e := congrFun (congrArg Prod.snd (step_B (F := Ideal) adm (Ventry m) pointFacts c k prev q1 q3 q2)) (ix2 t a)
  have key := Cert.Proof.KAcc.runB_step (c := c) (i := crd adm k) (arg3 := ms0 adm k) (harg3 := hs0 adm k) (arg4 := ms1 adm k) (harg4 := hs1 adm k)
      (arg5 := ms2 adm k) (harg5 := hs2 adm k) (T0 := tb0 adm) (T1 := tb1 adm)
      (x0 := iblk (F := Ideal) adm (Ventry m) c (0 : Fin 3) k) (x1 := iblk (F := Ideal) adm (Ventry m) c (1 : Fin 3) k)
      (hw1 := (pointFacts (F := Ideal) k).chk1) (hw2 := (pointFacts (F := Ideal) k).chk2)
      (p := pk k) (q := qk k) (hp := word0_pq k) (hq := word1_pq k) (X := XM m c) (hW := hWk m c hfin k)
      (xa0 := prev.2) (k0_h1 := q1) (k0_h2 := q2) (k0_h3 := q3)
      (A := A) (hA := hA) (t := t) (a := a)
  refine e.trans ?_
  with_reducible exact key

/-- A diagonal point in the middle: the row update. -/
theorem stepC_acc (hfin : ∀ r d, ∃ x : ℝ, XM m c r d = (x : EReal)) (k : Fin (cfgA (F := Ideal) adm).N)
    (prev : St (F := Ideal) c) (A : Fin 8 → Fin 1024 → EReal) (hA : ∀ (t : Fin 8) (a : Fin 1024), prev.2 (ix2 t a) = A t a)
    (q1 : ¬ P1 (F := Ideal) adm k) (q3 : ¬ P3 (F := Ideal) adm k) (q2 : ¬ P2 (F := Ideal) adm k) (t : Fin 8) (a : Fin 1024) :
    (step (F := Ideal) adm (Ventry m) pointFacts c k prev).2 (ix2 t a) = rowStep (XM m c) (pk k) (qk k) A t a := by
  have e := congrFun (congrArg Prod.snd (step_C (F := Ideal) adm (Ventry m) pointFacts c k prev q1 q3 q2)) (ix2 t a)
  have key := Cert.Proof.KAcc.runC_step (c := c) (i := crd adm k) (arg3 := ms0 adm k) (harg3 := hs0 adm k) (arg4 := ms1 adm k) (harg4 := hs1 adm k)
      (arg5 := ms2 adm k) (harg5 := hs2 adm k) (T0 := tb0 adm) (T1 := tb1 adm)
      (x0 := iblk (F := Ideal) adm (Ventry m) c (0 : Fin 3) k) (x1 := iblk (F := Ideal) adm (Ventry m) c (1 : Fin 3) k)
      (hw1 := (pointFacts (F := Ideal) k).chk1) (hw2 := (pointFacts (F := Ideal) k).chk2)
      (p := pk k) (q := qk k) (hp := word0_pq k) (hq := word1_pq k) (X := XM m c) (hW := hWk m c hfin k)
      (xa0 := prev.2) (k0_h1 := q1) (k0_h2 := q2) (k0_h3 := q3)
      (A := A) (hA := hA) (t := t) (a := a)
  refine e.trans ?_
  with_reducible exact key

/-! ## One more pair of the accumulation -/

/-- The accumulation's step at point k's pair, entry by entry, on and off the diagonal. -/
theorem accAfter_succ_k_diag (k : Fin (cfgA (F := Ideal) adm).N) (hd : pk k = qk k) (t : Fin 8) (a : Fin 1024) :
    accAfter (XM m c) (k.val + 1) t a = rowStep (XM m c) (pk k) (qk k) (accAfter (XM m c) k.val) t a :=
  congrFun (congrFun (Cert.Proof.KMath.accAfter_succ_diag (XM m c) (k.cast N_0) hd) t) a

theorem accAfter_succ_k_offdiag (k : Fin (cfgA (F := Ideal) adm).N) (hd : pk k ≠ qk k) (t : Fin 8) (a : Fin 1024) :
    accAfter (XM m c) (k.val + 1) t a
      = colStep (XM m c) (pk k) (qk k) (rowStep (XM m c) (pk k) (qk k) (accAfter (XM m c) k.val)) t a :=
  congrFun (congrFun (Cert.Proof.KMath.accAfter_succ_offdiag (XM m c) (k.cast N_0) hd) t) a

/-- The accumulator after point k, from the accumulator before it: one more pair of the accumulation. -/
theorem step_acc (hfin : ∀ r d, ∃ x : ℝ, XM m c r d = (x : EReal)) (k : Fin (cfgA (F := Ideal) adm).N)
    (prev : St (F := Ideal) c)
    (hprev : k.val ≠ 0 → ∀ (t : Fin 8) (a : Fin 1024), prev.2 (ix2 t a) = accAfter (XM m c) k.val t a)
    (t : Fin 8) (a : Fin 1024) :
    (step (F := Ideal) adm (Ventry m) pointFacts c k prev).2 (ix2 t a) = accAfter (XM m c) (k.val + 1) t a := by
  by_cases q1 : P1 (F := Ideal) adm k
  · have h0 : k.val = 0 := P1_zero k q1
    have hd : pk k = qk k := not_not.mp fun hne => ((pointFacts (F := Ideal) k).first_excl q1).1 ((P2_iff k).mpr hne)
    rw [stepA_acc m c hfin k prev q1 t a, accAfter_succ_k_diag m c k hd t a, h0]
    rfl
  · have hk0 : k.val ≠ 0 := fun h => q1 ((pointFacts (F := Ideal) k).first0 h)
    have hA := hprev hk0
    by_cases q3 : P3 (F := Ideal) adm k
    · have hd : pk k = qk k := not_not.mp fun hne => ((pointFacts (F := Ideal) k).last_excl q3) ((P2_iff k).mpr hne)
      rw [stepD_acc m c hfin k prev _ hA q1 q3 t a, accAfter_succ_k_diag m c k hd t a]
    · by_cases q2 : P2 (F := Ideal) adm k
      · have hd : pk k ≠ qk k := (P2_iff k).mp q2
        rw [stepB_acc m c hfin k prev _ hA q1 q3 q2 t a, accAfter_succ_k_offdiag m c k hd t a]
      · have hd : pk k = qk k := not_not.mp fun hne => q2 ((P2_iff k).mpr hne)
        rw [stepC_acc m c hfin k prev _ hA q1 q3 q2 t a, accAfter_succ_k_diag m c k hd t a]

/-! ## The trajectory -/

/-- The accumulator after point k, for every point, by induction along the grid. -/
theorem acc_traj_fin (hfin : ∀ r d, ∃ x : ℝ, XM m c r d = (x : EReal)) :
    ∀ (n : ℕ) (k : Fin (cfgA (F := Ideal) adm).N), k.val = n → ∀ (t : Fin 8) (a : Fin 1024),
      (traj (F := Ideal) adm (Ventry m) pointFacts c k.val k.isLt).2 (ix2 t a) = accAfter (XM m c) (k.val + 1) t a := by
  intro n
  induction n using Nat.strong_induction_on with
  | _ n ih =>
    intro k hk t a
    rw [traj_eq]
    refine step_acc m c hfin k _ (fun hk0 t' a' => ?_) t a
    unfold prev
    rw [dif_neg hk0]
    have h1 := ih (k.val - 1) (by omega) ⟨k.val - 1, by have := k.isLt; omega⟩ rfl t' a'
    have e1 : k.val - 1 + 1 = k.val := by omega
    rw [show ((⟨k.val - 1, by have := k.isLt; omega⟩ : Fin (cfgA (F := Ideal) adm).N).val + 1) = k.val from e1] at h1
    exact h1

/-- (T1) THE ACCUMULATOR after point n is the accumulation of the first n + 1 pairs. -/
theorem acc_traj (hfin : ∀ r d, ∃ x : ℝ, XM m c r d = (x : EReal)) (n : ℕ) (h : n < (cfgA (F := Ideal) adm).N)
    (t : Fin 8) (a : Fin 1024) :
    (traj (F := Ideal) adm (Ventry m) pointFacts c n h).2 (ix2 t a) = accAfter (XM m c) (n + 1) t a :=
  acc_traj_fin m c hfin n ⟨n, h⟩ rfl t a

/-- The last point is not the first and is the last: decided over the 36 points. -/
theorem dec_last : ∀ t : Fin grid0.N, t.val = 35 → ¬ isFirst (grid0.coords t) ∧ k0_cond3 (grid0.coords t) = 1#1 := by
  decide +kernel

/-- (T2) THE OUTPUT BLOCK after the last point: the logarithm of every row's denominator. -/
theorem out_final (hfin : ∀ r d, ∃ x : ℝ, XM m c r d = (x : EReal)) (h35 : 35 < (cfgA (F := Ideal) adm).N)
    (t : Fin 8) (a : Fin 1024) :
    (traj (F := Ideal) adm (Ventry m) pointFacts c 35 h35).1 (ix2 t a)
      = Ideal.log (Cert.Spec.den (XM m c) (row t a)) := by
  obtain ⟨q1, q3⟩ := dec_last ⟨35, h35⟩ rfl
  have hd : pk (⟨35, h35⟩ : Fin (cfgA (F := Ideal) adm).N) = qk (⟨35, h35⟩ : Fin (cfgA (F := Ideal) adm).N) :=
    not_not.mp fun hne => ((pointFacts (F := Ideal) ⟨35, h35⟩).last_excl q3) ((P2_iff ⟨35, h35⟩).mpr hne)
  have hA : ∀ (t : Fin 8) (a : Fin 1024),
      (traj (F := Ideal) adm (Ventry m) pointFacts c 34 (Nat.lt_of_succ_lt h35)).2 (ix2 t a) = accAfter (XM m c) 35 t a :=
    fun t a => acc_traj m c hfin 34 (Nat.lt_of_succ_lt h35) t a
  have e : traj (F := Ideal) adm (Ventry m) pointFacts c 35 h35
      = step (F := Ideal) adm (Ventry m) pointFacts c ⟨35, h35⟩
          (traj (F := Ideal) adm (Ventry m) pointFacts c 34 (Nat.lt_of_succ_lt h35)) := rfl
  rw [e, stepD_out m c hfin ⟨35, h35⟩ _ _ hA q1 q3 t a, ← accAfter_succ_k_diag m c ⟨35, h35⟩ hd t a]
  exact congrArg Ideal.log (Cert.Proof.KMath.accAfter_final (XM m c) t a)

/-- (T3) THE OUTPUT ARRAY after the run: the logarithm of every row's denominator. -/
theorem arrAt2_final (hfin : ∀ r d, ∃ x : ℝ, XM m c r d = (x : EReal)) (t : Fin 8) (a : Fin 1024) :
    ((datsM (F := Ideal) m 0 c).arrAt (2 : Fin 3) (Pipeline.pin (pcfgs (F := Ideal)) (fun _ => adm) 0).N : S8x1024.Idx → Elt Ideal .f32) (ix2 t a)
      = Ideal.log (Cert.Spec.den (XM m c) (row t a)) := by
  have h35 : 35 < (cfgA (F := Ideal) adm).N := by rw [N36 (F := Ideal)]; decide
  have e := arrAt2_eq (F := Ideal) (Ventry m) qShared pointFacts c h35
  exact (congrFun e (ix2 t a)).trans (out_final m c hfin h35 t a)

end Cert.KernelIdeal.Hand

end
-- ==== Proof.FinPre.lean ====
/-
  From the precondition to finiteness.  The precondition says that every entry of both arguments
  has absolute value below the pattern 0x7F800000, which is +∞; an extended real whose absolute
  value is below +∞ is neither infinity, so it is a real number.
-/
import proofs.«104923_j4312147165445_2_alg».proof.Proof.Gen.KernelIdeal
import proofs.«104923_j4312147165445_2_alg».proof.Proof.Gen.Pre_finite_inputs
import Idealize.ShloMosaic.Lib.ReduceAll
import Idealize.ShloMosaic.Lib.ValueIdx
import Idealize.ShloMosaic.PureOps.Ideal.Laws

noncomputable section

namespace Cert.Proof.KHost

open Idealize.ShloMosaic

/-- The scalar shape has one index. -/
instance subsingleton_scalarIdx : Subsingleton (⟨0, ![]⟩ : Shape).Idx :=
  ⟨fun _ _ => funext fun d => d.elim0⟩

/-- The single-precision pattern 0x7F800000 is +∞. -/
theorem ofBits_inf_f32 : Ideal.ofBits .f32 0x7F800000#32 = ⊤ := by
  simp [Ideal.ofBits, Ideal.ieee]

/-- An extended real whose absolute value compares below +∞ is a real number. -/
theorem real_of_abs_lt_inf (x : EReal)
    (h : Ideal.cmp .olt (max x (-x)) (Ideal.ofBits .f32 0x7F800000#32) = 1#1) : ∃ a : ℝ, x = (a : EReal) := by
  rw [ofBits_inf_f32] at h
  induction x using EReal.rec with
  | bot => simp [Ideal.cmp] at h
  | top => simp [Ideal.cmp] at h
  | coe a => exact ⟨a, rfl⟩

/-- Under the precondition every entry of both arguments is a real number. -/
theorem finite_of_pre (x0 x1 : (⟨Cert.KernelIdeal.S4096x256, .f32⟩ : BufTy).Contents (Elt Ideal))
    (h : Cert.Pre_finite_inputs.fn (F := Ideal) x0 x1 = fun _ => 1#1) :
    (∀ i, ∃ a : ℝ, x0 i = (a : EReal)) ∧ (∀ i, ∃ a : ℝ, x1 i = (a : EReal)) := by
  have h0 := congrFun h ValueIdx.ix0
  dsimp only [Cert.Pre_finite_inputs.fn] at h0
  obtain ⟨ha, hb⟩ := IntOp.andi_eq_one.1 h0
  refine ⟨fun i => ?_, fun i => ?_⟩
  · exact real_of_abs_lt_inf (x0 i) (Host.reduce_andi_all _ _ _ _ _ ha i)
  · exact real_of_abs_lt_inf (x1 i) (Host.reduce_andi_all _ _ _ _ _ hb i)

end Cert.Proof.KHost

end
-- ==== Proof.KernelValue.lean ====
/-
  The idealized kernel program's result.  Under the precondition the two arguments hold real
  numbers; the stacked array's unit rows are then real, each tile's three products collapse to the one
  inner-product tile, the 36 grid points accumulate every row's denominator, the last point takes its
  logarithm, and the host operations after the pallas_call turn the partner similarities and the log
  denominators into the mean loss of the specification.
-/
import proofs.«104923_j4312147165445_2_alg».proof.Defs
import proofs.«104923_j4312147165445_2_alg».proof.Proof.Gen.Pre_finite_inputs
import proofs.«104923_j4312147165445_2_alg».proof.Proof.KernelPost
import proofs.«104923_j4312147165445_2_alg».proof.Proof.LaunchPostIdeal
import proofs.«104923_j4312147165445_2_alg».proof.Proof.EntryValues
import proofs.«104923_j4312147165445_2_alg».proof.Proof.TrajAcc
import proofs.«104923_j4312147165445_2_alg».proof.Proof.FinPre
import proofs.«104923_j4312147165445_2_alg».proof.Proof.HostTail

set_option maxRecDepth 16384

noncomputable section

namespace Cert.KernelIdeal.Hand

open Cert.KernelIdeal Cert.KernelIdeal.Gen
open Idealize.ShloMosaic Idealize.ShloMosaic.TcCoe
open Idealize.SL Idealize.SL.Sem
open Idealize.ShloMosaic.ValueIdx (ix1 ix2)

variable (m : (ℓ : Loc nD τ sig) → Buf (Elt Ideal) ℓ) (ρ : Dev nD → PrngReg)

/-- With both arguments real, the stacked array is real. -/
theorem XM_real (c : Dev nD) (h0 : ∀ i, ∃ a : ℝ, argI m c i = (a : EReal)) (h1 : ∀ i, ∃ a : ℝ, argJ m c i = (a : EReal)) :
    ∀ r d, ∃ x : ℝ, XM m c r d = (x : EReal) := by
  intro r d
  unfold XM Cert.Spec.Z
  split
  · exact h0 _
  · exact h1 _

set_option backward.isDefEq.respectTransparency.types false in
/-- Every weakly fair execution of the idealized kernel program ends with the result buffer at the specification's
    mean loss of the two arguments, and the arguments unchanged. -/
theorem value_main (hpre : ∀ c : Dev nD,
      Cert.Pre_finite_inputs.fn (F := Ideal) (m ((c.tc : Thread nD τ).loc main_arg0)) (m ((c.tc : Thread nD τ).loc main_arg1)) = fun _ => 1#1) :
    θ_run defs (onTc (τ := τ) (main (F := Ideal))) ⟨m, fun _ => 0, ρ⟩ (fun r => ∀ c : Dev nD,
      r.2.mem ((c.tc : Thread nD τ).loc main_v21) = (fun _ => Cert.Spec.G (argI m c) (argJ m c))
      ∧ r.2.mem ((c.tc : Thread nD τ).loc main_arg0) = m ((c.tc : Thread nD τ).loc main_arg0)
      ∧ r.2.mem ((c.tc : Thread nD τ).loc main_arg1) = m ((c.tc : Thread nD τ).loc main_arg1)) := by
  refine (θ_run defs _ _).mono (fun _ h c => ⟨(h c).1.trans ?_, (h c).2⟩) (post_main (F := Ideal) m ρ)
  obtain ⟨h0, h1⟩ := Cert.Proof.KHost.finite_of_pre _ _ (hpre c)
  have hfin := XM_real m c h0 h1
  rw [result_v21_ideal]
  funext i
  rw [ValueIdx.eq_ix0 i]
  exact Cert.Proof.KHost.tailVal_eq_G _ _ (argI m c) (argJ m c) (V0_v12_apply m c) (fun t a => arrAt2_final m c hfin t a)

end Cert.KernelIdeal.Hand

end
-- ==== Proof.RefFold.lean ====
/-
  The reference program's 84 host operations folded over any buffer contents, read at the result
  buffer and at the two argument buffers.  The list is cut into seven consecutive pieces; for each
  piece and any contents the fold is read at the buffers a later piece reads — as the stage functions of
  the contents at the buffers the piece itself reads — and, at the buffers that must survive the piece,
  unchanged.  Chaining the pieces: the result buffer ends at the last stage of the two arguments, and no
  operation writes an argument.
-/
import proofs.«104923_j4312147165445_2_alg».proof.Proof.ReadP

noncomputable section

namespace Cert.Proof.RefFold

open Cert.ReferenceIdeal Cert.ReferenceIdeal.Gen Idealize.ShloMosaic Idealize.ShloMosaic.TcCoe Idealize.SL.Sem Idealize.ShloMosaic.StableHlo
open Cert.ReferenceIdeal.Read

variable {F : FTy → Type} [FloatOps F]

/-- The fold of two lists laid end to end is the fold of the second over the fold of the first. -/
theorem after_append {τ : Topo} {sig : RefSig} {Val : EltTy → Type} (a b : List (HloOp τ sig Val)) (V : Valuation τ sig Val) :
    after (a ++ b) V = after b (after a V) := by
  induction a generalizing V with
  | nil => rfl
  | cons op a ih =>
    show after (a ++ b) (op.result V) = after b (after a (op.result V))
    exact ih _

/-- Reads a short literal list's fold at a literal buffer: each operation's result at its own buffer is its function
    of the earlier contents, at any other buffer what was there. -/
macro "fold_piece" : tactic => `(tactic| (
  after_results_simp <;>
  (repeat (first
    | rw [nullary_result] | rw [unary_result] | rw [binary_result] | rw [ternary_result]
    | (rw [nullary_result_ne]; rotate_left; decide)
    | (rw [unary_result_ne]; rotate_left; decide)
    | (rw [binary_result_ne]; rotate_left; decide)
    | (rw [ternary_result_ne]; rotate_left; decide))) <;>
  (try simp only [TRef.ofBuf, TRef.toBuf, cast_cast, cast_eq])))

/-- Operations 0 to 12 of the list. -/
abbrev q1 : List (HloOp τ sig (Elt F)) :=
  [ binary main_arg0 main_arg1 main_v0 ((fun a b => concatenate S8192x256 0 [⟨S4096x256, a⟩, ⟨S4096x256, b⟩] concatenates_S4096x256_S4096x256_S8192x256_d0) : (⟨S4096x256, .f32⟩ : BufTy).Contents (Elt F) → (⟨S4096x256, .f32⟩ : BufTy).Contents (Elt F) → (⟨S8192x256, .f32⟩ : BufTy).Contents (Elt F)),
    TRef.binary (TRef.of (T := ⟨S8192x256, .f32⟩) main_v0) (TRef.of (T := ⟨S8192x256, .f32⟩) main_v0) (TRef.of (T := ⟨S8192x256, .f32⟩) main_call0_v0) mulf,
    TRef.nullary (TRef.of (T := ⟨S_, .f32⟩) main_call0_cst) (constant S_ .f32 0x00000000#32),
    TRef.binary (TRef.of (T := ⟨S8192x256, .f32⟩) main_call0_v0) (TRef.of (T := ⟨S_, .f32⟩) main_call0_cst) (TRef.of (T := ⟨S8192, .f32⟩) main_call0_v1) (fun x v => Host.reduceAdd x v reducesTo_S8192x256_S8192_d1 h_S_),
    TRef.unary (TRef.of (T := ⟨S8192, .f32⟩) main_call0_v1) (TRef.of (T := ⟨S8192x1, .f32⟩) main_call0_v2) (broadcastInDim S8192x1 ![0] bcast_S8192_S8192x1_0),
    TRef.unary (TRef.of (T := ⟨S8192x1, .f32⟩) main_call0_v2) (TRef.of (T := ⟨S8192x1, .f32⟩) main_v1) Host.sqrt,
    nullary main_cst (constant S_ .f32 0x322BCC77#32),
    unary main_cst main_v2 (broadcastInDim S8192x1 ![] bcast_S_S8192x1 : (⟨S_, .f32⟩ : BufTy).Contents (Elt F) → (⟨S8192x1, .f32⟩ : BufTy).Contents (Elt F)),
    binary main_v1 main_v2 main_v3 (maximumf : (⟨S8192x1, .f32⟩ : BufTy).Contents (Elt F) → (⟨S8192x1, .f32⟩ : BufTy).Contents (Elt F) → (⟨S8192x1, .f32⟩ : BufTy).Contents (Elt F)),
    unary main_v3 main_v4 (broadcastInDim S8192x256 ![0, 1] bcast_S8192x1_S8192x256_0_1 : (⟨S8192x1, .f32⟩ : BufTy).Contents (Elt F) → (⟨S8192x256, .f32⟩ : BufTy).Contents (Elt F)),
    binary main_v0 main_v4 main_v5 (Host.divf : (⟨S8192x256, .f32⟩ : BufTy).Contents (Elt F) → (⟨S8192x256, .f32⟩ : BufTy).Contents (Elt F) → (⟨S8192x256, .f32⟩ : BufTy).Contents (Elt F)),
    unary main_v5 main_v6 ((transpose S256x8192 [1, 0] · transposes_S8192x256_S256x8192_1_0) : (⟨S8192x256, .f32⟩ : BufTy).Contents (Elt F) → (⟨S256x8192, .f32⟩ : BufTy).Contents (Elt F)),
    binary main_v5 main_v6 main_v7 ((fun l r => Host.dotGeneral dot_S8192x256_S256x8192_S8192x8192_1_0_0_1_n_n none l r) : (⟨S8192x256, .f32⟩ : BufTy).Contents (Elt F) → (⟨S256x8192, .f32⟩ : BufTy).Contents (Elt F) → (⟨S8192x8192, .f32⟩ : BufTy).Contents (Elt F)) ]

/-- Operations 13 to 23 of the list. -/
abbrev q2 : List (HloOp τ sig (Elt F)) :=
  [ nullary main_v8 (iotaInDim S4096 32 0),
    nullary main_c (constantI S_ 32 4096#32),
    unary main_c main_v9 (broadcastInDim S4096 ![] bcast_S_S4096 : (⟨S_, .i32⟩ : BufTy).Contents (Elt F) → (⟨S4096, .i32⟩ : BufTy).Contents (Elt F)),
    binary main_v8 main_v9 main_v10 (addi : (⟨S4096, .i32⟩ : BufTy).Contents (Elt F) → (⟨S4096, .i32⟩ : BufTy).Contents (Elt F) → (⟨S4096, .i32⟩ : BufTy).Contents (Elt F)),
    nullary main_c_0 (constantI S_ 32 0#32),
    unary main_c_0 main_v11 (broadcastInDim S4096 ![] bcast_S_S4096 : (⟨S_, .i32⟩ : BufTy).Contents (Elt F) → (⟨S4096, .i32⟩ : BufTy).Contents (Elt F)),
    binary main_v8 main_v11 main_v12 (cmpi .slt : (⟨S4096, .i32⟩ : BufTy).Contents (Elt F) → (⟨S4096, .i32⟩ : BufTy).Contents (Elt F) → (⟨S4096, .i1⟩ : BufTy).Contents (Elt F)),
    nullary main_c_1 (constantI S_ 32 8192#32),
    unary main_c_1 main_v13 (broadcastInDim S4096 ![] bcast_S_S4096 : (⟨S_, .i32⟩ : BufTy).Contents (Elt F) → (⟨S4096, .i32⟩ : BufTy).Contents (Elt F)),
    binary main_v8 main_v13 main_v14 (addi : (⟨S4096, .i32⟩ : BufTy).Contents (Elt F) → (⟨S4096, .i32⟩ : BufTy).Contents (Elt F) → (⟨S4096, .i32⟩ : BufTy).Contents (Elt F)),
    ternary main_v12 main_v14 main_v8 main_v15 (select : (⟨S4096, .i1⟩ : BufTy).Contents (Elt F) → (⟨S4096, .i32⟩ : BufTy).Contents (Elt F) → (⟨S4096, .i32⟩ : BufTy).Contents (Elt F) → (⟨S4096, .i32⟩ : BufTy).Contents (Elt F)) ]

/-- Operations 24 to 34 of the list. -/
abbrev q3 : List (HloOp τ sig (Elt F)) :=
  [ nullary main_c_2 (constantI S_ 32 0#32),
    unary main_c_2 main_v16 (broadcastInDim S4096 ![] bcast_S_S4096 : (⟨S_, .i32⟩ : BufTy).Contents (Elt F) → (⟨S4096, .i32⟩ : BufTy).Contents (Elt F)),
    binary main_v10 main_v16 main_v17 (cmpi .slt : (⟨S4096, .i32⟩ : BufTy).Contents (Elt F) → (⟨S4096, .i32⟩ : BufTy).Contents (Elt F) → (⟨S4096, .i1⟩ : BufTy).Contents (Elt F)),
    nullary main_c_3 (constantI S_ 32 8192#32),
    unary main_c_3 main_v18 (broadcastInDim S4096 ![] bcast_S_S4096 : (⟨S_, .i32⟩ : BufTy).Contents (Elt F) → (⟨S4096, .i32⟩ : BufTy).Contents (Elt F)),
    binary main_v10 main_v18 main_v19 (addi : (⟨S4096, .i32⟩ : BufTy).Contents (Elt F) → (⟨S4096, .i32⟩ : BufTy).Contents (Elt F) → (⟨S4096, .i32⟩ : BufTy).Contents (Elt F)),
    ternary main_v17 main_v19 main_v10 main_v20 (select : (⟨S4096, .i1⟩ : BufTy).Contents (Elt F) → (⟨S4096, .i32⟩ : BufTy).Contents (Elt F) → (⟨S4096, .i32⟩ : BufTy).Contents (Elt F) → (⟨S4096, .i32⟩ : BufTy).Contents (Elt F)),
    unary main_v15 main_v21 (broadcastInDim S4096x1 ![0] bcast_S4096_S4096x1_0 : (⟨S4096, .i32⟩ : BufTy).Contents (Elt F) → (⟨S4096x1, .i32⟩ : BufTy).Contents (Elt F)),
    unary main_v20 main_v22 (broadcastInDim S4096x1 ![0] bcast_S4096_S4096x1_0 : (⟨S4096, .i32⟩ : BufTy).Contents (Elt F) → (⟨S4096x1, .i32⟩ : BufTy).Contents (Elt F)),
    binary main_v21 main_v22 main_v23 ((fun a b => concatenate S4096x2 1 [⟨S4096x1, a⟩, ⟨S4096x1, b⟩] concatenates_S4096x1_S4096x1_S4096x2_d1) : (⟨S4096x1, .i32⟩ : BufTy).Contents (Elt F) → (⟨S4096x1, .i32⟩ : BufTy).Contents (Elt F) → (⟨S4096x2, .i32⟩ : BufTy).Contents (Elt F)),
    binary main_v7 main_v23 main_v24 ((fun x i => Host.gather gather_S8192x8192_S4096x2_S4096_n_01_n_n_01_1_11 x i) : (⟨S8192x8192, .f32⟩ : BufTy).Contents (Elt F) → (⟨S4096x2, .i32⟩ : BufTy).Contents (Elt F) → (⟨S4096, .f32⟩ : BufTy).Contents (Elt F)) ]

/-- Operations 35 to 44 of the list. -/
abbrev q4 : List (HloOp τ sig (Elt F)) :=
  [ nullary main_c_4 (constantI S_ 32 4096#32),
    unary main_c_4 main_v25 (broadcastInDim S4096 ![] bcast_S_S4096 : (⟨S_, .i32⟩ : BufTy).Contents (Elt F) → (⟨S4096, .i32⟩ : BufTy).Contents (Elt F)),
    binary main_v8 main_v25 main_v26 (addi : (⟨S4096, .i32⟩ : BufTy).Contents (Elt F) → (⟨S4096, .i32⟩ : BufTy).Contents (Elt F) → (⟨S4096, .i32⟩ : BufTy).Contents (Elt F)),
    nullary main_c_5 (constantI S_ 32 0#32),
    unary main_c_5 main_v27 (broadcastInDim S4096 ![] bcast_S_S4096 : (⟨S_, .i32⟩ : BufTy).Contents (Elt F) → (⟨S4096, .i32⟩ : BufTy).Contents (Elt F)),
    binary main_v26 main_v27 main_v28 (cmpi .slt : (⟨S4096, .i32⟩ : BufTy).Contents (Elt F) → (⟨S4096, .i32⟩ : BufTy).Contents (Elt F) → (⟨S4096, .i1⟩ : BufTy).Contents (Elt F)),
    nullary main_c_6 (constantI S_ 32 8192#32),
    unary main_c_6 main_v29 (broadcastInDim S4096 ![] bcast_S_S4096 : (⟨S_, .i32⟩ : BufTy).Contents (Elt F) → (⟨S4096, .i32⟩ : BufTy).Contents (Elt F)),
    binary main_v26 main_v29 main_v30 (addi : (⟨S4096, .i32⟩ : BufTy).Contents (Elt F) → (⟨S4096, .i32⟩ : BufTy).Contents (Elt F) → (⟨S4096, .i32⟩ : BufTy).Contents (Elt F)),
    ternary main_v28 main_v30 main_v26 main_v31 (select : (⟨S4096, .i1⟩ : BufTy).Contents (Elt F) → (⟨S4096, .i32⟩ : BufTy).Contents (Elt F) → (⟨S4096, .i32⟩ : BufTy).Contents (Elt F) → (⟨S4096, .i32⟩ : BufTy).Contents (Elt F)) ]

/-- Operations 45 to 56 of the list. -/
abbrev q5 : List (HloOp τ sig (Elt F)) :=
  [ nullary main_c_7 (constantI S_ 32 0#32),
    unary main_c_7 main_v32 (broadcastInDim S4096 ![] bcast_S_S4096 : (⟨S_, .i32⟩ : BufTy).Contents (Elt F) → (⟨S4096, .i32⟩ : BufTy).Contents (Elt F)),
    binary main_v8 main_v32 main_v33 (cmpi .slt : (⟨S4096, .i32⟩ : BufTy).Contents (Elt F) → (⟨S4096, .i32⟩ : BufTy).Contents (Elt F) → (⟨S4096, .i1⟩ : BufTy).Contents (Elt F)),
    nullary main_c_8 (constantI S_ 32 8192#32),
    unary main_c_8 main_v34 (broadcastInDim S4096 ![] bcast_S_S4096 : (⟨S_, .i32⟩ : BufTy).Contents (Elt F) → (⟨S4096, .i32⟩ : BufTy).Contents (Elt F)),
    binary main_v8 main_v34 main_v35 (addi : (⟨S4096, .i32⟩ : BufTy).Contents (Elt F) → (⟨S4096, .i32⟩ : BufTy).Contents (Elt F) → (⟨S4096, .i32⟩ : BufTy).Contents (Elt F)),
    ternary main_v33 main_v35 main_v8 main_v36 (select : (⟨S4096, .i1⟩ : BufTy).Contents (Elt F) → (⟨S4096, .i32⟩ : BufTy).Contents (Elt F) → (⟨S4096, .i32⟩ : BufTy).Contents (Elt F) → (⟨S4096, .i32⟩ : BufTy).Contents (Elt F)),
    unary main_v31 main_v37 (broadcastInDim S4096x1 ![0] bcast_S4096_S4096x1_0 : (⟨S4096, .i32⟩ : BufTy).Contents (Elt F) → (⟨S4096x1, .i32⟩ : BufTy).Contents (Elt F)),
    unary main_v36 main_v38 (broadcastInDim S4096x1 ![0] bcast_S4096_S4096x1_0 : (⟨S4096, .i32⟩ : BufTy).Contents (Elt F) → (⟨S4096x1, .i32⟩ : BufTy).Contents (Elt F)),
    binary main_v37 main_v38 main_v39 ((fun a b => concatenate S4096x2 1 [⟨S4096x1, a⟩, ⟨S4096x1, b⟩] concatenates_S4096x1_S4096x1_S4096x2_d1) : (⟨S4096x1, .i32⟩ : BufTy).Contents (Elt F) → (⟨S4096x1, .i32⟩ : BufTy).Contents (Elt F) → (⟨S4096x2, .i32⟩ : BufTy).Contents (Elt F)),
    binary main_v7 main_v39 main_v40 ((fun x i => Host.gather gather_S8192x8192_S4096x2_S4096_n_01_n_n_01_1_11 x i) : (⟨S8192x8192, .f32⟩ : BufTy).Contents (Elt F) → (⟨S4096x2, .i32⟩ : BufTy).Contents (Elt F) → (⟨S4096, .f32⟩ : BufTy).Contents (Elt F)),
    binary main_v24 main_v40 main_v41 ((fun a b => concatenate S8192 0 [⟨S4096, a⟩, ⟨S4096, b⟩] concatenates_S4096_S4096_S8192_d0) : (⟨S4096, .f32⟩ : BufTy).Contents (Elt F) → (⟨S4096, .f32⟩ : BufTy).Contents (Elt F) → (⟨S8192, .f32⟩ : BufTy).Contents (Elt F)) ]

/-- Operations 57 to 71 of the list. -/
abbrev q6 : List (HloOp τ sig (Elt F)) :=
  [ nullary main_cst_9 (constant S_ .f32 0x3F000000#32),
    unary main_cst_9 main_v42 (broadcastInDim S8192x8192 ![] bcast_S_S8192x8192 : (⟨S_, .f32⟩ : BufTy).Contents (Elt F) → (⟨S8192x8192, .f32⟩ : BufTy).Contents (Elt F)),
    binary main_v7 main_v42 main_v43 (Host.divf : (⟨S8192x8192, .f32⟩ : BufTy).Contents (Elt F) → (⟨S8192x8192, .f32⟩ : BufTy).Contents (Elt F) → (⟨S8192x8192, .f32⟩ : BufTy).Contents (Elt F)),
    unary main_v43 main_v44 (Host.exp : (⟨S8192x8192, .f32⟩ : BufTy).Contents (Elt F) → (⟨S8192x8192, .f32⟩ : BufTy).Contents (Elt F)),
    nullary main_v45 (iotaInDim S8192x8192 32 0),
    nullary main_v46 (iotaInDim S8192x8192 32 1),
    nullary main_c_10 (constantI S_ 32 0#32),
    unary main_c_10 main_v47 (broadcastInDim S8192x8192 ![] bcast_S_S8192x8192 : (⟨S_, .i32⟩ : BufTy).Contents (Elt F) → (⟨S8192x8192, .i32⟩ : BufTy).Contents (Elt F)),
    binary main_v45 main_v47 main_v48 (addi : (⟨S8192x8192, .i32⟩ : BufTy).Contents (Elt F) → (⟨S8192x8192, .i32⟩ : BufTy).Contents (Elt F) → (⟨S8192x8192, .i32⟩ : BufTy).Contents (Elt F)),
    binary main_v48 main_v46 main_v49 (cmpi .eq : (⟨S8192x8192, .i32⟩ : BufTy).Contents (Elt F) → (⟨S8192x8192, .i32⟩ : BufTy).Contents (Elt F) → (⟨S8192x8192, .i1⟩ : BufTy).Contents (Elt F)),
    unary main_v49 main_v50 (uitofp .f32 : (⟨S8192x8192, .i1⟩ : BufTy).Contents (Elt F) → (⟨S8192x8192, .f32⟩ : BufTy).Contents (Elt F)),
    nullary main_cst_11 (constant S_ .f32 0x3F800000#32),
    unary main_cst_11 main_v51 (broadcastInDim S8192x8192 ![] bcast_S_S8192x8192 : (⟨S_, .f32⟩ : BufTy).Contents (Elt F) → (⟨S8192x8192, .f32⟩ : BufTy).Contents (Elt F)),
    binary main_v51 main_v50 main_v52 (subf : (⟨S8192x8192, .f32⟩ : BufTy).Contents (Elt F) → (⟨S8192x8192, .f32⟩ : BufTy).Contents (Elt F) → (⟨S8192x8192, .f32⟩ : BufTy).Contents (Elt F)),
    binary main_v52 main_v44 main_v53 (mulf : (⟨S8192x8192, .f32⟩ : BufTy).Contents (Elt F) → (⟨S8192x8192, .f32⟩ : BufTy).Contents (Elt F) → (⟨S8192x8192, .f32⟩ : BufTy).Contents (Elt F)) ]

/-- Operations 72 to 83 of the list. -/
abbrev q7 : List (HloOp τ sig (Elt F)) :=
  [ nullary main_cst_12 (constant S_ .f32 0x00000000#32),
    binary main_v53 main_cst_12 main_v54 ((fun x v => Host.reduceAdd x v reducesTo_S8192x8192_S8192_d1 h_S_) : (⟨S8192x8192, .f32⟩ : BufTy).Contents (Elt F) → (⟨S_, .f32⟩ : BufTy).Contents (Elt F) → (⟨S8192, .f32⟩ : BufTy).Contents (Elt F)),
    nullary main_cst_13 (constant S_ .f32 0x3F000000#32),
    unary main_cst_13 main_v55 (broadcastInDim S8192 ![] bcast_S_S8192 : (⟨S_, .f32⟩ : BufTy).Contents (Elt F) → (⟨S8192, .f32⟩ : BufTy).Contents (Elt F)),
    binary main_v41 main_v55 main_v56 (Host.divf : (⟨S8192, .f32⟩ : BufTy).Contents (Elt F) → (⟨S8192, .f32⟩ : BufTy).Contents (Elt F) → (⟨S8192, .f32⟩ : BufTy).Contents (Elt F)),
    unary main_v54 main_v57 (Host.log : (⟨S8192, .f32⟩ : BufTy).Contents (Elt F) → (⟨S8192, .f32⟩ : BufTy).Contents (Elt F)),
    binary main_v56 main_v57 main_v58 (subf : (⟨S8192, .f32⟩ : BufTy).Contents (Elt F) → (⟨S8192, .f32⟩ : BufTy).Contents (Elt F) → (⟨S8192, .f32⟩ : BufTy).Contents (Elt F)),
    unary main_v58 main_v59 (Host.negf : (⟨S8192, .f32⟩ : BufTy).Contents (Elt F) → (⟨S8192, .f32⟩ : BufTy).Contents (Elt F)),
    nullary main_cst_14 (constant S_ .f32 0x00000000#32),
    binary main_v59 main_cst_14 main_v60 ((fun x v => Host.reduceAdd x v reducesTo_S8192_S_d0 h_S_) : (⟨S8192, .f32⟩ : BufTy).Contents (Elt F) → (⟨S_, .f32⟩ : BufTy).Contents (Elt F) → (⟨S_, .f32⟩ : BufTy).Contents (Elt F)),
    nullary main_cst_15 (constant S_ .f32 0x46000000#32),
    binary main_v60 main_cst_15 main_v61 (Host.divf : (⟨S_, .f32⟩ : BufTy).Contents (Elt F) → (⟨S_, .f32⟩ : BufTy).Contents (Elt F) → (⟨S_, .f32⟩ : BufTy).Contents (Elt F)) ]

theorem ops_cut : (Cert.ReferenceIdeal.ValueP.ops (F := F)) = q1 ++ (q2 ++ (q3 ++ (q4 ++ (q5 ++ (q6 ++ q7))))) := rfl

/-! ## Piece 1: up to the similarity matrix -/
theorem q1_v7 (W : Valuation τ sig (Elt F)) :
    (after (q1 (F := F)) W (Proc.devRef .tc main_v7) : (⟨S8192x8192, .f32⟩ : BufTy).Contents (Elt F))
      = val_main_v7 (F := F) (W (Proc.devRef .tc main_arg0)) (W (Proc.devRef .tc main_arg1)) := by
  fold_piece <;> rfl
theorem q1_keep_arg0 (W : Valuation τ sig (Elt F)) :
    after (q1 (F := F)) W (Proc.devRef .tc main_arg0) = W (Proc.devRef .tc main_arg0) := by
  fold_piece <;> rfl
theorem q1_keep_arg1 (W : Valuation τ sig (Elt F)) :
    after (q1 (F := F)) W (Proc.devRef .tc main_arg1) = W (Proc.devRef .tc main_arg1) := by
  fold_piece <;> rfl

/-! ## Piece 2: the row numbers, and the first gather's starts before the second wrap -/
theorem q2_v8 (W : Valuation τ sig (Elt F)) :
    (after (q2 (F := F)) W (Proc.devRef .tc main_v8) : (⟨S4096, .i32⟩ : BufTy).Contents (Elt F)) = val_main_v8 (F := F) := by
  fold_piece <;> rfl
theorem q2_v10 (W : Valuation τ sig (Elt F)) :
    (after (q2 (F := F)) W (Proc.devRef .tc main_v10) : (⟨S4096, .i32⟩ : BufTy).Contents (Elt F)) = val_main_v10 (F := F) := by
  fold_piece <;> rfl
theorem q2_v15 (W : Valuation τ sig (Elt F)) :
    (after (q2 (F := F)) W (Proc.devRef .tc main_v15) : (⟨S4096, .i32⟩ : BufTy).Contents (Elt F)) = val_main_v15 (F := F) := by
  fold_piece <;> rfl
theorem q2_keep_v7 (W : Valuation τ sig (Elt F)) :
    after (q2 (F := F)) W (Proc.devRef .tc main_v7) = W (Proc.devRef .tc main_v7) := by
  fold_piece <;> rfl
theorem q2_keep_arg0 (W : Valuation τ sig (Elt F)) :
    after (q2 (F := F)) W (Proc.devRef .tc main_arg0) = W (Proc.devRef .tc main_arg0) := by
  fold_piece <;> rfl
theorem q2_keep_arg1 (W : Valuation τ sig (Elt F)) :
    after (q2 (F := F)) W (Proc.devRef .tc main_arg1) = W (Proc.devRef .tc main_arg1) := by
  fold_piece <;> rfl

/-! ## Piece 3: the first gather -/
theorem q3_v24 (x0 x1 : (⟨S4096x256, .f32⟩ : BufTy).Contents (Elt F)) (W : Valuation τ sig (Elt F))
    (h7 : (W (Proc.devRef .tc main_v7) : (⟨S8192x8192, .f32⟩ : BufTy).Contents (Elt F)) = val_main_v7 (F := F) x0 x1)
    (h10 : (W (Proc.devRef .tc main_v10) : (⟨S4096, .i32⟩ : BufTy).Contents (Elt F)) = val_main_v10 (F := F))
    (h15 : (W (Proc.devRef .tc main_v15) : (⟨S4096, .i32⟩ : BufTy).Contents (Elt F)) = val_main_v15 (F := F)) :
    (after (q3 (F := F)) W (Proc.devRef .tc main_v24) : (⟨S4096, .f32⟩ : BufTy).Contents (Elt F)) = val_main_v24 (F := F) x0 x1 := by
  fold_piece <;> (rw [h7, h10, h15]) <;> rfl
theorem q3_keep_v7 (W : Valuation τ sig (Elt F)) :
    after (q3 (F := F)) W (Proc.devRef .tc main_v7) = W (Proc.devRef .tc main_v7) := by
  fold_piece <;> rfl
theorem q3_keep_v8 (W : Valuation τ sig (Elt F)) :
    after (q3 (F := F)) W (Proc.devRef .tc main_v8) = W (Proc.devRef .tc main_v8) := by
  fold_piece <;> rfl
theorem q3_keep_arg0 (W : Valuation τ sig (Elt F)) :
    after (q3 (F := F)) W (Proc.devRef .tc main_arg0) = W (Proc.devRef .tc main_arg0) := by
  fold_piece <;> rfl
theorem q3_keep_arg1 (W : Valuation τ sig (Elt F)) :
    after (q3 (F := F)) W (Proc.devRef .tc main_arg1) = W (Proc.devRef .tc main_arg1) := by
  fold_piece <;> rfl

/-! ## Piece 4: the second gather's row start -/
theorem q4_v31 (W : Valuation τ sig (Elt F))
    (h8 : (W (Proc.devRef .tc main_v8) : (⟨S4096, .i32⟩ : BufTy).Contents (Elt F)) = val_main_v8 (F := F)) :
    (after (q4 (F := F)) W (Proc.devRef .tc main_v31) : (⟨S4096, .i32⟩ : BufTy).Contents (Elt F)) = val_main_v31 (F := F) := by
  fold_piece <;> (rw [h8]) <;> rfl
theorem q4_keep_v7 (W : Valuation τ sig (Elt F)) :
    after (q4 (F := F)) W (Proc.devRef .tc main_v7) = W (Proc.devRef .tc main_v7) := by
  fold_piece <;> rfl
theorem q4_keep_v8 (W : Valuation τ sig (Elt F)) :
    after (q4 (F := F)) W (Proc.devRef .tc main_v8) = W (Proc.devRef .tc main_v8) := by
  fold_piece <;> rfl
theorem q4_keep_v24 (W : Valuation τ sig (Elt F)) :
    after (q4 (F := F)) W (Proc.devRef .tc main_v24) = W (Proc.devRef .tc main_v24) := by
  fold_piece <;> rfl
theorem q4_keep_arg0 (W : Valuation τ sig (Elt F)) :
    after (q4 (F := F)) W (Proc.devRef .tc main_arg0) = W (Proc.devRef .tc main_arg0) := by
  fold_piece <;> rfl
theorem q4_keep_arg1 (W : Valuation τ sig (Elt F)) :
    after (q4 (F := F)) W (Proc.devRef .tc main_arg1) = W (Proc.devRef .tc main_arg1) := by
  fold_piece <;> rfl

/-! ## Piece 5: the second gather and the two halves laid end to end -/
theorem q5_v41 (x0 x1 : (⟨S4096x256, .f32⟩ : BufTy).Contents (Elt F)) (W : Valuation τ sig (Elt F))
    (h7 : (W (Proc.devRef .tc main_v7) : (⟨S8192x8192, .f32⟩ : BufTy).Contents (Elt F)) = val_main_v7 (F := F) x0 x1)
    (h8 : (W (Proc.devRef .tc main_v8) : (⟨S4096, .i32⟩ : BufTy).Contents (Elt F)) = val_main_v8 (F := F))
    (h24 : (W (Proc.devRef .tc main_v24) : (⟨S4096, .f32⟩ : BufTy).Contents (Elt F)) = val_main_v24 (F := F) x0 x1)
    (h31 : (W (Proc.devRef .tc main_v31) : (⟨S4096, .i32⟩ : BufTy).Contents (Elt F)) = val_main_v31 (F := F)) :
    (after (q5 (F := F)) W (Proc.devRef .tc main_v41) : (⟨S8192, .f32⟩ : BufTy).Contents (Elt F)) = val_main_v41 (F := F) x0 x1 := by
  fold_piece <;> (rw [h7, h8, h24, h31]) <;> rfl
theorem q5_keep_v7 (W : Valuation τ sig (Elt F)) :
    after (q5 (F := F)) W (Proc.devRef .tc main_v7) = W (Proc.devRef .tc main_v7) := by
  fold_piece <;> rfl
theorem q5_keep_arg0 (W : Valuation τ sig (Elt F)) :
    after (q5 (F := F)) W (Proc.devRef .tc main_arg0) = W (Proc.devRef .tc main_arg0) := by
  fold_piece <;> rfl
theorem q5_keep_arg1 (W : Valuation τ sig (Elt F)) :
    after (q5 (F := F)) W (Proc.devRef .tc main_arg1) = W (Proc.devRef .tc main_arg1) := by
  fold_piece <;> rfl

/-! ## Piece 6: the masked exponential -/
theorem q6_v53 (x0 x1 : (⟨S4096x256, .f32⟩ : BufTy).Contents (Elt F)) (W : Valuation τ sig (Elt F))
    (h7 : (W (Proc.devRef .tc main_v7) : (⟨S8192x8192, .f32⟩ : BufTy).Contents (Elt F)) = val_main_v7 (F := F) x0 x1) :
    (after (q6 (F := F)) W (Proc.devRef .tc main_v53) : (⟨S8192x8192, .f32⟩ : BufTy).Contents (Elt F)) = val_main_v53 (F := F) x0 x1 := by
  fold_piece <;> (rw [h7]) <;> rfl
theorem q6_keep_v41 (W : Valuation τ sig (Elt F)) :
    after (q6 (F := F)) W (Proc.devRef .tc main_v41) = W (Proc.devRef .tc main_v41) := by
  fold_piece <;> rfl
theorem q6_keep_arg0 (W : Valuation τ sig (Elt F)) :
    after (q6 (F := F)) W (Proc.devRef .tc main_arg0) = W (Proc.devRef .tc main_arg0) := by
  fold_piece <;> rfl
theorem q6_keep_arg1 (W : Valuation τ sig (Elt F)) :
    after (q6 (F := F)) W (Proc.devRef .tc main_arg1) = W (Proc.devRef .tc main_arg1) := by
  fold_piece <;> rfl

/-! ## Piece 7: the denominators, the losses and their mean -/
theorem q7_v61 (x0 x1 : (⟨S4096x256, .f32⟩ : BufTy).Contents (Elt F)) (W : Valuation τ sig (Elt F))
    (h41 : (W (Proc.devRef .tc main_v41) : (⟨S8192, .f32⟩ : BufTy).Contents (Elt F)) = val_main_v41 (F := F) x0 x1)
    (h53 : (W (Proc.devRef .tc main_v53) : (⟨S8192x8192, .f32⟩ : BufTy).Contents (Elt F)) = val_main_v53 (F := F) x0 x1) :
    (after (q7 (F := F)) W (Proc.devRef .tc main_v61) : (⟨S_, .f32⟩ : BufTy).Contents (Elt F)) = val_main_v61 (F := F) x0 x1 := by
  fold_piece <;> (rw [h41, h53]) <;> rfl
theorem q7_keep_arg0 (W : Valuation τ sig (Elt F)) :
    after (q7 (F := F)) W (Proc.devRef .tc main_arg0) = W (Proc.devRef .tc main_arg0) := by
  fold_piece <;> rfl
theorem q7_keep_arg1 (W : Valuation τ sig (Elt F)) :
    after (q7 (F := F)) W (Proc.devRef .tc main_arg1) = W (Proc.devRef .tc main_arg1) := by
  fold_piece <;> rfl

/-! ## The pieces chained -/

/-- The fold of the reference's operations over any contents, read at the result buffer, is the last stage of the
    contents at the two argument buffers. -/
theorem val_main_v61_after (V : Valuation τ sig (Elt F)) :
    (after (Cert.ReferenceIdeal.ValueP.ops (F := F)) V (Proc.devRef .tc main_v61) : (⟨S_, .f32⟩ : BufTy).Contents (Elt F))
      = val_main_v61 (F := F) (V (Proc.devRef .tc main_arg0)) (V (Proc.devRef .tc main_arg1)) := by
  rw [ops_cut, after_append, after_append, after_append, after_append, after_append, after_append]
  have e1 := q1_v7 (F := F) V
  generalize V (Proc.devRef .tc main_arg0) = x0 at e1 ⊢
  generalize V (Proc.devRef .tc main_arg1) = x1 at e1 ⊢
  generalize after q1 V = W1 at e1 ⊢
  have e2_8 := q2_v8 (F := F) W1
  have e2_10 := q2_v10 (F := F) W1
  have e2_15 := q2_v15 (F := F) W1
  have e2_7 := (q2_keep_v7 (F := F) W1).trans e1
  generalize after q2 W1 = W2 at e2_8 e2_10 e2_15 e2_7 ⊢
  have e3_24 := q3_v24 x0 x1 W2 e2_7 e2_10 e2_15
  have e3_7 := (q3_keep_v7 (F := F) W2).trans e2_7
  have e3_8 := (q3_keep_v8 (F := F) W2).trans e2_8
  generalize after q3 W2 = W3 at e3_24 e3_7 e3_8 ⊢
  have e4_31 := q4_v31 W3 e3_8
  have e4_7 := (q4_keep_v7 (F := F) W3).trans e3_7
  have e4_8 := (q4_keep_v8 (F := F) W3).trans e3_8
  have e4_24 := (q4_keep_v24 (F := F) W3).trans e3_24
  generalize after q4 W3 = W4 at e4_31 e4_7 e4_8 e4_24 ⊢
  have e5_41 := q5_v41 x0 x1 W4 e4_7 e4_8 e4_24 e4_31
  have e5_7 := (q5_keep_v7 (F := F) W4).trans e4_7
  generalize after q5 W4 = W5 at e5_41 e5_7 ⊢
  have e6_53 := q6_v53 x0 x1 W5 e5_7
  have e6_41 := (q6_keep_v41 (F := F) W5).trans e5_41
  generalize after q6 W5 = W6 at e6_53 e6_41 ⊢
  exact q7_v61 x0 x1 W6 e6_41 e6_53

/-- An argument buffer is written by no operation. -/
theorem arg0_after (V : Valuation τ sig (Elt F)) :
    after (Cert.ReferenceIdeal.ValueP.ops (F := F)) V (Proc.devRef .tc main_arg0) = V (Proc.devRef .tc main_arg0) := by
  rw [ops_cut, after_append, after_append, after_append, after_append, after_append, after_append,
    q7_keep_arg0, q6_keep_arg0, q5_keep_arg0, q4_keep_arg0, q3_keep_arg0, q2_keep_arg0, q1_keep_arg0]
theorem arg1_after (V : Valuation τ sig (Elt F)) :
    after (Cert.ReferenceIdeal.ValueP.ops (F := F)) V (Proc.devRef .tc main_arg1) = V (Proc.devRef .tc main_arg1) := by
  rw [ops_cut, after_append, after_append, after_append, after_append, after_append, after_append,
    q7_keep_arg1, q6_keep_arg1, q5_keep_arg1, q4_keep_arg1, q3_keep_arg1, q2_keep_arg1, q1_keep_arg1]

end Cert.Proof.RefFold

end
-- ==== Proof.RefFrame.lean ====
/-
  The reference program's frame: it runs to the end, faults nowhere and leaves its two argument
  arrays as it found them.  The reference is a straight line of host operations; every buffer ends at
  the fold of the operations over the launch contents, and no operation writes an argument.
-/
import proofs.«104923_j4312147165445_2_alg».proof.Defs
import proofs.«104923_j4312147165445_2_alg».proof.Proof.Gen.ReferenceIdeal
import proofs.«104923_j4312147165445_2_alg».proof.Proof.Gen.Pre_finite_inputs
import proofs.«104923_j4312147165445_2_alg».proof.Proof.RefFold

noncomputable section

open Idealize.ShloMosaic Idealize.ShloMosaic.TcCoe Idealize.SL.Sem

namespace Cert.Proof.Reference

open Cert.ReferenceIdeal

attribute [local instance] Cert.ReferenceIdeal.Gen.facts Cert.Pre_finite_inputs.Gen.facts

/-- Every weakly fair execution of the reference ends, without a fault, with both arguments unchanged. -/
theorem frame_ri : Cert.frame_ReferenceIdeal := fun m ρ _ =>
  (θ_run Cert.ReferenceIdeal.defs _ _).mono
    (fun _ h c => ⟨(h c main_arg0).trans (Cert.Proof.RefFold.arg0_after (F := Ideal) _),
      (h c main_arg1).trans (Cert.Proof.RefFold.arg1_after (F := Ideal) _)⟩)
    (Cert.ReferenceIdeal.ValueP.run_after (F := Ideal) m ρ)

end Cert.Proof.Reference

end
-- ==== Proof.RefValueIdx.lean ====
/-
  Index, layout and literal lemmas for reading the reference's value element by element.

  * a gather of single matrix elements at a two-column array of start indices, read at a row;
  * a two-piece concatenation along an axis, read at coordinates, for the three shapes met here;
  * the 32-bit index arithmetic of the start indices: a row number below 4096, with 4096 added or not,
    is not negative as a signed word, so the wrap for negative indices never fires, and it reads back
    as the number itself, below the clamp;
  * the binary values of the literals 0, 1, 1/2 and 2, and the two corollaries used with them:
    dividing by 1/2 is multiplying by 2 on every extended real, and the mask 1 - [r = c] times e
    is 0 on the diagonal and e off it.
-/
import Idealize.ShloMosaic.Lib.ValueIdx
import Idealize.ShloMosaic.Lib.Pipeline.Value
import Idealize.ShloMosaic.PureOps.Ideal.Laws

noncomputable section

open scoped BigOperators

namespace Cert.Proof.RefValue

open Idealize.ShloMosaic Idealize.ShloMosaic.ValueIdx

/-! ## A gather of single elements of a matrix -/

section Gather
variable {α : Type}

/-- The dimension numbers of `x[rows, cols]` for a matrix `x : [N, M]` and two index vectors of length
    `R` laid side by side as `[R, 2]`: both operand axes collapsed, slices of one element, the index
    vector along axis 1. -/
abbrev pairDims (N M R : Nat)
    (wf : GatherDims.WF ⟨2, ![N, M]⟩ ⟨2, ![R, 2]⟩ ⟨1, ![R]⟩ [] [0, 1] [] [0, 1] [] 1 ![1, 1]) :
    GatherDims ⟨2, ![N, M]⟩ ⟨2, ![R, 2]⟩ ⟨1, ![R]⟩ where
  offsetDims := []
  collapsedSliceDims := [0, 1]
  operandBatchingDims := []
  startIndicesBatchingDims := []
  startIndexMap := [0, 1]
  indexVectorDim := 1
  sliceSizes := ![1, 1]
  wf := wf

/-- That gather read at row `i`: the matrix at (start row, start column), each read off the start
    indices as a signed word and clamped into the matrix. -/
theorem gather_pair_apply {N M R w : Nat} (hN : 0 < N) (hM : 0 < M)
    (wf : GatherDims.WF ⟨2, ![N, M]⟩ ⟨2, ![R, 2]⟩ ⟨1, ![R]⟩ [] [0, 1] [] [0, 1] [] 1 ![1, 1])
    (x : (⟨2, ![N, M]⟩ : Shape).Idx → α) (idx : IVec ⟨2, ![R, 2]⟩ w) (i : Fin R) :
    Host.gather (pairDims N M R wf) x idx (ix1 i)
      = x (ix2 (⟨min (idx (ix2 i (0 : Fin 2))).toInt.toNat (N - 1), by omega⟩ : Fin N)
               (⟨min (idx (ix2 i (1 : Fin 2))).toInt.toNat (M - 1), by omega⟩ : Fin M)) := by
  unfold Host.gather
  congr 1
  funext a
  refine Fin.ext ?_
  show (pairDims N M R wf).start (ix1 i) idx a + (pairDims N M R wf).batchCoord (ix1 i) a
      + (pairDims N M R wf).offCoord (ix1 i) a = _
  rw [GatherDims.batchCoord_eq_zero _ _ _ List.not_mem_nil]
  match a with
  | ⟨0, _⟩ =>
    rw [GatherDims.offCoord_eq_zero _ _ _ (fun h => ((GatherDims.mem_sKept _ _).mp h).1 (List.mem_cons.mpr (Or.inl rfl)))]
    simp only [Nat.add_zero]
    unfold GatherDims.start
    rw [dif_pos (show (⟨0, by decide⟩ : Fin 2) ∈ (pairDims N M R wf).startIndexMap from (List.mem_cons.mpr (Or.inl rfl)))]
    have hsi : (pairDims N M R wf).siIdx (ix1 i) ⟨List.idxOf (⟨0, by decide⟩ : Fin 2) (pairDims N M R wf).startIndexMap,
        List.idxOf_lt_length_iff.2 (List.mem_cons.mpr (Or.inl rfl))⟩ = ix2 i (0 : Fin 2) := by
      funext b; refine Fin.ext ?_
      match b with
      | ⟨0, _⟩ => rfl
      | ⟨1, _⟩ => rfl
    rw [hsi]
    rfl
  | ⟨1, _⟩ =>
    rw [GatherDims.offCoord_eq_zero _ _ _ (fun h => ((GatherDims.mem_sKept _ _).mp h).1 (List.mem_cons.mpr (Or.inr (List.mem_cons.mpr (Or.inl rfl)))))]
    simp only [Nat.add_zero]
    unfold GatherDims.start
    rw [dif_pos (show (⟨1, by decide⟩ : Fin 2) ∈ (pairDims N M R wf).startIndexMap from (List.mem_cons.mpr (Or.inr (List.mem_cons.mpr (Or.inl rfl)))))]
    have hsi : (pairDims N M R wf).siIdx (ix1 i) ⟨List.idxOf (⟨1, by decide⟩ : Fin 2) (pairDims N M R wf).startIndexMap,
        List.idxOf_lt_length_iff.2 (List.mem_cons.mpr (Or.inr (List.mem_cons.mpr (Or.inl rfl))))⟩ = ix2 i (1 : Fin 2) := by
      funext b; refine Fin.ext ?_
      match b with
      | ⟨0, _⟩ => rfl
      | ⟨1, _⟩ => rfl
    rw [hsi]
    rfl

end Gather

/-! ## Two pieces joined along an axis, read at coordinates -/

section Concat
variable {α : Type}

/-- Two blocks of 4096 rows stacked: a row below 4096 is the first block's, another the second's,
    4096 rows up. -/
theorem concat_rows_apply (x0 x1 : (⟨2, ![4096, 256]⟩ : Shape).Idx → α)
    (h : Shape.Concatenates [⟨2, ![4096, 256]⟩, ⟨2, ![4096, 256]⟩] ⟨2, ![8192, 256]⟩ 0)
    (r : Fin 8192) (d : Fin 256) :
    concatenate ⟨2, ![8192, 256]⟩ 0 [⟨⟨2, ![4096, 256]⟩, x0⟩, ⟨⟨2, ![4096, 256]⟩, x1⟩] h (ix2 r d)
      = if hr : r.val < 4096 then x0 (ix2 (⟨r.val, hr⟩ : Fin 4096) d)
        else x1 (ix2 (⟨r.val - 4096, by omega⟩ : Fin 4096) d) := by
  split
  · next hr =>
    exact concatenate_pair_apply_left 0 x0 x1 h (ix2 r d) rfl (ix2 (⟨r.val, hr⟩ : Fin 4096) d)
      (fun b => match b with | ⟨0, _⟩ => rfl | ⟨1, _⟩ => rfl)
  · next hr =>
    exact concatenate_pair_apply_right 0 x0 x1 h (ix2 r d) rfl rfl (ix2 (⟨r.val - 4096, by omega⟩ : Fin 4096) d)
      (fun b hb => match b, hb with
        | ⟨0, _⟩, hb => absurd rfl hb
        | ⟨1, _⟩, _ => rfl)
      (by show r.val - 4096 + 4096 = r.val; omega)

/-- Two columns laid side by side: column 0 is the first. -/
theorem concat_cols_apply_zero (a b : (⟨2, ![4096, 1]⟩ : Shape).Idx → α)
    (h : Shape.Concatenates [⟨2, ![4096, 1]⟩, ⟨2, ![4096, 1]⟩] ⟨2, ![4096, 2]⟩ 1) (i : Fin 4096) :
    concatenate ⟨2, ![4096, 2]⟩ 1 [⟨⟨2, ![4096, 1]⟩, a⟩, ⟨⟨2, ![4096, 1]⟩, b⟩] h (ix2 i (0 : Fin 2))
      = a (ix2 i (0 : Fin 1)) :=
  concatenate_pair_apply_left 1 a b h (ix2 i (0 : Fin 2)) rfl (ix2 i (0 : Fin 1))
    (fun c => match c with | ⟨0, _⟩ => rfl | ⟨1, _⟩ => rfl)

/-- Two columns laid side by side: column 1 is the second. -/
theorem concat_cols_apply_one (a b : (⟨2, ![4096, 1]⟩ : Shape).Idx → α)
    (h : Shape.Concatenates [⟨2, ![4096, 1]⟩, ⟨2, ![4096, 1]⟩] ⟨2, ![4096, 2]⟩ 1) (i : Fin 4096) :
    concatenate ⟨2, ![4096, 2]⟩ 1 [⟨⟨2, ![4096, 1]⟩, a⟩, ⟨⟨2, ![4096, 1]⟩, b⟩] h (ix2 i (1 : Fin 2))
      = b (ix2 i (0 : Fin 1)) :=
  concatenate_pair_apply_right 1 a b h (ix2 i (1 : Fin 2)) rfl rfl (ix2 i (0 : Fin 1))
    (fun c hc => match c, hc with
      | ⟨0, _⟩, _ => rfl
      | ⟨1, _⟩, hc => absurd rfl hc)
    rfl

/-- Two vectors of 4096 entries laid end to end. -/
theorem concat_halves_apply (a b : (⟨1, ![4096]⟩ : Shape).Idx → α)
    (h : Shape.Concatenates [⟨1, ![4096]⟩, ⟨1, ![4096]⟩] ⟨1, ![8192]⟩ 0) (r : Fin 8192) :
    concatenate ⟨1, ![8192]⟩ 0 [⟨⟨1, ![4096]⟩, a⟩, ⟨⟨1, ![4096]⟩, b⟩] h (ix1 r)
      = if hr : r.val < 4096 then a (ix1 (⟨r.val, hr⟩ : Fin 4096))
        else b (ix1 (⟨r.val - 4096, by omega⟩ : Fin 4096)) := by
  split
  · next hr =>
    exact concatenate_pair_apply_left 0 a b h (ix1 r) rfl (ix1 (⟨r.val, hr⟩ : Fin 4096))
      (fun c => match c with | ⟨0, _⟩ => rfl)
  · next hr =>
    exact concatenate_pair_apply_right 0 a b h (ix1 r) rfl rfl (ix1 (⟨r.val - 4096, by omega⟩ : Fin 4096))
      (fun c hc => match c, hc with
        | ⟨0, _⟩, hc => absurd rfl hc)
      (by show r.val - 4096 + 4096 = r.val; omega)

end Concat

/-! ## The start indices' 32-bit arithmetic -/

section Words

/-- A number below 2^31 reads back from its 32-bit word, read signed. -/
theorem toInt_ofNat_small (m : Nat) (h : m < 2147483648) : (BitVec.ofNat 32 m).toInt = (m : Int) := by
  rw [BitVec.toInt_eq_toNat_cond, BitVec.toNat_ofNat]
  have hm : m % 2 ^ 32 = m := Nat.mod_eq_of_lt (by omega)
  rw [hm, if_pos (by omega)]

/-- Adding 4096 to a row number's word is the word of the sum. -/
theorem ofNat_add_4096 (n : Nat) : IntOp.addi (BitVec.ofNat 32 n) 4096#32 = BitVec.ofNat 32 (n + 4096) := by
  show BitVec.ofNat 32 n + BitVec.ofNat 32 4096 = _
  rw [← BitVec.ofNat_add]

/-- A number below 2^31 is not negative as a signed word, so the select that would wrap a negative
    index by the extent keeps the index. -/
theorem select_wrap_small (m : Nat) (h : m < 2147483648) (y : BitVec 32) :
    Scalar.select (IntOp.cmpi .slt (BitVec.ofNat 32 m) 0#32) y (BitVec.ofNat 32 m) = BitVec.ofNat 32 m := by
  have hlt : (BitVec.ofNat 32 m).slt 0#32 = false := by
    have h0 : (0#32 : BitVec 32).toInt = 0 := by decide
    rw [BitVec.slt, toInt_ofNat_small m h, h0]
    exact decide_eq_false (by omega)
  show Scalar.select (BitVec.ofBool ((BitVec.ofNat 32 m).slt 0#32)) y _ = _
  rw [hlt]
  exact select_zero _ _

/-- A start index below the extent is what the gather reads: signed, it is itself; the clamp keeps it. -/
theorem clamp_small (m : Nat) (h : m < 8192) : min (BitVec.ofNat 32 m).toInt.toNat (8192 - 1) = m := by
  rw [toInt_ofNat_small m (by omega), Int.toNat_natCast]
  omega

/-- The diagonal test: for row and column numbers below 8192 the words `r + 0` and `c` are equal exactly
    when the numbers are. -/
theorem cmpi_eq_small (r c : Nat) (hr : r < 8192) (hc : c < 8192) :
    IntOp.cmpi .eq (IntOp.addi (BitVec.ofNat 32 r) 0#32) (BitVec.ofNat 32 c) = if r = c then 1#1 else 0#1 := by
  show BitVec.ofBool (BitVec.ofNat 32 r + 0#32 == BitVec.ofNat 32 c) = _
  rw [BitVec.add_zero]
  by_cases hrc : r = c
  · subst hrc; simp
  · rw [if_neg hrc]
    have hne : BitVec.ofNat 32 r ≠ BitVec.ofNat 32 c := by
      intro he
      have := congrArg BitVec.toNat he
      rw [BitVec.toNat_ofNat, BitVec.toNat_ofNat, Nat.mod_eq_of_lt (by omega), Nat.mod_eq_of_lt (by omega)] at this
      exact hrc this
    have hb : (BitVec.ofNat 32 r == BitVec.ofNat 32 c) = false := beq_eq_false_iff_ne.mpr hne
    rw [hb]
    rfl

end Words

/-! ## The gather at known start indices, and a sum over a vector's indices -/

section GatherAt
variable {α : Type}

/-- When row `i`'s two start indices are the words of numbers `a` and `b` below 8192, the gather reads the
    matrix at `(a, b)`: neither the signed reading nor the clamp changes them. -/
theorem gather_pair_at
    (wf : GatherDims.WF ⟨2, ![8192, 8192]⟩ ⟨2, ![4096, 2]⟩ ⟨1, ![4096]⟩ [] [0, 1] [] [0, 1] [] 1 ![1, 1])
    (x : (⟨2, ![8192, 8192]⟩ : Shape).Idx → α) (idx : IVec ⟨2, ![4096, 2]⟩ 32) (i : Fin 4096) (a b : Fin 8192)
    (ha : idx (ix2 i (0 : Fin 2)) = BitVec.ofNat 32 a.val)
    (hb : idx (ix2 i (1 : Fin 2)) = BitVec.ofNat 32 b.val) :
    Host.gather (pairDims 8192 8192 4096 wf) x idx (ix1 i) = x (ix2 a b) := by
  rw [gather_pair_apply (by decide) (by decide)]
  refine congrArg x (funext fun c => ?_)
  match c with
  | ⟨0, _⟩ =>
    refine Fin.ext ?_
    show min (idx (ix2 i (0 : Fin 2))).toInt.toNat (8192 - 1) = a.val
    rw [ha]
    exact clamp_small a.val a.isLt
  | ⟨1, _⟩ =>
    refine Fin.ext ?_
    show min (idx (ix2 i (1 : Fin 2))).toInt.toNat (8192 - 1) = b.val
    rw [hb]
    exact clamp_small b.val b.isLt

/-- A vector's index set is its one coordinate's range … -/
def idxEquiv1 {n : Nat} : (⟨1, ![n]⟩ : Shape).Idx ≃ Fin n where
  toFun j := j 0
  invFun a := ix1 a
  left_inv j := (eq_ix1 j).symm
  right_inv _ := rfl

/-- … so a sum over it is the sum over the coordinate. -/
theorem sum_idx1 {M : Type*} [AddCommMonoid M] {n : Nat} (f : (⟨1, ![n]⟩ : Shape).Idx → M) :
    ∑ j, f j = ∑ a : Fin n, f (ix1 a) := by
  rw [← Equiv.sum_comp (idxEquiv1 (n := n)).symm f]
  rfl

end GatherAt

/-! ## Literals and the two corollaries -/

section Literals

/-- The literal 1. -/
theorem ofBits_one_f32 : Ideal.ofBits .f32 0x3F800000#32 = 1 := by
  simp [Ideal.ofBits, Ideal.ieee, -EReal.coe_mul]; norm_num

/-- The literal 1/2. -/
theorem ofBits_half_f32 : Ideal.ofBits .f32 0x3F000000#32 = ((1 / 2 : ℝ) : EReal) := by
  simp [Ideal.ofBits, Ideal.ieee, -EReal.coe_mul]; norm_num

/-- The literal 2. -/
theorem ofBits_two_f32 : Ideal.ofBits .f32 0x40000000#32 = ((2 : ℝ) : EReal) := by
  simp [Ideal.ofBits, Ideal.ieee, -EReal.coe_mul]; norm_num

/-- Dividing by the literal 1/2 is multiplying by the literal 2, at the infinities too. -/
theorem div_half_eq_mul_two (x : EReal) :
    Ideal.div x (Ideal.ofBits .f32 0x3F000000#32) = x * Ideal.ofBits .f32 0x40000000#32 := by
  rw [ofBits_half_f32, ofBits_two_f32, Ideal.div_coe (by norm_num) x]
  norm_num

/-- An unsigned word read as an extended real is its number. -/
theorem uitofp_ideal {w : Nat} (φ : FTy) (b : BitVec w) :
    FloatOps.uitofp (F := Ideal) φ b = ((b.toNat : ℝ) : EReal) := rfl

/-- The mask `1 - [r = c]` times `e`: nothing on the diagonal, `e` off it, for every extended real `e`. -/
theorem mask_mul (p : Prop) [Decidable p] (e : EReal) :
    (Ideal.ofBits .f32 0x3F800000#32 - FloatOps.uitofp (F := Ideal) .f32 (if p then 1#1 else 0#1)) * e
      = if p then 0 else e := by
  rw [ofBits_one_f32, uitofp_ideal]
  by_cases hp : p
  · rw [if_pos hp, if_pos hp]
    have : ((((1#1 : BitVec 1).toNat : ℝ)) : EReal) = 1 := by norm_num
    have h11 : (1 : EReal) - 1 = 0 := by
      rw [← EReal.coe_one, ← EReal.coe_sub, sub_self, EReal.coe_zero]
    rw [this, h11, zero_mul]
  · rw [if_neg hp, if_neg hp]
    have : ((((0#1 : BitVec 1).toNat : ℝ)) : EReal) = 0 := by norm_num
    rw [this, sub_zero, one_mul]

end Literals

end Cert.Proof.RefValue

end
-- ==== Proof.RefValueSim.lean ====
/-
  The reference's stages up to the similarity matrix, read at coordinates.

  The stacked array at (r, d) is Z; the clamped row length at r is max (sqrt (sum_d Z(r,d)^2)) eps; the
  quotient at (r, d) is the unit row; and the product of the unit rows with their transpose at (r, c)
  is the inner product of unit rows r and c.
-/
import proofs.«104923_j4312147165445_2_alg».proof.Proof.ReadP
import proofs.«104923_j4312147165445_2_alg».proof.Proof.Spec
import proofs.«104923_j4312147165445_2_alg».proof.Proof.RefValueIdx

noncomputable section

open scoped BigOperators

namespace Cert.Proof.RefValue

open Idealize.ShloMosaic Idealize.ShloMosaic.ValueIdx Cert.ReferenceIdeal Cert.ReferenceIdeal.Gen
  Cert.ReferenceIdeal.Read

/-- An argument array at the ideal instance: 4096 rows of 256 extended reals. -/
abbrev A : Type := (⟨S4096x256, .f32⟩ : BufTy).Contents (Elt Ideal)

/-- The two arrays stacked, at (r, d). -/
theorem v0_at (x0 x1 : A) (r : Fin 8192) (d : Fin 256) :
    val_main_v0 (F := Ideal) x0 x1 (ix2 r d) = Cert.Spec.Z x0 x1 r d := by
  unfold val_main_v0 Cert.Spec.Z
  exact concat_rows_apply x0 x1 _ r d

/-- The sum of squares of row r. -/
theorem sumsq_at (x0 x1 : A) (r : Fin 8192) :
    val_main_call0_v1 (F := Ideal) x0 x1 (ix1 r)
      = ∑ d : Fin 256, Cert.Spec.Z x0 x1 r d * Cert.Spec.Z x0 x1 r d := by
  rw [val_main_call0_v1_apply, val_main_call0_cst_apply]
  have e2 : ∀ k : Fin 256, idx_main_call0_v1 (ix1 r) k = ix2 r k := fun k => by
    funext a; match a with | ⟨0, _⟩ => rfl | ⟨1, _⟩ => rfl
  simp only [e2, val_main_call0_v0_apply, v0_at, Ideal.ofBits_def, Ideal.mulf_def, Ideal.ofBits_zero_f32,
    zero_add]

/-- The clamped length of row r. -/
theorem len_at (x0 x1 : A) (r : Fin 8192) :
    val_main_v3 (F := Ideal) x0 x1 (ix2 r (0 : Fin 1)) = Cert.Spec.len (Cert.Spec.Z x0 x1) r := by
  rw [val_main_v3_apply, val_main_v1_apply, val_main_call0_v2_apply, val_main_v2_apply, val_main_cst_apply]
  have e1 : idx_main_call0_v2 (ix2 r (0 : Fin 1)) = ix1 r := by
    funext a; match a with | ⟨0, _⟩ => rfl
  rw [e1, sumsq_at]
  rfl

/-- The unit row r at d. -/
theorem zn_at (x0 x1 : A) (r : Fin 8192) (d : Fin 256) :
    val_main_v5 (F := Ideal) x0 x1 (ix2 r d) = Cert.Spec.zn (Cert.Spec.Z x0 x1) r d := by
  rw [val_main_v5_apply, val_main_v4_apply, v0_at]
  have e : idx_main_v4 (ix2 r d) = ix2 r (0 : Fin 1) := by
    funext a; match a with | ⟨0, _⟩ => rfl | ⟨1, _⟩ => rfl
  rw [e, len_at]
  rfl

/-- The similarity matrix at (r, c). -/
theorem sim_at (x0 x1 : A) (r c : Fin 8192) :
    val_main_v7 (F := Ideal) x0 x1 (ix2 r c) = Cert.Spec.sim (Cert.Spec.Z x0 x1) r c := by
  rw [val_main_v7_apply]
  unfold Cert.Spec.sim
  refine Finset.sum_congr rfl fun k _ => ?_
  have el : lidx_main_v7 (ix2 r c) k = ix2 r k := by
    funext a; match a with | ⟨0, _⟩ => rfl | ⟨1, _⟩ => rfl
  have er : ridx_main_v7 (ix2 r c) k = ix2 k c := by
    funext a; match a with | ⟨0, _⟩ => rfl | ⟨1, _⟩ => rfl
  have et : idx_main_v6 (ix2 k c) = ix2 c k := by
    funext a; match a with | ⟨0, _⟩ => rfl | ⟨1, _⟩ => rfl
  rw [el, er, val_main_v6_apply, et, zn_at, zn_at]

/-- The inner product of unit rows does not depend on the order of the two rows. -/
theorem sim_comm (X : Fin 8192 → Fin 256 → EReal) (r c : Fin 8192) :
    Cert.Spec.sim X r c = Cert.Spec.sim X c r := by
  unfold Cert.Spec.sim
  exact Finset.sum_congr rfl fun d _ => mul_comm _ _

end Cert.Proof.RefValue

end
-- ==== Proof.RefValueDen.lean ====
/-
  The reference's denominator, read at a row.

  The exponential of the similarity divided by the literal 1/2 is exp (2 sim); the mask is 1 less the
  diagonal indicator, so mask times exponential at (r, c) is the weight of column c in row r: nothing on
  the diagonal, exp (2 sim) off it; and the row sum, from an initial 0, is the denominator.
-/
import proofs.«104923_j4312147165445_2_alg».proof.Proof.RefValueSim

noncomputable section

open scoped BigOperators

namespace Cert.Proof.RefValue

open Idealize.ShloMosaic Idealize.ShloMosaic.ValueIdx Cert.ReferenceIdeal Cert.ReferenceIdeal.Gen
  Cert.ReferenceIdeal.Read

/-- exp (sim / (1/2)) at (r, c) is exp (2 sim (r, c)). -/
theorem expsim_at (x0 x1 : A) (r c : Fin 8192) :
    val_main_v44 (F := Ideal) x0 x1 (ix2 r c)
      = Ideal.exp (Cert.Spec.sim (Cert.Spec.Z x0 x1) r c * Cert.Spec.two) := by
  rw [val_main_v44_apply, val_main_v43_apply, val_main_v42_apply, val_main_cst_9_apply, sim_at]
  rw [Ideal.hostUnary_exp_def, Ideal.hostDivf_def, Ideal.ofBits_def, div_half_eq_mul_two]

/-- The mask 1 - [r = c] at (r, c), as the subtraction the program performs. -/
theorem mask_at (r c : Fin 8192) :
    val_main_v52 (F := Ideal) (ix2 r c)
      = Ideal.ofBits .f32 0x3F800000#32
        - FloatOps.uitofp (F := Ideal) .f32 (if r.val = c.val then 1#1 else 0#1) := by
  rw [val_main_v52_apply, val_main_v51_apply, val_main_cst_11_apply, val_main_v50_apply, val_main_v49_apply,
    val_main_v48_apply, val_main_v45_apply, val_main_v46_apply, val_main_v47_apply, val_main_c_10_apply]
  show FloatOps.subf (F := Ideal) (FloatOps.ofBits .f32 0x3F800000#32)
      (FloatOps.uitofp .f32 (IntOp.cmpi .eq (IntOp.addi (BitVec.ofNat 32 r.val) 0#32) (BitVec.ofNat 32 c.val))) = _
  rw [cmpi_eq_small r.val c.val r.isLt c.isLt]
  rfl

/-- Mask times exponential at (r, c) is the weight of column c in row r's denominator. -/
theorem wgt_at (x0 x1 : A) (r c : Fin 8192) :
    val_main_v53 (F := Ideal) x0 x1 (ix2 r c) = Cert.Spec.wgt (Cert.Spec.Z x0 x1) r c := by
  rw [val_main_v53_apply, mask_at, expsim_at, Ideal.mulf_def, mask_mul]
  rfl

/-- The row sum at r is row r's denominator. -/
theorem den_at (x0 x1 : A) (r : Fin 8192) :
    val_main_v54 (F := Ideal) x0 x1 (ix1 r) = Cert.Spec.den (Cert.Spec.Z x0 x1) r := by
  rw [val_main_v54_apply, val_main_cst_12_apply]
  have e : ∀ k : Fin 8192, idx_main_v54 (ix1 r) k = ix2 r k := fun k => by
    funext a; match a with | ⟨0, _⟩ => rfl | ⟨1, _⟩ => rfl
  simp only [e, wgt_at, Ideal.ofBits_def, Ideal.ofBits_zero_f32, zero_add]
  rfl

end Cert.Proof.RefValue

end
-- ==== Proof.RefValuePos.lean ====
/-
  The reference's positives, read at a row.

  The start indices of the two gathers are computed on 32-bit words from the row number i below 4096:
  i itself and i + 4096, each passed through a select that would add the extent to a negative index and
  never does.  So the first gather reads the similarity matrix at (i, i + 4096) and the second at
  (i + 4096, i), which is the same number because the inner product of two rows is symmetric.  Laid end
  to end they are, at row r, the similarity of r and the row 4096 away, written with the row of the first
  half first; divided by the literal 1/2 that is twice the similarity.
-/
import proofs.«104923_j4312147165445_2_alg».proof.Proof.RefValueSim

noncomputable section

open scoped BigOperators

namespace Cert.Proof.RefValue

open Idealize.ShloMosaic Idealize.ShloMosaic.ValueIdx Cert.ReferenceIdeal Cert.ReferenceIdeal.Gen
  Cert.ReferenceIdeal.Read

/-- The row number's word. -/
theorem v8_at (i : Fin 4096) : val_main_v8 (F := Ideal) (ix1 i) = BitVec.ofNat 32 i.val := by
  rw [val_main_v8_apply]

/-- The column start of the first gather before the wrap select: i + 4096. -/
theorem v10_at (i : Fin 4096) : val_main_v10 (F := Ideal) (ix1 i) = BitVec.ofNat 32 (i.val + 4096) := by
  rw [val_main_v10_apply, v8_at, val_main_v9_apply, val_main_c_apply]
  exact ofNat_add_4096 i.val

/-- The row start of the first gather: i (the wrap select keeps it). -/
theorem v15_at (i : Fin 4096) : val_main_v15 (F := Ideal) (ix1 i) = BitVec.ofNat 32 i.val := by
  rw [val_main_v15_apply, val_main_v12_apply, v8_at, val_main_v11_apply, val_main_c_0_apply]
  exact select_wrap_small i.val (by have := i.isLt; omega) _

/-- The column start of the first gather: i + 4096 (the wrap select keeps it). -/
theorem v20_at (i : Fin 4096) : val_main_v20 (F := Ideal) (ix1 i) = BitVec.ofNat 32 (i.val + 4096) := by
  rw [val_main_v20_apply, val_main_v17_apply, v10_at, val_main_v16_apply, val_main_c_2_apply]
  exact select_wrap_small (i.val + 4096) (by have := i.isLt; omega) _

/-- The row start of the second gather before the wrap select: i + 4096. -/
theorem v26_at (i : Fin 4096) : val_main_v26 (F := Ideal) (ix1 i) = BitVec.ofNat 32 (i.val + 4096) := by
  rw [val_main_v26_apply, v8_at, val_main_v25_apply, val_main_c_4_apply]
  exact ofNat_add_4096 i.val

/-- The row start of the second gather: i + 4096. -/
theorem v31_at (i : Fin 4096) : val_main_v31 (F := Ideal) (ix1 i) = BitVec.ofNat 32 (i.val + 4096) := by
  rw [val_main_v31_apply, val_main_v28_apply, v26_at, val_main_v27_apply, val_main_c_5_apply]
  exact select_wrap_small (i.val + 4096) (by have := i.isLt; omega) _

/-- The column start of the second gather: i. -/
theorem v36_at (i : Fin 4096) : val_main_v36 (F := Ideal) (ix1 i) = BitVec.ofNat 32 i.val := by
  rw [val_main_v36_apply, val_main_v33_apply, v8_at, val_main_v32_apply, val_main_c_7_apply]
  exact select_wrap_small i.val (by have := i.isLt; omega) _

/-- The first gather's start indices at row i: (i, i + 4096). -/
theorem v23_at_zero (i : Fin 4096) :
    val_main_v23 (F := Ideal) (ix2 i (0 : Fin 2)) = BitVec.ofNat 32 i.val := by
  unfold val_main_v23
  refine (concat_cols_apply_zero _ _ _ i).trans ?_
  rw [val_main_v21_apply]
  have e : idx_main_v21 (ix2 i (0 : Fin 1)) = ix1 i := by
    funext a; match a with | ⟨0, _⟩ => rfl
  rw [e, v15_at]

theorem v23_at_one (i : Fin 4096) :
    val_main_v23 (F := Ideal) (ix2 i (1 : Fin 2)) = BitVec.ofNat 32 (i.val + 4096) := by
  unfold val_main_v23
  refine (concat_cols_apply_one _ _ _ i).trans ?_
  rw [val_main_v22_apply]
  have e : idx_main_v22 (ix2 i (0 : Fin 1)) = ix1 i := by
    funext a; match a with | ⟨0, _⟩ => rfl
  rw [e, v20_at]

/-- The second gather's start indices at row i: (i + 4096, i). -/
theorem v39_at_zero (i : Fin 4096) :
    val_main_v39 (F := Ideal) (ix2 i (0 : Fin 2)) = BitVec.ofNat 32 (i.val + 4096) := by
  unfold val_main_v39
  refine (concat_cols_apply_zero _ _ _ i).trans ?_
  rw [val_main_v37_apply]
  have e : idx_main_v37 (ix2 i (0 : Fin 1)) = ix1 i := by
    funext a; match a with | ⟨0, _⟩ => rfl
  rw [e, v31_at]

theorem v39_at_one (i : Fin 4096) :
    val_main_v39 (F := Ideal) (ix2 i (1 : Fin 2)) = BitVec.ofNat 32 i.val := by
  unfold val_main_v39
  refine (concat_cols_apply_one _ _ _ i).trans ?_
  rw [val_main_v38_apply]
  have e : idx_main_v38 (ix2 i (0 : Fin 1)) = ix1 i := by
    funext a; match a with | ⟨0, _⟩ => rfl
  rw [e, v36_at]

/-- The first gather at row i: the similarity of rows i and i + 4096. -/
theorem v24_at (x0 x1 : A) (i : Fin 4096) :
    val_main_v24 (F := Ideal) x0 x1 (ix1 i)
      = Cert.Spec.sim (Cert.Spec.Z x0 x1) (⟨i.val, by omega⟩ : Fin 8192) (⟨i.val + 4096, by omega⟩ : Fin 8192) := by
  unfold val_main_v24
  refine (gather_pair_at _ _ _ i (⟨i.val, by omega⟩ : Fin 8192) (⟨i.val + 4096, by omega⟩ : Fin 8192)
    (v23_at_zero i) (v23_at_one i)).trans ?_
  exact sim_at x0 x1 _ _

/-- The second gather at row i: the same similarity, by symmetry. -/
theorem v40_at (x0 x1 : A) (i : Fin 4096) :
    val_main_v40 (F := Ideal) x0 x1 (ix1 i)
      = Cert.Spec.sim (Cert.Spec.Z x0 x1) (⟨i.val, by omega⟩ : Fin 8192) (⟨i.val + 4096, by omega⟩ : Fin 8192) := by
  unfold val_main_v40
  refine (gather_pair_at _ _ _ i (⟨i.val + 4096, by omega⟩ : Fin 8192) (⟨i.val, by omega⟩ : Fin 8192)
    (v39_at_zero i) (v39_at_one i)).trans ?_
  rw [sim_at]
  exact sim_comm _ _ _

/-- The positives at row r. -/
theorem pos_at (x0 x1 : A) (r : Fin 8192) :
    val_main_v41 (F := Ideal) x0 x1 (ix1 r) = Cert.Spec.pos (Cert.Spec.Z x0 x1) r := by
  unfold val_main_v41 Cert.Spec.pos
  refine (concat_halves_apply _ _ _ r).trans ?_
  by_cases hr : r.val < 4096
  · rw [dif_pos hr, dif_pos hr]
    exact v24_at x0 x1 ⟨r.val, hr⟩
  · rw [dif_neg hr, dif_neg hr]
    refine (v40_at x0 x1 ⟨r.val - 4096, by omega⟩).trans ?_
    refine congrArg (Cert.Spec.sim (Cert.Spec.Z x0 x1) _) (Fin.ext ?_)
    show r.val - 4096 + 4096 = r.val
    omega

/-- The positives divided by the literal 1/2: twice the positives. -/
theorem posdiv_at (x0 x1 : A) (r : Fin 8192) :
    val_main_v56 (F := Ideal) x0 x1 (ix1 r) = Cert.Spec.pos (Cert.Spec.Z x0 x1) r * Cert.Spec.two := by
  rw [val_main_v56_apply, val_main_v55_apply, val_main_cst_13_apply, pos_at, Ideal.hostDivf_def, Ideal.ofBits_def,
    div_half_eq_mul_two]

end Cert.Proof.RefValue

end
-- ==== Proof.RefValue.lean ====
/-
  The reference's result is the common value G of the two argument arrays.

  Row r's loss is the negated difference of twice its positive and the logarithm of its denominator; the
  sum of the losses, from an initial 0, divided by the literal 8192 is the mean loss.
-/
import proofs.«104923_j4312147165445_2_alg».proof.Proof.RefValueDen
import proofs.«104923_j4312147165445_2_alg».proof.Proof.RefValuePos

noncomputable section

open scoped BigOperators

namespace Cert.Proof.RefValue

open Idealize.ShloMosaic Idealize.ShloMosaic.ValueIdx Cert.ReferenceIdeal Cert.ReferenceIdeal.Gen
  Cert.ReferenceIdeal.Read

/-- Row r's loss. -/
theorem loss_at (x0 x1 : A) (r : Fin 8192) :
    val_main_v59 (F := Ideal) x0 x1 (ix1 r) = Cert.Spec.loss (Cert.Spec.Z x0 x1) r := by
  rw [val_main_v59_apply, val_main_v58_apply, val_main_v57_apply, posdiv_at, den_at]
  rfl

/-- The reference's result, as a function of the two argument arrays, is G at every (the one) index. -/
theorem ref_eq (x0 x1 : (⟨Cert.ReferenceIdeal.S4096x256, .f32⟩ : BufTy).Contents (Elt Ideal)) :
    Cert.ReferenceIdeal.Read.val_main_v61 (F := Ideal) x0 x1 = fun _ => Cert.Spec.G x0 x1 := by
  funext i
  rw [val_main_v61_apply, val_main_v60_apply, val_main_cst_14_apply, val_main_cst_15_apply, sum_idx1]
  simp only [loss_at, Ideal.ofBits_def, Ideal.ofBits_zero_f32, zero_add, Ideal.hostDivf_def]
  rfl

end Cert.Proof.RefValue

end
-- ==== Proof.RefRun.lean ====
/-
  The reference program's result: every weakly fair execution ends with the result buffer at the
  specification's mean loss of the two arguments, and the arguments unchanged.  The run is the
  fold of the host operations; read one operation at a time it is the specification.
-/
import proofs.«104923_j4312147165445_2_alg».proof.Proof.RefFold
import proofs.«104923_j4312147165445_2_alg».proof.Proof.RefValue

noncomputable section

namespace Cert.Proof.Reference

open Idealize.ShloMosaic Idealize.ShloMosaic.TcCoe Idealize.SL.Sem
open Cert.ReferenceIdeal

theorem ref_value (m : (ℓ : Loc nD τ sig) → Buf (Elt Ideal) ℓ) (ρ : Dev nD → PrngReg) :
    θ_run (Cert.ReferenceIdeal.defs (F := Ideal)) (onTc (τ := τ) (main (F := Ideal))) ⟨m, fun _ => 0, ρ⟩ (fun r => ∀ c : Dev nD,
      r.2.mem ((c.tc : Thread nD τ).loc main_v61)
        = (fun _ => Cert.Spec.G (m ((c.tc : Thread nD τ).loc main_arg0)) (m ((c.tc : Thread nD τ).loc main_arg1)))
      ∧ r.2.mem ((c.tc : Thread nD τ).loc main_arg0) = m ((c.tc : Thread nD τ).loc main_arg0)
      ∧ r.2.mem ((c.tc : Thread nD τ).loc main_arg1) = m ((c.tc : Thread nD τ).loc main_arg1)) :=
  (θ_run (Cert.ReferenceIdeal.defs (F := Ideal)) _ _).mono
    (fun _ h c => ⟨(h c main_v61).trans ((Cert.Proof.RefFold.val_main_v61_after (F := Ideal) _).trans (Cert.Proof.RefValue.ref_eq _ _)),
      (h c main_arg0).trans (Cert.Proof.RefFold.arg0_after (F := Ideal) _),
      (h c main_arg1).trans (Cert.Proof.RefFold.arg1_after (F := Ideal) _)⟩)
    (Cert.ReferenceIdeal.ValueP.run_after (F := Ideal) m ρ)

end Cert.Proof.Reference

end
-- ==== Proof.lean ====
/-
  The certificate of the tiled contrastive-loss kernel against its reference.

  Both programs take two arrays of 4096 rows of 256 numbers, stack them, scale every row to unit
  length (the length clamped below at a tiny positive constant), and return the mean over the 8192
  rows of  -(2 s(r, partner r) - log (sum over c other than r of exp (2 s(r, c)))),  where s is the
  inner product of unit rows and a row's partner is the row 4096 away.  The reference forms the whole
  8192 x 8192 matrix of inner products on the host.  The kernel visits only the 36 tile pairs (p, q),
  p at most q below 8, of 1024 x 1024 tiles: each visited tile adds its row sums to the denominators of
  row block p and, off the diagonal, its column sums to those of row block q — the matrix is symmetric,
  so the column sums of tile (p, q) are the row sums of the unvisited tile (q, p) — and the last point
  takes the logarithm.  Inside a tile the product is taken as three products of a two-term split of each
  factor; over the extended reals a change of float format is the identity, the split's second term is
  x - x = 0 for real x, and the three products are the one product.  This is where the precondition (all
  inputs finite) is used.

  The three frames: the two kernel programs run the pipeline of the pallas_call between host
  operations (body obligation by the four control paths of the body; the launch with one array shared by
  two input windows); the reference is a straight line of host operations.  The ideal pass removed two
  round trips through the narrower format, each its rule's statement.  The value claim: both programs
  end at the specification's mean loss (module Spec).
-/
import proofs.«104923_j4312147165445_2_alg».proof.Defs
import proofs.«104923_j4312147165445_2_alg».proof.Proof.Gen.Kernel
import proofs.«104923_j4312147165445_2_alg».proof.Proof.Gen.KernelIdeal
import proofs.«104923_j4312147165445_2_alg».proof.Proof.Gen.ReferenceIdeal
import proofs.«104923_j4312147165445_2_alg».proof.Proof.Gen.Pre_finite_inputs
import proofs.«104923_j4312147165445_2_alg».proof.Proof.KKernelPost
import proofs.«104923_j4312147165445_2_alg».proof.Proof.KernelValue
import proofs.«104923_j4312147165445_2_alg».proof.Proof.RefFrame
import proofs.«104923_j4312147165445_2_alg».proof.Proof.RefRun
import Idealize.ShloMosaic.Adequacy
import Idealize.ShloMosaic.Init

noncomputable section

namespace Cert.Proof

open Idealize.ShloMosaic Idealize.SL.Sem

attribute [local instance] Cert.Kernel.Gen.facts Cert.KernelIdeal.Gen.facts Cert.ReferenceIdeal.Gen.facts Cert.Pre_finite_inputs.Gen.facts

/-- The kernel program as printed runs, faults nowhere and leaves its arguments unchanged. -/
theorem frame_k : Cert.frame_Kernel := fun m ρ _ => Cert.Kernel.Hand.frame_main (F := Bits) m ρ

/-- So does its idealization. -/
theorem frame_ki : Cert.frame_KernelIdeal := fun m ρ _ => Cert.KernelIdeal.Hand.frame_main (F := Ideal) m ρ

/-- The two round trips through the narrower format that the ideal pass removed are the identity at the ideal instance
    and each stated by its rule. -/
theorem preserves : Cert.preserves_Kernel_KernelIdeal :=
  ⟨IdealRules.truncf_extf.statement _ .f32 .bf16, IdealRules.truncf_extf.statement _ .f32 .bf16⟩

/-- The idealized kernel and the idealized reference, from memories that agree on the two arguments, both end at the
    specification's mean loss of those arguments. -/
theorem algebraic : Cert.algebraic_KernelIdeal_ReferenceIdeal := by
  intro m ρ m' ρ' hpre hagree
  refine ⟨fun c => (fun _ => Cert.Spec.G (m ((c.tc : Thread Cert.KernelIdeal.nD Cert.KernelIdeal.τ).loc Cert.KernelIdeal.main_arg0))
      (m ((c.tc : Thread Cert.KernelIdeal.nD Cert.KernelIdeal.τ).loc Cert.KernelIdeal.main_arg1))),
    Cert.KernelIdeal.Hand.value_main m ρ hpre, ?_⟩
  refine (θ_run (Cert.ReferenceIdeal.defs (F := Ideal)) _ _).mono (fun _ h c => ⟨(h c).1.trans ?_, (h c).2⟩)
    (Cert.Proof.Reference.ref_value m' ρ')
  rw [(hagree c).1, (hagree c).2]
  rfl

theorem claim : Cert.Claim :=
  ⟨Cert.Kernel.Gen.facts, Cert.KernelIdeal.Gen.facts, Cert.ReferenceIdeal.Gen.facts, Cert.Pre_finite_inputs.Gen.facts,
    frame_k, frame_ki, Cert.Proof.Reference.frame_ri, preserves, algebraic⟩

end Cert.Proof

end
